-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 255#32
  let main_v2 : IVec S4096x50 32 := broadcastInDim S4096x50 ![] bcast_S_S4096x50 main_c_0
  let main_v3 : IVec S4096x50 1 := cmpi .sle main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S128 : Shape := ⟨1, ![128]⟩
abbrev S16 : Shape := ⟨1, ![16]⟩
abbrev S50x4096 : Shape := ⟨2, ![50, 4096]⟩
abbrev S50x4096x256 : Shape := ⟨3, ![50, 4096, 256]⟩
abbrev S50x128 : Shape := ⟨2, ![50, 128]⟩
abbrev S128x256 : Shape := ⟨2, ![128, 256]⟩
abbrev S_ : Shape := ⟨0, ![]⟩
abbrev S1x16 : Shape := ⟨2, ![1, 16]⟩
abbrev S1x128x256 : Shape := ⟨3, ![1, 128, 256]⟩
abbrev S4096x50x256 : Shape := ⟨3, ![4096, 50, 256]⟩

abbrev nBuf : Table → Nat
  | .hbm => 6
  | .local .scVector .vmem => 5
  | _ => 0

abbrev bufTy : (tb : Table) → Fin (nBuf tb) → BufTy
  | .hbm, ⟨0, _⟩ => ⟨S4096x50, .i32⟩
  | .hbm, ⟨1, _⟩ => ⟨S128, .i32⟩
  | .hbm, ⟨2, _⟩ => ⟨S16, .i32⟩
  | .hbm, ⟨3, _⟩ => ⟨S50x4096, .i32⟩
  | .hbm, ⟨4, _⟩ => ⟨S50x4096x256, .i32⟩
  | .hbm, ⟨5, _⟩ => ⟨S4096x50x256, .i32⟩
  | .local .scVector .vmem, ⟨0, _⟩ => ⟨S50x128, .i32⟩
  | .local .scVector .vmem, ⟨1, _⟩ => ⟨S128, .i32⟩
  | .local .scVector .vmem, ⟨2, _⟩ => ⟨S16, .i32⟩
  | .local .scVector .vmem, ⟨3, _⟩ => ⟨S128x256, .i32⟩
  | .local .scVector .vmem, ⟨4, _⟩ => ⟨S128x256, .i32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_c_scv : Ref sig .scVector := ⟨.hbm, 1, rfl⟩
abbrev main_c_0_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_13_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t1_loop : Scf.Loop 32 :=
  let c0_i32_0 : BitVec 32 := 0#32
  let c128_i32_1 : BitVec 32 := 128#32
  let v5 : BitVec 32 := Scalar.addi c0_i32_0 c128_i32_1
  let c1_i32_2 : BitVec 32 := 1#32
  ⟨c0_i32_0, v5, c1_i32_2⟩
def k0_off2 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v17 : Index := Scalar.indexCast v16
  let c0 : Index := 0#32
  ![v17.toNat, 0]
def k0_off3 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v21 : Index := Scalar.indexCast v16
  let c16 : Index := 16#32
  ![v21.toNat, 16]
def k0_off4 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v25 : Index := Scalar.indexCast v16
  let c32 : Index := 32#32
  ![v25.toNat, 32]
def k0_off5 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v29 : Index := Scalar.indexCast v16
  let c48 : Index := 48#32
  ![v29.toNat, 48]
def k0_off6 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v33 : Index := Scalar.indexCast v16
  let c64 : Index := 64#32
  ![v33.toNat, 64]
def k0_off7 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v37 : Index := Scalar.indexCast v16
  let c80 : Index := 80#32
  ![v37.toNat, 80]
def k0_off8 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v41 : Index := Scalar.indexCast v16
  let c96 : Index := 96#32
  ![v41.toNat, 96]
def k0_off9 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v45 : Index := Scalar.indexCast v16
  let c112 : Index := 112#32
  ![v45.toNat, 112]
def k0_off10 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v49 : Index := Scalar.indexCast v16
  let c128 : Index := 128#32
  ![v49.toNat, 128]
def k0_off11 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v53 : Index := Scalar.indexCast v16
  let c144 : Index := 144#32
  ![v53.toNat, 144]
def k0_off12 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v57 : Index := Scalar.indexCast v16
  let c160 : Index := 160#32
  ![v57.toNat, 160]
def k0_off13 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v61 : Index := Scalar.indexCast v16
  let c176 : Index := 176#32
  ![v61.toNat, 176]
def k0_off14 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v65 : Index := Scalar.indexCast v16
  let c192 : Index := 192#32
  ![v65.toNat, 192]
def k0_off15 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v69 : Index := Scalar.indexCast v16
  let c208 : Index := 208#32
  ![v69.toNat, 208]
def k0_off16 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v73 : Index := Scalar.indexCast v16
  let c224 : Index := 224#32
  ![v73.toNat, 224]
def k0_off17 (k0_t1 : Fin k0_t1_loop.trips) : Fin 2 → Nat :=
  let c0_i32_14 : BitVec 32 := 0#32
  let c0_i32_0 : BitVec 32 := 0#32
  let c1_i32_2 : BitVec 32 := 1#32
  let arg13 : BitVec 32 := Scf.iv c0_i32_0 c1_i32_2 k0_t1
  let c1_i32_13 : BitVec 32 := 1#32
  let v15 : BitVec 32 := Scalar.muli arg13 c1_i32_13
  let v16 : BitVec 32 := Scalar.addi c0_i32_14 v15
  let v77 : Index := Scalar.indexCast v16
  let c240 : Index := 240#32
  ![v77.toNat, 240]
@[reducible] def k0_t2_loop : Scf.Loop 32 :=
  let c0_i32_4 : BitVec 32 := 0#32
  let c25_i32 : BitVec 32 := 25#32
  let v6 : BitVec 32 := Scalar.addi c0_i32_4 c25_i32
  let c1_i32_5 : BitVec 32 := 1#32
  ⟨c0_i32_4, v6, c1_i32_5⟩
def k0_cond1 (k0_t2 : Fin k0_t2_loop.trips) : BitVec 1 :=
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let c0_i32_17 : BitVec 32 := 0#32
  let v19 : BitVec 1 := Scalar.cmpi .sgt v16 c0_i32_17
  let v20 : BitVec 32 := Scalar.extui v19
  let c0_i32_18 : BitVec 32 := 0#32
  let v21 : BitVec 1 := Scalar.cmpi .ne v20 c0_i32_18
  v21

def k0_off18 (i : grid0.Coords) (k0_t2 : Fin k0_t2_loop.trips) : Fin 3 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_56 : BitVec 32 := 0#32
  ![v18.toNat, v2.toNat, 0]
def k0_off19 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let c2_i32_58 : BitVec 32 := 2#32
  let v93 : BitVec 32 := Scalar.subi v18 c2_i32_58
  let v95 : Index := Scalar.indexCast v93
  let c0_59 : Index := 0#32
  ![v95.toNat, 0]

def k0_chk1 (k0_t2 : Fin k0_t2_loop.trips) (v94 : IVec S16 32) (v96 : IVec S16 32) : Prop :=
  (∀ (k0_h1 : k0_cond1 k0_t2 = 1#1), ∀ a x, ((![v94, v96] : Fin 2 → IVec S16 32) a x).toNat < S128x256.size a)
instance k0_chk1.dec : ∀ (k0_t2 : Fin k0_t2_loop.trips) (v94 : IVec S16 32) (v96 : IVec S16 32), Decidable (k0_chk1 k0_t2 v94 v96) := fun k0_t2 v94 v96 => decidable_of_iff' _ (Iff.of_eq (k0_chk1.eq_1 k0_t2 v94 v96))
theorem k0_idx1_inb : ∀ (k0_t2 : Fin k0_t2_loop.trips) (v94 : IVec S16 32) (v96 : IVec S16 32) (k0_hw1 : k0_chk1 k0_t2 v94 v96), ∀ (k0_h1 : k0_cond1 k0_t2 = 1#1), ∀ a x, ((![v94, v96] : Fin 2 → IVec S16 32) a x).toNat < S128x256.size a := fun k0_t2 v94 v96 k0_hw1 k0_h1 => k0_hw1 k0_h1
def k0_off20 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let c2_i32_58 : BitVec 32 := 2#32
  let v93 : BitVec 32 := Scalar.subi v18 c2_i32_58
  let v98 : Index := Scalar.indexCast v93
  let c16_61 : Index := 16#32
  ![v98.toNat, 16]

def k0_chk2 (k0_t2 : Fin k0_t2_loop.trips) (v97 : IVec S16 32) (v99 : IVec S16 32) : Prop :=
  (∀ (k0_h1 : k0_cond1 k0_t2 = 1#1), ∀ a x, ((![v97, v99] : Fin 2 → IVec S16 32) a x).toNat < S128x256.size a)
instance k0_chk2.dec : ∀ (k0_t2 : Fin k0_t2_loop.trips) (v97 : IVec S16 32) (v99 : IVec S16 32), Decidable (k0_chk2 k0_t2 v97 v99) := fun k0_t2 v97 v99 => decidable_of_iff' _ (Iff.of_eq (k0_chk2.eq_1 k0_t2 v97 v99))
theorem k0_idx2_inb : ∀ (k0_t2 : Fin k0_t2_loop.trips) (v97 : IVec S16 32) (v99 : IVec S16 32) (k0_hw2 : k0_chk2 k0_t2 v97 v99), ∀ (k0_h1 : k0_cond1 k0_t2 = 1#1), ∀ a x, ((![v97, v99] : Fin 2 → IVec S16 32) a x).toNat < S128x256.size a := fun k0_t2 v97 v99 k0_hw2 k0_h1 => k0_hw2 k0_h1
def k0_off21 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let c2_i32_58 : BitVec 32 := 2#32
  let v93 : BitVec 32 := Scalar.subi v18 c2_i32_58
  let v101 : Index := Scalar.indexCast v93
  let c32_63 : Index := 32#32
  ![v101.toNat, 32]

def k0_chk3 (k0_t2 : Fin k0_t2_loop.trips) (v100 : IVec S16 32) (v102 : IVec S16 32) : Prop :=
  (∀ (k0_h1 : k0_cond1 k0_t2 = 1#1), ∀ a x, ((![v100, v102] : Fin 2 → IVec S16 32) a x).toNat < S128x256.size a)
instance k0_chk3.dec : ∀ (k0_t2 : Fin k0_t2_loop.trips) (v100 : IVec S16 32) (v102 : IVec S16 32), Decidable (k0_chk3 k0_t2 v100 v102) := fun k0_t2 v100 v102 => decidable_of_iff' _ (Iff.of_eq (k0_chk3.eq_1 k0_t2 v100 v102))
theorem k0_idx3_inb : ∀ (k0_t2 : Fin k0_t2_loop.trips) (v100 : IVec S16 32) (v102 : IVec S16 32) (k0_hw3 : k0_chk3 k0_t2 v100 v102), ∀ (k0_h1 : k0_cond1 k0_t2 = 1#1), ∀ a x, ((![v100, v102] : Fin 2 → IVec S16 32) a x).toNat < S128x256.size a := fun k0_t2 v100 v102 k0_hw3 k0_h1 => k0_hw3 k0_h1
def k0_off22 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let c2_i32_58 : BitVec 32 := 2#32
  let v93 : BitVec 32 := Scalar.subi v18 c2_i32_58
  let v104 : Index := Scalar.indexCast v93
  let c48_65 : Index := 48#32
  ![v104.toNat, 48]

def k0_chk4 (k0_t2 : Fin k0_t2_loop.trips) (v103 : IVec S16 32) (v105 : IVec S16 32) : Prop :=
  (∀ (k0_h1 : k0_cond1 k0_t2 = 1#1), ∀ a x, ((![v103, v105] : Fin 2 → IVec S16 32) a x).toNat < S128x256.size a)
instance k0_chk4.dec : ∀ (k0_t2 : Fin k0_t2_loop.trips) (v103 : IVec S16 32) (v105 : IVec S16 32), Decidable (k0_chk4 k0_t2 v103 v105) := fun k0_t2 v103 v105 => decidable_of_iff' _ (Iff.of_eq (k0_chk4.eq_1 k0_t2 v103 v105))
theorem k0_idx4_inb : ∀ (k0_t2 : Fin k0_t2_loop.trips) (v103 : IVec S16 32) (v105 : IVec S16 32) (k0_hw4 : k0_chk4 k0_t2 v103 v105), ∀ (k0_h1 : k0_cond1 k0_t2 = 1#1), ∀ a x, ((![v103, v105] : Fin 2 → IVec S16 32) a x).toNat < S128x256.size a := fun k0_t2 v103 v105 k0_hw4 k0_h1 => k0_hw4 k0_h1
def k0_off23 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let c2_i32_58 : BitVec 32 := 2#32
  let v93 : BitVec 32 := Scalar.subi v18 c2_i32_58
  let v107 : Index := Scalar.indexCast v93
  let c64_67 : Index := 64#32
  ![v107.toNat, 64]

def k0_chk5 (k0_t2 : Fin k0_t2_loop.trips) (v106 : IVec S16 32) (v108 : IVec S16 32) : Prop :=
  (∀ (k0_h1 : k0_cond1 k0_t2 = 1#1), ∀ a x, ((![v106, v108] : Fin 2 → IVec S16 32) a x).toNat < S128x256.size a)
instance k0_chk5.dec : ∀ (k0_t2 : Fin k0_t2_loop.trips) (v106 : IVec S16 32) (v108 : IVec S16 32), Decidable (k0_chk5 k0_t2 v106 v108) := fun k0_t2 v106 v108 => decidable_of_iff' _ (Iff.of_eq (k0_chk5.eq_1 k0_t2 v106 v108))
theorem k0_idx5_inb : ∀ (k0_t2 : Fin k0_t2_loop.trips) (v106 : IVec S16 32) (v108 : IVec S16 32) (k0_hw5 : k0_chk5 k0_t2 v106 v108), ∀ (k0_h1 : k0_cond1 k0_t2 = 1#1), ∀ a x, ((![v106, v108] : Fin 2 → IVec S16 32) a x).toNat < S128x256.size a := fun k0_t2 v106 v108 k0_hw5 k0_h1 => k0_hw5 k0_h1
def k0_off24 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let c2_i32_58 : BitVec 32 := 2#32
  let v93 : BitVec 32 := Scalar.subi v18 c2_i32_58
  let v110 : Index := Scalar.indexCast v93
  let c80_69 : Index := 80#32
  ![v110.toNat, 80]

def k0_chk6 (k0_t2 : Fin k0_t2_loop.trips) (v109 : IVec S16 32) (v111 : IVec S16 32) : Prop :=
  (∀ (k0_h1 : k0_cond1 k0_t2 = 1#1), ∀ a x, ((![v109, v111] : Fin 2 → IVec S16 32) a x).toNat < S128x256.size a)
instance k0_chk6.dec : ∀ (k0_t2 : Fin k0_t2_loop.trips) (v109 : IVec S16 32) (v111 : IVec S16 32), Decidable (k0_chk6 k0_t2 v109 v111) := fun k0_t2 v109 v111 => decidable_of_iff' _ (Iff.of_eq (k0_chk6.eq_1 k0_t2 v109 v111))
theorem k0_idx6_inb : ∀ (k0_t2 : Fin k0_t2_loop.trips) (v109 : IVec S16 32) (v111 : IVec S16 32) (k0_hw6 : k0_chk6 k0_t2 v109 v111), ∀ (k0_h1 : k0_cond1 k0_t2 = 1#1), ∀ a x, ((![v109, v111] : Fin 2 → IVec S16 32) a x).toNat < S128x256.size a := fun k0_t2 v109 v111 k0_hw6 k0_h1 => k0_hw6 k0_h1
def k0_off25 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let c2_i32_58 : BitVec 32 := 2#32
  let v93 : BitVec 32 := Scalar.subi v18 c2_i32_58
  let v113 : Index := Scalar.indexCast v93
  let c96_71 : Index := 96#32
  ![v113.toNat, 96]

def k0_chk7 (k0_t2 : Fin k0_t2_loop.trips) (v112 : IVec S16 32) (v114 : IVec S16 32) : Prop :=
  (∀ (k0_h1 : k0_cond1 k0_t2 = 1#1), ∀ a x, ((![v112, v114] : Fin 2 → IVec S16 32) a x).toNat < S128x256.size a)
instance k0_chk7.dec : ∀ (k0_t2 : Fin k0_t2_loop.trips) (v112 : IVec S16 32) (v114 : IVec S16 32), Decidable (k0_chk7 k0_t2 v112 v114) := fun k0_t2 v112 v114 => decidable_of_iff' _ (Iff.of_eq (k0_chk7.eq_1 k0_t2 v112 v114))
theorem k0_idx7_inb : ∀ (k0_t2 : Fin k0_t2_loop.trips) (v112 : IVec S16 32) (v114 : IVec S16 32) (k0_hw7 : k0_chk7 k0_t2 v112 v114), ∀ (k0_h1 : k0_cond1 k0_t2 = 1#1), ∀ a x, ((![v112, v114] : Fin 2 → IVec S16 32) a x).toNat < S128x256.size a := fun k0_t2 v112 v114 k0_hw7 k0_h1 => k0_hw7 k0_h1
def k0_off26 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let c2_i32_58 : BitVec 32 := 2#32
  let v93 : BitVec 32 := Scalar.subi v18 c2_i32_58
  let v116 : Index := Scalar.indexCast v93
  let c112_73 : Index := 112#32
  ![v116.toNat, 112]

def k0_chk8 (k0_t2 : Fin k0_t2_loop.trips) (v115 : IVec S16 32) (v117 : IVec S16 32) : Prop :=
  (∀ (k0_h1 : k0_cond1 k0_t2 = 1#1), ∀ a x, ((![v115, v117] : Fin 2 → IVec S16 32) a x).toNat < S128x256.size a)
instance k0_chk8.dec : ∀ (k0_t2 : Fin k0_t2_loop.trips) (v115 : IVec S16 32) (v117 : IVec S16 32), Decidable (k0_chk8 k0_t2 v115 v117) := fun k0_t2 v115 v117 => decidable_of_iff' _ (Iff.of_eq (k0_chk8.eq_1 k0_t2 v115 v117))
theorem k0_idx8_inb : ∀ (k0_t2 : Fin k0_t2_loop.trips) (v115 : IVec S16 32) (v117 : IVec S16 32) (k0_hw8 : k0_chk8 k0_t2 v115 v117), ∀ (k0_h1 : k0_cond1 k0_t2 = 1#1), ∀ a x, ((![v115, v117] : Fin 2 → IVec S16 32) a x).toNat < S128x256.size a := fun k0_t2 v115 v117 k0_hw8 k0_h1 => k0_hw8 k0_h1
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19 : BitVec 32 := 0#32
  let v22 : BitVec 1 := Scalar.cmpi .eq v1 c0_i32_19
  let v23 : BitVec 32 := Scalar.extui v22
  let c0_i32_20 : BitVec 32 := 0#32
  let v24 : BitVec 1 := Scalar.cmpi .ne v23 c0_i32_20
  v24

def k0_chk9 (i : grid0.Coords) (v89 : IVec S16 32) (v90 : IVec S16 32) : Prop :=
  (∀ (k0_h2 : k0_cond2 i = 1#1), ∀ a x, ((![v90, v89] : Fin 2 → IVec S16 32) a x).toNat < S50x128.size a)
instance k0_chk9.dec : ∀ (i : grid0.Coords) (v89 : IVec S16 32) (v90 : IVec S16 32), Decidable (k0_chk9 i v89 v90) := fun i v89 v90 => decidable_of_iff' _ (Iff.of_eq (k0_chk9.eq_1 i v89 v90))
theorem k0_idx9_inb : ∀ (i : grid0.Coords) (v89 : IVec S16 32) (v90 : IVec S16 32) (k0_hw9 : k0_chk9 i v89 v90), ∀ (k0_h2 : k0_cond2 i = 1#1), ∀ a x, ((![v90, v89] : Fin 2 → IVec S16 32) a x).toNat < S50x128.size a := fun i v89 v90 k0_hw9 k0_h2 => k0_hw9 k0_h2

def k0_chk10 (i : grid0.Coords) (v89 : IVec S16 32) (v91 : IVec S16 32) : Prop :=
  (∀ (k0_h2 : k0_cond2 i = 1#1), ∀ a x, ((![v89, v91] : Fin 2 → IVec S16 32) a x).toNat < S128x256.size a)
instance k0_chk10.dec : ∀ (i : grid0.Coords) (v89 : IVec S16 32) (v91 : IVec S16 32), Decidable (k0_chk10 i v89 v91) := fun i v89 v91 => decidable_of_iff' _ (Iff.of_eq (k0_chk10.eq_1 i v89 v91))
theorem k0_idx10_inb : ∀ (i : grid0.Coords) (v89 : IVec S16 32) (v91 : IVec S16 32) (k0_hw10 : k0_chk10 i v89 v91), ∀ (k0_h2 : k0_cond2 i = 1#1), ∀ a x, ((![v89, v91] : Fin 2 → IVec S16 32) a x).toNat < S128x256.size a := fun i v89 v91 k0_hw10 k0_h2 => k0_hw10 k0_h2
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21 : BitVec 32 := 0#32
  let v25 : BitVec 1 := Scalar.cmpi .ne v1 c0_i32_21
  let v26 : BitVec 32 := Scalar.extui v25
  let c0_i32_22 : BitVec 32 := 0#32
  let v27 : BitVec 1 := Scalar.cmpi .ne v26 c0_i32_22
  v27

def k0_off27 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let v90 : Index := Scalar.indexCast v18
  let c0_56 : Index := 0#32
  ![v90.toNat, 0]

def k0_chk11 (i : grid0.Coords) (v89 : IVec S16 32) (v91 : IVec S16 32) : Prop :=
  (∀ (k0_h3 : k0_cond3 i = 1#1), ∀ a x, ((![v89, v91] : Fin 2 → IVec S16 32) a x).toNat < S128x256.size a)
instance k0_chk11.dec : ∀ (i : grid0.Coords) (v89 : IVec S16 32) (v91 : IVec S16 32), Decidable (k0_chk11 i v89 v91) := fun i v89 v91 => decidable_of_iff' _ (Iff.of_eq (k0_chk11.eq_1 i v89 v91))
theorem k0_idx11_inb : ∀ (i : grid0.Coords) (v89 : IVec S16 32) (v91 : IVec S16 32) (k0_hw11 : k0_chk11 i v89 v91), ∀ (k0_h3 : k0_cond3 i = 1#1), ∀ a x, ((![v89, v91] : Fin 2 → IVec S16 32) a x).toNat < S128x256.size a := fun i v89 v91 k0_hw11 k0_h3 => k0_hw11 k0_h3
def k0_off28 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let v29 : Index := Scalar.indexCast v18
  let c16_23 : Index := 16#32
  ![v29.toNat, 16]

def k0_chk12 (v28 : IVec S16 32) (v30 : IVec S16 32) : Prop :=
  (∀ a x, ((![v28, v30] : Fin 2 → IVec S16 32) a x).toNat < S128x256.size a)
instance k0_chk12.dec : ∀ (v28 : IVec S16 32) (v30 : IVec S16 32), Decidable (k0_chk12 v28 v30) := fun v28 v30 => decidable_of_iff' _ (Iff.of_eq (k0_chk12.eq_1 v28 v30))
theorem k0_idx12_inb : ∀ (v28 : IVec S16 32) (v30 : IVec S16 32) (k0_hw12 : k0_chk12 v28 v30), ∀ a x, ((![v28, v30] : Fin 2 → IVec S16 32) a x).toNat < S128x256.size a := fun v28 v30 k0_hw12 => k0_hw12
def k0_off29 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let v32 : Index := Scalar.indexCast v18
  let c32_24 : Index := 32#32
  ![v32.toNat, 32]

def k0_chk13 (v31 : IVec S16 32) (v33 : IVec S16 32) : Prop :=
  (∀ a x, ((![v31, v33] : Fin 2 → IVec S16 32) a x).toNat < S128x256.size a)
instance k0_chk13.dec : ∀ (v31 : IVec S16 32) (v33 : IVec S16 32), Decidable (k0_chk13 v31 v33) := fun v31 v33 => decidable_of_iff' _ (Iff.of_eq (k0_chk13.eq_1 v31 v33))
theorem k0_idx13_inb : ∀ (v31 : IVec S16 32) (v33 : IVec S16 32) (k0_hw13 : k0_chk13 v31 v33), ∀ a x, ((![v31, v33] : Fin 2 → IVec S16 32) a x).toNat < S128x256.size a := fun v31 v33 k0_hw13 => k0_hw13
def k0_off30 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let v35 : Index := Scalar.indexCast v18
  let c48_25 : Index := 48#32
  ![v35.toNat, 48]

def k0_chk14 (v34 : IVec S16 32) (v36 : IVec S16 32) : Prop :=
  (∀ a x, ((![v34, v36] : Fin 2 → IVec S16 32) a x).toNat < S128x256.size a)
instance k0_chk14.dec : ∀ (v34 : IVec S16 32) (v36 : IVec S16 32), Decidable (k0_chk14 v34 v36) := fun v34 v36 => decidable_of_iff' _ (Iff.of_eq (k0_chk14.eq_1 v34 v36))
theorem k0_idx14_inb : ∀ (v34 : IVec S16 32) (v36 : IVec S16 32) (k0_hw14 : k0_chk14 v34 v36), ∀ a x, ((![v34, v36] : Fin 2 → IVec S16 32) a x).toNat < S128x256.size a := fun v34 v36 k0_hw14 => k0_hw14
def k0_off31 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let v38 : Index := Scalar.indexCast v18
  let c64_26 : Index := 64#32
  ![v38.toNat, 64]

def k0_chk15 (v37 : IVec S16 32) (v39 : IVec S16 32) : Prop :=
  (∀ a x, ((![v37, v39] : Fin 2 → IVec S16 32) a x).toNat < S128x256.size a)
instance k0_chk15.dec : ∀ (v37 : IVec S16 32) (v39 : IVec S16 32), Decidable (k0_chk15 v37 v39) := fun v37 v39 => decidable_of_iff' _ (Iff.of_eq (k0_chk15.eq_1 v37 v39))
theorem k0_idx15_inb : ∀ (v37 : IVec S16 32) (v39 : IVec S16 32) (k0_hw15 : k0_chk15 v37 v39), ∀ a x, ((![v37, v39] : Fin 2 → IVec S16 32) a x).toNat < S128x256.size a := fun v37 v39 k0_hw15 => k0_hw15
def k0_off32 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let v41 : Index := Scalar.indexCast v18
  let c80_27 : Index := 80#32
  ![v41.toNat, 80]

def k0_chk16 (v40 : IVec S16 32) (v42 : IVec S16 32) : Prop :=
  (∀ a x, ((![v40, v42] : Fin 2 → IVec S16 32) a x).toNat < S128x256.size a)
instance k0_chk16.dec : ∀ (v40 : IVec S16 32) (v42 : IVec S16 32), Decidable (k0_chk16 v40 v42) := fun v40 v42 => decidable_of_iff' _ (Iff.of_eq (k0_chk16.eq_1 v40 v42))
theorem k0_idx16_inb : ∀ (v40 : IVec S16 32) (v42 : IVec S16 32) (k0_hw16 : k0_chk16 v40 v42), ∀ a x, ((![v40, v42] : Fin 2 → IVec S16 32) a x).toNat < S128x256.size a := fun v40 v42 k0_hw16 => k0_hw16
def k0_off33 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let v44 : Index := Scalar.indexCast v18
  let c96_28 : Index := 96#32
  ![v44.toNat, 96]

def k0_chk17 (v43 : IVec S16 32) (v45 : IVec S16 32) : Prop :=
  (∀ a x, ((![v43, v45] : Fin 2 → IVec S16 32) a x).toNat < S128x256.size a)
instance k0_chk17.dec : ∀ (v43 : IVec S16 32) (v45 : IVec S16 32), Decidable (k0_chk17 v43 v45) := fun v43 v45 => decidable_of_iff' _ (Iff.of_eq (k0_chk17.eq_1 v43 v45))
theorem k0_idx17_inb : ∀ (v43 : IVec S16 32) (v45 : IVec S16 32) (k0_hw17 : k0_chk17 v43 v45), ∀ a x, ((![v43, v45] : Fin 2 → IVec S16 32) a x).toNat < S128x256.size a := fun v43 v45 k0_hw17 => k0_hw17
def k0_off34 (k0_t2 : Fin k0_t2_loop.trips) : Fin 2 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let v47 : Index := Scalar.indexCast v18
  let c112_29 : Index := 112#32
  ![v47.toNat, 112]

def k0_chk18 (v46 : IVec S16 32) (v48 : IVec S16 32) : Prop :=
  (∀ a x, ((![v46, v48] : Fin 2 → IVec S16 32) a x).toNat < S128x256.size a)
instance k0_chk18.dec : ∀ (v46 : IVec S16 32) (v48 : IVec S16 32), Decidable (k0_chk18 v46 v48) := fun v46 v48 => decidable_of_iff' _ (Iff.of_eq (k0_chk18.eq_1 v46 v48))
theorem k0_idx18_inb : ∀ (v46 : IVec S16 32) (v48 : IVec S16 32) (k0_hw18 : k0_chk18 v46 v48), ∀ a x, ((![v46, v48] : Fin 2 → IVec S16 32) a x).toNat < S128x256.size a := fun v46 v48 k0_hw18 => k0_hw18
def k0_off35 (i : grid0.Coords) (k0_t2 : Fin k0_t2_loop.trips) : Fin 3 → Nat :=
  let c2_i32_15 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v17 : BitVec 32 := Scalar.muli c2_i32_15 v16
  let c0_i32_16 : BitVec 32 := 0#32
  let v18 : BitVec 32 := Scalar.addi v17 c0_i32_16
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_30 : BitVec 32 := 0#32
  ![v18.toNat, v2.toNat, 0]
def k0_cond4 (k0_t2 : Fin k0_t2_loop.trips) : BitVec 1 :=
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let c0_i32_34 : BitVec 32 := 0#32
  let v55 : BitVec 1 := Scalar.cmpi .sgt v16 c0_i32_34
  let v56 : BitVec 32 := Scalar.extui v55
  let c0_i32_35 : BitVec 32 := 0#32
  let v57 : BitVec 1 := Scalar.cmpi .ne v56 c0_i32_35
  v57

def k0_off36 (i : grid0.Coords) (k0_t2 : Fin k0_t2_loop.trips) : Fin 3 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_56 : BitVec 32 := 0#32
  ![v54.toNat, v2.toNat, 0]
def k0_off37 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let c2_i32_58 : BitVec 32 := 2#32
  let v93 : BitVec 32 := Scalar.subi v54 c2_i32_58
  let v95 : Index := Scalar.indexCast v93
  let c0_59 : Index := 0#32
  ![v95.toNat, 0]

def k0_chk19 (k0_t2 : Fin k0_t2_loop.trips) (v94 : IVec S16 32) (v96 : IVec S16 32) : Prop :=
  (∀ (k0_h4 : k0_cond4 k0_t2 = 1#1), ∀ a x, ((![v94, v96] : Fin 2 → IVec S16 32) a x).toNat < S128x256.size a)
instance k0_chk19.dec : ∀ (k0_t2 : Fin k0_t2_loop.trips) (v94 : IVec S16 32) (v96 : IVec S16 32), Decidable (k0_chk19 k0_t2 v94 v96) := fun k0_t2 v94 v96 => decidable_of_iff' _ (Iff.of_eq (k0_chk19.eq_1 k0_t2 v94 v96))
theorem k0_idx19_inb : ∀ (k0_t2 : Fin k0_t2_loop.trips) (v94 : IVec S16 32) (v96 : IVec S16 32) (k0_hw19 : k0_chk19 k0_t2 v94 v96), ∀ (k0_h4 : k0_cond4 k0_t2 = 1#1), ∀ a x, ((![v94, v96] : Fin 2 → IVec S16 32) a x).toNat < S128x256.size a := fun k0_t2 v94 v96 k0_hw19 k0_h4 => k0_hw19 k0_h4
def k0_off38 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let c2_i32_58 : BitVec 32 := 2#32
  let v93 : BitVec 32 := Scalar.subi v54 c2_i32_58
  let v98 : Index := Scalar.indexCast v93
  let c16_61 : Index := 16#32
  ![v98.toNat, 16]

def k0_chk20 (k0_t2 : Fin k0_t2_loop.trips) (v97 : IVec S16 32) (v99 : IVec S16 32) : Prop :=
  (∀ (k0_h4 : k0_cond4 k0_t2 = 1#1), ∀ a x, ((![v97, v99] : Fin 2 → IVec S16 32) a x).toNat < S128x256.size a)
instance k0_chk20.dec : ∀ (k0_t2 : Fin k0_t2_loop.trips) (v97 : IVec S16 32) (v99 : IVec S16 32), Decidable (k0_chk20 k0_t2 v97 v99) := fun k0_t2 v97 v99 => decidable_of_iff' _ (Iff.of_eq (k0_chk20.eq_1 k0_t2 v97 v99))
theorem k0_idx20_inb : ∀ (k0_t2 : Fin k0_t2_loop.trips) (v97 : IVec S16 32) (v99 : IVec S16 32) (k0_hw20 : k0_chk20 k0_t2 v97 v99), ∀ (k0_h4 : k0_cond4 k0_t2 = 1#1), ∀ a x, ((![v97, v99] : Fin 2 → IVec S16 32) a x).toNat < S128x256.size a := fun k0_t2 v97 v99 k0_hw20 k0_h4 => k0_hw20 k0_h4
def k0_off39 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let c2_i32_58 : BitVec 32 := 2#32
  let v93 : BitVec 32 := Scalar.subi v54 c2_i32_58
  let v101 : Index := Scalar.indexCast v93
  let c32_63 : Index := 32#32
  ![v101.toNat, 32]

def k0_chk21 (k0_t2 : Fin k0_t2_loop.trips) (v100 : IVec S16 32) (v102 : IVec S16 32) : Prop :=
  (∀ (k0_h4 : k0_cond4 k0_t2 = 1#1), ∀ a x, ((![v100, v102] : Fin 2 → IVec S16 32) a x).toNat < S128x256.size a)
instance k0_chk21.dec : ∀ (k0_t2 : Fin k0_t2_loop.trips) (v100 : IVec S16 32) (v102 : IVec S16 32), Decidable (k0_chk21 k0_t2 v100 v102) := fun k0_t2 v100 v102 => decidable_of_iff' _ (Iff.of_eq (k0_chk21.eq_1 k0_t2 v100 v102))
theorem k0_idx21_inb : ∀ (k0_t2 : Fin k0_t2_loop.trips) (v100 : IVec S16 32) (v102 : IVec S16 32) (k0_hw21 : k0_chk21 k0_t2 v100 v102), ∀ (k0_h4 : k0_cond4 k0_t2 = 1#1), ∀ a x, ((![v100, v102] : Fin 2 → IVec S16 32) a x).toNat < S128x256.size a := fun k0_t2 v100 v102 k0_hw21 k0_h4 => k0_hw21 k0_h4
def k0_off40 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let c2_i32_58 : BitVec 32 := 2#32
  let v93 : BitVec 32 := Scalar.subi v54 c2_i32_58
  let v104 : Index := Scalar.indexCast v93
  let c48_65 : Index := 48#32
  ![v104.toNat, 48]

def k0_chk22 (k0_t2 : Fin k0_t2_loop.trips) (v103 : IVec S16 32) (v105 : IVec S16 32) : Prop :=
  (∀ (k0_h4 : k0_cond4 k0_t2 = 1#1), ∀ a x, ((![v103, v105] : Fin 2 → IVec S16 32) a x).toNat < S128x256.size a)
instance k0_chk22.dec : ∀ (k0_t2 : Fin k0_t2_loop.trips) (v103 : IVec S16 32) (v105 : IVec S16 32), Decidable (k0_chk22 k0_t2 v103 v105) := fun k0_t2 v103 v105 => decidable_of_iff' _ (Iff.of_eq (k0_chk22.eq_1 k0_t2 v103 v105))
theorem k0_idx22_inb : ∀ (k0_t2 : Fin k0_t2_loop.trips) (v103 : IVec S16 32) (v105 : IVec S16 32) (k0_hw22 : k0_chk22 k0_t2 v103 v105), ∀ (k0_h4 : k0_cond4 k0_t2 = 1#1), ∀ a x, ((![v103, v105] : Fin 2 → IVec S16 32) a x).toNat < S128x256.size a := fun k0_t2 v103 v105 k0_hw22 k0_h4 => k0_hw22 k0_h4
def k0_off41 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let c2_i32_58 : BitVec 32 := 2#32
  let v93 : BitVec 32 := Scalar.subi v54 c2_i32_58
  let v107 : Index := Scalar.indexCast v93
  let c64_67 : Index := 64#32
  ![v107.toNat, 64]

def k0_chk23 (k0_t2 : Fin k0_t2_loop.trips) (v106 : IVec S16 32) (v108 : IVec S16 32) : Prop :=
  (∀ (k0_h4 : k0_cond4 k0_t2 = 1#1), ∀ a x, ((![v106, v108] : Fin 2 → IVec S16 32) a x).toNat < S128x256.size a)
instance k0_chk23.dec : ∀ (k0_t2 : Fin k0_t2_loop.trips) (v106 : IVec S16 32) (v108 : IVec S16 32), Decidable (k0_chk23 k0_t2 v106 v108) := fun k0_t2 v106 v108 => decidable_of_iff' _ (Iff.of_eq (k0_chk23.eq_1 k0_t2 v106 v108))
theorem k0_idx23_inb : ∀ (k0_t2 : Fin k0_t2_loop.trips) (v106 : IVec S16 32) (v108 : IVec S16 32) (k0_hw23 : k0_chk23 k0_t2 v106 v108), ∀ (k0_h4 : k0_cond4 k0_t2 = 1#1), ∀ a x, ((![v106, v108] : Fin 2 → IVec S16 32) a x).toNat < S128x256.size a := fun k0_t2 v106 v108 k0_hw23 k0_h4 => k0_hw23 k0_h4
def k0_off42 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let c2_i32_58 : BitVec 32 := 2#32
  let v93 : BitVec 32 := Scalar.subi v54 c2_i32_58
  let v110 : Index := Scalar.indexCast v93
  let c80_69 : Index := 80#32
  ![v110.toNat, 80]

def k0_chk24 (k0_t2 : Fin k0_t2_loop.trips) (v109 : IVec S16 32) (v111 : IVec S16 32) : Prop :=
  (∀ (k0_h4 : k0_cond4 k0_t2 = 1#1), ∀ a x, ((![v109, v111] : Fin 2 → IVec S16 32) a x).toNat < S128x256.size a)
instance k0_chk24.dec : ∀ (k0_t2 : Fin k0_t2_loop.trips) (v109 : IVec S16 32) (v111 : IVec S16 32), Decidable (k0_chk24 k0_t2 v109 v111) := fun k0_t2 v109 v111 => decidable_of_iff' _ (Iff.of_eq (k0_chk24.eq_1 k0_t2 v109 v111))
theorem k0_idx24_inb : ∀ (k0_t2 : Fin k0_t2_loop.trips) (v109 : IVec S16 32) (v111 : IVec S16 32) (k0_hw24 : k0_chk24 k0_t2 v109 v111), ∀ (k0_h4 : k0_cond4 k0_t2 = 1#1), ∀ a x, ((![v109, v111] : Fin 2 → IVec S16 32) a x).toNat < S128x256.size a := fun k0_t2 v109 v111 k0_hw24 k0_h4 => k0_hw24 k0_h4
def k0_off43 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let c2_i32_58 : BitVec 32 := 2#32
  let v93 : BitVec 32 := Scalar.subi v54 c2_i32_58
  let v113 : Index := Scalar.indexCast v93
  let c96_71 : Index := 96#32
  ![v113.toNat, 96]

def k0_chk25 (k0_t2 : Fin k0_t2_loop.trips) (v112 : IVec S16 32) (v114 : IVec S16 32) : Prop :=
  (∀ (k0_h4 : k0_cond4 k0_t2 = 1#1), ∀ a x, ((![v112, v114] : Fin 2 → IVec S16 32) a x).toNat < S128x256.size a)
instance k0_chk25.dec : ∀ (k0_t2 : Fin k0_t2_loop.trips) (v112 : IVec S16 32) (v114 : IVec S16 32), Decidable (k0_chk25 k0_t2 v112 v114) := fun k0_t2 v112 v114 => decidable_of_iff' _ (Iff.of_eq (k0_chk25.eq_1 k0_t2 v112 v114))
theorem k0_idx25_inb : ∀ (k0_t2 : Fin k0_t2_loop.trips) (v112 : IVec S16 32) (v114 : IVec S16 32) (k0_hw25 : k0_chk25 k0_t2 v112 v114), ∀ (k0_h4 : k0_cond4 k0_t2 = 1#1), ∀ a x, ((![v112, v114] : Fin 2 → IVec S16 32) a x).toNat < S128x256.size a := fun k0_t2 v112 v114 k0_hw25 k0_h4 => k0_hw25 k0_h4
def k0_off44 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let c2_i32_58 : BitVec 32 := 2#32
  let v93 : BitVec 32 := Scalar.subi v54 c2_i32_58
  let v116 : Index := Scalar.indexCast v93
  let c112_73 : Index := 112#32
  ![v116.toNat, 112]

def k0_chk26 (k0_t2 : Fin k0_t2_loop.trips) (v115 : IVec S16 32) (v117 : IVec S16 32) : Prop :=
  (∀ (k0_h4 : k0_cond4 k0_t2 = 1#1), ∀ a x, ((![v115, v117] : Fin 2 → IVec S16 32) a x).toNat < S128x256.size a)
instance k0_chk26.dec : ∀ (k0_t2 : Fin k0_t2_loop.trips) (v115 : IVec S16 32) (v117 : IVec S16 32), Decidable (k0_chk26 k0_t2 v115 v117) := fun k0_t2 v115 v117 => decidable_of_iff' _ (Iff.of_eq (k0_chk26.eq_1 k0_t2 v115 v117))
theorem k0_idx26_inb : ∀ (k0_t2 : Fin k0_t2_loop.trips) (v115 : IVec S16 32) (v117 : IVec S16 32) (k0_hw26 : k0_chk26 k0_t2 v115 v117), ∀ (k0_h4 : k0_cond4 k0_t2 = 1#1), ∀ a x, ((![v115, v117] : Fin 2 → IVec S16 32) a x).toNat < S128x256.size a := fun k0_t2 v115 v117 k0_hw26 k0_h4 => k0_hw26 k0_h4
def k0_cond5 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_36 : BitVec 32 := 0#32
  let v58 : BitVec 1 := Scalar.cmpi .eq v1 c0_i32_36
  let v59 : BitVec 32 := Scalar.extui v58
  let c0_i32_37 : BitVec 32 := 0#32
  let v60 : BitVec 1 := Scalar.cmpi .ne v59 c0_i32_37
  v60

def k0_chk27 (i : grid0.Coords) (v89 : IVec S16 32) (v90 : IVec S16 32) : Prop :=
  (∀ (k0_h5 : k0_cond5 i = 1#1), ∀ a x, ((![v90, v89] : Fin 2 → IVec S16 32) a x).toNat < S50x128.size a)
instance k0_chk27.dec : ∀ (i : grid0.Coords) (v89 : IVec S16 32) (v90 : IVec S16 32), Decidable (k0_chk27 i v89 v90) := fun i v89 v90 => decidable_of_iff' _ (Iff.of_eq (k0_chk27.eq_1 i v89 v90))
theorem k0_idx27_inb : ∀ (i : grid0.Coords) (v89 : IVec S16 32) (v90 : IVec S16 32) (k0_hw27 : k0_chk27 i v89 v90), ∀ (k0_h5 : k0_cond5 i = 1#1), ∀ a x, ((![v90, v89] : Fin 2 → IVec S16 32) a x).toNat < S50x128.size a := fun i v89 v90 k0_hw27 k0_h5 => k0_hw27 k0_h5

def k0_chk28 (i : grid0.Coords) (v89 : IVec S16 32) (v91 : IVec S16 32) : Prop :=
  (∀ (k0_h5 : k0_cond5 i = 1#1), ∀ a x, ((![v89, v91] : Fin 2 → IVec S16 32) a x).toNat < S128x256.size a)
instance k0_chk28.dec : ∀ (i : grid0.Coords) (v89 : IVec S16 32) (v91 : IVec S16 32), Decidable (k0_chk28 i v89 v91) := fun i v89 v91 => decidable_of_iff' _ (Iff.of_eq (k0_chk28.eq_1 i v89 v91))
theorem k0_idx28_inb : ∀ (i : grid0.Coords) (v89 : IVec S16 32) (v91 : IVec S16 32) (k0_hw28 : k0_chk28 i v89 v91), ∀ (k0_h5 : k0_cond5 i = 1#1), ∀ a x, ((![v89, v91] : Fin 2 → IVec S16 32) a x).toNat < S128x256.size a := fun i v89 v91 k0_hw28 k0_h5 => k0_hw28 k0_h5
def k0_cond6 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_38 : BitVec 32 := 0#32
  let v61 : BitVec 1 := Scalar.cmpi .ne v1 c0_i32_38
  let v62 : BitVec 32 := Scalar.extui v61
  let c0_i32_39 : BitVec 32 := 0#32
  let v63 : BitVec 1 := Scalar.cmpi .ne v62 c0_i32_39
  v63

def k0_off45 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let v90 : Index := Scalar.indexCast v54
  let c0_56 : Index := 0#32
  ![v90.toNat, 0]

def k0_chk29 (i : grid0.Coords) (v89 : IVec S16 32) (v91 : IVec S16 32) : Prop :=
  (∀ (k0_h6 : k0_cond6 i = 1#1), ∀ a x, ((![v89, v91] : Fin 2 → IVec S16 32) a x).toNat < S128x256.size a)
instance k0_chk29.dec : ∀ (i : grid0.Coords) (v89 : IVec S16 32) (v91 : IVec S16 32), Decidable (k0_chk29 i v89 v91) := fun i v89 v91 => decidable_of_iff' _ (Iff.of_eq (k0_chk29.eq_1 i v89 v91))
theorem k0_idx29_inb : ∀ (i : grid0.Coords) (v89 : IVec S16 32) (v91 : IVec S16 32) (k0_hw29 : k0_chk29 i v89 v91), ∀ (k0_h6 : k0_cond6 i = 1#1), ∀ a x, ((![v89, v91] : Fin 2 → IVec S16 32) a x).toNat < S128x256.size a := fun i v89 v91 k0_hw29 k0_h6 => k0_hw29 k0_h6
def k0_off46 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let v65 : Index := Scalar.indexCast v54
  let c16_41 : Index := 16#32
  ![v65.toNat, 16]

def k0_chk30 (v64 : IVec S16 32) (v66 : IVec S16 32) : Prop :=
  (∀ a x, ((![v64, v66] : Fin 2 → IVec S16 32) a x).toNat < S128x256.size a)
instance k0_chk30.dec : ∀ (v64 : IVec S16 32) (v66 : IVec S16 32), Decidable (k0_chk30 v64 v66) := fun v64 v66 => decidable_of_iff' _ (Iff.of_eq (k0_chk30.eq_1 v64 v66))
theorem k0_idx30_inb : ∀ (v64 : IVec S16 32) (v66 : IVec S16 32) (k0_hw30 : k0_chk30 v64 v66), ∀ a x, ((![v64, v66] : Fin 2 → IVec S16 32) a x).toNat < S128x256.size a := fun v64 v66 k0_hw30 => k0_hw30
def k0_off47 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let v68 : Index := Scalar.indexCast v54
  let c32_43 : Index := 32#32
  ![v68.toNat, 32]

def k0_chk31 (v67 : IVec S16 32) (v69 : IVec S16 32) : Prop :=
  (∀ a x, ((![v67, v69] : Fin 2 → IVec S16 32) a x).toNat < S128x256.size a)
instance k0_chk31.dec : ∀ (v67 : IVec S16 32) (v69 : IVec S16 32), Decidable (k0_chk31 v67 v69) := fun v67 v69 => decidable_of_iff' _ (Iff.of_eq (k0_chk31.eq_1 v67 v69))
theorem k0_idx31_inb : ∀ (v67 : IVec S16 32) (v69 : IVec S16 32) (k0_hw31 : k0_chk31 v67 v69), ∀ a x, ((![v67, v69] : Fin 2 → IVec S16 32) a x).toNat < S128x256.size a := fun v67 v69 k0_hw31 => k0_hw31
def k0_off48 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let v71 : Index := Scalar.indexCast v54
  let c48_45 : Index := 48#32
  ![v71.toNat, 48]

def k0_chk32 (v70 : IVec S16 32) (v72 : IVec S16 32) : Prop :=
  (∀ a x, ((![v70, v72] : Fin 2 → IVec S16 32) a x).toNat < S128x256.size a)
instance k0_chk32.dec : ∀ (v70 : IVec S16 32) (v72 : IVec S16 32), Decidable (k0_chk32 v70 v72) := fun v70 v72 => decidable_of_iff' _ (Iff.of_eq (k0_chk32.eq_1 v70 v72))
theorem k0_idx32_inb : ∀ (v70 : IVec S16 32) (v72 : IVec S16 32) (k0_hw32 : k0_chk32 v70 v72), ∀ a x, ((![v70, v72] : Fin 2 → IVec S16 32) a x).toNat < S128x256.size a := fun v70 v72 k0_hw32 => k0_hw32
def k0_off49 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let v74 : Index := Scalar.indexCast v54
  let c64_47 : Index := 64#32
  ![v74.toNat, 64]

def k0_chk33 (v73 : IVec S16 32) (v75 : IVec S16 32) : Prop :=
  (∀ a x, ((![v73, v75] : Fin 2 → IVec S16 32) a x).toNat < S128x256.size a)
instance k0_chk33.dec : ∀ (v73 : IVec S16 32) (v75 : IVec S16 32), Decidable (k0_chk33 v73 v75) := fun v73 v75 => decidable_of_iff' _ (Iff.of_eq (k0_chk33.eq_1 v73 v75))
theorem k0_idx33_inb : ∀ (v73 : IVec S16 32) (v75 : IVec S16 32) (k0_hw33 : k0_chk33 v73 v75), ∀ a x, ((![v73, v75] : Fin 2 → IVec S16 32) a x).toNat < S128x256.size a := fun v73 v75 k0_hw33 => k0_hw33
def k0_off50 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let v77 : Index := Scalar.indexCast v54
  let c80_49 : Index := 80#32
  ![v77.toNat, 80]

def k0_chk34 (v76 : IVec S16 32) (v78 : IVec S16 32) : Prop :=
  (∀ a x, ((![v76, v78] : Fin 2 → IVec S16 32) a x).toNat < S128x256.size a)
instance k0_chk34.dec : ∀ (v76 : IVec S16 32) (v78 : IVec S16 32), Decidable (k0_chk34 v76 v78) := fun v76 v78 => decidable_of_iff' _ (Iff.of_eq (k0_chk34.eq_1 v76 v78))
theorem k0_idx34_inb : ∀ (v76 : IVec S16 32) (v78 : IVec S16 32) (k0_hw34 : k0_chk34 v76 v78), ∀ a x, ((![v76, v78] : Fin 2 → IVec S16 32) a x).toNat < S128x256.size a := fun v76 v78 k0_hw34 => k0_hw34
def k0_off51 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let v80 : Index := Scalar.indexCast v54
  let c96_51 : Index := 96#32
  ![v80.toNat, 96]

def k0_chk35 (v79 : IVec S16 32) (v81 : IVec S16 32) : Prop :=
  (∀ a x, ((![v79, v81] : Fin 2 → IVec S16 32) a x).toNat < S128x256.size a)
instance k0_chk35.dec : ∀ (v79 : IVec S16 32) (v81 : IVec S16 32), Decidable (k0_chk35 v79 v81) := fun v79 v81 => decidable_of_iff' _ (Iff.of_eq (k0_chk35.eq_1 v79 v81))
theorem k0_idx35_inb : ∀ (v79 : IVec S16 32) (v81 : IVec S16 32) (k0_hw35 : k0_chk35 v79 v81), ∀ a x, ((![v79, v81] : Fin 2 → IVec S16 32) a x).toNat < S128x256.size a := fun v79 v81 k0_hw35 => k0_hw35
def k0_off52 (k0_t2 : Fin k0_t2_loop.trips) : Fin 2 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let v83 : Index := Scalar.indexCast v54
  let c112_53 : Index := 112#32
  ![v83.toNat, 112]

def k0_chk36 (v82 : IVec S16 32) (v84 : IVec S16 32) : Prop :=
  (∀ a x, ((![v82, v84] : Fin 2 → IVec S16 32) a x).toNat < S128x256.size a)
instance k0_chk36.dec : ∀ (v82 : IVec S16 32) (v84 : IVec S16 32), Decidable (k0_chk36 v82 v84) := fun v82 v84 => decidable_of_iff' _ (Iff.of_eq (k0_chk36.eq_1 v82 v84))
theorem k0_idx36_inb : ∀ (v82 : IVec S16 32) (v84 : IVec S16 32) (k0_hw36 : k0_chk36 v82 v84), ∀ a x, ((![v82, v84] : Fin 2 → IVec S16 32) a x).toNat < S128x256.size a := fun v82 v84 k0_hw36 => k0_hw36
def k0_off53 (i : grid0.Coords) (k0_t2 : Fin k0_t2_loop.trips) : Fin 3 → Nat :=
  let c2_i32_32 : BitVec 32 := 2#32
  let c0_i32_14 : BitVec 32 := 0#32
  let c0_i32_4 : BitVec 32 := 0#32
  let c1_i32_5 : BitVec 32 := 1#32
  let arg13 : BitVec 32 := Scf.iv c0_i32_4 c1_i32_5 k0_t2
  let c1_i32_13 : BitVec 32 := 1#32
  let v15 : BitVec 32 := Scalar.muli arg13 c1_i32_13
  let v16 : BitVec 32 := Scalar.addi c0_i32_14 v15
  let v53 : BitVec 32 := Scalar.muli c2_i32_32 v16
  let c1_i32_33 : BitVec 32 := 1#32
  let v54 : BitVec 32 := Scalar.addi v53 c1_i32_33
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_54 : BitVec 32 := 0#32
  ![v54.toNat, v2.toNat, 0]
def k0_off54 (i : grid0.Coords) : Fin 3 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_8 : BitVec 32 := 0#32
  ![0, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x50_S50x4096_1_0 : S4096x50.Transposes [1, 0] S50x4096
  h_S1x16 : 0 < S1x16.numel
  shapeCasts_S1x16_S16 : S1x16.ShapeCasts S16
  shapeCasts_S16_S1x16 : S16.ShapeCasts S1x16
  squeezes_S1x128x256_S128x256 : S1x128x256.Squeezes S128x256
  inb_S128_S16_0 : ∀ a, (![0] : Fin 1 → Nat) a + S16.size a ≤ S128.size a
  h_S16 : 0 < S16.numel
  h_S128x256 : 0 < S128x256.numel
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S16_S16_0 : ∀ a, (![0] : Fin 1 → Nat) a + S16.size a ≤ S16.size a
  h_S50x128 : 0 < S50x128.numel
  transposes_S50x4096x256_S4096x50x256_1_0_2 : S50x4096x256.Transposes [1, 0, 2] S4096x50x256
  hcc0_scratch5 : 0 + S_.numel ≤ 5
  hcc0_scratch6 : 1 + S_.numel ≤ 5
  hcc0_scoped0 : 2 + S_.numel ≤ 5
  hcc0_scoped1 : 3 + S_.numel ≤ 5
  hcc0_scoped2 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S50x128.size a ≤ S50x4096.size a
  k0_t1_ok : k0_t1_loop.OK
  k0_off2_inb : ∀ k0_t1 : Fin k0_t1_loop.trips, ∀ a, (k0_off2 k0_t1) a + S1x16.size a ≤ S128x256.size a
  k0_off3_inb : ∀ k0_t1 : Fin k0_t1_loop.trips, ∀ a, (k0_off3 k0_t1) a + S1x16.size a ≤ S128x256.size a
  k0_off4_inb : ∀ k0_t1 : Fin k0_t1_loop.trips, ∀ a, (k0_off4 k0_t1) a + S1x16.size a ≤ S128x256.size a
  k0_off5_inb : ∀ k0_t1 : Fin k0_t1_loop.trips, ∀ a, (k0_off5 k0_t1) a + S1x16.size a ≤ S128x256.size a
  k0_off6_inb : ∀ k0_t1 : Fin k0_t1_loop.trips, ∀ a, (k0_off6 k0_t1) a + S1x16.size a ≤ S128x256.size a
  k0_off7_inb : ∀ k0_t1 : Fin k0_t1_loop.trips, ∀ a, (k0_off7 k0_t1) a + S1x16.size a ≤ S128x256.size a
  k0_off8_inb : ∀ k0_t1 : Fin k0_t1_loop.trips, ∀ a, (k0_off8 k0_t1) a + S1x16.size a ≤ S128x256.size a
  k0_off9_inb : ∀ k0_t1 : Fin k0_t1_loop.trips, ∀ a, (k0_off9 k0_t1) a + S1x16.size a ≤ S128x256.size a
  k0_off10_inb : ∀ k0_t1 : Fin k0_t1_loop.trips, ∀ a, (k0_off10 k0_t1) a + S1x16.size a ≤ S128x256.size a
  k0_off11_inb : ∀ k0_t1 : Fin k0_t1_loop.trips, ∀ a, (k0_off11 k0_t1) a + S1x16.size a ≤ S128x256.size a
  k0_off12_inb : ∀ k0_t1 : Fin k0_t1_loop.trips, ∀ a, (k0_off12 k0_t1) a + S1x16.size a ≤ S128x256.size a
  k0_off13_inb : ∀ k0_t1 : Fin k0_t1_loop.trips, ∀ a, (k0_off13 k0_t1) a + S1x16.size a ≤ S128x256.size a
  k0_off14_inb : ∀ k0_t1 : Fin k0_t1_loop.trips, ∀ a, (k0_off14 k0_t1) a + S1x16.size a ≤ S128x256.size a
  k0_off15_inb : ∀ k0_t1 : Fin k0_t1_loop.trips, ∀ a, (k0_off15 k0_t1) a + S1x16.size a ≤ S128x256.size a
  k0_off16_inb : ∀ k0_t1 : Fin k0_t1_loop.trips, ∀ a, (k0_off16 k0_t1) a + S1x16.size a ≤ S128x256.size a
  k0_off17_inb : ∀ k0_t1 : Fin k0_t1_loop.trips, ∀ a, (k0_off17 k0_t1) a + S1x16.size a ≤ S128x256.size a
  k0_t2_ok : k0_t2_loop.OK
  k0_off18_inb : ∀ (i : grid0.Coords) (k0_t2 : Fin k0_t2_loop.trips), ∀ (k0_h1 : k0_cond1 k0_t2 = 1#1), ∀ a, (k0_off18 i k0_t2) a + S1x128x256.size a ≤ S50x4096x256.size a
  k0_off19_inb : ∀ k0_t2 : Fin k0_t2_loop.trips, ∀ (k0_h1 : k0_cond1 k0_t2 = 1#1), ∀ a, (k0_off19 k0_t2) a + S1x16.size a ≤ S50x128.size a
  k0_off20_inb : ∀ k0_t2 : Fin k0_t2_loop.trips, ∀ (k0_h1 : k0_cond1 k0_t2 = 1#1), ∀ a, (k0_off20 k0_t2) a + S1x16.size a ≤ S50x128.size a
  k0_off21_inb : ∀ k0_t2 : Fin k0_t2_loop.trips, ∀ (k0_h1 : k0_cond1 k0_t2 = 1#1), ∀ a, (k0_off21 k0_t2) a + S1x16.size a ≤ S50x128.size a
  k0_off22_inb : ∀ k0_t2 : Fin k0_t2_loop.trips, ∀ (k0_h1 : k0_cond1 k0_t2 = 1#1), ∀ a, (k0_off22 k0_t2) a + S1x16.size a ≤ S50x128.size a
  k0_off23_inb : ∀ k0_t2 : Fin k0_t2_loop.trips, ∀ (k0_h1 : k0_cond1 k0_t2 = 1#1), ∀ a, (k0_off23 k0_t2) a + S1x16.size a ≤ S50x128.size a
  k0_off24_inb : ∀ k0_t2 : Fin k0_t2_loop.trips, ∀ (k0_h1 : k0_cond1 k0_t2 = 1#1), ∀ a, (k0_off24 k0_t2) a + S1x16.size a ≤ S50x128.size a
  k0_off25_inb : ∀ k0_t2 : Fin k0_t2_loop.trips, ∀ (k0_h1 : k0_cond1 k0_t2 = 1#1), ∀ a, (k0_off25 k0_t2) a + S1x16.size a ≤ S50x128.size a
  k0_off26_inb : ∀ k0_t2 : Fin k0_t2_loop.trips, ∀ (k0_h1 : k0_cond1 k0_t2 = 1#1), ∀ a, (k0_off26 k0_t2) a + S1x16.size a ≤ S50x128.size a
  k0_off27_inb : ∀ (i : grid0.Coords) (k0_t2 : Fin k0_t2_loop.trips), ∀ (k0_h3 : k0_cond3 i = 1#1), ∀ a, (k0_off27 k0_t2) a + S1x16.size a ≤ S50x128.size a
  k0_off28_inb : ∀ k0_t2 : Fin k0_t2_loop.trips, ∀ a, (k0_off28 k0_t2) a + S1x16.size a ≤ S50x128.size a
  k0_off29_inb : ∀ k0_t2 : Fin k0_t2_loop.trips, ∀ a, (k0_off29 k0_t2) a + S1x16.size a ≤ S50x128.size a
  k0_off30_inb : ∀ k0_t2 : Fin k0_t2_loop.trips, ∀ a, (k0_off30 k0_t2) a + S1x16.size a ≤ S50x128.size a
  k0_off31_inb : ∀ k0_t2 : Fin k0_t2_loop.trips, ∀ a, (k0_off31 k0_t2) a + S1x16.size a ≤ S50x128.size a
  k0_off32_inb : ∀ k0_t2 : Fin k0_t2_loop.trips, ∀ a, (k0_off32 k0_t2) a + S1x16.size a ≤ S50x128.size a
  k0_off33_inb : ∀ k0_t2 : Fin k0_t2_loop.trips, ∀ a, (k0_off33 k0_t2) a + S1x16.size a ≤ S50x128.size a
  k0_off34_inb : ∀ k0_t2 : Fin k0_t2_loop.trips, ∀ a, (k0_off34 k0_t2) a + S1x16.size a ≤ S50x128.size a
  k0_off35_inb : ∀ (i : grid0.Coords) (k0_t2 : Fin k0_t2_loop.trips), ∀ a, (k0_off35 i k0_t2) a + S1x128x256.size a ≤ S50x4096x256.size a
  k0_off36_inb : ∀ (i : grid0.Coords) (k0_t2 : Fin k0_t2_loop.trips), ∀ (k0_h4 : k0_cond4 k0_t2 = 1#1), ∀ a, (k0_off36 i k0_t2) a + S1x128x256.size a ≤ S50x4096x256.size a
  k0_off37_inb : ∀ k0_t2 : Fin k0_t2_loop.trips, ∀ (k0_h4 : k0_cond4 k0_t2 = 1#1), ∀ a, (k0_off37 k0_t2) a + S1x16.size a ≤ S50x128.size a
  k0_off38_inb : ∀ k0_t2 : Fin k0_t2_loop.trips, ∀ (k0_h4 : k0_cond4 k0_t2 = 1#1), ∀ a, (k0_off38 k0_t2) a + S1x16.size a ≤ S50x128.size a
  k0_off39_inb : ∀ k0_t2 : Fin k0_t2_loop.trips, ∀ (k0_h4 : k0_cond4 k0_t2 = 1#1), ∀ a, (k0_off39 k0_t2) a + S1x16.size a ≤ S50x128.size a
  k0_off40_inb : ∀ k0_t2 : Fin k0_t2_loop.trips, ∀ (k0_h4 : k0_cond4 k0_t2 = 1#1), ∀ a, (k0_off40 k0_t2) a + S1x16.size a ≤ S50x128.size a
  k0_off41_inb : ∀ k0_t2 : Fin k0_t2_loop.trips, ∀ (k0_h4 : k0_cond4 k0_t2 = 1#1), ∀ a, (k0_off41 k0_t2) a + S1x16.size a ≤ S50x128.size a
  k0_off42_inb : ∀ k0_t2 : Fin k0_t2_loop.trips, ∀ (k0_h4 : k0_cond4 k0_t2 = 1#1), ∀ a, (k0_off42 k0_t2) a + S1x16.size a ≤ S50x128.size a
  k0_off43_inb : ∀ k0_t2 : Fin k0_t2_loop.trips, ∀ (k0_h4 : k0_cond4 k0_t2 = 1#1), ∀ a, (k0_off43 k0_t2) a + S1x16.size a ≤ S50x128.size a
  k0_off44_inb : ∀ k0_t2 : Fin k0_t2_loop.trips, ∀ (k0_h4 : k0_cond4 k0_t2 = 1#1), ∀ a, (k0_off44 k0_t2) a + S1x16.size a ≤ S50x128.size a
  k0_off45_inb : ∀ (i : grid0.Coords) (k0_t2 : Fin k0_t2_loop.trips), ∀ (k0_h6 : k0_cond6 i = 1#1), ∀ a, (k0_off45 k0_t2) a + S1x16.size a ≤ S50x128.size a
  k0_off46_inb : ∀ k0_t2 : Fin k0_t2_loop.trips, ∀ a, (k0_off46 k0_t2) a + S1x16.size a ≤ S50x128.size a
  k0_off47_inb : ∀ k0_t2 : Fin k0_t2_loop.trips, ∀ a, (k0_off47 k0_t2) a + S1x16.size a ≤ S50x128.size a
  k0_off48_inb : ∀ k0_t2 : Fin k0_t2_loop.trips, ∀ a, (k0_off48 k0_t2) a + S1x16.size a ≤ S50x128.size a
  k0_off49_inb : ∀ k0_t2 : Fin k0_t2_loop.trips, ∀ a, (k0_off49 k0_t2) a + S1x16.size a ≤ S50x128.size a
  k0_off50_inb : ∀ k0_t2 : Fin k0_t2_loop.trips, ∀ a, (k0_off50 k0_t2) a + S1x16.size a ≤ S50x128.size a
  k0_off51_inb : ∀ k0_t2 : Fin k0_t2_loop.trips, ∀ a, (k0_off51 k0_t2) a + S1x16.size a ≤ S50x128.size a
  k0_off52_inb : ∀ k0_t2 : Fin k0_t2_loop.trips, ∀ a, (k0_off52 k0_t2) a + S1x16.size a ≤ S50x128.size a
  k0_off53_inb : ∀ (i : grid0.Coords) (k0_t2 : Fin k0_t2_loop.trips), ∀ a, (k0_off53 i k0_t2) a + S1x128x256.size a ≤ S50x4096x256.size a
  k0_off54_inb : ∀ i : grid0.Coords, ∀ a, (k0_off54 i) a + S1x128x256.size a ≤ S50x4096x256.size a

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2

class Facts : Prop extends Facts₀ where

variable [Facts]
-- ==== ReferenceIdeal.lean ====
abbrev S4096x50 : Shape := ⟨2, ![4096, 50]⟩
abbrev S4096x50x1 : Shape := ⟨3, ![4096, 50, 1]⟩
abbrev S1x1x256 : Shape := ⟨3, ![1, 1, 256]⟩
abbrev S4096x50x256 : Shape := ⟨3, ![4096, 50, 256]⟩
abbrev S_ : Shape := ⟨0, ![]⟩
abbrev S1 : Shape := ⟨1, ![1]⟩
abbrev S50x256 : Shape := ⟨2, ![50, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50x1, .i32⟩
  | .hbm, ⟨2, _⟩ => ⟨S1x1x256, .i32⟩
  | .hbm, ⟨3, _⟩ => ⟨S4096x50x256, .i32⟩
  | .hbm, ⟨4, _⟩ => ⟨S4096x50x256, .i32⟩
  | .hbm, ⟨5, _⟩ => ⟨S4096x50x256, .i1⟩
  | .hbm, ⟨6, _⟩ => ⟨S4096x50x256, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S50x256, .i32⟩
  | .hbm, ⟨11, _⟩ => ⟨S4096x50x256, .i32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩

abbrev nD : Nat := 1
abbrev τ : Topo := Topo.v7x

variable {F : FTy → Type} [FloatOps F]

class Facts₀ : Prop where
  bcast_S4096x50_S4096x50x1_0_1 : S4096x50.BroadcastsInDim S4096x50x1 (![0, 1] : Fin 2 → Fin S4096x50x1.rank)
  bcast_S4096x50x1_S4096x50x256_0_1_2 : S4096x50x1.BroadcastsInDim S4096x50x256 (![0, 1, 2] : Fin 3 → Fin S4096x50x256.rank)
  bcast_S1x1x256_S4096x50x256_0_1_2 : S1x1x256.BroadcastsInDim S4096x50x256 (![0, 1, 2] : Fin 3 → Fin S4096x50x256.rank)
  natLt_1_32 : 1 < 32
  bcast_S_S1 : S_.BroadcastsInDim S1 (![] : Fin 0 → Fin S1.rank)
  bcast_S_S50x256 : S_.BroadcastsInDim S50x256 (![] : Fin 0 → Fin S50x256.rank)
  scatter_S4096x50x256_S1_S50x256_01_0_0_0_wf : ScatterDims.WF S4096x50x256 S1 S50x256 [0, 1] [0] [0] 0

variable [Facts₀]

def scatter_S4096x50x256_S1_S50x256_01_0_0_0 : ScatterDims S4096x50x256 S1 S50x256 where
  updateWindowDims := [0, 1]
  insertedWindowDims := [0]
  scatterDimsToOperandDims := [0]
  indexVectorDim := 0
  wf := scatter_S4096x50x256_S1_S50x256_01_0_0_0_wf

class Facts : Prop extends Facts₀ where

variable [Facts]
-- ==== Proof.Spec.lean ====
/-
  The one-hot table the SparseCore call leaves, as one function of the transposed codes.
  For the transposed input `xt : [50, 4096]` (sequence position, batch row) the call's result
  `[50, 4096, 256]` holds at `(s, b, ch)` the indicator of `xt (s, b) = ch`, except that batch
  row `0` is all zeros.
-/
import proofs.«204306_g82583631167916_cont_9to1c4b_486_26_alg».proof.KernelIdeal

noncomputable section

namespace Cert.OneHot

open Idealize.ShloMosaic Cert.KernelIdeal

/-- The index `(s, b)` of the transposed codes under the index `(s, b, ch)` of the table. -/
abbrev sb (i : S50x4096x256.Idx) : S50x4096.Idx := fun a => match a with
  | ⟨0, _⟩ => ⟨(i 0).val, (i 0).isLt⟩
  | ⟨1, _⟩ => ⟨(i 1).val, (i 1).isLt⟩

/-- The table: the indicator of `xt (s, b) = ch` (the code read unsigned), batch row `0` zeroed. -/
def Gt (xt : IVec S50x4096 32) : IVec S50x4096x256 32 :=
  fun i => if (i 1).val = 0 then 0#32 else if (xt (sb i)).toNat = (i 2).val then 1#32 else 0#32

end Cert.OneHot

end
-- ==== Proof.Setup.lean ====
/-
  The one-hot kernel's launch, named: the arrays as the TensorCore holds them and what they hold when the thirty-two
  workers start (the row tables `0 … 127` and `1, 1, 2, … 15`, the transposed codes, the table to be filled), each
  worker's fifty slabs of the table (batch rows `[128 w, 128 w + 128)` at one sequence position), the read shares of
  the three tables, and what the one call hands each SparseCore and each worker and takes back.
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.KernelIdeal
import proofs.«204306_g82583631167916_cont_9to1c4b_486_26_alg».proof.Proof.Gen.KernelIdeal.Skeleton
import proofs.«204306_g82583631167916_cont_9to1c4b_486_26_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

-- the kernel's memrefs, spelt as the body table passes them
local notation "xtW" => (Memref.whole Cert.KernelIdeal.main_v0_scv : Memref Cert.KernelIdeal.sig Kind.scVector Space.hbm Cert.KernelIdeal.S50x4096 EltTy.i32)
local notation "blW" => (Memref.whole Cert.KernelIdeal.main_c_scv : Memref Cert.KernelIdeal.sig Kind.scVector Space.hbm Cert.KernelIdeal.S128 EltTy.i32)
local notation "wzW" => (Memref.whole Cert.KernelIdeal.main_c_0_scv : Memref Cert.KernelIdeal.sig Kind.scVector Space.hbm Cert.KernelIdeal.S16 EltTy.i32)
local notation "outW" => (Memref.whole Cert.KernelIdeal.main_v1_scv : Memref Cert.KernelIdeal.sig Kind.scVector Space.hbm Cert.KernelIdeal.S50x4096x256 EltTy.i32)
local notation "codesW" => (Memref.whole Cert.KernelIdeal.cc0_scratch0 : Memref Cert.KernelIdeal.sig Kind.scVector Space.vmem Cert.KernelIdeal.S50x128 EltTy.i32)
local notation "blV" => (Memref.whole Cert.KernelIdeal.cc0_scratch1 : Memref Cert.KernelIdeal.sig Kind.scVector Space.vmem Cert.KernelIdeal.S128 EltTy.i32)
local notation "wzV" => (Memref.whole Cert.KernelIdeal.cc0_scratch2 : Memref Cert.KernelIdeal.sig Kind.scVector Space.vmem Cert.KernelIdeal.S16 EltTy.i32)
local notation "buf0" => (Memref.whole Cert.KernelIdeal.cc0_scratch3 : Memref Cert.KernelIdeal.sig Kind.scVector Space.vmem Cert.KernelIdeal.S128x256 EltTy.i32)
local notation "buf1" => (Memref.whole Cert.KernelIdeal.cc0_scratch4 : Memref Cert.KernelIdeal.sig Kind.scVector Space.vmem Cert.KernelIdeal.S128x256 EltTy.i32)

variable [FloatOps F]

/-! ## The arrays, as the TensorCore names them, and what they hold at the call -/

abbrev argLoc (d : Dev nD) : Loc nD τ sig := (SparseCore.T d).loc main_arg0
abbrev blLoc (d : Dev nD) : Loc nD τ sig := (SparseCore.T d).loc main_c
abbrev wzLoc (d : Dev nD) : Loc nD τ sig := (SparseCore.T d).loc main_c_0
abbrev xtLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

/-- The row table `0, 1, …, 127`. -/
def BL (d : Dev nD) : Buf (Elt F) (blLoc d) := fun i => lit0 (S128.rowMajor i)
/-- The row table of the first group on worker `0`: `1, 1, 2, …, 15` (row `0` is never named). -/
def WZ (d : Dev nD) : Buf (Elt F) (wzLoc d) := fun i => lit1 (S16.rowMajor i)
/-- The transposed codes: `xt (s, b) = x (b, s)`. -/
def XT (d : Dev nD) : Buf (Elt F) (xtLoc d) :=
  transpose S50x4096 [1, 0] (m (argLoc d) : (⟨S4096x50, .i32⟩ : BufTy).Contents (Elt F)) transposes_S4096x50_S50x4096_1_0
/-- The one-hot table of the transposed codes, batch row `0` zeroed. -/
def OUT (d : Dev nD) : Buf (Elt F) (outLoc d) := Cert.OneHot.Gt (XT m d)

/-- What the proof asks of the launch memory: every code is below `256`. -/
def PreOK : Prop := ∀ (d : Dev nD) (i : S4096x50.Idx), (m (argLoc d) i).toNat < 256

/-! ## The workers' slabs of the table

Worker `(c, i)` — SparseCore `c`, vector subcore `i`, number `2 i + c` — owns batch rows
`[128 (2 i + c), 128 (2 i + c) + 128)`; its slab `r` is those rows at sequence position `r`. -/

theorem slab_inb (c : Fin 2) (i : Fin 16) (r : Fin 50) :
    ∀ a, (![r.val, 256 * i.val + 128 * c.val, 0] : Fin 3 → Nat) a + S1x128x256.size a ≤ S50x4096x256.size a := by
  have hc := c.isLt; have hi := i.isLt; have hr := r.isLt
  intro a; fin_cases a <;> simp <;> omega
abbrev slabRect (c : Fin 2) (i : Fin 16) (r : Fin 50) : Rect S50x4096x256 :=
  Rect.unit (s := S50x4096x256) ![r.val, 256 * i.val + 128 * c.val, 0] S1x128x256.size (slab_inb c i r)
abbrev slab (c : Fin 2) (i : Fin 16) (r : Fin 50) : Finset S50x4096x256.Idx := (slabRect c i r).set

/-! ## Read shares of the three tables: one per SparseCore, of it one per vector subcore -/

abbrev qc (c : Fin 2) : PosShare TreeShare := Transfers.shareTok fullShare 2 c
abbrev qt (c : Fin 2) (i : Fin 16) : PosShare TreeShare := Transfers.shareTok (qc c) 16 i

/-- The three tables at share `q`. -/
abbrev tabs (q : PosShare TreeShare) (d : Dev nD) : sProp 𝕄 :=
  iprop((blLoc d ↦{q} BL (F := F) d) ∗ (wzLoc d ↦{q} WZ (F := F) d) ∗ (xtLoc d ↦{q} XT m d))
/-- A worker's slabs at whatever they hold; -/
abbrev slabsAny (d : Dev nD) (c : Fin 2) (i : Fin 16) : sProp 𝕄 :=
  bigSep Finset.univ fun r : Fin 50 => iprop(∃ f, outLoc d ↦[slab c i r]{fullShare} f)
/-- at the table. -/
abbrev slabsOut (d : Dev nD) (c : Fin 2) (i : Fin 16) : sProp 𝕄 :=
  bigSep Finset.univ fun r : Fin 50 => outLoc d ↦[slab c i r]{fullShare} OUT m d

theorem nCore_zero : (K (F := F)).nCore 0 = 2 := rfl

/-- The one call: each SparseCore takes a read share of the tables and its sixteen workers' slabs, each worker a
    share of that share and its own slabs; they come back with the slabs at the table. -/
def P : (K (F := F)).Pay (nD := nD) (Val := Elt F) (Name := ℕ) (U := UU) where
  st := fun q d c => match q with
    | 0 => iprop(tabs m (qc (Fin.cast nCore_zero c)) d ∗ bigSep Finset.univ fun i : Fin 16 => slabsAny d (Fin.cast nCore_zero c) i)
  dn := fun q d c => match q with
    | 0 => iprop(tabs m (qc (Fin.cast nCore_zero c)) d ∗ bigSep Finset.univ fun i : Fin 16 => slabsOut m d (Fin.cast nCore_zero c) i)
  go := fun q d c i => match q with
    | 0 => iprop(tabs m (qt (Fin.cast nCore_zero c) (Fin.cast nSub_zero i)) d ∗ slabsAny d (Fin.cast nCore_zero c) (Fin.cast nSub_zero i))
  td := fun q d c i => match q with
    | 0 => iprop(tabs m (qt (Fin.cast nCore_zero c) (Fin.cast nSub_zero i)) d ∗ slabsOut m d (Fin.cast nCore_zero c) (Fin.cast nSub_zero i))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-! ## A worker -/

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

end Cert.Proof.KI

end
-- ==== Proof.LibStoreIdx.lean ====
/-
  General facts about the indexed load and the indexed store of a vector subcore
  (`loadIdx`, `storeIdx`): what a gather reads, and what a scatter of ONE word leaves.

  A scatter takes its lanes in ascending order, each writing its element at the index the index
  vectors name for it. When every lane stores the same word `y` (unmasked, no add), neither the
  order nor duplicate indices matter: an element that some lane names ends at `y`, every other
  element keeps what it held.
-/
import Idealize.ShloMosaic.PureOps

namespace Idealize.ShloMosaic

section LibStoreIdx
variable {F : FTy → Type} [FloatOps F] {s t : Shape} {e : EltTy}

/-- A gather reads the base at the index the index vectors name: element `x` of the result is
    the base's element at `idxAt idxs h x`. -/
theorem loadIdx_apply (f : Vec F s e) (idxs : Fin s.rank → IVec t 32)
    (h : ∀ a x, (idxs a x).toNat < s.size a) (x : t.Idx) :
    loadIdx f idxs h x = f (idxAt idxs h x) := rfl

/-- Coordinate `a` of the index named for `x` is the `x`-th element of the `a`-th index vector,
    read unsigned. -/
theorem idxAt_val (idxs : Fin s.rank → IVec t 32) (h : ∀ a x, (idxs a x).toNat < s.size a)
    (x : t.Idx) (a : Fin s.rank) : (idxAt idxs h x a).val = (idxs a x).toNat := rfl

/-- Every index of a rank-one shape is the lane of its only coordinate. -/
theorem Shape.ofLane_coord {d : Fin 1 → Nat} (x : (⟨1, d⟩ : Shape).Idx) :
    Shape.ofLane (d := d) (x 0) = x := by
  funext a
  have ha : a = 0 := Fin.eq_zero a
  subst ha
  exact Fin.ext rfl

/-- Coordinate `0` of lane `k`'s index is `k`. -/
theorem Shape.ofLane_zero {d : Fin 1 → Nat} (k : Fin (d 0)) :
    (Shape.ofLane (d := d) k) 0 = k := Fin.ext rfl

/-- One step of a scatter of the constant word `y`: lane `k` writes `y` at the index it names. -/
def storeConstStep {d : Fin 1 → Nat} (idxs : Fin s.rank → IVec ⟨1, d⟩ 32) (y : BitVec 32)
    (g : Vec F s .i32) (k : Fin (d 0)) : Vec F s .i32 :=
  fun j => if ∀ a, (j a).val = (idxs a (Shape.ofLane k)).toNat then y else g j

/-- Writing the one word `y` lane after lane over ANY list of lanes: an element named by a lane
    of the list ends at `y`, every other element keeps its value. By induction on the list, the
    start value general. -/
theorem foldl_storeConstStep {d : Fin 1 → Nat} (idxs : Fin s.rank → IVec ⟨1, d⟩ 32) (y : BitVec 32)
    (l : List (Fin (d 0))) (f : Vec F s .i32) :
    l.foldl (storeConstStep (F := F) idxs y) f
      = fun j => if ∃ k ∈ l, ∀ a, (j a).val = (idxs a (Shape.ofLane k)).toNat then y else f j := by
  induction l generalizing f with
  | nil => funext j; simp
  | cons k l ih =>
    rw [List.foldl_cons, ih]
    funext j
    by_cases h1 : ∃ k' ∈ l, ∀ a, (j a).val = (idxs a (Shape.ofLane k')).toNat
    · have h2 : ∃ k' ∈ k :: l, ∀ a, (j a).val = (idxs a (Shape.ofLane k')).toNat := by
        obtain ⟨k', hk', hp⟩ := h1
        exact ⟨k', List.mem_cons_of_mem _ hk', hp⟩
      rw [if_pos h1, if_pos h2]
    · rw [if_neg h1]
      by_cases h3 : ∀ a, (j a).val = (idxs a (Shape.ofLane k)).toNat
      · have h2 : ∃ k' ∈ k :: l, ∀ a, (j a).val = (idxs a (Shape.ofLane k')).toNat :=
          ⟨k, List.mem_cons_self, h3⟩
        rw [if_pos h2]; unfold storeConstStep; rw [if_pos h3]
      · have h2 : ¬ ∃ k' ∈ k :: l, ∀ a, (j a).val = (idxs a (Shape.ofLane k')).toNat := by
          rintro ⟨k', hk', hp⟩
          rcases List.mem_cons.mp hk' with rfl | hk'
          · exact h3 hp
          · exact h1 ⟨k', hk', hp⟩
        rw [if_neg h2]; unfold storeConstStep; rw [if_neg h3]

/-- An unmasked scatter, without add, of the constant vector `y`: whatever the order of the
    lanes and whatever indices are named twice, an element some lane names ends at `y` and every
    other element keeps `f`'s value. -/
theorem storeIdx_const {d : Fin 1 → Nat} (f : Vec F s .i32)
    (idxs : Fin s.rank → IVec ⟨1, d⟩ 32) (y : BitVec 32) (h : ∀ a x, (idxs a x).toNat < s.size a) :
    storeIdx (F := F) (e := .i32) f idxs (broadcast ⟨1, d⟩ y) (fun _ => 1#1) false h
      = fun j => if ∃ x : (⟨1, d⟩ : Shape).Idx, ∀ a, (j a).val = (idxs a x).toNat then y else f j := by
  have hstep : (fun (g : Vec F s .i32) (k : Fin (d 0)) =>
        let x := Shape.ofLane (d := d) k
        if (fun _ => 1#1 : IVec ⟨1, d⟩ 1) x = 1 then
          let i := idxAt idxs h x
          let y' := if false then Elt.idxAdd (F := F) .i32 (g i) (broadcast ⟨1, d⟩ y x)
                    else broadcast ⟨1, d⟩ y x
          fun j => if (∀ a, (j a).val = (i a).val) then y' else g j
        else g) = storeConstStep (F := F) idxs y := by
    funext g k
    simp only [broadcast, idxAt, Bool.false_eq_true, if_false]
    refine (if_pos ?_).trans ?_
    · rfl
    · rfl
  unfold storeIdx
  rw [hstep, foldl_storeConstStep]
  funext j
  by_cases h1 : ∃ x : (⟨1, d⟩ : Shape).Idx, ∀ a, (j a).val = (idxs a x).toNat
  · have h2 : ∃ k ∈ List.finRange (d 0), ∀ a, (j a).val = (idxs a (Shape.ofLane k)).toNat := by
      obtain ⟨x, hx⟩ := h1
      exact ⟨x 0, List.mem_finRange _, by rw [Shape.ofLane_coord]; exact hx⟩
    rw [if_pos h1, if_pos h2]
  · have h2 : ¬ ∃ k ∈ List.finRange (d 0), ∀ a, (j a).val = (idxs a (Shape.ofLane k)).toNat := by
      rintro ⟨k, _, hk⟩
      exact h1 ⟨Shape.ofLane k, hk⟩
    rw [if_neg h1, if_neg h2]

end LibStoreIdx

end Idealize.ShloMosaic
-- ==== Proof.TileOps.lean ====
/-
  One worker's own storage — five scratch buffers and five transfer semaphores among the subcore's own — and the two
  data-dependent operations on a staging buffer: a scatter of one word `y` (an element some lane names ends at `y`,
  every other element stays) and a gather out of the loaded codes (lane `x` reads the element the index vectors name).
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.KernelIdeal
import proofs.«204306_g82583631167916_cont_9to1c4b_486_26_alg».proof.Proof.Gen.KernelIdeal.Skeleton
import proofs.«204306_g82583631167916_cont_9to1c4b_486_26_alg».proof.Proof.Spec
import proofs.«204306_g82583631167916_cont_9to1c4b_486_26_alg».proof.Proof.Setup
import proofs.«204306_g82583631167916_cont_9to1c4b_486_26_alg».proof.Proof.LibStoreIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xtW" => (Memref.whole Cert.KernelIdeal.main_v0_scv : Memref Cert.KernelIdeal.sig Kind.scVector Space.hbm Cert.KernelIdeal.S50x4096 EltTy.i32)
local notation "blW" => (Memref.whole Cert.KernelIdeal.main_c_scv : Memref Cert.KernelIdeal.sig Kind.scVector Space.hbm Cert.KernelIdeal.S128 EltTy.i32)
local notation "wzW" => (Memref.whole Cert.KernelIdeal.main_c_0_scv : Memref Cert.KernelIdeal.sig Kind.scVector Space.hbm Cert.KernelIdeal.S16 EltTy.i32)
local notation "outW" => (Memref.whole Cert.KernelIdeal.main_v1_scv : Memref Cert.KernelIdeal.sig Kind.scVector Space.hbm Cert.KernelIdeal.S50x4096x256 EltTy.i32)
local notation "codesW" => (Memref.whole Cert.KernelIdeal.cc0_scratch0 : Memref Cert.KernelIdeal.sig Kind.scVector Space.vmem Cert.KernelIdeal.S50x128 EltTy.i32)
local notation "blV" => (Memref.whole Cert.KernelIdeal.cc0_scratch1 : Memref Cert.KernelIdeal.sig Kind.scVector Space.vmem Cert.KernelIdeal.S128 EltTy.i32)
local notation "wzV" => (Memref.whole Cert.KernelIdeal.cc0_scratch2 : Memref Cert.KernelIdeal.sig Kind.scVector Space.vmem Cert.KernelIdeal.S16 EltTy.i32)
local notation "buf0" => (Memref.whole Cert.KernelIdeal.cc0_scratch3 : Memref Cert.KernelIdeal.sig Kind.scVector Space.vmem Cert.KernelIdeal.S128x256 EltTy.i32)
local notation "buf1" => (Memref.whole Cert.KernelIdeal.cc0_scratch4 : Memref Cert.KernelIdeal.sig Kind.scVector Space.vmem Cert.KernelIdeal.S128x256 EltTy.i32)

variable [FloatOps F]

section Tile

variable (d : Dev nD) (L : grid0.Coords)

abbrev thr (d : Dev nD) (L : grid0.Coords) : Thread nD τ := V d (cV L) (jV L)

abbrev cS5 (d : Dev nD) (L : grid0.Coords) : GSem nD τ sig := (thr d L, .dma cc0_scratch5.sem)
abbrev cS6 (d : Dev nD) (L : grid0.Coords) : GSem nD τ sig := (thr d L, .dma cc0_scratch6.sem)
abbrev cR0 (d : Dev nD) (L : grid0.Coords) : GSem nD τ sig := (thr d L, .dma cc0_scoped0.sem)
abbrev cR1 (d : Dev nD) (L : grid0.Coords) : GSem nD τ sig := (thr d L, .dma cc0_scoped1.sem)
abbrev cR2 (d : Dev nD) (L : grid0.Coords) : GSem nD τ sig := (thr d L, .dma cc0_scoped2.sem)

omit [FloatOps F] in
theorem dma_ne {a b : DmaSem sig} (h : a ≠ b) : ((thr d L, SemLoc.dma a) : GSem nD τ sig) ≠ (thr d L, SemLoc.dma b) :=
  fun e => h (SemLoc.dma.inj (Prod.mk.inj e).2)

omit [FloatOps F] in
theorem mem_own (a : DmaSem sig) : ((thr d L, SemLoc.dma a) : GSem nD τ sig) ∈ ownCells (thr d L) :=
  (mem_ownCells (g := (thr d L, SemLoc.dma a))).mpr ⟨rfl, by show (SemLoc.dma a : SemLoc sig).isScoped .scVector = true; rfl⟩

omit [FloatOps F] in
/-- The worker's five transfer semaphores are among its own cells: they, at zero, and the rest. -/
theorem ownSems0_V :
    (ownSems0 (thr d L) : sProp 𝕄)
      = iprop(semVal (cS5 d L) 0 ∗ semVal (cS6 d L) 0 ∗ semVal (cR0 d L) 0 ∗ semVal (cR1 d L) 0 ∗ semVal (cR2 d L) 0
          ∗ bigSep ((((((ownCells (thr d L)).erase (cS5 d L)).erase (cS6 d L)).erase (cR0 d L)).erase (cR1 d L)).erase (cR2 d L))
              fun g => semVal g 0) := by
  unfold SparseCore.Cfg.ownSems0
  rw [SparseCore.bigSep_erase' (mem_own d L cc0_scratch5.sem),
    SparseCore.bigSep_erase' (Finset.mem_erase.mpr ⟨dma_ne d L (show (cc0_scratch6.sem : DmaSem sig) ≠ cc0_scratch5.sem by decide), mem_own d L cc0_scratch6.sem⟩),
    SparseCore.bigSep_erase' (Finset.mem_erase.mpr ⟨dma_ne d L (show (cc0_scoped0.sem : DmaSem sig) ≠ cc0_scratch6.sem by decide), Finset.mem_erase.mpr ⟨dma_ne d L (show (cc0_scoped0.sem : DmaSem sig) ≠ cc0_scratch5.sem by decide), mem_own d L cc0_scoped0.sem⟩⟩),
    SparseCore.bigSep_erase' (Finset.mem_erase.mpr ⟨dma_ne d L (show (cc0_scoped1.sem : DmaSem sig) ≠ cc0_scoped0.sem by decide), Finset.mem_erase.mpr ⟨dma_ne d L (show (cc0_scoped1.sem : DmaSem sig) ≠ cc0_scratch6.sem by decide), Finset.mem_erase.mpr ⟨dma_ne d L (show (cc0_scoped1.sem : DmaSem sig) ≠ cc0_scratch5.sem by decide), mem_own d L cc0_scoped1.sem⟩⟩⟩),
    SparseCore.bigSep_erase' (Finset.mem_erase.mpr ⟨dma_ne d L (show (cc0_scoped2.sem : DmaSem sig) ≠ cc0_scoped1.sem by decide), Finset.mem_erase.mpr ⟨dma_ne d L (show (cc0_scoped2.sem : DmaSem sig) ≠ cc0_scoped0.sem by decide), Finset.mem_erase.mpr ⟨dma_ne d L (show (cc0_scoped2.sem : DmaSem sig) ≠ cc0_scratch6.sem by decide), Finset.mem_erase.mpr ⟨dma_ne d L (show (cc0_scoped2.sem : DmaSem sig) ≠ cc0_scratch5.sem by decide), mem_own d L cc0_scoped2.sem⟩⟩⟩⟩)]

abbrev pR (d : Dev nD) (L : grid0.Coords) (b : Ref sig .scVector) : DevRef τ sig := (Proc.scVector (cV L) (jV L)).devRef b

omit [FloatOps F] in
theorem ref_ne {a b : Ref sig .scVector} (h : a ≠ b) : pR d L a ≠ pR d L b := fun e => h (Proc.devRef_injective _ e)
omit [FloatOps F] in
theorem mem_ownR (b : Ref sig .scVector) (hb : b.1 = .vmem := by rfl) : pR d L b ∈ ownRefs (τ := τ) (sig := sig) (.scVector (cV L) (jV L)) := by
  obtain ⟨sp, ix, h⟩ := b
  cases hb
  exact SparseCore.Cfg.mem_ownRefs_of_owner (p := Proc.scVector (cV L) (jV L)) (b := pR d L ⟨.vmem, ix, h⟩) rfl

omit [FloatOps F] in
/-- The five scratch buffers are among the worker's own: they, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase (pR d L cc0_scratch0)).erase (pR d L cc0_scratch1)).erase (pR d L cc0_scratch2)).erase
              (pR d L cc0_scratch3)).erase (pR d L cc0_scratch4))
              fun b => iprop(∃ f, ((d, b) : Loc nD τ sig) ↦{fullShare} f)) := by
  unfold SparseCore.Cfg.ownBufs
  refine (SparseCore.bigSep_erase' (mem_ownR d L cc0_scratch0)).trans ?_
  rw [SparseCore.bigSep_erase' (Finset.mem_erase.mpr ⟨ref_ne d L (show (cc0_scratch1 : Ref sig .scVector) ≠ cc0_scratch0 by decide), mem_ownR d L cc0_scratch1⟩),
    SparseCore.bigSep_erase' (Finset.mem_erase.mpr ⟨ref_ne d L (show (cc0_scratch2 : Ref sig .scVector) ≠ cc0_scratch1 by decide), Finset.mem_erase.mpr ⟨ref_ne d L (show (cc0_scratch2 : Ref sig .scVector) ≠ cc0_scratch0 by decide), mem_ownR d L cc0_scratch2⟩⟩),
    SparseCore.bigSep_erase' (Finset.mem_erase.mpr ⟨ref_ne d L (show (cc0_scratch3 : Ref sig .scVector) ≠ cc0_scratch2 by decide), Finset.mem_erase.mpr ⟨ref_ne d L (show (cc0_scratch3 : Ref sig .scVector) ≠ cc0_scratch1 by decide), Finset.mem_erase.mpr ⟨ref_ne d L (show (cc0_scratch3 : Ref sig .scVector) ≠ cc0_scratch0 by decide), mem_ownR d L cc0_scratch3⟩⟩⟩),
    SparseCore.bigSep_erase' (Finset.mem_erase.mpr ⟨ref_ne d L (show (cc0_scratch4 : Ref sig .scVector) ≠ cc0_scratch3 by decide), Finset.mem_erase.mpr ⟨ref_ne d L (show (cc0_scratch4 : Ref sig .scVector) ≠ cc0_scratch2 by decide), Finset.mem_erase.mpr ⟨ref_ne d L (show (cc0_scratch4 : Ref sig .scVector) ≠ cc0_scratch1 by decide), Finset.mem_erase.mpr ⟨ref_ne d L (show (cc0_scratch4 : Ref sig .scVector) ≠ cc0_scratch0 by decide), mem_ownR d L cc0_scratch4⟩⟩⟩⟩)]

omit [FloatOps F] in
theorem pts_bl (q : PosShare TreeShare) (f : Buf (Elt F) (blLoc d)) :
    ((blW).view.loc (thr d L) ↦{q} f : sProp 𝕄) = blLoc d ↦{q} f := by
  simp only [Memref.view_whole, View.set_whole]
omit [FloatOps F] in
theorem pts_wz (q : PosShare TreeShare) (f : Buf (Elt F) (wzLoc d)) :
    ((wzW).view.loc (thr d L) ↦{q} f : sProp 𝕄) = wzLoc d ↦{q} f := by
  simp only [Memref.view_whole, View.set_whole]
omit [FloatOps F] in
theorem pts_xt (q : PosShare TreeShare) (f : Buf (Elt F) (xtLoc d)) :
    ((xtW).view.loc (thr d L) ↦{q} f : sProp 𝕄) = xtLoc d ↦{q} f := by
  simp only [Memref.view_whole, View.set_whole]
omit [FloatOps F] in
theorem pts_codes (f : Buf (Elt F) ((thr d L).loc cc0_scratch0)) :
    ((codesW).view.loc (thr d L) ↦{fullShare} f : sProp 𝕄) = (thr d L).loc cc0_scratch0 ↦{fullShare} f := rfl
omit [FloatOps F] in
theorem pts_blV (f : Buf (Elt F) ((thr d L).loc cc0_scratch1)) :
    ((blV).view.loc (thr d L) ↦{fullShare} f : sProp 𝕄) = (thr d L).loc cc0_scratch1 ↦{fullShare} f := rfl
omit [FloatOps F] in
theorem pts_wzV (f : Buf (Elt F) ((thr d L).loc cc0_scratch2)) :
    ((wzV).view.loc (thr d L) ↦{fullShare} f : sProp 𝕄) = (thr d L).loc cc0_scratch2 ↦{fullShare} f := rfl
omit [FloatOps F] in
theorem pts_buf0 (f : Buf (Elt F) ((thr d L).loc cc0_scratch3)) :
    ((buf0).view.loc (thr d L) ↦{fullShare} f : sProp 𝕄) = (thr d L).loc cc0_scratch3 ↦{fullShare} f := rfl
omit [FloatOps F] in
theorem pts_buf1 (f : Buf (Elt F) ((thr d L).loc cc0_scratch4)) :
    ((buf1).view.loc (thr d L) ↦{fullShare} f : sProp 𝕄) = (thr d L).loc cc0_scratch4 ↦{fullShare} f := rfl

/-- What a scatter of the one word `y` leaves: an element some lane names ends at `y`, the others stay. -/
abbrev hit (idxs : Fin 2 → IVec S16 32) (y : BitVec 32) (f : S128x256.Idx → BitVec 32) : S128x256.Idx → BitVec 32 :=
  fun j => if ∃ x : S16.Idx, ∀ a, (j a).val = (idxs a x).toNat then y else f j

omit [FloatOps F] in
/-- A conditional does not depend on how its condition is decided. -/
private theorem ite_inst {α : Type} {p : Prop} (i1 i2 : Decidable p) (a b : α) : @ite α p i1 a b = @ite α p i2 a b := by
  rw [Subsingleton.elim i1 i2]

/-- The scatter of one word, as the lane-by-lane fold computes it, is `hit`: whichever way the two are decided. -/
private theorem storeIdx_hit (idxs : Fin 2 → IVec S16 32) (y : BitVec 32) (h : ∀ a x, (idxs a x).toNat < S128x256.size a) (f : S128x256.Idx → BitVec 32) :
    storeIdx (F := F) (s := S128x256) (e := .i32) f idxs (broadcast S16 y) (fun _ => 1#1) false h = hit idxs y f :=
  (storeIdx_const (F := F) f idxs y h).trans (funext fun _ => ite_inst _ _ _ _)

/-- A scatter of one word into the first staging buffer. -/
theorem wp_vstore0 {α : Type} {Q : α → sProp 𝕄} {idxs : Fin 2 → IVec S16 32} (y : BitVec 32) {v : Vec F S16 .i32} (hv : v = broadcast S16 y)
    {h : ∀ a x, (idxs a x).toNat < S128x256.size a} {hs : ((buf0).access (Rect.whole S128x256)).Stores Finset.univ}
    {k : PUnit → Prog (TpuEff nD τ sig (Elt F) Λ₀ (thr d L).2) α} {f : Buf (Elt F) ((buf0).view.loc (thr d L))} :
    ((buf0).view.loc (thr d L) ↦{fullShare} f : sProp 𝕄)
      ⊢ iprop((((buf0).view.loc (thr d L) ↦{fullShare} hit idxs y f)
            -∗ wp frame (wpE (defs₀ (F := F)) 𝒱₀ (thr d L) none) Set.univ (k ⟨⟩) Q)
        -∗ wp frame (wpE (defs₀ (F := F)) 𝒱₀ (thr d L) none) Set.univ (SparseCore.vectorStoreIdx (buf0) idxs v (fun _ => 1#1) false h hs >>= k) Q) := by
  subst hv
  have key := SparseCore.wp_vectorStoreIdx (defs := defs₀ (F := F)) 𝒱₀ (thr d L) none Set.univ (Q := Q) (base := buf0) (idxs := idxs)
    (v := broadcast S16 y) (mask := fun _ => 1#1) (add := false) (h := h) (hs := hs) (k := k) (f := f)
  -- the whole-rectangle access goes through every element, reads the buffer as it stands and writes the payload
  have eS := Memref.set_access_whole (sig := sig) (κ := .scVector) cc0_scratch3
  refine (Entails.of_eq ?_).trans (key.trans (Entails.of_eq ?_))
  · exact congrArg (fun S => ((buf0).view.loc (thr d L) ↦[S]{fullShare} f : sProp 𝕄)) eS.symm
  · refine congrArg (fun X : sProp 𝕄 => iprop((X -∗ _) -∗ _)) ?_
    refine (congrArg (fun S => ((buf0).view.loc (thr d L) ↦[S]{fullShare} _ : sProp 𝕄)) eS).trans
      (congrArg (fun g => ((buf0).view.loc (thr d L) ↦{fullShare} g : sProp 𝕄)) ?_)
    refine (Memref.write_access_whole_univ (Elt F) cc0_scratch3 f _).trans ?_
    refine (congrArg (fun g => storeIdx (F := F) (s := S128x256) (e := .i32) g idxs (broadcast S16 y) (fun _ => 1#1) false h)
      (Memref.read_access_whole (Elt F) cc0_scratch3 f)).trans ?_
    exact storeIdx_hit (F := F) idxs y h f

/-- A scatter of one word into the second staging buffer. -/
theorem wp_vstore1 {α : Type} {Q : α → sProp 𝕄} {idxs : Fin 2 → IVec S16 32} (y : BitVec 32) {v : Vec F S16 .i32} (hv : v = broadcast S16 y)
    {h : ∀ a x, (idxs a x).toNat < S128x256.size a} {hs : ((buf1).access (Rect.whole S128x256)).Stores Finset.univ}
    {k : PUnit → Prog (TpuEff nD τ sig (Elt F) Λ₀ (thr d L).2) α} {f : Buf (Elt F) ((buf1).view.loc (thr d L))} :
    ((buf1).view.loc (thr d L) ↦{fullShare} f : sProp 𝕄)
      ⊢ iprop((((buf1).view.loc (thr d L) ↦{fullShare} hit idxs y f)
            -∗ wp frame (wpE (defs₀ (F := F)) 𝒱₀ (thr d L) none) Set.univ (k ⟨⟩) Q)
        -∗ wp frame (wpE (defs₀ (F := F)) 𝒱₀ (thr d L) none) Set.univ (SparseCore.vectorStoreIdx (buf1) idxs v (fun _ => 1#1) false h hs >>= k) Q) := by
  subst hv
  have key := SparseCore.wp_vectorStoreIdx (defs := defs₀ (F := F)) 𝒱₀ (thr d L) none Set.univ (Q := Q) (base := buf1) (idxs := idxs)
    (v := broadcast S16 y) (mask := fun _ => 1#1) (add := false) (h := h) (hs := hs) (k := k) (f := f)
  -- the whole-rectangle access goes through every element, reads the buffer as it stands and writes the payload
  have eS := Memref.set_access_whole (sig := sig) (κ := .scVector) cc0_scratch4
  refine (Entails.of_eq ?_).trans (key.trans (Entails.of_eq ?_))
  · exact congrArg (fun S => ((buf1).view.loc (thr d L) ↦[S]{fullShare} f : sProp 𝕄)) eS.symm
  · refine congrArg (fun X : sProp 𝕄 => iprop((X -∗ _) -∗ _)) ?_
    refine (congrArg (fun S => ((buf1).view.loc (thr d L) ↦[S]{fullShare} _ : sProp 𝕄)) eS).trans
      (congrArg (fun g => ((buf1).view.loc (thr d L) ↦{fullShare} g : sProp 𝕄)) ?_)
    refine (Memref.write_access_whole_univ (Elt F) cc0_scratch4 f _).trans ?_
    refine (congrArg (fun g => storeIdx (F := F) (s := S128x256) (e := .i32) g idxs (broadcast S16 y) (fun _ => 1#1) false h)
      (Memref.read_access_whole (Elt F) cc0_scratch4 f)).trans ?_
    exact storeIdx_hit (F := F) idxs y h f

/-- A gather out of the loaded codes: lane `x` reads the element the two index vectors name for it. -/
theorem wp_vgather {α : Type} {Q : α → sProp 𝕄} {idxs : Fin 2 → IVec S16 32}
    {h : ∀ a x, (idxs a x).toNat < S50x128.size a} {hl : (codesW).view.Loads}
    {k : Vec F S16 .i32 → Prog (TpuEff nD τ sig (Elt F) Λ₀ (thr d L).2) α} {f : Buf (Elt F) ((codesW).view.loc (thr d L))} :
    ((codesW).view.loc (thr d L) ↦{fullShare} f : sProp 𝕄)
      ⊢ iprop((((codesW).view.loc (thr d L) ↦{fullShare} f)
            -∗ wp frame (wpE (defs₀ (F := F)) 𝒱₀ (thr d L) none) Set.univ (k (fun x : S16.Idx => f (idxAt idxs h x))) Q)
        -∗ wp frame (wpE (defs₀ (F := F)) 𝒱₀ (thr d L) none) Set.univ (SparseCore.vectorLoadIdx (codesW) idxs h hl >>= k) Q) := by
  have key := SparseCore.wp_vectorLoadIdx (defs := defs₀ (F := F)) 𝒱₀ (thr d L) none Set.univ (Q := Q) (base := codesW) (idxs := idxs)
    (h := h) (hl := hl) (k := k) (S := Finset.univ) (q := fullShare) (f := f) (Finset.subset_univ _)
  refine key.trans (Entails.of_eq ?_)
  -- the whole-rectangle access reads the buffer as it stands; the gather of it is the element each lane's two words name
  refine congrArg (fun g => iprop((((codesW).view.loc (thr d L) ↦{fullShare} f)
    -∗ wp frame (wpE (defs₀ (F := F)) 𝒱₀ (thr d L) none) Set.univ (k g) Q) -∗ _)) ?_
  exact (congrArg (fun g => loadIdx (F := F) (s := S50x128) (e := .i32) g idxs h) (Memref.read_access_whole (Elt F) cc0_scratch0 f)).trans
    (funext fun _ => rfl)

end Tile

end Cert.Proof.KI

end
-- ==== Proof.ZeroFill.lean ====
/-
  One trip of the zero-filling loop, as a fact about a list of writes.
  Trip `t` stores sixteen sixteen-lane zero vectors across row `t` of a `[128, 256]` buffer, at
  columns `0, 16, …, 240`. The sixteen rectangles tile row `t` and touch no other row, and every
  payload is zero; so if the rows below `t` held zero before the trip, the rows below `t + 1`
  hold zero after it.
-/
import proofs.«204306_g82583631167916_cont_9to1c4b_486_26_alg».proof.Proof.Gen.KernelIdeal
import proofs.«204306_g82583631167916_cont_9to1c4b_486_26_alg».proof.Proof.Gen.KernelIdeal.Skeleton
import Idealize.ShloMosaic.Lib.Writes

noncomputable section

namespace Cert.ZeroFill

open Cert.KernelIdeal Cert.KernelIdeal.Gen Idealize.ShloMosaic

/-- The sixteen stores of trip `t`, the last store first: sixteen-lane zero vectors at columns
    `240, 224, …, 16, 0` of row `t`. -/
abbrev zpieces {F : FTy → Type} [FloatOps F] (t : Fin k0_t1_loop.trips) : List (View.Piece (Elt F) S128x256 .i32) :=
  [⟨Rect.unit (s := S128x256) (k0_off17 t) S1x16.size (k0_off17_inb t), shapeCast S1x16 k0_pay1 shapeCasts_S16_S1x16⟩,
   ⟨Rect.unit (s := S128x256) (k0_off16 t) S1x16.size (k0_off16_inb t), shapeCast S1x16 k0_pay1 shapeCasts_S16_S1x16⟩,
   ⟨Rect.unit (s := S128x256) (k0_off15 t) S1x16.size (k0_off15_inb t), shapeCast S1x16 k0_pay1 shapeCasts_S16_S1x16⟩,
   ⟨Rect.unit (s := S128x256) (k0_off14 t) S1x16.size (k0_off14_inb t), shapeCast S1x16 k0_pay1 shapeCasts_S16_S1x16⟩,
   ⟨Rect.unit (s := S128x256) (k0_off13 t) S1x16.size (k0_off13_inb t), shapeCast S1x16 k0_pay1 shapeCasts_S16_S1x16⟩,
   ⟨Rect.unit (s := S128x256) (k0_off12 t) S1x16.size (k0_off12_inb t), shapeCast S1x16 k0_pay1 shapeCasts_S16_S1x16⟩,
   ⟨Rect.unit (s := S128x256) (k0_off11 t) S1x16.size (k0_off11_inb t), shapeCast S1x16 k0_pay1 shapeCasts_S16_S1x16⟩,
   ⟨Rect.unit (s := S128x256) (k0_off10 t) S1x16.size (k0_off10_inb t), shapeCast S1x16 k0_pay1 shapeCasts_S16_S1x16⟩,
   ⟨Rect.unit (s := S128x256) (k0_off9 t) S1x16.size (k0_off9_inb t), shapeCast S1x16 k0_pay1 shapeCasts_S16_S1x16⟩,
   ⟨Rect.unit (s := S128x256) (k0_off8 t) S1x16.size (k0_off8_inb t), shapeCast S1x16 k0_pay1 shapeCasts_S16_S1x16⟩,
   ⟨Rect.unit (s := S128x256) (k0_off7 t) S1x16.size (k0_off7_inb t), shapeCast S1x16 k0_pay1 shapeCasts_S16_S1x16⟩,
   ⟨Rect.unit (s := S128x256) (k0_off6 t) S1x16.size (k0_off6_inb t), shapeCast S1x16 k0_pay1 shapeCasts_S16_S1x16⟩,
   ⟨Rect.unit (s := S128x256) (k0_off5 t) S1x16.size (k0_off5_inb t), shapeCast S1x16 k0_pay1 shapeCasts_S16_S1x16⟩,
   ⟨Rect.unit (s := S128x256) (k0_off4 t) S1x16.size (k0_off4_inb t), shapeCast S1x16 k0_pay1 shapeCasts_S16_S1x16⟩,
   ⟨Rect.unit (s := S128x256) (k0_off3 t) S1x16.size (k0_off3_inb t), shapeCast S1x16 k0_pay1 shapeCasts_S16_S1x16⟩,
   ⟨Rect.unit (s := S128x256) (k0_off2 t) S1x16.size (k0_off2_inb t), shapeCast S1x16 k0_pay1 shapeCasts_S16_S1x16⟩]

variable {F : FTy → Type} [FloatOps F]

/-- Membership in a one-row, sixteen-column rectangle at offset `(r, c)`: the row is `r` and the
    column lies in `[c, c + 16)`. -/
theorem mem_unit_row (off : Fin 2 → Nat) (inb : ∀ a, off a + S1x16.size a ≤ S128x256.size a) (r c : Nat)
    (hoff : off = ![r, c]) (j : S128x256.Idx) :
    j ∈ (Rect.unit (s := S128x256) off S1x16.size inb).set ↔ (j 0).val = r ∧ c ≤ (j 1).val ∧ (j 1).val < c + 16 := by
  subst hoff
  rw [Rect.mem_set_unit, Fin.forall_fin_two]
  show (r ≤ (j 0).val ∧ (j 0).val < r + 1) ∧ (c ≤ (j 1).val ∧ (j 1).val < c + 16) ↔ _
  omega

/-- Every piece's payload is the zero vector. -/
theorem zpieces_pay (t : Fin k0_t1_loop.trips) :
    ∀ p ∈ zpieces (F := F) t, ∀ x : p.1.shape.Idx, p.2 x = (fun _ : S128x256.Idx => (0#32 : Elt F .i32)) (p.1.emb x) := by
  intro p hp
  simp only [List.mem_cons, List.not_mem_nil, or_false] at hp
  rcases hp with rfl | rfl | rfl | rfl | rfl | rfl | rfl | rfl | rfl | rfl | rfl | rfl | rfl | rfl | rfl | rfl
  all_goals exact fun _ => rfl

/-- Every piece lies in row `t`. -/
theorem zpieces_row (t : Fin k0_t1_loop.trips) :
    ∀ p ∈ zpieces (F := F) t, ∀ j : S128x256.Idx, j ∈ p.1.set → (j 0).val = t.val := by
  intro p hp
  simp only [List.mem_cons, List.not_mem_nil, or_false] at hp
  rcases hp with rfl | rfl | rfl | rfl | rfl | rfl | rfl | rfl | rfl | rfl | rfl | rfl | rfl | rfl | rfl | rfl
  · exact fun j h => ((mem_unit_row _ (k0_off17_inb t) _ _ (k0_off17_eq t) j).1 h).1
  · exact fun j h => ((mem_unit_row _ (k0_off16_inb t) _ _ (k0_off16_eq t) j).1 h).1
  · exact fun j h => ((mem_unit_row _ (k0_off15_inb t) _ _ (k0_off15_eq t) j).1 h).1
  · exact fun j h => ((mem_unit_row _ (k0_off14_inb t) _ _ (k0_off14_eq t) j).1 h).1
  · exact fun j h => ((mem_unit_row _ (k0_off13_inb t) _ _ (k0_off13_eq t) j).1 h).1
  · exact fun j h => ((mem_unit_row _ (k0_off12_inb t) _ _ (k0_off12_eq t) j).1 h).1
  · exact fun j h => ((mem_unit_row _ (k0_off11_inb t) _ _ (k0_off11_eq t) j).1 h).1
  · exact fun j h => ((mem_unit_row _ (k0_off10_inb t) _ _ (k0_off10_eq t) j).1 h).1
  · exact fun j h => ((mem_unit_row _ (k0_off9_inb t) _ _ (k0_off9_eq t) j).1 h).1
  · exact fun j h => ((mem_unit_row _ (k0_off8_inb t) _ _ (k0_off8_eq t) j).1 h).1
  · exact fun j h => ((mem_unit_row _ (k0_off7_inb t) _ _ (k0_off7_eq t) j).1 h).1
  · exact fun j h => ((mem_unit_row _ (k0_off6_inb t) _ _ (k0_off6_eq t) j).1 h).1
  · exact fun j h => ((mem_unit_row _ (k0_off5_inb t) _ _ (k0_off5_eq t) j).1 h).1
  · exact fun j h => ((mem_unit_row _ (k0_off4_inb t) _ _ (k0_off4_eq t) j).1 h).1
  · exact fun j h => ((mem_unit_row _ (k0_off3_inb t) _ _ (k0_off3_eq t) j).1 h).1
  · exact fun j h => ((mem_unit_row _ (k0_off2_inb t) _ _ (k0_off2_eq t) j).1 h).1

/-- The sixteen pieces tile row `t`: the element at column `c` lies in the piece at column `16 * (c / 16)`. -/
theorem zpieces_cover (t : Fin k0_t1_loop.trips) (j : S128x256.Idx) (hj : (j 0).val = t.val) :
    ∃ p ∈ zpieces (F := F) t, j ∈ p.1.set := by
  have h1 : (j 1).val < 256 := (j 1).isLt
  have hc : (j 1).val < 16 ∨
      (16 ≤ (j 1).val ∧ (j 1).val < 32) ∨
      (32 ≤ (j 1).val ∧ (j 1).val < 48) ∨
      (48 ≤ (j 1).val ∧ (j 1).val < 64) ∨
      (64 ≤ (j 1).val ∧ (j 1).val < 80) ∨
      (80 ≤ (j 1).val ∧ (j 1).val < 96) ∨
      (96 ≤ (j 1).val ∧ (j 1).val < 112) ∨
      (112 ≤ (j 1).val ∧ (j 1).val < 128) ∨
      (128 ≤ (j 1).val ∧ (j 1).val < 144) ∨
      (144 ≤ (j 1).val ∧ (j 1).val < 160) ∨
      (160 ≤ (j 1).val ∧ (j 1).val < 176) ∨
      (176 ≤ (j 1).val ∧ (j 1).val < 192) ∨
      (192 ≤ (j 1).val ∧ (j 1).val < 208) ∨
      (208 ≤ (j 1).val ∧ (j 1).val < 224) ∨
      (224 ≤ (j 1).val ∧ (j 1).val < 240) ∨
      (240 ≤ (j 1).val ∧ (j 1).val < 256) := by omega
  rcases hc with h | h | h | h | h | h | h | h | h | h | h | h | h | h | h | h
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), (mem_unit_row _ (k0_off2_inb t) _ _ (k0_off2_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), (mem_unit_row _ (k0_off3_inb t) _ _ (k0_off3_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (mem_unit_row _ (k0_off4_inb t) _ _ (k0_off4_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (mem_unit_row _ (k0_off5_inb t) _ _ (k0_off5_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (mem_unit_row _ (k0_off6_inb t) _ _ (k0_off6_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (mem_unit_row _ (k0_off7_inb t) _ _ (k0_off7_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (mem_unit_row _ (k0_off8_inb t) _ _ (k0_off8_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (mem_unit_row _ (k0_off9_inb t) _ _ (k0_off9_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), (mem_unit_row _ (k0_off10_inb t) _ _ (k0_off10_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_self))))))), (mem_unit_row _ (k0_off11_inb t) _ _ (k0_off11_eq t) j).2 ⟨hj, by omega, by omega⟩⟩
  · exact ⟨_, (List.mem_cons_of_mem _ (List.mem_cons_of_mem _ (List.mem_cons_of_mem _ (List.mem_cons_of_mem _ (List.mem_cons_of_mem _ (List.mem_cons_self)))))), (mem_unit_row _ (k0_off12_inb t) _ _ (k0_off12_eq t) j).2 ⟨hj, by omega, by omega⟩⟩
  · exact ⟨_, (List.mem_cons_of_mem _ (List.mem_cons_of_mem _ (List.mem_cons_of_mem _ (List.mem_cons_of_mem _ (List.mem_cons_self))))), (mem_unit_row _ (k0_off13_inb t) _ _ (k0_off13_eq t) j).2 ⟨hj, by omega, by omega⟩⟩
  · exact ⟨_, (List.mem_cons_of_mem _ (List.mem_cons_of_mem _ (List.mem_cons_of_mem _ (List.mem_cons_self)))), (mem_unit_row _ (k0_off14_inb t) _ _ (k0_off14_eq t) j).2 ⟨hj, by omega, by omega⟩⟩
  · exact ⟨_, (List.mem_cons_of_mem _ (List.mem_cons_of_mem _ (List.mem_cons_self))), (mem_unit_row _ (k0_off15_inb t) _ _ (k0_off15_eq t) j).2 ⟨hj, by omega, by omega⟩⟩
  · exact ⟨_, (List.mem_cons_of_mem _ (List.mem_cons_self)), (mem_unit_row _ (k0_off16_inb t) _ _ (k0_off16_eq t) j).2 ⟨hj, by omega, by omega⟩⟩
  · exact ⟨_, (List.mem_cons_self), (mem_unit_row _ (k0_off17_inb t) _ _ (k0_off17_eq t) j).2 ⟨hj, by omega, by omega⟩⟩

/-- Through any view of the `[128, 256]` shape: if rows below `t` read zero before trip `t`'s stores,
    rows below `t + 1` read zero after them. -/
theorem read_zero_fill {sig : RefSig} {κ : Kind} {sp : Space} (v : View sig κ sp S128x256 .i32)
    (f : v.ty.Contents (Elt F)) (t : Fin k0_t1_loop.trips)
    (hz : ∀ j : S128x256.Idx, (j 0).val < t.val → v.read (Elt F) f j = 0#32) :
    ∀ j : S128x256.Idx, (j 0).val < t.val + 1 → v.read (Elt F) (v.writes (Elt F) f (zpieces t)) j = 0#32 := by
  intro j hj
  by_cases h : (j 0).val = t.val
  · exact View.read_writes_apply_of_pieces v f (fun _ => (0#32 : Elt F .i32)) (zpieces t) (zpieces_pay t) j
      (zpieces_cover t j h)
  · rw [View.read_writes_apply_of_forall_not_mem v f j (zpieces t) (fun p hp hm => h (zpieces_row t p hp j hm))]
    exact hz j (by omega)

/-- The first staging buffer after trip `t` of the zero-filling loop. -/
theorem zero_fill3 (t : Fin k0_t1_loop.trips) (g : (⟨S128x256, .i32⟩ : BufTy).Contents (Elt F))
    (hz : ∀ j : S128x256.Idx, (j 0).val < t.val → g j = 0#32) :
    ∀ j : S128x256.Idx, (j 0).val < t.val + 1 →
      ((Memref.whole cc0_scratch3).view.writes (Elt F) g (zpieces t)) j = 0#32 :=
  read_zero_fill (Memref.whole cc0_scratch3).view g t hz

/-- The second staging buffer after trip `t` of the zero-filling loop. -/
theorem zero_fill4 (t : Fin k0_t1_loop.trips) (g : (⟨S128x256, .i32⟩ : BufTy).Contents (Elt F))
    (hz : ∀ j : S128x256.Idx, (j 0).val < t.val → g j = 0#32) :
    ∀ j : S128x256.Idx, (j 0).val < t.val + 1 →
      ((Memref.whole cc0_scratch4).view.writes (Elt F) g (zpieces t)) j = 0#32 :=
  read_zero_fill (Memref.whole cc0_scratch4).view g t hz

end Cert.ZeroFill
end
-- ==== Proof.LibFinRange.lean ====
/-
  Iterated separating conjunctions over the rows `Fin 50`, taken two rows at a time.
  The rows not yet visited after `k` double steps are `{r | 2 k ≤ r}`, the rows finished (with a lag
  of one double step) are `{r | r + 2 < 2 k}`. Each equality below is the underlying identity of
  finite sets — a set is its two smallest (or largest) rows inserted into the next (previous) set —
  read through the iterated conjunction, which turns an insertion of a new element into a
  separating conjunct.
-/
import Idealize.ShloMosaic.Lib.SparseCore.Cells

namespace Cert.FinRange

open Idealize.SL
open Idealize.SL.BI (sProp bigSep bigSep_empty)
open scoped Idealize.SL.BI
open Idealize.SL.BI.BIBase Idealize.SL.RA
open Idealize.ShloMosaic.SparseCore (bigSep_insert')

variable {M : Type} [URA M]

/-- The rows from `2 k` on are rows `2 k` and `2 k + 1` and the rows from `2 (k + 1)` on. -/
theorem fresh_step (Φ : Fin 50 → sProp M) (k : Nat) (hk : 2 * k + 1 < 50) :
    bigSep (Finset.univ.filter fun r : Fin 50 => 2 * k ≤ r.val) Φ
      = iprop(Φ ⟨2 * k, by omega⟩ ∗ Φ ⟨2 * k + 1, hk⟩
          ∗ bigSep (Finset.univ.filter fun r : Fin 50 => 2 * (k + 1) ≤ r.val) Φ) := by
  have hset : (Finset.univ.filter fun r : Fin 50 => 2 * k ≤ r.val)
      = insert (⟨2 * k, by omega⟩ : Fin 50) (insert (⟨2 * k + 1, hk⟩ : Fin 50)
          (Finset.univ.filter fun r : Fin 50 => 2 * (k + 1) ≤ r.val)) := by
    ext r
    simp only [Finset.mem_filter, Finset.mem_univ, true_and, Finset.mem_insert, Fin.ext_iff]
    omega
  have h1 : (⟨2 * k, by omega⟩ : Fin 50) ∉ insert (⟨2 * k + 1, hk⟩ : Fin 50)
      (Finset.univ.filter fun r : Fin 50 => 2 * (k + 1) ≤ r.val) := by
    simp only [Finset.mem_filter, Finset.mem_univ, true_and, Finset.mem_insert, Fin.ext_iff]
    omega
  have h2 : (⟨2 * k + 1, hk⟩ : Fin 50) ∉ (Finset.univ.filter fun r : Fin 50 => 2 * (k + 1) ≤ r.val) := by
    simp only [Finset.mem_filter, Finset.mem_univ, true_and]
    omega
  rw [hset, bigSep_insert' h1, bigSep_insert' h2]

/-- The rows below `2 k` are rows `2 k - 2` and `2 k - 1` and the rows below `2 k - 2`
    (`k` positive), each set written with the lag of two: `r + 2 < 2 (k + 1)` is `r < 2 k`. -/
theorem done_step (Φ : Fin 50 → sProp M) (k : Nat) (hk0 : 0 < k) (hk : 2 * k - 1 < 50) :
    bigSep (Finset.univ.filter fun r : Fin 50 => r.val + 2 < 2 * (k + 1)) Φ
      = iprop(Φ ⟨2 * k - 2, by omega⟩ ∗ Φ ⟨2 * k - 1, hk⟩
          ∗ bigSep (Finset.univ.filter fun r : Fin 50 => r.val + 2 < 2 * k) Φ) := by
  have hset : (Finset.univ.filter fun r : Fin 50 => r.val + 2 < 2 * (k + 1))
      = insert (⟨2 * k - 2, by omega⟩ : Fin 50) (insert (⟨2 * k - 1, hk⟩ : Fin 50)
          (Finset.univ.filter fun r : Fin 50 => r.val + 2 < 2 * k)) := by
    ext r
    simp only [Finset.mem_filter, Finset.mem_univ, true_and, Finset.mem_insert, Fin.ext_iff]
    omega
  have h1 : (⟨2 * k - 2, by omega⟩ : Fin 50) ∉ insert (⟨2 * k - 1, hk⟩ : Fin 50)
      (Finset.univ.filter fun r : Fin 50 => r.val + 2 < 2 * k) := by
    simp only [Finset.mem_filter, Finset.mem_univ, true_and, Finset.mem_insert, Fin.ext_iff]
    omega
  have h2 : (⟨2 * k - 1, hk⟩ : Fin 50) ∉ (Finset.univ.filter fun r : Fin 50 => r.val + 2 < 2 * k) := by
    simp only [Finset.mem_filter, Finset.mem_univ, true_and]
    omega
  rw [hset, bigSep_insert' h1, bigSep_insert' h2]

/-- After one double step nothing is finished yet: the lagged set is still empty. -/
theorem done_zero (Φ : Fin 50 → sProp M) :
    bigSep (Finset.univ.filter fun r : Fin 50 => r.val + 2 < 2 * (0 + 1)) Φ
      = bigSep (Finset.univ.filter fun r : Fin 50 => r.val + 2 < 2 * 0) Φ := by
  have hset : (Finset.univ.filter fun r : Fin 50 => r.val + 2 < 2 * (0 + 1))
      = (Finset.univ.filter fun r : Fin 50 => r.val + 2 < 2 * 0) := by
    ext r
    simp only [Finset.mem_filter, Finset.mem_univ, true_and]
    omega
  rw [hset]

/-- Before the first double step nothing is finished: the conjunction over no row is `emp`. -/
theorem done_init (Φ : Fin 50 → sProp M) :
    bigSep (Finset.univ.filter fun r : Fin 50 => r.val + 2 < 2 * 0) Φ = iprop(emp) := by
  have hset : (Finset.univ.filter fun r : Fin 50 => r.val + 2 < 2 * 0) = ∅ := by
    ext r
    simp only [Finset.mem_filter, Finset.mem_univ, true_and, Finset.notMem_empty, iff_false]
    omega
  rw [hset]
  rfl

/-- Before the first double step every row is still to visit. -/
theorem fresh_init (Φ : Fin 50 → sProp M) :
    bigSep (Finset.univ.filter fun r : Fin 50 => 2 * 0 ≤ r.val) Φ = bigSep Finset.univ Φ := by
  have hset : (Finset.univ.filter fun r : Fin 50 => 2 * 0 ≤ r.val) = Finset.univ := by
    ext r
    simp only [Finset.mem_filter, Finset.mem_univ, true_and, iff_true]
    omega
  rw [hset]

/-- After all 25 double steps no row is left to visit. -/
theorem fresh_last (Φ : Fin 50 → sProp M) :
    bigSep (Finset.univ.filter fun r : Fin 50 => 2 * 25 ≤ r.val) Φ = iprop(emp) := by
  have hset : (Finset.univ.filter fun r : Fin 50 => 2 * 25 ≤ r.val) = ∅ := by
    ext r
    have hr := r.isLt
    simp only [Finset.mem_filter, Finset.mem_univ, true_and, Finset.notMem_empty, iff_false]
    omega
  rw [hset]
  rfl

/-- All the rows are the last two, `48` and `49`, and the rows finished after 25 double steps. -/
theorem done_last (Φ : Fin 50 → sProp M) :
    bigSep Finset.univ Φ
      = iprop(Φ ⟨48, by omega⟩ ∗ Φ ⟨49, by omega⟩
          ∗ bigSep (Finset.univ.filter fun r : Fin 50 => r.val + 2 < 2 * 25) Φ) := by
  have hset : (Finset.univ : Finset (Fin 50))
      = insert (⟨48, by omega⟩ : Fin 50) (insert (⟨49, by omega⟩ : Fin 50)
          (Finset.univ.filter fun r : Fin 50 => r.val + 2 < 2 * 25)) := by
    ext r
    have hr := r.isLt
    simp only [Finset.mem_filter, Finset.mem_univ, true_and, Finset.mem_insert, Fin.ext_iff, true_iff]
    omega
  have h1 : (⟨48, by omega⟩ : Fin 50) ∉ insert (⟨49, by omega⟩ : Fin 50)
      (Finset.univ.filter fun r : Fin 50 => r.val + 2 < 2 * 25) := by
    simp only [Finset.mem_filter, Finset.mem_univ, true_and, Finset.mem_insert, Fin.ext_iff]
    omega
  have h2 : (⟨49, by omega⟩ : Fin 50) ∉ (Finset.univ.filter fun r : Fin 50 => r.val + 2 < 2 * 25) := by
    simp only [Finset.mem_filter, Finset.mem_univ, true_and]
    omega
  conv_lhs => rw [hset]
  rw [bigSep_insert' h1, bigSep_insert' h2]

end Cert.FinRange
-- ==== Proof.Idx.lean ====
/-
  Index bookkeeping between a worker's staging buffers and the arrays: worker `(L 0, L 1)` owns the 128 batch rows
  from `256 (L 1) + 128 (L 0)`; its loaded codes are `[50, 128]`, a staging buffer is `[128, 256]`.
-/
import proofs.«204306_g82583631167916_cont_9to1c4b_486_26_alg».proof.KernelIdeal

noncomputable section

namespace Cert.Idx

open Idealize.ShloMosaic Cert.KernelIdeal

theorem base_lt (L : grid0.Coords) (j : Fin 128) : 256 * (L 1).val + 128 * (L 0).val + j.val < 4096 := by
  have h0 : (L 0).val < 2 := (L 0).isLt
  have h1 : (L 1).val < 16 := (L 1).isLt
  have := j.isLt
  omega

/-- The element of the transposed codes under element `j` of the worker's loaded codes. -/
def col (L : grid0.Coords) (j : S50x128.Idx) : S50x4096.Idx := fun a => match a with
  | ⟨0, _⟩ => ⟨(j 0).val, (j 0).isLt⟩
  | ⟨1, _⟩ => ⟨256 * (L 1).val + 128 * (L 0).val + (j 1).val, base_lt L (j 1)⟩

/-- Row `r`, lane `j0` of the loaded codes. -/
def rc (r : Nat) (hr : r < 50) (j0 : Fin 128) : S50x128.Idx := fun a => match a with
  | ⟨0, _⟩ => ⟨r, hr⟩
  | ⟨1, _⟩ => j0

/-- The element of the table under element `j` of a staging buffer that holds sequence position `r`. -/
def sidx (L : grid0.Coords) (r : Nat) (hr : r < 50) (j : S128x256.Idx) : S50x4096x256.Idx := fun a => match a with
  | ⟨0, _⟩ => ⟨r, hr⟩
  | ⟨1, _⟩ => ⟨256 * (L 1).val + 128 * (L 0).val + (j 0).val, base_lt L (j 0)⟩
  | ⟨2, _⟩ => ⟨(j 1).val, (j 1).isLt⟩

end Cert.Idx

end
-- ==== Proof.Scatter.lean ====
/-
  What the worker's scatters leave in a staging buffer, as pure mathematics over index functions.
  A scatter of one word `y` through sixteen lanes turns contents `f` into `y` at every element a lane
  names and `f` elsewhere. Lane `x` of a group names the row read from a row table and the column
  given by a code of row `r` of the loaded codes `[50, 128]`. With the row table `0, 1, …, 127` the
  eight groups write `y` at `(b, code of (r, b))` for all 128 rows `b`; with the first group's table
  replaced by `1, 1, 2, …, 15` row `0` is left out. Ones over zeros give the one-hot rows; zeros
  written back at the same places give all zeros again; and the one-hot rows are the elements of
  the table `Gt` under them.
-/
import proofs.«204306_g82583631167916_cont_9to1c4b_486_26_alg».proof.Proof.Idx
import proofs.«204306_g82583631167916_cont_9to1c4b_486_26_alg».proof.Proof.Spec
import proofs.«204306_g82583631167916_cont_9to1c4b_486_26_alg».proof.Proof.Gen.KernelIdeal
import proofs.«204306_g82583631167916_cont_9to1c4b_486_26_alg».proof.Proof.LibStoreIdx
import Idealize.ShloMosaic.Lib.Pipeline.Value

noncomputable section

namespace Cert.Scatter

open Cert.KernelIdeal Cert.KernelIdeal.Gen Cert.Idx Idealize.ShloMosaic

variable {F : FTy → Type} [FloatOps F]

/-- What a scatter of the one word `y` leaves of contents `f`: `y` at every element some lane names
    (lane `x` names row `idxs 0 x`, column `idxs 1 x`, read unsigned), `f` elsewhere. -/
abbrev HIT (idxs : Fin 2 → IVec S16 32) (y : BitVec 32) (f : S128x256.Idx → BitVec 32) : S128x256.Idx → BitVec 32 :=
  fun j : S128x256.Idx => if ∃ x : S16.Idx, ∀ a, (j a).val = ((idxs : Fin 2 → IVec S16 32) a x).toNat then y else f j

/-- Sixteen consecutive entries of the row table, from entry `o`. -/
abbrev blAt (c1 : (⟨S128, .i32⟩ : BufTy).Contents (Elt F)) (o : Nat) (h : ∀ a, (![o] : Fin 1 → Nat) a + S16.size a ≤ S128.size a) : IVec S16 32 :=
  View.readAt (Elt F) (Memref.whole cc0_scratch1 : Memref sig .scVector .vmem S128 .i32).view (Rect.unit (s := S128) ![o] S16.size h).toLoadRect c1

/-- The sixteen entries of the first-group row table. -/
abbrev wzAt (c2 : (⟨S16, .i32⟩ : BufTy).Contents (Elt F)) (h : ∀ a, (![0] : Fin 1 → Nat) a + S16.size a ≤ S16.size a) : IVec S16 32 :=
  View.readAt (Elt F) (Memref.whole cc0_scratch2 : Memref sig .scVector .vmem S16 .i32).view (Rect.unit (s := S16) ![0] S16.size h).toLoadRect c2

/-- Sixteen consecutive codes of one row of the loaded codes, from `offs`, as a sixteen-lane vector. -/
abbrev cdAt (c0 : (⟨S50x128, .i32⟩ : BufTy).Contents (Elt F)) (offs : Fin 2 → Nat) (h : ∀ a, offs a + S1x16.size a ≤ S50x128.size a) : IVec S16 32 :=
  shapeCast S16 (View.readAt (Elt F) (Memref.whole cc0_scratch0 : Memref sig .scVector .vmem S50x128 .i32).view (Rect.unit (s := S50x128) offs S1x16.size h).toLoadRect c0) shapeCasts_S1x16_S16

/-- Contents `f` with `y` written at `(b, code of (r, b))` for the rows `lo ≤ b < hi`. -/
def part (c0 : (⟨S50x128, .i32⟩ : BufTy).Contents (Elt F)) (lo hi r : Nat) (hr : r < 50) (y : BitVec 32)
    (f : S128x256.Idx → BitVec 32) : S128x256.Idx → BitVec 32 :=
  fun j => if lo ≤ (j 0).val ∧ (j 0).val < hi ∧ (c0 (rc r hr (j 0))).toNat = (j 1).val then y else f j

/-- The one-hot rows of sequence position `r` over the worker's 128 batch rows, row `0` zeroed when `w0` holds. -/
def OHw (c0 : (⟨S50x128, .i32⟩ : BufTy).Contents (Elt F)) (w0 : Prop) [Decidable w0] (r : Nat) (hr : r < 50) :
    S128x256.Idx → BitVec 32 :=
  fun j => if w0 ∧ (j 0).val = 0 then 0#32 else if (c0 (rc r hr (j 0))).toNat = (j 1).val then 1#32 else 0#32

/-- Entry `n` of the row table's shape. -/
abbrev at128 (n : Nat) (hn : n < 128) : S128.Idx := fun a => match a with
  | ⟨0, _⟩ => ⟨n, hn⟩

/-- Entry `n` of the first-group row table's shape. -/
abbrev at16 (n : Nat) (hn : n < 16) : S16.Idx := fun a => match a with
  | ⟨0, _⟩ => ⟨n, hn⟩

/-- Element `(m, n)` of the loaded codes' shape. -/
abbrev at50x128 (m n : Nat) (hm : m < 50) (hn : n < 128) : S50x128.Idx := fun a => match a with
  | ⟨0, _⟩ => ⟨m, hm⟩
  | ⟨1, _⟩ => ⟨n, hn⟩

theorem blAt_bound (o : Nat) (h : ∀ a, (![o] : Fin 1 → Nat) a + S16.size a ≤ S128.size a) (x : S16.Idx) :
    o + (x 0).val < 128 := by
  have h0 : o + 16 ≤ 128 := h 0
  have : (x 0).val < 16 := (x 0).isLt
  omega

theorem cdAt_bound0 (offs : Fin 2 → Nat) (h : ∀ a, offs a + S1x16.size a ≤ S50x128.size a) : offs 0 < 50 := by
  have h0 : offs 0 + 1 ≤ 50 := h 0
  omega

theorem cdAt_bound1 (offs : Fin 2 → Nat) (h : ∀ a, offs a + S1x16.size a ≤ S50x128.size a) (x : S16.Idx) :
    offs 1 + (x 0).val < 128 := by
  have h1 : offs 1 + 16 ≤ 128 := h 1
  have : (x 0).val < 16 := (x 0).isLt
  omega

/-! ### The three loads at a lane -/

/-- Lane `x` of sixteen row-table entries from `o` is entry `o + x`. -/
theorem blAt_apply (c1 : (⟨S128, .i32⟩ : BufTy).Contents (Elt F)) (o : Nat)
    (h : ∀ a, (![o] : Fin 1 → Nat) a + S16.size a ≤ S128.size a) (x : S16.Idx) :
    blAt c1 o h x = c1 (at128 (o + (x 0).val) (blAt_bound o h x)) := by
  show c1 _ = c1 _
  refine congrArg c1 (funext fun a => ?_)
  match a with
  | ⟨0, _⟩ => exact Fin.ext (by show o + 1 * (x 0).val = o + (x 0).val; rw [Nat.one_mul])

/-- Lane `x` of the whole first-group row table is its entry `x`. -/
theorem wzAt_apply (c2 : (⟨S16, .i32⟩ : BufTy).Contents (Elt F))
    (h : ∀ a, (![0] : Fin 1 → Nat) a + S16.size a ≤ S16.size a) (x : S16.Idx) :
    wzAt c2 h x = c2 x := by
  show c2 _ = c2 _
  refine congrArg c2 (funext fun a => ?_)
  match a with
  | ⟨0, _⟩ => exact Fin.ext (by show 0 + 1 * (x 0).val = (x 0).val; omega)

/-- Lane `x` of sixteen codes from `(offs 0, offs 1)` is the code at `(offs 0, offs 1 + x)`. -/
theorem cdAt_apply (c0 : (⟨S50x128, .i32⟩ : BufTy).Contents (Elt F)) (offs : Fin 2 → Nat)
    (h : ∀ a, offs a + S1x16.size a ≤ S50x128.size a) (x : S16.Idx) :
    cdAt c0 offs h x = c0 (at50x128 (offs 0) (offs 1 + (x 0).val) (cdAt_bound0 offs h) (cdAt_bound1 offs h x)) := by
  unfold cdAt
  rw [shapeCast_apply _ shapeCasts_S1x16_S16 x
    (fun a => match a with
      | ⟨0, _⟩ => ⟨0, (by decide : 0 < 1)⟩
      | ⟨1, _⟩ => ⟨(x 0).val, (x 0).isLt⟩)
    (by rw [Shape.rowMajor_val_two, Shape.rowMajor_val_one]; show 0 * _ + (x 0).val = (x 0).val; omega)]
  show c0 _ = c0 _
  refine congrArg c0 (funext fun a => ?_)
  match a with
  | ⟨0, _⟩ => exact Fin.ext (by show offs 0 + 1 * 0 = offs 0; omega)
  | ⟨1, _⟩ => exact Fin.ext (by show offs 1 + 1 * (x 0).val = offs 1 + (x 0).val; omega)

/-! ### Sixteen lanes at a time -/

/-- An index of the loaded codes with row `r` and lane `j0` is `rc r hr j0`. -/
theorem eq_rc (i : S50x128.Idx) (r : Nat) (hr : r < 50) (j0 : Fin 128) (h0 : (i 0).val = r) (h1 : (i 1).val = j0.val) :
    i = rc r hr j0 :=
  funext fun a => match a with
    | ⟨0, _⟩ => Fin.ext h0
    | ⟨1, _⟩ => Fin.ext h1

/-- Two adjacent row ranges written with the same word are one range. -/
theorem part_part (c0 : (⟨S50x128, .i32⟩ : BufTy).Contents (Elt F)) (lo mid hi r : Nat) (hr : r < 50) (y : BitVec 32)
    (f : S128x256.Idx → BitVec 32) (h1 : lo ≤ mid) (h2 : mid ≤ hi) :
    part c0 mid hi r hr y (part c0 lo mid r hr y f) = part c0 lo hi r hr y f := by
  funext j
  show (if mid ≤ (j 0).val ∧ (j 0).val < hi ∧ (c0 (rc r hr (j 0))).toNat = (j 1).val then y
      else if lo ≤ (j 0).val ∧ (j 0).val < mid ∧ (c0 (rc r hr (j 0))).toNat = (j 1).val then y else f j)
    = if lo ≤ (j 0).val ∧ (j 0).val < hi ∧ (c0 (rc r hr (j 0))).toNat = (j 1).val then y else f j
  by_cases hA : mid ≤ (j 0).val ∧ (j 0).val < hi ∧ (c0 (rc r hr (j 0))).toNat = (j 1).val
  · rw [if_pos hA, if_pos ⟨by omega, hA.2.1, hA.2.2⟩]
  · rw [if_neg hA]
    by_cases hB : lo ≤ (j 0).val ∧ (j 0).val < mid ∧ (c0 (rc r hr (j 0))).toNat = (j 1).val
    · rw [if_pos hB, if_pos ⟨hB.1, by omega, hB.2.2⟩]
    · rw [if_neg hB, if_neg]
      rintro ⟨h3, h4, h5⟩
      by_cases hm : mid ≤ (j 0).val
      · exact hA ⟨hm, h4, h5⟩
      · exact hB ⟨h3, by omega, h5⟩

/-- Sixteen lanes whose rows come from the row table at `o` (which holds `0, 1, …, 127`) and whose columns are the
    codes of row `r` at lanes `o, …, o + 15`: the word lands on `(b, code of (r, b))` for `o ≤ b < o + 16`. -/
theorem hit_rows (c0 : (⟨S50x128, .i32⟩ : BufTy).Contents (Elt F)) (c1 : (⟨S128, .i32⟩ : BufTy).Contents (Elt F))
    (hbl : ∀ j : S128.Idx, (c1 j).toNat = (j 0).val) (r : Nat) (hr : r < 50) (o : Nat) (y : BitVec 32)
    (f : S128x256.Idx → BitVec 32) (hb : ∀ a, (![o] : Fin 1 → Nat) a + S16.size a ≤ S128.size a)
    (offs : Fin 2 → Nat) (ho : ∀ a, offs a + S1x16.size a ≤ S50x128.size a) (hoffs : offs = ![r, o]) :
    HIT ![blAt c1 o hb, cdAt c0 offs ho] y f = part c0 o (o + 16) r hr y f := by
  subst hoffs
  funext j
  have ho16 : o + 16 ≤ 128 := hb 0
  refine if_congr ⟨?_, ?_⟩ rfl rfl
  · rintro ⟨x, hx⟩
    have h0 : (j 0).val = (blAt c1 o hb x).toNat := hx 0
    have h1 : (j 1).val = (cdAt c0 ![r, o] ho x).toNat := hx 1
    rw [blAt_apply, hbl] at h0
    have h0' : (j 0).val = o + (x 0).val := h0
    have hx16 : (x 0).val < 16 := (x 0).isLt
    have e : at50x128 ((![r, o] : Fin 2 → Nat) 0) ((![r, o] : Fin 2 → Nat) 1 + (x 0).val)
        (cdAt_bound0 ![r, o] ho) (cdAt_bound1 ![r, o] ho x) = rc r hr (j 0) :=
      eq_rc _ r hr (j 0) rfl (by show o + (x 0).val = (j 0).val; omega)
    rw [cdAt_apply, e] at h1
    exact ⟨by omega, by omega, h1.symm⟩
  · rintro ⟨h1, h2, h3⟩
    refine ⟨at16 ((j 0).val - o) (by omega), fun a => ?_⟩
    match a with
    | ⟨0, _⟩ =>
      show (j 0).val = (blAt c1 o hb (at16 ((j 0).val - o) (by omega))).toNat
      rw [blAt_apply, hbl]
      show (j 0).val = o + ((j 0).val - o)
      omega
    | ⟨1, _⟩ =>
      show (j 1).val = (cdAt c0 ![r, o] ho (at16 ((j 0).val - o) (by omega))).toNat
      have e : at50x128 ((![r, o] : Fin 2 → Nat) 0)
          ((![r, o] : Fin 2 → Nat) 1 + ((at16 ((j 0).val - o) (by omega) : S16.Idx) 0).val)
          (cdAt_bound0 ![r, o] ho) (cdAt_bound1 ![r, o] ho (at16 ((j 0).val - o) (by omega))) = rc r hr (j 0) :=
        eq_rc _ r hr (j 0) rfl (by show o + ((j 0).val - o) = (j 0).val; omega)
      rw [cdAt_apply, e]
      exact h3.symm

/-- The first group: rows `0 ≤ b < 16`. -/
theorem step0 (c0 : (⟨S50x128, .i32⟩ : BufTy).Contents (Elt F)) (c1 : (⟨S128, .i32⟩ : BufTy).Contents (Elt F))
    (hbl : ∀ j : S128.Idx, (c1 j).toNat = (j 0).val) (r : Nat) (hr : r < 50) (y : BitVec 32) (f : S128x256.Idx → BitVec 32)
    (hb : ∀ a, (![0] : Fin 1 → Nat) a + S16.size a ≤ S128.size a)
    (offs : Fin 2 → Nat) (ho : ∀ a, offs a + S1x16.size a ≤ S50x128.size a) (hoffs : offs = ![r, 0]) :
    HIT ![blAt c1 0 hb, cdAt c0 offs ho] y f = part c0 0 16 r hr y f :=
  hit_rows c0 c1 hbl r hr 0 y f hb offs ho hoffs

/-- Group `G` after the groups before it: the written rows grow from `[lo, 16 G)` to `[lo, 16 G + 16)`. -/
theorem step (c0 : (⟨S50x128, .i32⟩ : BufTy).Contents (Elt F)) (c1 : (⟨S128, .i32⟩ : BufTy).Contents (Elt F))
    (hbl : ∀ j : S128.Idx, (c1 j).toNat = (j 0).val) (r : Nat) (hr : r < 50) (G : Nat) (hG : 1 ≤ G ∧ G < 8)
    (lo : Nat) (hlo : lo ≤ 16) (y : BitVec 32) (f : S128x256.Idx → BitVec 32)
    (hb : ∀ a, (![16 * G] : Fin 1 → Nat) a + S16.size a ≤ S128.size a)
    (offs : Fin 2 → Nat) (ho : ∀ a, offs a + S1x16.size a ≤ S50x128.size a) (hoffs : offs = ![r, 16 * G]) :
    HIT ![blAt c1 (16 * G) hb, cdAt c0 offs ho] y (part c0 lo (16 * G) r hr y f) = part c0 lo (16 * G + 16) r hr y f := by
  rw [hit_rows c0 c1 hbl r hr (16 * G) y _ hb offs ho hoffs]
  exact part_part c0 lo (16 * G) (16 * G + 16) r hr y f (by omega) (by omega)

/-- The first group when batch row `0` is to stay zero: the row table `1, 1, 2, …, 15` names rows `1 ≤ b < 16`,
    and each lane's column is the code gathered at the row it names. -/
theorem stepW (c0 : (⟨S50x128, .i32⟩ : BufTy).Contents (Elt F)) (c2 : (⟨S16, .i32⟩ : BufTy).Contents (Elt F))
    (hwz : ∀ j : S16.Idx, (c2 j).toNat = if (j 0).val = 0 then 1 else (j 0).val) (r : Nat) (hr : r < 50)
    (row : BitVec 32) (hrow : row.toNat = r) (y : BitVec 32) (f : S128x256.Idx → BitVec 32)
    (hz : ∀ a, (![0] : Fin 1 → Nat) a + S16.size a ≤ S16.size a)
    (h : ∀ a x, ((![broadcast S16 row, wzAt c2 hz] : Fin 2 → IVec S16 32) a x).toNat < S50x128.size a) :
    HIT ![wzAt c2 hz, fun x : S16.Idx => c0 (idxAt ![broadcast S16 row, wzAt c2 hz] h x)] y f = part c0 1 16 r hr y f := by
  funext j
  refine if_congr ⟨?_, ?_⟩ rfl rfl
  · rintro ⟨x, hx⟩
    have h0 : (j 0).val = (wzAt c2 hz x).toNat := hx 0
    have h1 : (j 1).val = (c0 (idxAt ![broadcast S16 row, wzAt c2 hz] h x)).toNat := hx 1
    have hx16 : (x 0).val < 16 := (x 0).isLt
    have e : idxAt ![broadcast S16 row, wzAt c2 hz] h x = rc r hr (j 0) :=
      eq_rc _ r hr (j 0) hrow h0.symm
    rw [e] at h1
    rw [wzAt_apply, hwz] at h0
    refine ⟨?_, ?_, h1.symm⟩
    · by_cases hx0 : (x 0).val = 0
      · rw [if_pos hx0] at h0; omega
      · rw [if_neg hx0] at h0; omega
    · by_cases hx0 : (x 0).val = 0
      · rw [if_pos hx0] at h0; omega
      · rw [if_neg hx0] at h0; omega
  · rintro ⟨h1, h2, h3⟩
    have hw : (wzAt c2 hz (at16 (j 0).val h2)).toNat = (j 0).val := by
      rw [wzAt_apply, hwz]
      show (if (j 0).val = 0 then 1 else (j 0).val) = (j 0).val
      rw [if_neg (by omega)]
    refine ⟨at16 (j 0).val h2, fun a => ?_⟩
    match a with
    | ⟨0, _⟩ => exact hw.symm
    | ⟨1, _⟩ =>
      show (j 1).val = (c0 (idxAt ![broadcast S16 row, wzAt c2 hz] h (at16 (j 0).val h2))).toNat
      rw [eq_rc (idxAt ![broadcast S16 row, wzAt c2 hz] h (at16 (j 0).val h2)) r hr (j 0) hrow hw]
      exact h3.symm

/-! ### The whole buffer after all eight groups -/

/-- Ones written over zeros on every row: the one-hot rows. -/
theorem ones_full (c0 : (⟨S50x128, .i32⟩ : BufTy).Contents (Elt F)) (r : Nat) (hr : r < 50) :
    part c0 0 128 r hr 1#32 (fun _ => 0#32) = OHw c0 False r hr := by
  funext j
  have hj : (j 0).val < 128 := (j 0).isLt
  show (if 0 ≤ (j 0).val ∧ (j 0).val < 128 ∧ (c0 (rc r hr (j 0))).toNat = (j 1).val then 1#32 else 0#32)
    = if False ∧ (j 0).val = 0 then 0#32 else if (c0 (rc r hr (j 0))).toNat = (j 1).val then 1#32 else 0#32
  rw [if_neg (fun h : False ∧ (j 0).val = 0 => h.1)]
  by_cases hc : (c0 (rc r hr (j 0))).toNat = (j 1).val
  · rw [if_pos ⟨Nat.zero_le _, hj, hc⟩, if_pos hc]
  · rw [if_neg (fun h => hc h.2.2), if_neg hc]

/-- Ones written over zeros on every row but row `0`: the one-hot rows with row `0` zero. -/
theorem ones_w0 (c0 : (⟨S50x128, .i32⟩ : BufTy).Contents (Elt F)) (r : Nat) (hr : r < 50) :
    part c0 1 128 r hr 1#32 (fun _ => 0#32) = OHw c0 True r hr := by
  funext j
  have hj : (j 0).val < 128 := (j 0).isLt
  show (if 1 ≤ (j 0).val ∧ (j 0).val < 128 ∧ (c0 (rc r hr (j 0))).toNat = (j 1).val then 1#32 else 0#32)
    = if True ∧ (j 0).val = 0 then 0#32 else if (c0 (rc r hr (j 0))).toNat = (j 1).val then 1#32 else 0#32
  by_cases h0 : (j 0).val = 0
  · have hL : ¬ (1 ≤ (j 0).val ∧ (j 0).val < 128 ∧ (c0 (rc r hr (j 0))).toNat = (j 1).val) :=
      fun h => by have := h.1; omega
    have hR : True ∧ (j 0).val = 0 := ⟨trivial, h0⟩
    rw [if_neg hL, if_pos hR]
  · rw [if_neg (fun h : True ∧ (j 0).val = 0 => h0 h.2)]
    by_cases hc : (c0 (rc r hr (j 0))).toNat = (j 1).val
    · rw [if_pos ⟨by omega, hj, hc⟩, if_pos hc]
    · rw [if_neg (fun h => hc h.2.2), if_neg hc]

/-- Zeros written back over the one-hot rows at the same places: all zero again. -/
theorem zeros_back (c0 : (⟨S50x128, .i32⟩ : BufTy).Contents (Elt F)) (w0 : Prop) [Decidable w0] (r : Nat) (hr : r < 50) :
    part c0 0 128 r hr 0#32 (OHw c0 w0 r hr) = fun _ => 0#32 := by
  funext j
  have hj : (j 0).val < 128 := (j 0).isLt
  show (if 0 ≤ (j 0).val ∧ (j 0).val < 128 ∧ (c0 (rc r hr (j 0))).toNat = (j 1).val then 0#32
      else if w0 ∧ (j 0).val = 0 then 0#32 else if (c0 (rc r hr (j 0))).toNat = (j 1).val then 1#32 else 0#32) = 0#32
  by_cases hc : (c0 (rc r hr (j 0))).toNat = (j 1).val
  · rw [if_pos ⟨Nat.zero_le _, hj, hc⟩]
  · rw [if_neg (fun h => hc h.2.2)]
    by_cases hw : w0 ∧ (j 0).val = 0
    · rw [if_pos hw]
    · rw [if_neg hw, if_neg hc]

/-- The one-hot rows of worker `L` at sequence position `r` are the table's elements under them; the worker that
    owns batch row `0` is the one with both coordinates `0`. -/
theorem OHw_eq_Gt (L : grid0.Coords) (xt : IVec S50x4096 32) (c0 : (⟨S50x128, .i32⟩ : BufTy).Contents (Elt F))
    (hcd : ∀ j, c0 j = xt (col L j)) (r : Nat) (hr : r < 50) (j : S128x256.Idx) :
    OHw c0 ((L 1).val = 0 ∧ (L 0).val = 0) r hr j = Cert.OneHot.Gt xt (sidx L r hr j) := by
  have e3 : Cert.OneHot.sb (sidx L r hr j) = col L (rc r hr (j 0)) := funext fun a => match a with
    | ⟨0, _⟩ => Fin.ext rfl
    | ⟨1, _⟩ => Fin.ext rfl
  show (if ((L 1).val = 0 ∧ (L 0).val = 0) ∧ (j 0).val = 0 then 0#32
      else if (c0 (rc r hr (j 0))).toNat = (j 1).val then 1#32 else 0#32)
    = if 256 * (L 1).val + 128 * (L 0).val + (j 0).val = 0 then 0#32
      else if (xt (Cert.OneHot.sb (sidx L r hr j))).toNat = (j 1).val then 1#32 else 0#32
  rw [e3, ← hcd]
  exact if_congr (by omega) rfl rfl

end Cert.Scatter
end
-- ==== Proof.Slabs.lean ====
/-
  The worker's slabs of the table as the body's memrefs name them, and what the body's copies move.
  At double step `k` the body copies its two staging buffers into the table's slabs at sequence positions
  `2 k` and `2 k + 1`: each slab memref is a unit-stride block `1 × 128 × 256` of the table with its leading
  axis dropped, so its element set is the slab's rectangle and its element `y` sits at
  `(position, first batch row + y 0, y 1)`. The three opening copies load whole buffers: the two row tables
  and the worker's 128 columns of the transposed codes.
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.KernelIdeal
import proofs.«204306_g82583631167916_cont_9to1c4b_486_26_alg».proof.Proof.Gen.KernelIdeal.Skeleton
import proofs.«204306_g82583631167916_cont_9to1c4b_486_26_alg».proof.Proof.Spec
import proofs.«204306_g82583631167916_cont_9to1c4b_486_26_alg».proof.Proof.Setup
import proofs.«204306_g82583631167916_cont_9to1c4b_486_26_alg».proof.Proof.LibStoreIdx
import proofs.«204306_g82583631167916_cont_9to1c4b_486_26_alg».proof.Proof.TileOps
import proofs.«204306_g82583631167916_cont_9to1c4b_486_26_alg».proof.Proof.Idx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xtW" => (Memref.whole Cert.KernelIdeal.main_v0_scv : Memref Cert.KernelIdeal.sig Kind.scVector Space.hbm Cert.KernelIdeal.S50x4096 EltTy.i32)
local notation "blW" => (Memref.whole Cert.KernelIdeal.main_c_scv : Memref Cert.KernelIdeal.sig Kind.scVector Space.hbm Cert.KernelIdeal.S128 EltTy.i32)
local notation "wzW" => (Memref.whole Cert.KernelIdeal.main_c_0_scv : Memref Cert.KernelIdeal.sig Kind.scVector Space.hbm Cert.KernelIdeal.S16 EltTy.i32)
local notation "outW" => (Memref.whole Cert.KernelIdeal.main_v1_scv : Memref Cert.KernelIdeal.sig Kind.scVector Space.hbm Cert.KernelIdeal.S50x4096x256 EltTy.i32)
local notation "codesW" => (Memref.whole Cert.KernelIdeal.cc0_scratch0 : Memref Cert.KernelIdeal.sig Kind.scVector Space.vmem Cert.KernelIdeal.S50x128 EltTy.i32)
local notation "blV" => (Memref.whole Cert.KernelIdeal.cc0_scratch1 : Memref Cert.KernelIdeal.sig Kind.scVector Space.vmem Cert.KernelIdeal.S128 EltTy.i32)
local notation "wzV" => (Memref.whole Cert.KernelIdeal.cc0_scratch2 : Memref Cert.KernelIdeal.sig Kind.scVector Space.vmem Cert.KernelIdeal.S16 EltTy.i32)
local notation "buf0" => (Memref.whole Cert.KernelIdeal.cc0_scratch3 : Memref Cert.KernelIdeal.sig Kind.scVector Space.vmem Cert.KernelIdeal.S128x256 EltTy.i32)
local notation "buf1" => (Memref.whole Cert.KernelIdeal.cc0_scratch4 : Memref Cert.KernelIdeal.sig Kind.scVector Space.vmem Cert.KernelIdeal.S128x256 EltTy.i32)

variable [FloatOps F]

section Tile

variable (d : Dev nD) (L : grid0.Coords)

open Cert.Idx

/-! ## The two slab memrefs of a double step -/

omit [FloatOps F] in
/-- Unit-stride rectangles of the same sizes at equal offsets are equal. -/
theorem rect_unit_congr {s : Shape} {off off' size : Fin s.rank → Nat} {inb : ∀ a, off a + size a ≤ s.size a}
    {inb' : ∀ a, off' a + size a ≤ s.size a} (h : off = off') :
    Rect.unit (s := s) off size inb = Rect.unit (s := s) off' size inb' := by
  subst h; rfl

/-- The slab memref the first staging buffer is copied into at double step `k`: sequence position `2 k`. -/
abbrev slabM0 (k : Fin k0_t2_loop.trips) : Memref sig .scVector .hbm S128x256 .i32 :=
  ((outW).slice (Rect.unit (s := S50x4096x256) (k0_off35 L k) S1x128x256.size (k0_off35_inb L k)) (fun _ => rfl)).squeeze S128x256 squeezes_S1x128x256_S128x256
/-- The slab memref the second staging buffer is copied into at double step `k`: sequence position `2 k + 1`. -/
abbrev slabM1 (k : Fin k0_t2_loop.trips) : Memref sig .scVector .hbm S128x256 .i32 :=
  ((outW).slice (Rect.unit (s := S50x4096x256) (k0_off53 L k) S1x128x256.size (k0_off53_inb L k)) (fun _ => rfl)).squeeze S128x256 squeezes_S1x128x256_S128x256

omit [FloatOps F] in
/-- There are 25 double steps: both sequence positions of a double step are below 50. -/
theorem k2_lt (k : Fin k0_t2_loop.trips) : 2 * k.val + 1 < 50 := by
  have h1 := k.isLt
  have h2 := k0_t2_abs.2.1
  omega

omit [FloatOps F] in
theorem slabRect0_eq (k : Fin k0_t2_loop.trips) :
    Rect.unit (s := S50x4096x256) (k0_off35 L k) S1x128x256.size (k0_off35_inb L k)
      = slabRect (cL L) (jL L) ⟨2 * k.val, by have := k2_lt k; omega⟩ :=
  rect_unit_congr (k0_off35_eq L k)
omit [FloatOps F] in
theorem slabRect1_eq (k : Fin k0_t2_loop.trips) :
    Rect.unit (s := S50x4096x256) (k0_off53 L k) S1x128x256.size (k0_off53_inb L k)
      = slabRect (cL L) (jL L) ⟨2 * k.val + 1, k2_lt k⟩ :=
  rect_unit_congr (k0_off53_eq L k)

omit [FloatOps F] in
theorem set_slabM0 (k : Fin k0_t2_loop.trips) :
    (slabM0 L k).view.set = slab (cL L) (jL L) ⟨2 * k.val, by have := k2_lt k; omega⟩ := by
  show (((outW).view.slice (Rect.unit (s := S50x4096x256) (k0_off35 L k) S1x128x256.size (k0_off35_inb L k))).reshape S128x256
      squeezes_S1x128x256_S128x256.numel_eq).set = (slabRect (cL L) (jL L) ⟨2 * k.val, by have := k2_lt k; omega⟩).set
  rw [View.set_reshape]
  refine (View.set_slice_whole main_v1_scv _).trans ?_
  exact slabRect0_eq L k ▸ rfl
omit [FloatOps F] in
theorem set_slabM1 (k : Fin k0_t2_loop.trips) :
    (slabM1 L k).view.set = slab (cL L) (jL L) ⟨2 * k.val + 1, k2_lt k⟩ := by
  show (((outW).view.slice (Rect.unit (s := S50x4096x256) (k0_off53 L k) S1x128x256.size (k0_off53_inb L k))).reshape S128x256
      squeezes_S1x128x256_S128x256.numel_eq).set = (slabRect (cL L) (jL L) ⟨2 * k.val + 1, k2_lt k⟩).set
  rw [View.set_reshape]
  refine (View.set_slice_whole main_v1_scv _).trans ?_
  exact slabRect1_eq L k ▸ rfl

omit [FloatOps F] in
theorem pts_slab0 (k : Fin k0_t2_loop.trips) (f : Buf (Elt F) (outLoc d)) :
    ((outW).view.loc (thr d L) ↦[(slabM0 L k).view.set]{fullShare} f : sProp 𝕄)
      = outLoc d ↦[slab (cL L) (jL L) ⟨2 * k.val, by have := k2_lt k; omega⟩]{fullShare} f := by
  rw [set_slabM0]
omit [FloatOps F] in
theorem pts_slab1 (k : Fin k0_t2_loop.trips) (f : Buf (Elt F) (outLoc d)) :
    ((outW).view.loc (thr d L) ↦[(slabM1 L k).view.set]{fullShare} f : sProp 𝕄)
      = outLoc d ↦[slab (cL L) (jL L) ⟨2 * k.val + 1, k2_lt k⟩]{fullShare} f := by
  rw [set_slabM1]

/-! ## What a copy of a staging buffer delivers -/

omit [FloatOps F] in
/-- Element `y` of the first slab memref of double step `k` is the table's element at sequence position `2 k`,
    the worker's batch row `y 0`, channel `y 1`. -/
theorem emb_slabM0 (k : Fin k0_t2_loop.trips) (y : S128x256.Idx) :
    (slabM0 L k).view.emb y = sidx L (2 * k.val) (by have := k2_lt k; omega) y := by
  show (Rect.unit (s := S50x4096x256) (k0_off35 L k) S1x128x256.size (k0_off35_inb L k)).emb
      (Shape.reshapeEquiv squeezes_S1x128x256_S128x256.numel_eq y) = _
  rw [Shape.reshapeEquiv_cons_one]
  funext a; apply Fin.ext
  rw [Rect.emb_apply]
  show k0_off35 L k a + 1 * ((Fin.cons (⟨0, Nat.one_pos⟩ : Fin 1) y : S1x128x256.Idx) a).val = (sidx L (2 * k.val) _ y a).val
  rw [k0_off35_eq]
  match a with
  | ⟨0, _⟩ => simp [sidx]; rfl
  | ⟨1, _⟩ => simp [sidx]; rfl
  | ⟨2, _⟩ => simp [sidx]; rfl
omit [FloatOps F] in
theorem emb_slabM1 (k : Fin k0_t2_loop.trips) (y : S128x256.Idx) :
    (slabM1 L k).view.emb y = sidx L (2 * k.val + 1) (k2_lt k) y := by
  show (Rect.unit (s := S50x4096x256) (k0_off53 L k) S1x128x256.size (k0_off53_inb L k)).emb
      (Shape.reshapeEquiv squeezes_S1x128x256_S128x256.numel_eq y) = _
  rw [Shape.reshapeEquiv_cons_one]
  funext a; apply Fin.ext
  rw [Rect.emb_apply]
  show k0_off53 L k a + 1 * ((Fin.cons (⟨0, Nat.one_pos⟩ : Fin 1) y : S1x128x256.Idx) a).val = (sidx L (2 * k.val + 1) _ y a).val
  rw [k0_off53_eq]
  match a with
  | ⟨0, _⟩ => simp [sidx]; rfl
  | ⟨1, _⟩ => simp [sidx]; rfl
  | ⟨2, _⟩ => simp [sidx]; rfl

omit [FloatOps F] in
/-- Through the whole of a slab memref's shape an index sits where it sits in the memref. -/
theorem emb_whole_slabM0 (k : Fin k0_t2_loop.trips) (y : S128x256.Idx) :
    ((slabM0 L k).view.slice (Rect.whole S128x256)).emb y = (slabM0 L k).view.emb y := by
  show (slabM0 L k).view.emb ((Rect.whole S128x256).emb y) = _
  rw [Rect.emb_whole_apply]
omit [FloatOps F] in
theorem emb_whole_slabM1 (k : Fin k0_t2_loop.trips) (y : S128x256.Idx) :
    ((slabM1 L k).view.slice (Rect.whole S128x256)).emb y = (slabM1 L k).view.emb y := by
  show (slabM1 L k).view.emb ((Rect.whole S128x256).emb y) = _
  rw [Rect.emb_whole_apply]

omit [FloatOps F] in
/-- The table's location, spelt through the table's memref or through a slab memref of it. -/
theorem slabloc0 (k : Fin k0_t2_loop.trips) (f : Buf (Elt F) (outLoc d)) :
    ((outW).view.loc (thr d L) ↦[(slabM0 L k).view.set]{fullShare} f : sProp 𝕄)
      = ((slabM0 L k).view.loc (thr d L) ↦[(slabM0 L k).view.set]{fullShare} f) := rfl
omit [FloatOps F] in
theorem slabloc1 (k : Fin k0_t2_loop.trips) (f : Buf (Elt F) (outLoc d)) :
    ((outW).view.loc (thr d L) ↦[(slabM1 L k).view.set]{fullShare} f : sProp 𝕄)
      = ((slabM1 L k).view.loc (thr d L) ↦[(slabM1 L k).view.set]{fullShare} f) := rfl

omit [FloatOps F] in
/-- One whole-shape write of `w` through the first slab memref of double step `k`, `w` being the table's slab
    at sequence position `2 k`, leaves that slab at the table. -/
theorem deliver0 (k : Fin k0_t2_loop.trips) (fo : Buf (Elt F) (outLoc d)) (w : S128x256.Idx → BitVec 32)
    (hw : ∀ y : S128x256.Idx, w y = OUT m d (sidx L (2 * k.val) (by have := k2_lt k; omega) y)) :
    ((slabM0 L k).view.loc (thr d L) ↦[(slabM0 L k).view.set]{fullShare}
        (slabM0 L k).view.writes (Elt F) fo [⟨Rect.whole S128x256, w⟩] : sProp 𝕄)
      ⊢ outLoc d ↦[slab (cL L) (jL L) ⟨2 * k.val, by have := k2_lt k; omega⟩]{fullShare} OUT m d := by
  have hc : ∀ i ∈ (slabM0 L k).view.set,
      (slabM0 L k).view.writes (Elt F) fo [⟨Rect.whole S128x256, w⟩] i = OUT m d i := by
    intro i hi
    obtain ⟨y, -, rfl⟩ := Finset.mem_map.mp hi
    have h1 := View.write_emb_of_mem (v := (slabM0 L k).view.slice (Rect.whole S128x256)) (Val := Elt F) fo w
      (M := Finset.univ) (x := y) (Finset.mem_univ _)
    rw [emb_whole_slabM0] at h1
    refine h1.trans ?_
    show w y = OUT m d ((slabM0 L k).view.emb y)
    rw [hw y, emb_slabM0]
  rw [pointsTo_congr hc, set_slabM0]
omit [FloatOps F] in
/-- The same through the second slab memref, at sequence position `2 k + 1`. -/
theorem deliver1 (k : Fin k0_t2_loop.trips) (fo : Buf (Elt F) (outLoc d)) (w : S128x256.Idx → BitVec 32)
    (hw : ∀ y : S128x256.Idx, w y = OUT m d (sidx L (2 * k.val + 1) (k2_lt k) y)) :
    ((slabM1 L k).view.loc (thr d L) ↦[(slabM1 L k).view.set]{fullShare}
        (slabM1 L k).view.writes (Elt F) fo [⟨Rect.whole S128x256, w⟩] : sProp 𝕄)
      ⊢ outLoc d ↦[slab (cL L) (jL L) ⟨2 * k.val + 1, k2_lt k⟩]{fullShare} OUT m d := by
  have hc : ∀ i ∈ (slabM1 L k).view.set,
      (slabM1 L k).view.writes (Elt F) fo [⟨Rect.whole S128x256, w⟩] i = OUT m d i := by
    intro i hi
    obtain ⟨y, -, rfl⟩ := Finset.mem_map.mp hi
    have h1 := View.write_emb_of_mem (v := (slabM1 L k).view.slice (Rect.whole S128x256)) (Val := Elt F) fo w
      (M := Finset.univ) (x := y) (Finset.mem_univ _)
    rw [emb_whole_slabM1] at h1
    refine h1.trans ?_
    show w y = OUT m d ((slabM1 L k).view.emb y)
    rw [hw y, emb_slabM1]
  rw [pointsTo_congr hc, set_slabM1]

/-! ## Whole staging buffers -/

omit [FloatOps F] in
theorem pts_b0set (f : Buf (Elt F) ((buf0).view.loc (thr d L))) :
    ((buf0).view.loc (thr d L) ↦[(buf0).view.set]{fullShare} f : sProp 𝕄) = ((buf0).view.loc (thr d L) ↦{fullShare} f) := by
  simp only [Memref.view_whole, View.set_whole]
omit [FloatOps F] in
theorem pts_b1set (f : Buf (Elt F) ((buf1).view.loc (thr d L))) :
    ((buf1).view.loc (thr d L) ↦[(buf1).view.set]{fullShare} f : sProp 𝕄) = ((buf1).view.loc (thr d L) ↦{fullShare} f) := by
  simp only [Memref.view_whole, View.set_whole]

/-! ## What the three opening copies load -/

omit [FloatOps F] in
theorem lit0_toNat : ∀ n : Fin 128, (lit0 n).toNat = n.val := by decide
omit [FloatOps F] in
theorem lit1_toNat : ∀ n : Fin 16, (lit1 n).toNat = if n.val = 0 then 1 else n.val := by decide

/-- The loaded row table holds `j` at `j`. -/
theorem bl_loaded (f1 : Buf (Elt F) ((blV).view.loc (thr d L))) (j : S128.Idx) :
    (View.write (Elt F) (blV).view f1 (ReadAs.same.apply (View.read (Elt F) (blW).view (BL (F := F) d))) Finset.univ j).toNat = (j 0).val := by
  simp only [Memref.view_whole, View.write_whole_univ, ReadAs.apply_same, View.read_whole]
  have hn : (S128.rowMajor j : Fin 128) = (j 0 : Fin 128) := Fin.ext (Shape.rowMajor_val_one j)
  exact (congrArg (fun n : Fin 128 => (lit0 n).toNat) hn).trans (lit0_toNat (j 0))

/-- The loaded first-group row table holds `1` at `0` and `j` at every other `j`. -/
theorem wz_loaded (f2 : Buf (Elt F) ((wzV).view.loc (thr d L))) (j : S16.Idx) :
    (View.write (Elt F) (wzV).view f2 (ReadAs.same.apply (View.read (Elt F) (wzW).view (WZ (F := F) d))) Finset.univ j).toNat
      = if (j 0).val = 0 then 1 else (j 0).val := by
  simp only [Memref.view_whole, View.write_whole_univ, ReadAs.apply_same, View.read_whole]
  have hn : (S16.rowMajor j : Fin 16) = (j 0 : Fin 16) := Fin.ext (Shape.rowMajor_val_one j)
  exact (congrArg (fun n : Fin 16 => (lit1 n).toNat) hn).trans (lit1_toNat (j 0))

/-- The loaded codes are the worker's 128 columns of the transposed codes. -/
theorem codes_loaded (f0 : Buf (Elt F) ((codesW).view.loc (thr d L))) (j : S50x128.Idx) :
    View.write (Elt F) (codesW).view f0 (ReadAs.same.apply (View.read (Elt F)
      ((xtW).slice (Rect.unit (s := S50x4096) (k0_off1 L) S50x128.size (k0_off1_inb L)) (fun _ => rfl)).view (XT m d))) Finset.univ j
      = XT m d (col L j) := by
  simp only [Memref.view_whole, View.write_whole_univ, ReadAs.apply_same]
  show XT m d ((Rect.unit (s := S50x4096) (k0_off1 L) S50x128.size (k0_off1_inb L)).emb j) = XT m d (col L j)
  congr 1
  funext a; apply Fin.ext
  rw [Rect.emb_apply]
  show k0_off1 L a + 1 * (j a).val = (col L j a).val
  rw [k0_off1_eq]
  match a with
  | ⟨0, _⟩ => simp [col]
  | ⟨1, _⟩ => simp [col]

end Tile

end Cert.Proof.KI

end
-- ==== Proof.Body.lean ====
/-
  One trip of the worker's main loop. Before trip `k` the first staging buffer is either zero with its semaphore at
  rest (`k = 0`) or in flight to slab `2 k - 2`, the second likewise to slab `2 k - 1`; the slabs from `2 k` on are
  untouched and those below `2 k - 2` hold the table. The trip waits for the first buffer's copy (its slab now holds
  the table), scatters zeros where position `2 k - 2` had put ones (the buffer is zero again: sixteen rows at a time,
  `part 0 (16 G) … ↦ part 0 (16 G + 16) …`), scatters ones for position `2 k` (on worker `0` the first group goes
  through the row table `1, 1, 2, … 15`, so batch row `0` stays zero), starts its copy to slab `2 k`, and does the
  same with the second buffer for positions `2 k - 1` and `2 k + 1`. Every index the scatters and gathers use is in
  range because the codes are below `256`, the row tables below `128` and the positions below `50`.
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.KernelIdeal
import proofs.«204306_g82583631167916_cont_9to1c4b_486_26_alg».proof.Proof.Gen.KernelIdeal.Skeleton
import proofs.«204306_g82583631167916_cont_9to1c4b_486_26_alg».proof.Proof.Spec
import proofs.«204306_g82583631167916_cont_9to1c4b_486_26_alg».proof.Proof.Setup
import proofs.«204306_g82583631167916_cont_9to1c4b_486_26_alg».proof.Proof.TileOps
import proofs.«204306_g82583631167916_cont_9to1c4b_486_26_alg».proof.Proof.ZeroFill
import proofs.«204306_g82583631167916_cont_9to1c4b_486_26_alg».proof.Proof.LibFinRange
import proofs.«204306_g82583631167916_cont_9to1c4b_486_26_alg».proof.Proof.Scatter
import proofs.«204306_g82583631167916_cont_9to1c4b_486_26_alg».proof.Proof.Idx
import proofs.«204306_g82583631167916_cont_9to1c4b_486_26_alg».proof.Proof.Slabs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xtW" => (Memref.whole Cert.KernelIdeal.main_v0_scv : Memref Cert.KernelIdeal.sig Kind.scVector Space.hbm Cert.KernelIdeal.S50x4096 EltTy.i32)
local notation "blW" => (Memref.whole Cert.KernelIdeal.main_c_scv : Memref Cert.KernelIdeal.sig Kind.scVector Space.hbm Cert.KernelIdeal.S128 EltTy.i32)
local notation "wzW" => (Memref.whole Cert.KernelIdeal.main_c_0_scv : Memref Cert.KernelIdeal.sig Kind.scVector Space.hbm Cert.KernelIdeal.S16 EltTy.i32)
local notation "outW" => (Memref.whole Cert.KernelIdeal.main_v1_scv : Memref Cert.KernelIdeal.sig Kind.scVector Space.hbm Cert.KernelIdeal.S50x4096x256 EltTy.i32)
local notation "codesW" => (Memref.whole Cert.KernelIdeal.cc0_scratch0 : Memref Cert.KernelIdeal.sig Kind.scVector Space.vmem Cert.KernelIdeal.S50x128 EltTy.i32)
local notation "blV" => (Memref.whole Cert.KernelIdeal.cc0_scratch1 : Memref Cert.KernelIdeal.sig Kind.scVector Space.vmem Cert.KernelIdeal.S128 EltTy.i32)
local notation "wzV" => (Memref.whole Cert.KernelIdeal.cc0_scratch2 : Memref Cert.KernelIdeal.sig Kind.scVector Space.vmem Cert.KernelIdeal.S16 EltTy.i32)
local notation "buf0" => (Memref.whole Cert.KernelIdeal.cc0_scratch3 : Memref Cert.KernelIdeal.sig Kind.scVector Space.vmem Cert.KernelIdeal.S128x256 EltTy.i32)
local notation "buf1" => (Memref.whole Cert.KernelIdeal.cc0_scratch4 : Memref Cert.KernelIdeal.sig Kind.scVector Space.vmem Cert.KernelIdeal.S128x256 EltTy.i32)

variable [FloatOps F]

section Tile

variable (d : Dev nD) (L : grid0.Coords)

open Cert.Idx Cert.Scatter Cert.FinRange Cert.ZeroFill

/-! ## The conditions and the recycled rows' offsets, in closed form -/

omit [FloatOps F] in
theorem cond1_iff : ∀ k : Fin k0_t2_loop.trips, (k0_cond1 k = 1#1) ↔ k.val ≠ 0 := by decide +kernel
omit [FloatOps F] in
theorem cond4_iff : ∀ k : Fin k0_t2_loop.trips, (k0_cond4 k = 1#1) ↔ k.val ≠ 0 := by decide +kernel
omit [FloatOps F] in
theorem cond2_iff : ∀ i : grid0.Coords, (k0_cond2 i = 1#1) ↔ ((i 1).val = 0 ∧ (i 0).val = 0) := by decide +kernel
omit [FloatOps F] in
theorem cond3_iff : ∀ i : grid0.Coords, (k0_cond3 i = 1#1) ↔ ¬ ((i 1).val = 0 ∧ (i 0).val = 0) := by decide +kernel
omit [FloatOps F] in
theorem cond5_iff : ∀ i : grid0.Coords, (k0_cond5 i = 1#1) ↔ ((i 1).val = 0 ∧ (i 0).val = 0) := by decide +kernel
omit [FloatOps F] in
theorem cond6_iff : ∀ i : grid0.Coords, (k0_cond6 i = 1#1) ↔ ¬ ((i 1).val = 0 ∧ (i 0).val = 0) := by decide +kernel
omit [FloatOps F] in
theorem off19_eq : ∀ k : Fin k0_t2_loop.trips, k0_cond1 k = 1#1 → k0_off19 k = ![2 * k.val - 2, 0] := by decide +kernel
omit [FloatOps F] in
theorem off37_eq : ∀ k : Fin k0_t2_loop.trips, k0_cond4 k = 1#1 → k0_off37 k = ![2 * k.val - 1, 0] := by decide +kernel
omit [FloatOps F] in
theorem off20_eq : ∀ k : Fin k0_t2_loop.trips, k0_cond1 k = 1#1 → k0_off20 k = ![2 * k.val - 2, 16] := by decide +kernel
omit [FloatOps F] in
theorem off38_eq : ∀ k : Fin k0_t2_loop.trips, k0_cond4 k = 1#1 → k0_off38 k = ![2 * k.val - 1, 16] := by decide +kernel
omit [FloatOps F] in
theorem off21_eq : ∀ k : Fin k0_t2_loop.trips, k0_cond1 k = 1#1 → k0_off21 k = ![2 * k.val - 2, 32] := by decide +kernel
omit [FloatOps F] in
theorem off39_eq : ∀ k : Fin k0_t2_loop.trips, k0_cond4 k = 1#1 → k0_off39 k = ![2 * k.val - 1, 32] := by decide +kernel
omit [FloatOps F] in
theorem off22_eq : ∀ k : Fin k0_t2_loop.trips, k0_cond1 k = 1#1 → k0_off22 k = ![2 * k.val - 2, 48] := by decide +kernel
omit [FloatOps F] in
theorem off40_eq : ∀ k : Fin k0_t2_loop.trips, k0_cond4 k = 1#1 → k0_off40 k = ![2 * k.val - 1, 48] := by decide +kernel
omit [FloatOps F] in
theorem off23_eq : ∀ k : Fin k0_t2_loop.trips, k0_cond1 k = 1#1 → k0_off23 k = ![2 * k.val - 2, 64] := by decide +kernel
omit [FloatOps F] in
theorem off41_eq : ∀ k : Fin k0_t2_loop.trips, k0_cond4 k = 1#1 → k0_off41 k = ![2 * k.val - 1, 64] := by decide +kernel
omit [FloatOps F] in
theorem off24_eq : ∀ k : Fin k0_t2_loop.trips, k0_cond1 k = 1#1 → k0_off24 k = ![2 * k.val - 2, 80] := by decide +kernel
omit [FloatOps F] in
theorem off42_eq : ∀ k : Fin k0_t2_loop.trips, k0_cond4 k = 1#1 → k0_off42 k = ![2 * k.val - 1, 80] := by decide +kernel
omit [FloatOps F] in
theorem off25_eq : ∀ k : Fin k0_t2_loop.trips, k0_cond1 k = 1#1 → k0_off25 k = ![2 * k.val - 2, 96] := by decide +kernel
omit [FloatOps F] in
theorem off43_eq : ∀ k : Fin k0_t2_loop.trips, k0_cond4 k = 1#1 → k0_off43 k = ![2 * k.val - 1, 96] := by decide +kernel
omit [FloatOps F] in
theorem off26_eq : ∀ k : Fin k0_t2_loop.trips, k0_cond1 k = 1#1 → k0_off26 k = ![2 * k.val - 2, 112] := by decide +kernel
omit [FloatOps F] in
theorem off44_eq : ∀ k : Fin k0_t2_loop.trips, k0_cond4 k = 1#1 → k0_off44 k = ![2 * k.val - 1, 112] := by decide +kernel

omit [FloatOps F] in
theorem v18_val : ∀ k : Fin k0_t2_loop.trips, (Scalar.addi (Scalar.muli 2#32 (Scalar.addi 0#32 (Scalar.muli (Scf.iv 0#32 1#32 k) 1#32))) 0#32).toNat = 2 * k.val := by decide +kernel
omit [FloatOps F] in
theorem v54_val : ∀ k : Fin k0_t2_loop.trips, (Scalar.addi (Scalar.muli 2#32 (Scalar.addi 0#32 (Scalar.muli (Scf.iv 0#32 1#32 k) 1#32))) 1#32).toNat = 2 * k.val + 1 := by decide +kernel

omit [FloatOps F] in
theorem two_lt {v w : IVec S16 32} {n0 n1 : Nat} (hv : ∀ x, (v x).toNat < n0) (hw : ∀ x, (w x).toNat < n1) :
    ∀ (a : Fin 2) (x : S16.Idx), ((![v, w] : Fin 2 → IVec S16 32) a x).toNat < (![n0, n1] : Fin 2 → Nat) a := by
  intro a x
  match a with
  | ⟨0, _⟩ => exact hv x
  | ⟨1, _⟩ => exact hw x

/-! ## The staging buffers' contents and the loop's invariant -/

/-- Worker number `0`: the one whose batch row `0` stays zero. -/
abbrev W0 (L : grid0.Coords) : Prop := (L 1).val = 0 ∧ (L 0).val = 0
abbrev rF (n : Nat) : Fin 50 := ⟨n % 50, Nat.mod_lt _ (by decide)⟩
abbrev ZB : S128x256.Idx → BitVec 32 := fun _ => 0#32
/-- A staging buffer holding sequence position `r`. -/
abbrev OHb (c0 : (⟨S50x128, .i32⟩ : BufTy).Contents (Elt F)) (r : Fin 50) : S128x256.Idx → BitVec 32 := OHw c0 (W0 L) r.val r.isLt

theorem OHw_congr (c0 : (⟨S50x128, .i32⟩ : BufTy).Contents (Elt F)) {w0 w0' : Prop} [Decidable w0] [Decidable w0'] (h : w0 ↔ w0') (r : Nat) (hr : r < 50) :
    OHw c0 w0 r hr = OHw c0 w0' r hr := by
  funext j; unfold OHw; simp only [h]
theorem onesW (c0 : (⟨S50x128, .i32⟩ : BufTy).Contents (Elt F)) (hw : W0 L) (r : Nat) (hr : r < 50) :
    part c0 1 128 r hr 1#32 (fun _ => 0#32) = OHw c0 (W0 L) r hr :=
  (ones_w0 c0 r hr).trans (OHw_congr c0 ⟨fun _ => hw, fun _ => trivial⟩ r hr)
theorem onesN (c0 : (⟨S50x128, .i32⟩ : BufTy).Contents (Elt F)) (hw : ¬ W0 L) (r : Nat) (hr : r < 50) :
    part c0 0 128 r hr 1#32 (fun _ => 0#32) = OHw c0 (W0 L) r hr :=
  (ones_full c0 r hr).trans (OHw_congr c0 ⟨fun h => h.elim, fun h => (hw h).elim⟩ r hr)
/-- A staging buffer holding position `r` is the table's slab. -/
theorem OHb_out (c0 : (⟨S50x128, .i32⟩ : BufTy).Contents (Elt F)) (hcd : ∀ j, c0 j = XT m d (col L j)) (r : Nat) (hr : r < 50) (y : S128x256.Idx) :
    OHw c0 (W0 L) r hr y = OUT m d (sidx L r hr y) := OHw_eq_Gt L (XT m d) c0 hcd r hr y

abbrev freshΦ (r : Fin 50) : sProp 𝕄 := iprop(∃ f, outLoc d ↦[slab (cL L) (jL L) r]{fullShare} f)
abbrev doneΦ (r : Fin 50) : sProp 𝕄 := outLoc d ↦[slab (cL L) (jL L) r]{fullShare} OUT m d

/-- The first staging buffer before trip `k`: zero with its semaphore at rest, or in flight to slab `2 k - 2`. -/
def slot0 (c0 : (⟨S50x128, .i32⟩ : BufTy).Contents (Elt F)) (k : Nat) : sProp 𝕄 :=
  if k = 0 then iprop(((buf0).view.loc (thr d L) ↦{fullShare} ZB) ∗ semVal (thr d L, SemLoc.dma cc0_scratch5.sem) 0)
  else Transfers.Flight countersEmb (thr d L) (SemLoc.dma cc0_scratch5.sem) default 1048576
      iprop(doneΦ m d L (rF (2 * k - 2)) ∗ ((buf0).view.loc (thr d L) ↦[(buf0).view.set]{fullShare} OHb L c0 (rF (2 * k - 2))))
/-- The second, to slab `2 k - 1`. -/
def slot1 (c0 : (⟨S50x128, .i32⟩ : BufTy).Contents (Elt F)) (k : Nat) : sProp 𝕄 :=
  if k = 0 then iprop(((buf1).view.loc (thr d L) ↦{fullShare} ZB) ∗ semVal (thr d L, SemLoc.dma cc0_scratch6.sem) 0)
  else Transfers.Flight countersEmb (thr d L) (SemLoc.dma cc0_scratch6.sem) default 1048576
      iprop(doneΦ m d L (rF (2 * k - 1)) ∗ ((buf1).view.loc (thr d L) ↦[(buf1).view.set]{fullShare} OHb L c0 (rF (2 * k - 1))))

/-- Before trip `k`: the loaded tables, the two staging buffers as `slot0` / `slot1` say, the slabs from `2 k` on untouched,
    those below `2 k - 2` at the table. -/
def minv (c0 : (⟨S50x128, .i32⟩ : BufTy).Contents (Elt F)) (c1 : (⟨S128, .i32⟩ : BufTy).Contents (Elt F)) (c2 : (⟨S16, .i32⟩ : BufTy).Contents (Elt F))
    (O : CellTallies nD τ sig (HIx 1)) (W : Waits sig (HIx 1)) (k : Nat) (_ : PUnit) : sProp 𝕄 :=
  iprop(Transfers.MayWaits (thr d L) (none : HIx 1) O
    ∗ ((codesW).view.loc (thr d L) ↦{fullShare} c0) ∗ ((blV).view.loc (thr d L) ↦{fullShare} c1) ∗ ((wzV).view.loc (thr d L) ↦{fullShare} c2)
    ∗ slot0 m d L c0 k ∗ slot1 m d L c0 k
    ∗ bigSep (Finset.univ.filter fun r : Fin 50 => 2 * k ≤ r.val) (freshΦ d L)
    ∗ bigSep (Finset.univ.filter fun r : Fin 50 => r.val + 2 < 2 * k) (doneΦ m d L)
    ∗ ∃ W', ⌜∀ p ∈ W', p ∈ W ∨ p.2 = none⌝ ∗ owes (thr d L) O W')

theorem wp_vstore0' {α : Type} {Q : α → sProp 𝕄} {idxs : Fin 2 → IVec S16 32} (y : BitVec 32) {v : Vec F S16 .i32} (hv : v = broadcast S16 y)
    {h : ∀ a x, (idxs a x).toNat < S128x256.size a} {hs : ((buf0).access (Rect.whole S128x256)).Stores Finset.univ}
    {k : PUnit → Prog (TpuEff nD τ sig (Elt F) Λ₀ (thr d L).2) α} {f : Buf (Elt F) ((buf0).view.loc (thr d L))}
    (g' : S128x256.Idx → BitVec 32) (hg : hit idxs y f = g') :
    ((buf0).view.loc (thr d L) ↦{fullShare} f : sProp 𝕄)
      ⊢ iprop((((buf0).view.loc (thr d L) ↦{fullShare} g')
            -∗ wp frame (wpE (defs₀ (F := F)) 𝒱₀ (thr d L) none) Set.univ (k ⟨⟩) Q)
        -∗ wp frame (wpE (defs₀ (F := F)) 𝒱₀ (thr d L) none) Set.univ (SparseCore.vectorStoreIdx (buf0) idxs v (fun _ => 1#1) false h hs >>= k) Q) :=
  hg ▸ wp_vstore0 (F := F) d L y hv
theorem wp_vstore1' {α : Type} {Q : α → sProp 𝕄} {idxs : Fin 2 → IVec S16 32} (y : BitVec 32) {v : Vec F S16 .i32} (hv : v = broadcast S16 y)
    {h : ∀ a x, (idxs a x).toNat < S128x256.size a} {hs : ((buf1).access (Rect.whole S128x256)).Stores Finset.univ}
    {k : PUnit → Prog (TpuEff nD τ sig (Elt F) Λ₀ (thr d L).2) α} {f : Buf (Elt F) ((buf1).view.loc (thr d L))}
    (g' : S128x256.Idx → BitVec 32) (hg : hit idxs y f = g') :
    ((buf1).view.loc (thr d L) ↦{fullShare} f : sProp 𝕄)
      ⊢ iprop((((buf1).view.loc (thr d L) ↦{fullShare} g')
            -∗ wp frame (wpE (defs₀ (F := F)) 𝒱₀ (thr d L) none) Set.univ (k ⟨⟩) Q)
        -∗ wp frame (wpE (defs₀ (F := F)) 𝒱₀ (thr d L) none) Set.univ (SparseCore.vectorStoreIdx (buf1) idxs v (fun _ => 1#1) false h hs >>= k) Q) :=
  hg ▸ wp_vstore1 (F := F) d L y hv

/-- A transfer of a staging buffer that holds position `r` delivers the slab at the table and the buffer back. -/
theorem fl0 (c0 : (⟨S50x128, .i32⟩ : BufTy).Contents (Elt F)) (hcd : ∀ j, c0 j = XT m d (col L j)) (k : Fin k0_t2_loop.trips) (fo : Buf (Elt F) (outLoc d)) :
    (Transfers.Flight countersEmb (thr d L) (SemLoc.dma cc0_scratch5.sem) default 1048576
        iprop(((slabM0 L k).view.loc (thr d L) ↦[(slabM0 L k).view.set]{fullShare} (slabM0 L k).view.writes (Elt F) fo
            [⟨Rect.whole S128x256, ReadAs.same.apply (View.read (Elt F) (buf0).view (OHw c0 (W0 L) (2 * k.val) (by have := k2_lt k; omega)))⟩])
          ∗ ((buf0).view.loc (thr d L) ↦[(buf0).view.set]{fullShare} OHw c0 (W0 L) (2 * k.val) (by have := k2_lt k; omega))) : sProp 𝕄)
      ⊢ Transfers.Flight countersEmb (thr d L) (SemLoc.dma cc0_scratch5.sem) default 1048576
        iprop(doneΦ m d L ⟨2 * k.val, by have := k2_lt k; omega⟩ ∗ ((buf0).view.loc (thr d L) ↦[(buf0).view.set]{fullShare} OHb L c0 ⟨2 * k.val, by have := k2_lt k; omega⟩)) :=
  Transfers.Flight_mono countersEmb (thr d L) (sep_mono_left (deliver0 (F := F) m d L k fo _ fun y => OHb_out m d L c0 hcd _ _ y))
theorem fl1 (c0 : (⟨S50x128, .i32⟩ : BufTy).Contents (Elt F)) (hcd : ∀ j, c0 j = XT m d (col L j)) (k : Fin k0_t2_loop.trips) (fo : Buf (Elt F) (outLoc d)) :
    (Transfers.Flight countersEmb (thr d L) (SemLoc.dma cc0_scratch6.sem) default 1048576
        iprop(((slabM1 L k).view.loc (thr d L) ↦[(slabM1 L k).view.set]{fullShare} (slabM1 L k).view.writes (Elt F) fo
            [⟨Rect.whole S128x256, ReadAs.same.apply (View.read (Elt F) (buf1).view (OHw c0 (W0 L) (2 * k.val + 1) (k2_lt k)))⟩])
          ∗ ((buf1).view.loc (thr d L) ↦[(buf1).view.set]{fullShare} OHw c0 (W0 L) (2 * k.val + 1) (k2_lt k))) : sProp 𝕄)
      ⊢ Transfers.Flight countersEmb (thr d L) (SemLoc.dma cc0_scratch6.sem) default 1048576
        iprop(doneΦ m d L ⟨2 * k.val + 1, k2_lt k⟩ ∗ ((buf1).view.loc (thr d L) ↦[(buf1).view.set]{fullShare} OHb L c0 ⟨2 * k.val + 1, k2_lt k⟩)) :=
  Transfers.Flight_mono countersEmb (thr d L) (sep_mono_left (deliver1 (F := F) m d L k fo _ fun y => OHb_out m d L c0 hcd _ _ y))

omit [FloatOps F] in
theorem done_k0 (Φ : Fin 50 → sProp 𝕄) (n : Nat) (h : n = 0) :
    bigSep (Finset.univ.filter fun r : Fin 50 => r.val + 2 < 2 * (n + 1)) Φ = bigSep (Finset.univ.filter fun r : Fin 50 => r.val + 2 < 2 * n) Φ := by
  subst h; exact done_zero Φ

omit [FloatOps F] in
/-- A wait at the kernel's own index recorded beyond `W` keeps the record admissible. -/
theorem ins_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

set_option maxHeartbeats 4000000 in
/-- One trip of the main loop. -/
theorem region (c0 : (⟨S50x128, .i32⟩ : BufTy).Contents (Elt F)) (c1 : (⟨S128, .i32⟩ : BufTy).Contents (Elt F)) (c2 : (⟨S16, .i32⟩ : BufTy).Contents (Elt F))
    (hcd : ∀ j, c0 j = XT m d (col L j)) (hbl : ∀ j : S128.Idx, (c1 j).toNat = (j 0).val)
    (hwz : ∀ j : S16.Idx, (c2 j).toNat = if (j 0).val = 0 then 1 else (j 0).val) (hpre : PreOK m)
    (O : CellTallies nD τ sig (HIx 1)) (W : Waits sig (HIx 1)) (k : Fin k0_t2_loop.trips) (u : PUnit) :
    minv m d L c0 c1 c2 O W k.val u
      ⊢ wp frame (wpE (defs₀ (F := F)) 𝒱₀ (thr d L) none) Set.univ
          (k0_t2_body L xtW (Memref.isWhole_whole _) blW (Memref.isWhole_whole _) wzW (Memref.isWhole_whole _) outW (Memref.isWhole_whole _)
            codesW (Memref.isWhole_whole _) blV (Memref.isWhole_whole _) wzV (Memref.isWhole_whole _) buf0 (Memref.isWhole_whole _) buf1 (Memref.isWhole_whole _)
            cc0_scratch5 cc0_scratch6 cc0_scoped0 cc0_scoped1 cc0_scoped2 (Scalar.addi (Scalar.muli (BitVec.ofNat 32 (L 1).val) 2#32) (BitVec.ofNat 32 (L 0).val)) k u)
          (minv m d L c0 c1 c2 O W (k.val + 1)) := by
  have hk2 : 2 * k.val + 1 < 50 := k2_lt k
  have hc0 : ∀ j, (c0 j).toNat < 256 := fun j => by rw [hcd j]; exact hpre d _
  have hc1 : ∀ j : S128.Idx, (c1 j).toNat < 128 := fun j => by rw [hbl j]; exact (j 0).isLt
  have hc2 : ∀ j : S16.Idx, (c2 j).toNat < 128 := fun j => by
    rw [hwz j]; have : (j 0).val < 16 := (j 0).isLt; split <;> omega
  have hv18 : ∀ kk : Fin k0_t2_loop.trips, (Scalar.addi (Scalar.muli 2#32 (Scalar.addi 0#32 (Scalar.muli (Scf.iv 0#32 1#32 kk) 1#32))) 0#32).toNat < 50 := by decide +kernel
  have hv54 : ∀ kk : Fin k0_t2_loop.trips, (Scalar.addi (Scalar.muli 2#32 (Scalar.addi 0#32 (Scalar.muli (Scf.iv 0#32 1#32 kk) 1#32))) 1#32).toNat < 50 := by decide +kernel
  have e0 : rF (2 * (k.val + 1) - 2) = ⟨2 * k.val, by omega⟩ := Fin.ext (by show (2 * (k.val + 1) - 2) % 50 = 2 * k.val; omega)
  have e1 : rF (2 * (k.val + 1) - 1) = ⟨2 * k.val + 1, hk2⟩ := Fin.ext (by show (2 * (k.val + 1) - 1) % 50 = 2 * k.val + 1; omega)
  unfold minv k0_t2_body slot0 slot1
  rw [if_neg (Nat.succ_ne_zero k.val), if_neg (Nat.succ_ne_zero k.val), e0, e1, fresh_step (freshΦ (F := F) d L) k.val hk2]
  by_cases hk0 : k.val = 0
  · have hk : ¬ k0_cond1 k = 1#1 := fun h => (cond1_iff k).mp h hk0
    have hk4 : ¬ k0_cond4 k = 1#1 := fun h => (cond4_iff k).mp h hk0
    rw [if_pos hk0, if_pos hk0, done_k0 (doneΦ (F := F) m d L) k.val hk0]
    by_cases hw : W0 L
    ·
      have hw2 : k0_cond2 L = 1#1 := (cond2_iff L).mpr hw
      have hw3 : ¬ k0_cond3 L = 1#1 := fun h => (cond3_iff L).mp h hw
      have hw5 : k0_cond5 L = 1#1 := (cond5_iff L).mpr hw
      have hw6 : ¬ k0_cond6 L = 1#1 := fun h => (cond6_iff L).mp h hw
      iintro ⟨#Hmw, Hs0, Hs1, Hs2, ⟨Hs3, Hc5⟩, ⟨Hs4, Hc6⟩, ⟨⟨%fa, Ha⟩, ⟨%fb, Hb⟩, Hfresh⟩, Hdone, %W', %hW', HO⟩
      ihave Ha := (Entails.of_eq ((pts_slab0 (F := F) d L k fa).symm.trans (slabloc0 (F := F) d L k fa))) $$ Ha
      ihave Hb := (Entails.of_eq ((pts_slab1 (F := F) d L k fb).symm.trans (slabloc1 (F := F) d L k fb))) $$ Hb
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vgather (F := F) d L) $$ Hs0; iintro Hs0
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (stepW c0 c2 hwz (2 * k.val) (show 2 * k.val < 50 by omega) _ (v18_val k) 1#32 _ _ _)) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 1 (show 1 ≤ 1 ∧ 1 < 8 by decide) 1 (show 1 ≤ 16 by decide) 1#32 _ _ _ _ (k0_off28_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 2 (show 1 ≤ 2 ∧ 2 < 8 by decide) 1 (show 1 ≤ 16 by decide) 1#32 _ _ _ _ (k0_off29_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 3 (show 1 ≤ 3 ∧ 3 < 8 by decide) 1 (show 1 ≤ 16 by decide) 1#32 _ _ _ _ (k0_off30_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 4 (show 1 ≤ 4 ∧ 4 < 8 by decide) 1 (show 1 ≤ 16 by decide) 1#32 _ _ _ _ (k0_off31_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 5 (show 1 ≤ 5 ∧ 5 < 8 by decide) 1 (show 1 ≤ 16 by decide) 1#32 _ _ _ _ (k0_off32_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 6 (show 1 ≤ 6 ∧ 6 < 8 by decide) 1 (show 1 ≤ 16 by decide) 1#32 _ _ _ _ (k0_off33_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 7 (show 1 ≤ 7 ∧ 7 < 8 by decide) 1 (show 1 ≤ 16 by decide) 1#32 _ _ _ _ (k0_off34_eq k))) $$ Hs3; iintro Hs3
      ihave Hs3 := (Entails.of_eq (congrArg (fun g => ((buf0).view.loc (thr d L) ↦{fullShare} g : sProp 𝕄)) (onesW (F := F) L c0 hw (2 * k.val) (show 2 * k.val < 50 by omega)))) $$ Hs3
      ihave Hs3 := (Entails.of_eq (pts_b0set (F := F) d L _).symm) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vgather (F := F) d L) $$ Hs0; iintro Hs0
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (stepW c0 c2 hwz (2 * k.val + 1) (show 2 * k.val + 1 < 50 by omega) _ (v54_val k) 1#32 _ _ _)) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 1 (show 1 ≤ 1 ∧ 1 < 8 by decide) 1 (show 1 ≤ 16 by decide) 1#32 _ _ _ _ (k0_off46_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 2 (show 1 ≤ 2 ∧ 2 < 8 by decide) 1 (show 1 ≤ 16 by decide) 1#32 _ _ _ _ (k0_off47_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 3 (show 1 ≤ 3 ∧ 3 < 8 by decide) 1 (show 1 ≤ 16 by decide) 1#32 _ _ _ _ (k0_off48_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 4 (show 1 ≤ 4 ∧ 4 < 8 by decide) 1 (show 1 ≤ 16 by decide) 1#32 _ _ _ _ (k0_off49_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 5 (show 1 ≤ 5 ∧ 5 < 8 by decide) 1 (show 1 ≤ 16 by decide) 1#32 _ _ _ _ (k0_off50_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 6 (show 1 ≤ 6 ∧ 6 < 8 by decide) 1 (show 1 ≤ 16 by decide) 1#32 _ _ _ _ (k0_off51_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 7 (show 1 ≤ 7 ∧ 7 < 8 by decide) 1 (show 1 ≤ 16 by decide) 1#32 _ _ _ _ (k0_off52_eq k))) $$ Hs4; iintro Hs4
      ihave Hs4 := (Entails.of_eq (congrArg (fun g => ((buf1).view.loc (thr d L) ↦{fullShare} g : sProp 𝕄)) (onesW (F := F) L c0 hw (2 * k.val + 1) (show 2 * k.val + 1 < 50 by omega)))) $$ Hs4
      ihave Hs4 := (Entails.of_eq (pts_b1set (F := F) d L _).symm) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      sl_step
      isplitr; · iexact Hmw
      isplitl [Hs0]; · iexact Hs0
      isplitl [Hs1]; · iexact Hs1
      isplitl [Hs2]; · iexact Hs2
      isplitl [Hc5]
      · iapply (fl0 (F := F) m d L c0 hcd k fa); iexact Hc5
      isplitl [Hc6]
      · iapply (fl1 (F := F) m d L c0 hcd k fb); iexact Hc6
      isplitl [Hfresh]; · iexact Hfresh
      isplitl [Hdone]; · iexact Hdone
      iexists W'; isplitr
      · ipureintro; exact hW'
      · iexact HO

    ·
      have hw2 : ¬ k0_cond2 L = 1#1 := fun h => hw ((cond2_iff L).mp h)
      have hw3 : k0_cond3 L = 1#1 := (cond3_iff L).mpr hw
      have hw5 : ¬ k0_cond5 L = 1#1 := fun h => hw ((cond5_iff L).mp h)
      have hw6 : k0_cond6 L = 1#1 := (cond6_iff L).mpr hw
      iintro ⟨#Hmw, Hs0, Hs1, Hs2, ⟨Hs3, Hc5⟩, ⟨Hs4, Hc6⟩, ⟨⟨%fa, Ha⟩, ⟨%fb, Hb⟩, Hfresh⟩, Hdone, %W', %hW', HO⟩
      ihave Ha := (Entails.of_eq ((pts_slab0 (F := F) d L k fa).symm.trans (slabloc0 (F := F) d L k fa))) $$ Ha
      ihave Hb := (Entails.of_eq ((pts_slab1 (F := F) d L k fb).symm.trans (slabloc1 (F := F) d L k fb))) $$ Hb
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step0 c0 c1 hbl (2 * k.val) (show 2 * k.val < 50 by omega) 1#32 _ _ _ _ (k0_off27_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 1 (show 1 ≤ 1 ∧ 1 < 8 by decide) 0 (show 0 ≤ 16 by decide) 1#32 _ _ _ _ (k0_off28_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 2 (show 1 ≤ 2 ∧ 2 < 8 by decide) 0 (show 0 ≤ 16 by decide) 1#32 _ _ _ _ (k0_off29_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 3 (show 1 ≤ 3 ∧ 3 < 8 by decide) 0 (show 0 ≤ 16 by decide) 1#32 _ _ _ _ (k0_off30_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 4 (show 1 ≤ 4 ∧ 4 < 8 by decide) 0 (show 0 ≤ 16 by decide) 1#32 _ _ _ _ (k0_off31_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 5 (show 1 ≤ 5 ∧ 5 < 8 by decide) 0 (show 0 ≤ 16 by decide) 1#32 _ _ _ _ (k0_off32_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 6 (show 1 ≤ 6 ∧ 6 < 8 by decide) 0 (show 0 ≤ 16 by decide) 1#32 _ _ _ _ (k0_off33_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 7 (show 1 ≤ 7 ∧ 7 < 8 by decide) 0 (show 0 ≤ 16 by decide) 1#32 _ _ _ _ (k0_off34_eq k))) $$ Hs3; iintro Hs3
      ihave Hs3 := (Entails.of_eq (congrArg (fun g => ((buf0).view.loc (thr d L) ↦{fullShare} g : sProp 𝕄)) (onesN (F := F) L c0 hw (2 * k.val) (show 2 * k.val < 50 by omega)))) $$ Hs3
      ihave Hs3 := (Entails.of_eq (pts_b0set (F := F) d L _).symm) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step0 c0 c1 hbl (2 * k.val + 1) (show 2 * k.val + 1 < 50 by omega) 1#32 _ _ _ _ (k0_off45_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 1 (show 1 ≤ 1 ∧ 1 < 8 by decide) 0 (show 0 ≤ 16 by decide) 1#32 _ _ _ _ (k0_off46_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 2 (show 1 ≤ 2 ∧ 2 < 8 by decide) 0 (show 0 ≤ 16 by decide) 1#32 _ _ _ _ (k0_off47_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 3 (show 1 ≤ 3 ∧ 3 < 8 by decide) 0 (show 0 ≤ 16 by decide) 1#32 _ _ _ _ (k0_off48_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 4 (show 1 ≤ 4 ∧ 4 < 8 by decide) 0 (show 0 ≤ 16 by decide) 1#32 _ _ _ _ (k0_off49_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 5 (show 1 ≤ 5 ∧ 5 < 8 by decide) 0 (show 0 ≤ 16 by decide) 1#32 _ _ _ _ (k0_off50_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 6 (show 1 ≤ 6 ∧ 6 < 8 by decide) 0 (show 0 ≤ 16 by decide) 1#32 _ _ _ _ (k0_off51_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 7 (show 1 ≤ 7 ∧ 7 < 8 by decide) 0 (show 0 ≤ 16 by decide) 1#32 _ _ _ _ (k0_off52_eq k))) $$ Hs4; iintro Hs4
      ihave Hs4 := (Entails.of_eq (congrArg (fun g => ((buf1).view.loc (thr d L) ↦{fullShare} g : sProp 𝕄)) (onesN (F := F) L c0 hw (2 * k.val + 1) (show 2 * k.val + 1 < 50 by omega)))) $$ Hs4
      ihave Hs4 := (Entails.of_eq (pts_b1set (F := F) d L _).symm) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      sl_step
      isplitr; · iexact Hmw
      isplitl [Hs0]; · iexact Hs0
      isplitl [Hs1]; · iexact Hs1
      isplitl [Hs2]; · iexact Hs2
      isplitl [Hc5]
      · iapply (fl0 (F := F) m d L c0 hcd k fa); iexact Hc5
      isplitl [Hc6]
      · iapply (fl1 (F := F) m d L c0 hcd k fb); iexact Hc6
      isplitl [Hfresh]; · iexact Hfresh
      isplitl [Hdone]; · iexact Hdone
      iexists W'; isplitr
      · ipureintro; exact hW'
      · iexact HO

  · have hk : k0_cond1 k = 1#1 := (cond1_iff k).mpr hk0
    have hk4 : k0_cond4 k = 1#1 := (cond4_iff k).mpr hk0
    have f0 : rF (2 * k.val - 2) = ⟨2 * k.val - 2, by omega⟩ := Fin.ext (Nat.mod_eq_of_lt (by omega))
    have f1 : rF (2 * k.val - 1) = ⟨2 * k.val - 1, by omega⟩ := Fin.ext (Nat.mod_eq_of_lt (by omega))
    rw [if_neg hk0, if_neg hk0, f0, f1, done_step (doneΦ (F := F) m d L) k.val (Nat.pos_of_ne_zero hk0) (by omega)]
    by_cases hw : W0 L
    ·
      have hw2 : k0_cond2 L = 1#1 := (cond2_iff L).mpr hw
      have hw3 : ¬ k0_cond3 L = 1#1 := fun h => (cond3_iff L).mp h hw
      have hw5 : k0_cond5 L = 1#1 := (cond5_iff L).mpr hw
      have hw6 : ¬ k0_cond6 L = 1#1 := fun h => (cond6_iff L).mp h hw
      iintro ⟨#Hmw, Hs0, Hs1, Hs2, Hc5, Hc6, ⟨⟨%fa, Ha⟩, ⟨%fb, Hb⟩, Hfresh⟩, Hdone, %W', %hW', HO⟩
      ihave Ha := (Entails.of_eq ((pts_slab0 (F := F) d L k fa).symm.trans (slabloc0 (F := F) d L k fa))) $$ Ha
      ihave Hb := (Entails.of_eq ((pts_slab1 (F := F) d L k fb).symm.trans (slabloc1 (F := F) d L k fb))) $$ Hb
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      ihave Hs3 := (Entails.of_eq (pts_b0set (F := F) d L _)) $$ Hc5_src
      iapply (wp_vstore0' (F := F) d L 0#32 rfl _ (step0 c0 c1 hbl (2 * k.val - 2) (show 2 * k.val - 2 < 50 by omega) 0#32 _ _ _ _ (off19_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 1 (show 1 ≤ 1 ∧ 1 < 8 by decide) 0 (show 0 ≤ 16 by decide) 0#32 _ _ _ _ (off20_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 2 (show 1 ≤ 2 ∧ 2 < 8 by decide) 0 (show 0 ≤ 16 by decide) 0#32 _ _ _ _ (off21_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 3 (show 1 ≤ 3 ∧ 3 < 8 by decide) 0 (show 0 ≤ 16 by decide) 0#32 _ _ _ _ (off22_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 4 (show 1 ≤ 4 ∧ 4 < 8 by decide) 0 (show 0 ≤ 16 by decide) 0#32 _ _ _ _ (off23_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 5 (show 1 ≤ 5 ∧ 5 < 8 by decide) 0 (show 0 ≤ 16 by decide) 0#32 _ _ _ _ (off24_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 6 (show 1 ≤ 6 ∧ 6 < 8 by decide) 0 (show 0 ≤ 16 by decide) 0#32 _ _ _ _ (off25_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 7 (show 1 ≤ 7 ∧ 7 < 8 by decide) 0 (show 0 ≤ 16 by decide) 0#32 _ _ _ _ (off26_eq k hk))) $$ Hs3; iintro Hs3
      ihave Hs3 := (Entails.of_eq (congrArg (fun g => ((buf0).view.loc (thr d L) ↦{fullShare} g : sProp 𝕄)) (zeros_back (F := F) c0 (W0 L) (2 * k.val - 2) (show 2 * k.val - 2 < 50 by omega)))) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vgather (F := F) d L) $$ Hs0; iintro Hs0
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (stepW c0 c2 hwz (2 * k.val) (show 2 * k.val < 50 by omega) _ (v18_val k) 1#32 _ _ _)) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 1 (show 1 ≤ 1 ∧ 1 < 8 by decide) 1 (show 1 ≤ 16 by decide) 1#32 _ _ _ _ (k0_off28_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 2 (show 1 ≤ 2 ∧ 2 < 8 by decide) 1 (show 1 ≤ 16 by decide) 1#32 _ _ _ _ (k0_off29_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 3 (show 1 ≤ 3 ∧ 3 < 8 by decide) 1 (show 1 ≤ 16 by decide) 1#32 _ _ _ _ (k0_off30_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 4 (show 1 ≤ 4 ∧ 4 < 8 by decide) 1 (show 1 ≤ 16 by decide) 1#32 _ _ _ _ (k0_off31_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 5 (show 1 ≤ 5 ∧ 5 < 8 by decide) 1 (show 1 ≤ 16 by decide) 1#32 _ _ _ _ (k0_off32_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 6 (show 1 ≤ 6 ∧ 6 < 8 by decide) 1 (show 1 ≤ 16 by decide) 1#32 _ _ _ _ (k0_off33_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 7 (show 1 ≤ 7 ∧ 7 < 8 by decide) 1 (show 1 ≤ 16 by decide) 1#32 _ _ _ _ (k0_off34_eq k))) $$ Hs3; iintro Hs3
      ihave Hs3 := (Entails.of_eq (congrArg (fun g => ((buf0).view.loc (thr d L) ↦{fullShare} g : sProp 𝕄)) (onesW (F := F) L c0 hw (2 * k.val) (show 2 * k.val < 50 by omega)))) $$ Hs3
      ihave Hs3 := (Entails.of_eq (pts_b0set (F := F) d L _).symm) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      ihave Hs4 := (Entails.of_eq (pts_b1set (F := F) d L _)) $$ Hc6_src
      iapply (wp_vstore1' (F := F) d L 0#32 rfl _ (step0 c0 c1 hbl (2 * k.val - 1) (show 2 * k.val - 1 < 50 by omega) 0#32 _ _ _ _ (off37_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 1 (show 1 ≤ 1 ∧ 1 < 8 by decide) 0 (show 0 ≤ 16 by decide) 0#32 _ _ _ _ (off38_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 2 (show 1 ≤ 2 ∧ 2 < 8 by decide) 0 (show 0 ≤ 16 by decide) 0#32 _ _ _ _ (off39_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 3 (show 1 ≤ 3 ∧ 3 < 8 by decide) 0 (show 0 ≤ 16 by decide) 0#32 _ _ _ _ (off40_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 4 (show 1 ≤ 4 ∧ 4 < 8 by decide) 0 (show 0 ≤ 16 by decide) 0#32 _ _ _ _ (off41_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 5 (show 1 ≤ 5 ∧ 5 < 8 by decide) 0 (show 0 ≤ 16 by decide) 0#32 _ _ _ _ (off42_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 6 (show 1 ≤ 6 ∧ 6 < 8 by decide) 0 (show 0 ≤ 16 by decide) 0#32 _ _ _ _ (off43_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 7 (show 1 ≤ 7 ∧ 7 < 8 by decide) 0 (show 0 ≤ 16 by decide) 0#32 _ _ _ _ (off44_eq k hk4))) $$ Hs4; iintro Hs4
      ihave Hs4 := (Entails.of_eq (congrArg (fun g => ((buf1).view.loc (thr d L) ↦{fullShare} g : sProp 𝕄)) (zeros_back (F := F) c0 (W0 L) (2 * k.val - 1) (show 2 * k.val - 1 < 50 by omega)))) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vgather (F := F) d L) $$ Hs0; iintro Hs0
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (stepW c0 c2 hwz (2 * k.val + 1) (show 2 * k.val + 1 < 50 by omega) _ (v54_val k) 1#32 _ _ _)) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 1 (show 1 ≤ 1 ∧ 1 < 8 by decide) 1 (show 1 ≤ 16 by decide) 1#32 _ _ _ _ (k0_off46_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 2 (show 1 ≤ 2 ∧ 2 < 8 by decide) 1 (show 1 ≤ 16 by decide) 1#32 _ _ _ _ (k0_off47_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 3 (show 1 ≤ 3 ∧ 3 < 8 by decide) 1 (show 1 ≤ 16 by decide) 1#32 _ _ _ _ (k0_off48_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 4 (show 1 ≤ 4 ∧ 4 < 8 by decide) 1 (show 1 ≤ 16 by decide) 1#32 _ _ _ _ (k0_off49_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 5 (show 1 ≤ 5 ∧ 5 < 8 by decide) 1 (show 1 ≤ 16 by decide) 1#32 _ _ _ _ (k0_off50_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 6 (show 1 ≤ 6 ∧ 6 < 8 by decide) 1 (show 1 ≤ 16 by decide) 1#32 _ _ _ _ (k0_off51_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 7 (show 1 ≤ 7 ∧ 7 < 8 by decide) 1 (show 1 ≤ 16 by decide) 1#32 _ _ _ _ (k0_off52_eq k))) $$ Hs4; iintro Hs4
      ihave Hs4 := (Entails.of_eq (congrArg (fun g => ((buf1).view.loc (thr d L) ↦{fullShare} g : sProp 𝕄)) (onesW (F := F) L c0 hw (2 * k.val + 1) (show 2 * k.val + 1 < 50 by omega)))) $$ Hs4
      ihave Hs4 := (Entails.of_eq (pts_b1set (F := F) d L _).symm) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      sl_step
      isplitr; · iexact Hmw
      isplitl [Hs0]; · iexact Hs0
      isplitl [Hs1]; · iexact Hs1
      isplitl [Hs2]; · iexact Hs2
      isplitl [Hc5]
      · iapply (fl0 (F := F) m d L c0 hcd k fa); iexact Hc5
      isplitl [Hc6]
      · iapply (fl1 (F := F) m d L c0 hcd k fb); iexact Hc6
      isplitl [Hfresh]; · iexact Hfresh
      isplitl [Hc5_dst Hc6_dst Hdone]
      · isplitl [Hc5_dst]; · iexact Hc5_dst
        isplitl [Hc6_dst]; · iexact Hc6_dst
        iexact Hdone
      iexists _; isplitr
      swap
      · iexact HO
      · ipureintro; exact ins_ok _ (ins_ok _ hW')

    ·
      have hw2 : ¬ k0_cond2 L = 1#1 := fun h => hw ((cond2_iff L).mp h)
      have hw3 : k0_cond3 L = 1#1 := (cond3_iff L).mpr hw
      have hw5 : ¬ k0_cond5 L = 1#1 := fun h => hw ((cond5_iff L).mp h)
      have hw6 : k0_cond6 L = 1#1 := (cond6_iff L).mpr hw
      iintro ⟨#Hmw, Hs0, Hs1, Hs2, Hc5, Hc6, ⟨⟨%fa, Ha⟩, ⟨%fb, Hb⟩, Hfresh⟩, Hdone, %W', %hW', HO⟩
      ihave Ha := (Entails.of_eq ((pts_slab0 (F := F) d L k fa).symm.trans (slabloc0 (F := F) d L k fa))) $$ Ha
      ihave Hb := (Entails.of_eq ((pts_slab1 (F := F) d L k fb).symm.trans (slabloc1 (F := F) d L k fb))) $$ Hb
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      ihave Hs3 := (Entails.of_eq (pts_b0set (F := F) d L _)) $$ Hc5_src
      iapply (wp_vstore0' (F := F) d L 0#32 rfl _ (step0 c0 c1 hbl (2 * k.val - 2) (show 2 * k.val - 2 < 50 by omega) 0#32 _ _ _ _ (off19_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 1 (show 1 ≤ 1 ∧ 1 < 8 by decide) 0 (show 0 ≤ 16 by decide) 0#32 _ _ _ _ (off20_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 2 (show 1 ≤ 2 ∧ 2 < 8 by decide) 0 (show 0 ≤ 16 by decide) 0#32 _ _ _ _ (off21_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 3 (show 1 ≤ 3 ∧ 3 < 8 by decide) 0 (show 0 ≤ 16 by decide) 0#32 _ _ _ _ (off22_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 4 (show 1 ≤ 4 ∧ 4 < 8 by decide) 0 (show 0 ≤ 16 by decide) 0#32 _ _ _ _ (off23_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 5 (show 1 ≤ 5 ∧ 5 < 8 by decide) 0 (show 0 ≤ 16 by decide) 0#32 _ _ _ _ (off24_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 6 (show 1 ≤ 6 ∧ 6 < 8 by decide) 0 (show 0 ≤ 16 by decide) 0#32 _ _ _ _ (off25_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 7 (show 1 ≤ 7 ∧ 7 < 8 by decide) 0 (show 0 ≤ 16 by decide) 0#32 _ _ _ _ (off26_eq k hk))) $$ Hs3; iintro Hs3
      ihave Hs3 := (Entails.of_eq (congrArg (fun g => ((buf0).view.loc (thr d L) ↦{fullShare} g : sProp 𝕄)) (zeros_back (F := F) c0 (W0 L) (2 * k.val - 2) (show 2 * k.val - 2 < 50 by omega)))) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step0 c0 c1 hbl (2 * k.val) (show 2 * k.val < 50 by omega) 1#32 _ _ _ _ (k0_off27_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 1 (show 1 ≤ 1 ∧ 1 < 8 by decide) 0 (show 0 ≤ 16 by decide) 1#32 _ _ _ _ (k0_off28_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 2 (show 1 ≤ 2 ∧ 2 < 8 by decide) 0 (show 0 ≤ 16 by decide) 1#32 _ _ _ _ (k0_off29_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 3 (show 1 ≤ 3 ∧ 3 < 8 by decide) 0 (show 0 ≤ 16 by decide) 1#32 _ _ _ _ (k0_off30_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 4 (show 1 ≤ 4 ∧ 4 < 8 by decide) 0 (show 0 ≤ 16 by decide) 1#32 _ _ _ _ (k0_off31_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 5 (show 1 ≤ 5 ∧ 5 < 8 by decide) 0 (show 0 ≤ 16 by decide) 1#32 _ _ _ _ (k0_off32_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 6 (show 1 ≤ 6 ∧ 6 < 8 by decide) 0 (show 0 ≤ 16 by decide) 1#32 _ _ _ _ (k0_off33_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 7 (show 1 ≤ 7 ∧ 7 < 8 by decide) 0 (show 0 ≤ 16 by decide) 1#32 _ _ _ _ (k0_off34_eq k))) $$ Hs3; iintro Hs3
      ihave Hs3 := (Entails.of_eq (congrArg (fun g => ((buf0).view.loc (thr d L) ↦{fullShare} g : sProp 𝕄)) (onesN (F := F) L c0 hw (2 * k.val) (show 2 * k.val < 50 by omega)))) $$ Hs3
      ihave Hs3 := (Entails.of_eq (pts_b0set (F := F) d L _).symm) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      ihave Hs4 := (Entails.of_eq (pts_b1set (F := F) d L _)) $$ Hc6_src
      iapply (wp_vstore1' (F := F) d L 0#32 rfl _ (step0 c0 c1 hbl (2 * k.val - 1) (show 2 * k.val - 1 < 50 by omega) 0#32 _ _ _ _ (off37_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 1 (show 1 ≤ 1 ∧ 1 < 8 by decide) 0 (show 0 ≤ 16 by decide) 0#32 _ _ _ _ (off38_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 2 (show 1 ≤ 2 ∧ 2 < 8 by decide) 0 (show 0 ≤ 16 by decide) 0#32 _ _ _ _ (off39_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 3 (show 1 ≤ 3 ∧ 3 < 8 by decide) 0 (show 0 ≤ 16 by decide) 0#32 _ _ _ _ (off40_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 4 (show 1 ≤ 4 ∧ 4 < 8 by decide) 0 (show 0 ≤ 16 by decide) 0#32 _ _ _ _ (off41_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 5 (show 1 ≤ 5 ∧ 5 < 8 by decide) 0 (show 0 ≤ 16 by decide) 0#32 _ _ _ _ (off42_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 6 (show 1 ≤ 6 ∧ 6 < 8 by decide) 0 (show 0 ≤ 16 by decide) 0#32 _ _ _ _ (off43_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 7 (show 1 ≤ 7 ∧ 7 < 8 by decide) 0 (show 0 ≤ 16 by decide) 0#32 _ _ _ _ (off44_eq k hk4))) $$ Hs4; iintro Hs4
      ihave Hs4 := (Entails.of_eq (congrArg (fun g => ((buf1).view.loc (thr d L) ↦{fullShare} g : sProp 𝕄)) (zeros_back (F := F) c0 (W0 L) (2 * k.val - 1) (show 2 * k.val - 1 < 50 by omega)))) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step0 c0 c1 hbl (2 * k.val + 1) (show 2 * k.val + 1 < 50 by omega) 1#32 _ _ _ _ (k0_off45_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 1 (show 1 ≤ 1 ∧ 1 < 8 by decide) 0 (show 0 ≤ 16 by decide) 1#32 _ _ _ _ (k0_off46_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 2 (show 1 ≤ 2 ∧ 2 < 8 by decide) 0 (show 0 ≤ 16 by decide) 1#32 _ _ _ _ (k0_off47_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 3 (show 1 ≤ 3 ∧ 3 < 8 by decide) 0 (show 0 ≤ 16 by decide) 1#32 _ _ _ _ (k0_off48_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 4 (show 1 ≤ 4 ∧ 4 < 8 by decide) 0 (show 0 ≤ 16 by decide) 1#32 _ _ _ _ (k0_off49_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 5 (show 1 ≤ 5 ∧ 5 < 8 by decide) 0 (show 0 ≤ 16 by decide) 1#32 _ _ _ _ (k0_off50_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 6 (show 1 ≤ 6 ∧ 6 < 8 by decide) 0 (show 0 ≤ 16 by decide) 1#32 _ _ _ _ (k0_off51_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 7 (show 1 ≤ 7 ∧ 7 < 8 by decide) 0 (show 0 ≤ 16 by decide) 1#32 _ _ _ _ (k0_off52_eq k))) $$ Hs4; iintro Hs4
      ihave Hs4 := (Entails.of_eq (congrArg (fun g => ((buf1).view.loc (thr d L) ↦{fullShare} g : sProp 𝕄)) (onesN (F := F) L c0 hw (2 * k.val + 1) (show 2 * k.val + 1 < 50 by omega)))) $$ Hs4
      ihave Hs4 := (Entails.of_eq (pts_b1set (F := F) d L _).symm) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      sl_step
      isplitr; · iexact Hmw
      isplitl [Hs0]; · iexact Hs0
      isplitl [Hs1]; · iexact Hs1
      isplitl [Hs2]; · iexact Hs2
      isplitl [Hc5]
      · iapply (fl0 (F := F) m d L c0 hcd k fa); iexact Hc5
      isplitl [Hc6]
      · iapply (fl1 (F := F) m d L c0 hcd k fb); iexact Hc6
      isplitl [Hfresh]; · iexact Hfresh
      isplitl [Hc5_dst Hc6_dst Hdone]
      · isplitl [Hc5_dst]; · iexact Hc5_dst
        isplitl [Hc6_dst]; · iexact Hc6_dst
        iexact Hdone
      iexists _; isplitr
      swap
      · iexact HO
      · ipureintro; exact ins_ok _ (ins_ok _ hW')

end Tile

end Cert.Proof.KI

end
-- ==== Proof.Tile.lean ====
/-
  One worker, start to end: three opening copies (the two row tables and its 128 columns of the transposed codes),
  the zero fill of both staging buffers (row `t` at trip `t`), twenty-five trips of the main loop (`Body.lean`), and
  the two closing waits, after which all fifty slabs hold the table and every scratch buffer and semaphore is back.
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.KernelIdeal
import proofs.«204306_g82583631167916_cont_9to1c4b_486_26_alg».proof.Proof.Gen.KernelIdeal.Skeleton
import proofs.«204306_g82583631167916_cont_9to1c4b_486_26_alg».proof.Proof.Spec
import proofs.«204306_g82583631167916_cont_9to1c4b_486_26_alg».proof.Proof.Setup
import proofs.«204306_g82583631167916_cont_9to1c4b_486_26_alg».proof.Proof.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xtW" => (Memref.whole Cert.KernelIdeal.main_v0_scv : Memref Cert.KernelIdeal.sig Kind.scVector Space.hbm Cert.KernelIdeal.S50x4096 EltTy.i32)
local notation "blW" => (Memref.whole Cert.KernelIdeal.main_c_scv : Memref Cert.KernelIdeal.sig Kind.scVector Space.hbm Cert.KernelIdeal.S128 EltTy.i32)
local notation "wzW" => (Memref.whole Cert.KernelIdeal.main_c_0_scv : Memref Cert.KernelIdeal.sig Kind.scVector Space.hbm Cert.KernelIdeal.S16 EltTy.i32)
local notation "outW" => (Memref.whole Cert.KernelIdeal.main_v1_scv : Memref Cert.KernelIdeal.sig Kind.scVector Space.hbm Cert.KernelIdeal.S50x4096x256 EltTy.i32)
local notation "codesW" => (Memref.whole Cert.KernelIdeal.cc0_scratch0 : Memref Cert.KernelIdeal.sig Kind.scVector Space.vmem Cert.KernelIdeal.S50x128 EltTy.i32)
local notation "blV" => (Memref.whole Cert.KernelIdeal.cc0_scratch1 : Memref Cert.KernelIdeal.sig Kind.scVector Space.vmem Cert.KernelIdeal.S128 EltTy.i32)
local notation "wzV" => (Memref.whole Cert.KernelIdeal.cc0_scratch2 : Memref Cert.KernelIdeal.sig Kind.scVector Space.vmem Cert.KernelIdeal.S16 EltTy.i32)
local notation "buf0" => (Memref.whole Cert.KernelIdeal.cc0_scratch3 : Memref Cert.KernelIdeal.sig Kind.scVector Space.vmem Cert.KernelIdeal.S128x256 EltTy.i32)
local notation "buf1" => (Memref.whole Cert.KernelIdeal.cc0_scratch4 : Memref Cert.KernelIdeal.sig Kind.scVector Space.vmem Cert.KernelIdeal.S128x256 EltTy.i32)

variable [FloatOps F]

section Tile

variable (d : Dev nD) (L : grid0.Coords)

open Cert.Idx Cert.Scatter Cert.FinRange Cert.ZeroFill

/-- What the three opening copies leave in the scratches. -/
abbrev C0 (f0 : Buf (Elt F) ((codesW).view.loc (thr d L))) : Buf (Elt F) ((codesW).view.loc (thr d L)) :=
  View.write (Elt F) (codesW).view f0 (ReadAs.same.apply (View.read (Elt F) ((xtW).slice (Rect.unit (s := S50x4096) (k0_off1 L) S50x128.size (k0_off1_inb L)) (fun _ => rfl)).view (XT m d))) Finset.univ
abbrev C1 (f1 : Buf (Elt F) ((blV).view.loc (thr d L))) : Buf (Elt F) ((blV).view.loc (thr d L)) :=
  View.write (Elt F) (blV).view f1 (ReadAs.same.apply (View.read (Elt F) (blW).view (BL (F := F) d))) Finset.univ
abbrev C2 (f2 : Buf (Elt F) ((wzV).view.loc (thr d L))) : Buf (Elt F) ((wzV).view.loc (thr d L)) :=
  View.write (Elt F) (wzV).view f2 (ReadAs.same.apply (View.read (Elt F) (wzW).view (WZ (F := F) d))) Finset.univ

/-- Before trip `t` of the zero fill: both staging buffers' rows below `t` are zero. -/
def zinv (t : Nat) (_ : PUnit) : sProp 𝕄 :=
  iprop(∃ (g3 : Buf (Elt F) ((thr d L).loc cc0_scratch3)) (g4 : Buf (Elt F) ((thr d L).loc cc0_scratch4)),
    ⌜∀ j : S128x256.Idx, (j 0).val < t → g3 j = 0#32 ∧ g4 j = 0#32⌝
    ∗ ((buf0).view.loc (thr d L) ↦{fullShare} g3) ∗ ((buf1).view.loc (thr d L) ↦{fullShare} g4))

omit [FloatOps F] in
theorem slabsOut_eq : (slabsOut m d (cL L) (jL L) : sProp 𝕄) = bigSep Finset.univ (doneΦ m d L) := rfl
omit [FloatOps F] in
theorem slabsAny_eq : (slabsAny d (cL L) (jL L) : sProp 𝕄) = bigSep Finset.univ (freshΦ (F := F) d L) := rfl

set_option maxHeartbeats 4000000 in
/-- The worker on vector subcore `(L 0, L 1)` of device `d`: from read shares of the three tables and its fifty slabs,
    it leaves every slab at the one-hot table. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tabs m (qt (cL L) (jL L)) d ∗ slabsAny d (cL L) (jL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xtW (Memref.isWhole_whole _) blW (Memref.isWhole_whole _) wzW (Memref.isWhole_whole _) outW (Memref.isWhole_whole _)
            codesW (Memref.isWhole_whole _) blV (Memref.isWhole_whole _) wzV (Memref.isWhole_whole _) buf0 (Memref.isWhole_whole _) buf1 (Memref.isWhole_whole _)
            cc0_scratch5 cc0_scratch6 cc0_scoped0 cc0_scoped1 cc0_scoped2)
          fun _ => iprop((tabs m (qt (cL L) (jL L)) d ∗ slabsOut m d (cL L) (jL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V,
    slabsOut_eq, slabsAny_eq]
  iintro ⟨#Hlv, -, ⟨⟨Hbl, Hwz, Hxt⟩, Hslabs⟩, ⟨⟨%f0, Hs0⟩, ⟨%f1, Hs1⟩, ⟨%f2, Hs2⟩, ⟨%f3, Hs3⟩, ⟨%f4, Hs4⟩, Hbufs⟩, ⟨Hc5, Hc6, Hr0, Hr1, Hr2, Hsems⟩, HO⟩
  ihave Hmw := ((K (F := F)).mayWaits_none (thr := thr d L) hO) $$ Hlv
  ihave Hbl := (Entails.of_eq (pts_bl (F := F) d L _ _).symm) $$ Hbl
  ihave Hwz := (Entails.of_eq (pts_wz (F := F) d L _ _).symm) $$ Hwz
  ihave Hxt := (Entails.of_eq (pts_xt (F := F) d L _ _).symm) $$ Hxt
  ihave Hs0 := (Entails.of_eq (pts_codes (F := F) d L _).symm) $$ Hs0
  ihave Hs1 := (Entails.of_eq (pts_blV (F := F) d L _).symm) $$ Hs1
  ihave Hs2 := (Entails.of_eq (pts_wzV (F := F) d L _).symm) $$ Hs2
  ihave Hs3 := (Entails.of_eq (pts_buf0 (F := F) d L _).symm) $$ Hs3
  ihave Hs4 := (Entails.of_eq (pts_buf1 (F := F) d L _).symm) $$ Hs4
  -- the three opening copies
  sl_exec
  -- the zero fill
  sl_for (zinv (F := F) d L) $$ [Hs3 Hs4]
  case region =>
    intro t _
    unfold zinv
    iintro ⟨%g3, %g4, %hz, Hs3, Hs4⟩
    sl_exec
    sl_step
    iexists _, _
    isplitr
    · ipureintro
      intro j hj
      exact ⟨zero_fill3 (F := F) t g3 (fun j h => (hz j h).1) j hj, zero_fill4 (F := F) t g4 (fun j h => (hz j h).2) j hj⟩
    isplitl [Hs3]; · iexact Hs3
    iexact Hs4
  · unfold zinv
    iexists f3, f4
    isplitr
    · ipureintro; intro j hj; exact absurd hj (Nat.not_lt_zero _)
    isplitl [Hs3]; · iexact Hs3
    iexact Hs4
  iintro %_ HI
  unfold zinv
  icases HI with ⟨%g3, %g4, %hz, Hs3, Hs4⟩
  have h128 : Scf.trips k0_t1_loop.lb k0_t1_loop.ub k0_t1_loop.st = 128 := by decide
  have hg3 : g3 = ZB := funext fun j => (hz j (h128 ▸ (j 0).isLt)).1
  have hg4 : g4 = ZB := funext fun j => (hz j (h128 ▸ (j 0).isLt)).2
  subst hg3 hg4
  -- the main loop
  sl_for (minv (F := F) m d L (C0 (F := F) m d L f0) (C1 (F := F) d L f1) (C2 (F := F) d L f2) O W) $$ [Hmw Hs0 Hs1 Hs2 Hs3 Hs4 Hc5 Hc6 Hslabs HO]
  case region =>
    intro k u
    exact region (F := F) m d L _ _ _ (codes_loaded (F := F) m d L f0) (bl_loaded (F := F) d L f1) (wz_loaded (F := F) d L f2) hpre O W k u
  · unfold minv slot0 slot1
    rw [if_pos rfl, if_pos rfl, fresh_init (freshΦ (F := F) d L), done_init (doneΦ (F := F) m d L)]
    isplitr; · iexact Hmw
    isplitl [Hs0]; · iexact Hs0
    isplitl [Hs1]; · iexact Hs1
    isplitl [Hs2]; · iexact Hs2
    isplitl [Hs3 Hc5]; · isplitl [Hs3]; · iexact Hs3
                         iexact Hc5
    isplitl [Hs4 Hc6]; · isplitl [Hs4]; · iexact Hs4
                         iexact Hc6
    isplitl [Hslabs]; · iexact Hslabs
    isplitr; · iempintro
    iexists _; isplitr
    swap
    · iexact HO
    · ipureintro; exact ins_ok _ (ins_ok _ (ins_ok _ (fun p hp => .inl hp)))
  have h25 : Scf.trips k0_t2_loop.lb k0_t2_loop.ub k0_t2_loop.st = 25 := by decide
  rw [h25]
  iintro %_ HI
  unfold minv slot0 slot1
  rw [if_neg (by decide : ¬ (25 = 0)), if_neg (by decide : ¬ (25 = 0)), fresh_last (freshΦ (F := F) d L)]
  icases HI with ⟨-, Hs0, Hs1, Hs2, Hc5, Hc6, -, Hdone, %W', %hW', HO⟩
  sl_exec
  sl_step
  rw [done_last (doneΦ (F := F) m d L)]
  isplitl [Hbl Hwz Hxt Hc5_dst Hc6_dst Hdone]
  · isplitl [Hbl Hwz Hxt]
    · isplitl [Hbl]; · iapply (Entails.of_eq (pts_bl (F := F) d L _ _)); iexact Hbl
      isplitl [Hwz]; · iapply (Entails.of_eq (pts_wz (F := F) d L _ _)); iexact Hwz
      iapply (Entails.of_eq (pts_xt (F := F) d L _ _)); iexact Hxt
    · isplitl [Hc5_dst]; · iexact Hc5_dst
      isplitl [Hc6_dst]; · iexact Hc6_dst
      iexact Hdone
  isplitl [Hs0 Hs1 Hs2 Hc5_src Hc6_src Hbufs]
  · isplitl [Hs0]; · iexists _; iexact Hs0
    isplitl [Hs1]; · iexists _; iexact Hs1
    isplitl [Hs2]; · iexists _; iexact Hs2
    isplitl [Hc5_src]; · iexists _; iapply (Entails.of_eq (pts_b0set (F := F) d L _)); iexact Hc5_src
    isplitl [Hc6_src]; · iexists _; iapply (Entails.of_eq (pts_b1set (F := F) d L _)); iexact Hc6_src
    iexact Hbufs
  isplitl [Hc5 Hc6 Hr0 Hr1 Hr2 Hsems]
  · isplitl [Hc5]; · iexact Hc5
    isplitl [Hc6]; · iexact Hc6
    isplitl [Hr0]; · iexact Hr0
    isplitl [Hr1]; · iexact Hr1
    isplitl [Hr2]; · iexact Hr2
    iexact Hsems
  iexists _; isplitr
  swap
  · iexact HO
  · ipureintro; exact ins_ok _ (ins_ok _ hW')

end Tile

end Cert.Proof.KI

end
-- ==== Proof.Launch.lean ====
/-
  All threads: each worker's task from its share of the call's operands (`tile_body`), a SparseCore's operands split
  among its sixteen workers (read shares of the three tables, the workers' own slabs) and gathered back, and @main on
  the TensorCore — two literal tables and a transpose before the call, the table's 2 × 16 × 50 slabs handed over and
  joined again at the one-hot table, a transpose after it — from which the program's run and its result follow.
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.KernelIdeal
import proofs.«204306_g82583631167916_cont_9to1c4b_486_26_alg».proof.Proof.Gen.KernelIdeal.Skeleton
import proofs.«204306_g82583631167916_cont_9to1c4b_486_26_alg».proof.Proof.Spec
import proofs.«204306_g82583631167916_cont_9to1c4b_486_26_alg».proof.Proof.Setup
import proofs.«204306_g82583631167916_cont_9to1c4b_486_26_alg».proof.Proof.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xtW" => (Memref.whole Cert.KernelIdeal.main_v0_scv : Memref Cert.KernelIdeal.sig Kind.scVector Space.hbm Cert.KernelIdeal.S50x4096 EltTy.i32)
local notation "blW" => (Memref.whole Cert.KernelIdeal.main_c_scv : Memref Cert.KernelIdeal.sig Kind.scVector Space.hbm Cert.KernelIdeal.S128 EltTy.i32)
local notation "wzW" => (Memref.whole Cert.KernelIdeal.main_c_0_scv : Memref Cert.KernelIdeal.sig Kind.scVector Space.hbm Cert.KernelIdeal.S16 EltTy.i32)
local notation "outW" => (Memref.whole Cert.KernelIdeal.main_v1_scv : Memref Cert.KernelIdeal.sig Kind.scVector Space.hbm Cert.KernelIdeal.S50x4096x256 EltTy.i32)
local notation "codesW" => (Memref.whole Cert.KernelIdeal.cc0_scratch0 : Memref Cert.KernelIdeal.sig Kind.scVector Space.vmem Cert.KernelIdeal.S50x128 EltTy.i32)
local notation "blV" => (Memref.whole Cert.KernelIdeal.cc0_scratch1 : Memref Cert.KernelIdeal.sig Kind.scVector Space.vmem Cert.KernelIdeal.S128 EltTy.i32)
local notation "wzV" => (Memref.whole Cert.KernelIdeal.cc0_scratch2 : Memref Cert.KernelIdeal.sig Kind.scVector Space.vmem Cert.KernelIdeal.S16 EltTy.i32)
local notation "buf0" => (Memref.whole Cert.KernelIdeal.cc0_scratch3 : Memref Cert.KernelIdeal.sig Kind.scVector Space.vmem Cert.KernelIdeal.S128x256 EltTy.i32)
local notation "buf1" => (Memref.whole Cert.KernelIdeal.cc0_scratch4 : Memref Cert.KernelIdeal.sig Kind.scVector Space.vmem Cert.KernelIdeal.S128x256 EltTy.i32)

variable [FloatOps F]

/-! ## The worker's obligation, from its body -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xtW (Memref.isWhole_whole _) blW (Memref.isWhole_whole _) wzW (Memref.isWhole_whole _) outW (Memref.isWhole_whole _)
          codesW (Memref.isWhole_whole _) blV (Memref.isWhole_whole _) wzV (Memref.isWhole_whole _) buf0 (Memref.isWhole_whole _) buf1 (Memref.isWhole_whole _)
          cc0_scratch5 cc0_scratch6 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the worker owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-! ## Read shares of the three tables, split and joined together -/

/-- The three tables at share `q` are the remainder after `n` read tokens and the `n` tokens. -/
theorem tabs_toks (q : PosShare TreeShare) (n : ℕ) (d : Dev nD) :
    tabs m q d ⊣⊢ iprop(tabs m (Transfers.shareDrop q n) d ∗ bigSep Finset.univ fun i : Fin n => tabs m (Transfers.shareTok q n i) d) := by
  rw [bigSep_sep' Finset.univ (fun i : Fin n => (blLoc d ↦{Transfers.shareTok q n i} BL (F := F) d : sProp 𝕄)),
    bigSep_sep' Finset.univ (fun i : Fin n => (wzLoc d ↦{Transfers.shareTok q n i} WZ (F := F) d : sProp 𝕄))]
  constructor
  · iintro ⟨Hb, Hw, Hx⟩
    ihave Hb' := (Transfers.pointsTo_toks_split q n) $$ Hb
    ihave Hw' := (Transfers.pointsTo_toks_split q n) $$ Hw
    ihave Hx' := (Transfers.pointsTo_toks_split q n) $$ Hx
    icases Hb' with ⟨Hb0, Hb⟩
    icases Hw' with ⟨Hw0, Hw⟩
    icases Hx' with ⟨Hx0, Hx⟩
    isplitl [Hb0 Hw0 Hx0]
    · isplitl [Hb0]; · iexact Hb0
      isplitl [Hw0]; · iexact Hw0
      iexact Hx0
    isplitl [Hb]; · iexact Hb
    isplitl [Hw]; · iexact Hw
    iexact Hx
  · iintro ⟨⟨Hb0, Hw0, Hx0⟩, Hb, Hw, Hx⟩
    isplitl [Hb0 Hb]
    · iapply (Transfers.pointsTo_toks_join q n)
      isplitl [Hb0]; · iexact Hb0
      iexact Hb
    isplitl [Hw0 Hw]
    · iapply (Transfers.pointsTo_toks_join q n)
      isplitl [Hw0]; · iexact Hw0
      iexact Hw
    iapply (Transfers.pointsTo_toks_join q n)
    isplitl [Hx0]; · iexact Hx0
    iexact Hx

/-! ## A SparseCore's operands among its sixteen workers -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(tabs m (qc (Fin.cast nCore_zero c)) d ∗ bigSep Finset.univ fun i : Fin 16 => slabsAny d (Fin.cast nCore_zero c) i) ⊢ |={Set.univ}=> iprop(
      (bigSep Finset.univ fun i : Fin ((K (F := F)).nSub 0) =>
        iprop(tabs m (qt (Fin.cast nCore_zero c) (Fin.cast nSub_zero i)) d ∗ slabsAny d (Fin.cast nCore_zero c) (Fin.cast nSub_zero i)))
      ∗ ((bigSep Finset.univ fun i : Fin ((K (F := F)).nSub 0) =>
          iprop(tabs m (qt (Fin.cast nCore_zero c) (Fin.cast nSub_zero i)) d ∗ slabsOut m d (Fin.cast nCore_zero c) (Fin.cast nSub_zero i)))
          -∗ iprop(tabs m (qc (Fin.cast nCore_zero c)) d ∗ bigSep Finset.univ fun i : Fin 16 => slabsOut m d (Fin.cast nCore_zero c) i)))
  generalize Fin.cast nCore_zero c = c'
  rw [bigSep_tasks (F := F) (fun i => iprop(tabs m (qt c' i) d ∗ slabsAny d c' i)),
    bigSep_tasks (F := F) (fun i => iprop(tabs m (qt c' i) d ∗ slabsOut m d c' i)),
    bigSep_sep' Finset.univ (fun i : Fin 16 => tabs m (qt c' i) d) (fun i => slabsAny d c' i),
    bigSep_sep' Finset.univ (fun i : Fin 16 => tabs m (qt c' i) d) (fun i => slabsOut m d c' i)]
  iintro ⟨Ht, Hs⟩
  ihave Ht' := (tabs_toks m (qc c') 16 d).1 $$ Ht
  icases Ht' with ⟨Hrem, Htoks⟩
  imodintro
  isplitl [Htoks Hs]
  · isplitl [Htoks]; · iexact Htoks
    iexact Hs
  iintro ⟨Htoks, Hs⟩
  isplitl [Hrem Htoks]
  · iapply (tabs_toks m (qc c') 16 d).2
    isplitl [Hrem]; · iexact Hrem
    iexact Htoks
  iexact Hs

/-! ## The launch element: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The table is its workers' slabs

Slab `(c, i, r)` is sequence position `r`, batch rows `[128 (2 i + c), 128 (2 i + c) + 128)`, every class: two slabs at
different positions are apart on axis `0`, two of different workers on axis `1`; an index `(s, b, k)` lies in the slab of
position `s` of worker `b / 128`. -/

abbrev slabOf (t : Fin 2 × Fin 16 × Fin 50) : Finset S50x4096x256.Idx := slab t.1 t.2.1 t.2.2

theorem slabs_disjoint : ∀ t ∈ (Finset.univ : Finset (Fin 2 × Fin 16 × Fin 50)), ∀ t' ∈ (Finset.univ : Finset (Fin 2 × Fin 16 × Fin 50)),
    t ≠ t' → Disjoint (slabOf t) (slabOf t') := by
  rintro ⟨c, i, r⟩ - ⟨c', i', r'⟩ - h
  have hc := c.isLt; have hc' := c'.isLt
  by_cases hr : r = r'
  · subst hr
    have hn : 256 * i.val + 128 * c.val ≠ 256 * i'.val + 128 * c'.val := by
      intro e
      have hi : i = i' := Fin.ext (by omega)
      have hcc : c = c' := Fin.ext (by omega)
      exact h (by rw [hi, hcc])
    refine Rect.unit_disjoint 1 ?_
    show 256 * i.val + 128 * c.val + 128 ≤ 256 * i'.val + 128 * c'.val ∨ 256 * i'.val + 128 * c'.val + 128 ≤ 256 * i.val + 128 * c.val
    omega
  · refine Rect.unit_disjoint 0 ?_
    show r.val + 1 ≤ r'.val ∨ r'.val + 1 ≤ r.val
    have := Fin.val_ne_of_ne hr
    omega

theorem slabs_cover : (Finset.univ : Finset (Fin 2 × Fin 16 × Fin 50)).biUnion slabOf = Finset.univ := by
  ext x
  simp only [Finset.mem_biUnion, Finset.mem_univ, true_and, iff_true]
  have h0 : (x 0).val < 50 := (x 0).isLt
  have h1 : (x 1).val < 4096 := (x 1).isLt
  have h2 : (x 2).val < 256 := (x 2).isLt
  refine ⟨(⟨(x 1).val / 128 % 2, by omega⟩, ⟨(x 1).val / 256, by omega⟩, ⟨(x 0).val, h0⟩), Rect.mem_set_unit.mpr fun a => ?_⟩
  fin_cases a
  · show (x 0).val ≤ (x 0).val ∧ (x 0).val < (x 0).val + 1
    omega
  · show 256 * ((x 1).val / 256) + 128 * ((x 1).val / 128 % 2) ≤ (x 1).val
      ∧ (x 1).val < 256 * ((x 1).val / 256) + 128 * ((x 1).val / 128 % 2) + 128
    omega
  · show 0 ≤ (x 2).val ∧ (x 2).val < 0 + 256
    omega

theorem bigSep_nest (Φ : Fin 2 → Fin 16 → Fin 50 → sProp 𝕄) :
    (bigSep Finset.univ fun t : Fin 2 × Fin 16 × Fin 50 => Φ t.1 t.2.1 t.2.2)
      = bigSep Finset.univ fun c => bigSep Finset.univ fun i => bigSep Finset.univ fun r => Φ c i r :=
  (bigSep_univ_prod _).trans (bigSep_congr fun _ _ => bigSep_univ_prod _)

/-- The table whole, at any contents, is every worker's fifty slabs at those contents. -/
theorem out_slabs (d : Dev nD) (f : Buf (Elt F) (outLoc d)) :
    (outLoc d ↦{fullShare} f : sProp 𝕄)
      = bigSep Finset.univ fun c : Fin 2 => bigSep Finset.univ fun i : Fin 16 => bigSep Finset.univ fun r : Fin 50 => outLoc d ↦[slab c i r]{fullShare} f := by
  rw [← bigSep_nest (fun c i r => (outLoc d ↦[slab c i r]{fullShare} f : sProp 𝕄)),
    ← pointsTo_biUnion Finset.univ (ℓ := outLoc d) slabOf slabs_disjoint, slabs_cover]; try rfl

/-! ## What @main leaves: the argument as launched, the result the transposed one-hot table -/

/-- The result: `res (b, s, k) = OUT (s, b, k)`. -/
def RES (d : Dev nD) : Buf (Elt F) (resLoc d) :=
  transpose S4096x50x256 [1, 0, 2] (OUT m d : (⟨S50x4096x256, .i32⟩ : BufTy).Contents (Elt F)) transposes_S50x4096x256_S4096x50x256_1_0_2

abbrev FIN (d : Dev nD) : sProp 𝕄 := iprop((argLoc d ↦{fullShare} m (argLoc d)) ∗ (resLoc d ↦{fullShare} RES m d))

/-! ## @main on the TensorCore: its six arrays, held whole -/

abbrev a' : DevRef τ sig := Proc.devRef .tc (main_arg0 : Ref sig .tc)
abbrev c' : DevRef τ sig := Proc.devRef .tc (main_c : Ref sig .tc)
abbrev z' : DevRef τ sig := Proc.devRef .tc (main_c_0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The TensorCore's arrays, all unscoped. -/
abbrev S6 : Finset (DevRef τ sig) := {a', c', z', x', o', r'}

theorem held_S6 (d : Dev nD) (W : Valuation τ sig (Elt F)) :
    (held (T d) S6 W : sProp 𝕄) = iprop((argLoc d ↦{fullShare} W a') ∗ (blLoc d ↦{fullShare} W c') ∗ (wzLoc d ↦{fullShare} W z')
      ∗ (xtLoc d ↦{fullShare} W x') ∗ (outLoc d ↦{fullShare} W o') ∗ (resLoc d ↦{fullShare} W r')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((argLoc d ↦{fullShare} W main_arg0) ∗ (blLoc d ↦{fullShare} W main_c) ∗ (wzLoc d ↦{fullShare} W main_c_0)
      ∗ (xtLoc d ↦{fullShare} W main_v0) ∗ (outLoc d ↦{fullShare} W main_v1) ∗ (resLoc d ↦{fullShare} W main_v2)) := by
  unfold unscopedBufs
  rw [show (Finset.univ.filter fun b : Ref sig .tc => ¬ b.isScoped) = {main_arg0, main_c, main_c_0, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S6 (V0 m d) := by
  rw [unscopedBufs_eq, held_S6]; rfl

/-- The host operations, as @main writes them. -/
abbrev opC : HloOp τ sig (Elt F) := StableHlo.nullary main_c (fun i => lit0 (S128.rowMajor i))
abbrev opZ : HloOp τ sig (Elt F) := StableHlo.nullary main_c_0 (fun i => lit1 (S16.rowMajor i))
abbrev opX : HloOp τ sig (Elt F) :=
  StableHlo.unary main_arg0 main_v0 ((transpose S50x4096 [1, 0] · transposes_S4096x50_S50x4096_1_0) :
    (⟨S4096x50, .i32⟩ : BufTy).Contents (Elt F) → (⟨S50x4096, .i32⟩ : BufTy).Contents (Elt F))
abbrev opR : HloOp τ sig (Elt F) :=
  StableHlo.unary main_v1 main_v2 ((transpose S4096x50x256 [1, 0, 2] · transposes_S50x4096x256_S4096x50x256_1_0_2) :
    (⟨S50x4096x256, .i32⟩ : BufTy).Contents (Elt F) → (⟨S4096x50x256, .i32⟩ : BufTy).Contents (Elt F))

theorem hC : (opC (F := F)).bufs ⊆ S6 := show ({c'} : Finset (DevRef τ sig)) ⊆ S6 by decide
theorem hZ : (opZ (F := F)).bufs ⊆ S6 := show ({z'} : Finset (DevRef τ sig)) ⊆ S6 by decide
theorem hX : (opX (F := F)).bufs ⊆ S6 := show ({a', x'} : Finset (DevRef τ sig)) ⊆ S6 by decide
theorem hR : (opR (F := F)).bufs ⊆ S6 := show ({o', r'} : Finset (DevRef τ sig)) ⊆ S6 by decide

/-- The valuation at the call: the two constants and the transposed codes written. -/
def V3 (d : Dev nD) : Valuation τ sig (Elt F) := (opX (F := F)).result ((opZ (F := F)).result ((opC (F := F)).result (V0 m d)))
/-- After the call: the table at the one-hot table. -/
def V4 (d : Dev nD) : Valuation τ sig (Elt F) := Function.update (V3 m d) o' (OUT m d)

theorem V3_a (d : Dev nD) : V3 m d a' = m (argLoc d) := by
  unfold V3
  rw [StableHlo.unary_result_ne (h := by decide), StableHlo.nullary_result_ne (h := by decide), StableHlo.nullary_result_ne (h := by decide)]; rfl
theorem V3_c (d : Dev nD) : V3 m d c' = BL (F := F) d := by
  unfold V3
  rw [StableHlo.unary_result_ne (h := by decide), StableHlo.nullary_result_ne (h := by decide), StableHlo.nullary_result]; rfl
theorem V3_z (d : Dev nD) : V3 m d z' = WZ (F := F) d := by
  unfold V3
  rw [StableHlo.unary_result_ne (h := by decide), StableHlo.nullary_result]; rfl
theorem V3_x (d : Dev nD) : V3 m d x' = XT m d := by
  unfold V3
  rw [StableHlo.unary_result, StableHlo.nullary_result_ne (h := by decide), StableHlo.nullary_result_ne (h := by decide)]; rfl
theorem V3_o (d : Dev nD) : V3 m d o' = m (outLoc d) := by
  unfold V3
  rw [StableHlo.unary_result_ne (h := by decide), StableHlo.nullary_result_ne (h := by decide), StableHlo.nullary_result_ne (h := by decide)]; rfl
theorem V3_r (d : Dev nD) : V3 m d r' = m (resLoc d) := by
  unfold V3
  rw [StableHlo.unary_result_ne (h := by decide), StableHlo.nullary_result_ne (h := by decide), StableHlo.nullary_result_ne (h := by decide)]; rfl

theorem V4_a (d : Dev nD) : V4 m d a' = m (argLoc d) := (Function.update_of_ne (show a' ≠ o' by decide) _ _).trans (V3_a m d)
theorem V4_c (d : Dev nD) : V4 m d c' = BL (F := F) d := (Function.update_of_ne (show c' ≠ o' by decide) _ _).trans (V3_c m d)
theorem V4_z (d : Dev nD) : V4 m d z' = WZ (F := F) d := (Function.update_of_ne (show z' ≠ o' by decide) _ _).trans (V3_z m d)
theorem V4_x (d : Dev nD) : V4 m d x' = XT m d := (Function.update_of_ne (show x' ≠ o' by decide) _ _).trans (V3_x m d)
theorem V4_o (d : Dev nD) : V4 m d o' = OUT m d := Function.update_self _ _ _
theorem V4_r (d : Dev nD) : V4 m d r' = m (resLoc d) := (Function.update_of_ne (show r' ≠ o' by decide) _ _).trans (V3_r m d)

theorem V5_a (d : Dev nD) : (opR (F := F)).result (V4 m d) a' = m (argLoc d) := by
  rw [StableHlo.unary_result_ne (h := by decide)]; exact V4_a m d
theorem V5_r (d : Dev nD) : (opR (F := F)).result (V4 m d) r' = RES m d := by
  rw [StableHlo.unary_result, V4_o]; rfl

/-- At the call the arrays hold: the argument, the two constants, the transposed codes, and what was launched. -/
theorem held_V3 (d : Dev nD) :
    (held (T d) S6 ((opX (F := F)).result ((opZ (F := F)).result ((opC (F := F)).result (V0 m d)))) : sProp 𝕄)
      = iprop((argLoc d ↦{fullShare} m (argLoc d)) ∗ (blLoc d ↦{fullShare} BL (F := F) d) ∗ (wzLoc d ↦{fullShare} WZ (F := F) d)
        ∗ (xtLoc d ↦{fullShare} XT m d) ∗ (outLoc d ↦{fullShare} m (outLoc d)) ∗ (resLoc d ↦{fullShare} m (resLoc d))) := by
  show (held (T d) S6 (V3 m d) : sProp 𝕄) = _
  rw [held_S6, V3_a, V3_c, V3_z, V3_x, V3_o, V3_r]

/-- After the last transpose: the argument as launched and the result. -/
theorem held_V5 (d : Dev nD) : (held (T d) S6 ((opR (F := F)).result (V4 m d)) : sProp 𝕄) ⊢ FIN m d := by
  rw [held_S6, V5_a, V5_r]
  iintro ⟨Ha, -, -, -, -, Hr⟩
  isplitl [Ha]; · iexact Ha
  iexact Hr

/-! ## What the call takes for the two SparseCores, and what it hands back -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c)
      = iprop((bigSep Finset.univ fun c : Fin 2 => tabs m (qc c) d)
          ∗ bigSep Finset.univ fun c : Fin 2 => bigSep Finset.univ fun i : Fin 16 => slabsAny d c i) := by
  show (bigSep Finset.univ fun c : Fin ((K (F := F)).nCore 0) =>
      iprop(tabs m (qc (Fin.cast nCore_zero c)) d ∗ bigSep Finset.univ fun i : Fin 16 => slabsAny d (Fin.cast nCore_zero c) i)) = _
  rw [bigSep_cores (F := F) (fun c' => iprop(tabs m (qc c') d ∗ bigSep Finset.univ fun i : Fin 16 => slabsAny d c' i)),
    bigSep_sep' Finset.univ (fun c' : Fin 2 => tabs m (qc c') d) (fun c' => bigSep Finset.univ fun i : Fin 16 => slabsAny d c' i)]

theorem dn0_eq (d : Dev nD) :
    (bigSep Finset.univ fun c : Fin ((K (F := F)).nCore 0) => (P m).dn 0 d c)
      = iprop((bigSep Finset.univ fun c : Fin 2 => tabs m (qc c) d)
          ∗ bigSep Finset.univ fun c : Fin 2 => bigSep Finset.univ fun i : Fin 16 => slabsOut m d c i) := by
  show (bigSep Finset.univ fun c : Fin ((K (F := F)).nCore 0) =>
      iprop(tabs m (qc (Fin.cast nCore_zero c)) d ∗ bigSep Finset.univ fun i : Fin 16 => slabsOut m d (Fin.cast nCore_zero c) i)) = _
  rw [bigSep_cores (F := F) (fun c' => iprop(tabs m (qc c') d ∗ bigSep Finset.univ fun i : Fin 16 => slabsOut m d c' i)),
    bigSep_sep' Finset.univ (fun c' : Fin 2 => tabs m (qc c') d) (fun c' => bigSep Finset.univ fun i : Fin 16 => slabsOut m d c' i)]

/-- The table whole, at whatever it holds, is every worker's slabs at some contents. -/
theorem out_any (d : Dev nD) (f : Buf (Elt F) (outLoc d)) :
    (outLoc d ↦{fullShare} f : sProp 𝕄) ⊢ bigSep Finset.univ fun c : Fin 2 => bigSep Finset.univ fun i : Fin 16 => slabsAny d c i := by
  have key : ∀ (c : Fin 2) (i : Fin 16) (r : Fin 50),
      (outLoc d ↦[slab c i r]{fullShare} f : sProp 𝕄) ⊢ iprop(∃ g, outLoc d ↦[slab c i r]{fullShare} g) := by
    intro c i r; iintro H; iexists f; iexact H
  rw [out_slabs d f]
  exact bigSep_mono fun c _ => bigSep_mono fun i _ => bigSep_mono fun r _ => key c i r

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two constants and the transposed codes
  iapply (wp_hlo_within 𝒱 (SparseCore.T d) none Set.univ (op := opC) (S := S6) hC (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opZ) (S := S6) hZ (V := (opC (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opX) (S := S6) hX
      (V := (opZ (F := F)).result ((opC (F := F)).result (V0 m d)))) $$ [Hb Hheld]
  · isplitl [Hb]; · iexact Hb
    iexact Hheld
  iintro ⟨Hb, Hheld⟩
  rw [wp_ret]; imodintro
  ihave Hh := (Entails.of_eq (held_V3 m d)) $$ Hheld
  icases Hh with ⟨Ha, Hc, Hz, Hx, Ho, Hr⟩
  -- the call: each SparseCore takes a read share of the three tables and its sixteen workers' slabs
  ihave Ht := (tabs_toks m fullShare 2 d).1 $$ [Hc Hz Hx]
  · isplitl [Hc]; · iexact Hc
    isplitl [Hz]; · iexact Hz
    iexact Hx
  icases Ht with ⟨Hrem, Htoks⟩
  ihave Hsl := (out_any d (m (outLoc d))) $$ Ho
  iapply ((K (F := F)).wp_run (D (F := F)) 𝒱 (EH := EH) (P := P m) κ d 0) $$ [Hst Htoks Hsl Hb Ha Hr Hrem]
  isplitr; · iexact Hctx
  isplitl [Hst]; · iexact Hst
  isplitl [Htoks Hsl]
  · rw [st0_eq]
    isplitl [Htoks]; · iexact Htoks
    iexact Hsl
  iintro ⟨Hst, Hdn⟩
  ihave Hdn' := (Entails.of_eq (dn0_eq m d)) $$ Hdn
  icases Hdn' with ⟨Htoks, Hsl⟩
  -- the shares join to the tables whole, the slabs to the table at the one-hot table
  ihave Ht := (tabs_toks m fullShare 2 d).2 $$ [Hrem Htoks]
  · isplitl [Hrem]; · iexact Hrem
    iexact Htoks
  icases Ht with ⟨Hc, Hz, Hx⟩
  ihave Ho := (Entails.of_eq (out_slabs d (OUT m d)).symm) $$ Hsl
  -- the result's transpose
  iapply (wp_hlo_within 𝒱 (SparseCore.T d) none Set.univ (op := opR) (S := S6) hR (V := V4 m d)) $$ [Hb Ha Hc Hz Hx Ho Hr]
  · isplitl [Hb]; · iexact Hb
    rw [held_S6, V4_a, V4_c, V4_z, V4_x, V4_o, V4_r]
    isplitl [Ha]; · iexact Ha
    isplitl [Hc]; · iexact Hc
    isplitl [Hz]; · iexact Hz
    isplitl [Hx]; · iexact Hx
    isplitl [Ho]; · iexact Ho
    iexact Hr
  iintro ⟨Hb, Hheld⟩
  ihave Hfin := (held_V5 m d) $$ Hheld
  rw [wp_ret]; imodintro; imodintro
  isplitl [Hst]; · iexact Hst
  iexact Hfin

def fq (d : Dev nD) (s' : Phys nD τ sig (Elt F)) : Prop := s'.mem.mem (resLoc d) = RES m d ∧ s'.mem.mem (argLoc d) = m (argLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (SI_pointsTo_agree (st := s') (ℓ := resLoc d) (I := Finset.univ) (q := fullShare) (f := RES m d)) $$ [HSI Hr]
  · isplitl [HSI] <;> iassumption
  icases H with %h2
  ipureintro; exact ⟨funext fun i => h2 i (Finset.mem_univ i), funext fun i => h1 i (Finset.mem_univ i)⟩

/-! ## The program's run -/

def QC (r : PUnit × MemSt nD τ sig (Elt F)) : Prop := ∀ c : Dev nD, r.2.mem (resLoc c) = RES m c ∧ r.2.mem (argLoc c) = m (argLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.SetupB.lean ====
/-
  The one-hot kernel's launch, named: the arrays as the TensorCore holds them and what they hold when the thirty-two
  workers start (the row tables `0 … 127` and `1, 1, 2, … 15`, the transposed codes, the table to be filled), each
  worker's fifty slabs of the table (batch rows `[128 w, 128 w + 128)` at one sequence position), the read shares of
  the three tables, and what the one call hands each SparseCore and each worker and takes back.
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.Kernel
import proofs.«204306_g82583631167916_cont_9to1c4b_486_26_alg».proof.Proof.Gen.Kernel.Skeleton
import proofs.«204306_g82583631167916_cont_9to1c4b_486_26_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

-- the kernel's memrefs, spelt as the body table passes them
local notation "xtW" => (Memref.whole Cert.Kernel.main_v0_scv : Memref Cert.Kernel.sig Kind.scVector Space.hbm Cert.Kernel.S50x4096 EltTy.i32)
local notation "blW" => (Memref.whole Cert.Kernel.main_c_scv : Memref Cert.Kernel.sig Kind.scVector Space.hbm Cert.Kernel.S128 EltTy.i32)
local notation "wzW" => (Memref.whole Cert.Kernel.main_c_0_scv : Memref Cert.Kernel.sig Kind.scVector Space.hbm Cert.Kernel.S16 EltTy.i32)
local notation "outW" => (Memref.whole Cert.Kernel.main_v1_scv : Memref Cert.Kernel.sig Kind.scVector Space.hbm Cert.Kernel.S50x4096x256 EltTy.i32)
local notation "codesW" => (Memref.whole Cert.Kernel.cc0_scratch0 : Memref Cert.Kernel.sig Kind.scVector Space.vmem Cert.Kernel.S50x128 EltTy.i32)
local notation "blV" => (Memref.whole Cert.Kernel.cc0_scratch1 : Memref Cert.Kernel.sig Kind.scVector Space.vmem Cert.Kernel.S128 EltTy.i32)
local notation "wzV" => (Memref.whole Cert.Kernel.cc0_scratch2 : Memref Cert.Kernel.sig Kind.scVector Space.vmem Cert.Kernel.S16 EltTy.i32)
local notation "buf0" => (Memref.whole Cert.Kernel.cc0_scratch3 : Memref Cert.Kernel.sig Kind.scVector Space.vmem Cert.Kernel.S128x256 EltTy.i32)
local notation "buf1" => (Memref.whole Cert.Kernel.cc0_scratch4 : Memref Cert.Kernel.sig Kind.scVector Space.vmem Cert.Kernel.S128x256 EltTy.i32)

variable [FloatOps F]

/-! ## The arrays, as the TensorCore names them, and what they hold at the call -/

abbrev argLoc (d : Dev nD) : Loc nD τ sig := (SparseCore.T d).loc main_arg0
abbrev blLoc (d : Dev nD) : Loc nD τ sig := (SparseCore.T d).loc main_c
abbrev wzLoc (d : Dev nD) : Loc nD τ sig := (SparseCore.T d).loc main_c_0
abbrev xtLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2

/-- The row table `0, 1, …, 127`. -/
def BL (d : Dev nD) : Buf (Elt F) (blLoc d) := fun i => lit0 (S128.rowMajor i)
/-- The row table of the first group on worker `0`: `1, 1, 2, …, 15` (row `0` is never named). -/
def WZ (d : Dev nD) : Buf (Elt F) (wzLoc d) := fun i => lit1 (S16.rowMajor i)
/-- The transposed codes: `xt (s, b) = x (b, s)`. -/
def XT (d : Dev nD) : Buf (Elt F) (xtLoc d) :=
  transpose S50x4096 [1, 0] (m (argLoc d) : (⟨S4096x50, .i32⟩ : BufTy).Contents (Elt F)) transposes_S4096x50_S50x4096_1_0
/-- The one-hot table of the transposed codes, batch row `0` zeroed. -/
def OUT (d : Dev nD) : Buf (Elt F) (outLoc d) := Cert.OneHot.Gt (XT m d)

/-- What the proof asks of the launch memory: every code is below `256`. -/
def PreOK : Prop := ∀ (d : Dev nD) (i : S4096x50.Idx), (m (argLoc d) i).toNat < 256

/-! ## The workers' slabs of the table

Worker `(c, i)` — SparseCore `c`, vector subcore `i`, number `2 i + c` — owns batch rows
`[128 (2 i + c), 128 (2 i + c) + 128)`; its slab `r` is those rows at sequence position `r`. -/

theorem slab_inb (c : Fin 2) (i : Fin 16) (r : Fin 50) :
    ∀ a, (![r.val, 256 * i.val + 128 * c.val, 0] : Fin 3 → Nat) a + S1x128x256.size a ≤ S50x4096x256.size a := by
  have hc := c.isLt; have hi := i.isLt; have hr := r.isLt
  intro a; fin_cases a <;> simp <;> omega
abbrev slabRect (c : Fin 2) (i : Fin 16) (r : Fin 50) : Rect S50x4096x256 :=
  Rect.unit (s := S50x4096x256) ![r.val, 256 * i.val + 128 * c.val, 0] S1x128x256.size (slab_inb c i r)
abbrev slab (c : Fin 2) (i : Fin 16) (r : Fin 50) : Finset S50x4096x256.Idx := (slabRect c i r).set

/-! ## Read shares of the three tables: one per SparseCore, of it one per vector subcore -/

abbrev qc (c : Fin 2) : PosShare TreeShare := Transfers.shareTok fullShare 2 c
abbrev qt (c : Fin 2) (i : Fin 16) : PosShare TreeShare := Transfers.shareTok (qc c) 16 i

/-- The three tables at share `q`. -/
abbrev tabs (q : PosShare TreeShare) (d : Dev nD) : sProp 𝕄 :=
  iprop((blLoc d ↦{q} BL (F := F) d) ∗ (wzLoc d ↦{q} WZ (F := F) d) ∗ (xtLoc d ↦{q} XT m d))
/-- A worker's slabs at whatever they hold; -/
abbrev slabsAny (d : Dev nD) (c : Fin 2) (i : Fin 16) : sProp 𝕄 :=
  bigSep Finset.univ fun r : Fin 50 => iprop(∃ f, outLoc d ↦[slab c i r]{fullShare} f)
/-- at the table. -/
abbrev slabsOut (d : Dev nD) (c : Fin 2) (i : Fin 16) : sProp 𝕄 :=
  bigSep Finset.univ fun r : Fin 50 => outLoc d ↦[slab c i r]{fullShare} OUT m d

theorem nCore_zero : (K (F := F)).nCore 0 = 2 := rfl

/-- The one call: each SparseCore takes a read share of the tables and its sixteen workers' slabs, each worker a
    share of that share and its own slabs; they come back with the slabs at the table. -/
def P : (K (F := F)).Pay (nD := nD) (Val := Elt F) (Name := ℕ) (U := UU) where
  st := fun q d c => match q with
    | 0 => iprop(tabs m (qc (Fin.cast nCore_zero c)) d ∗ bigSep Finset.univ fun i : Fin 16 => slabsAny d (Fin.cast nCore_zero c) i)
  dn := fun q d c => match q with
    | 0 => iprop(tabs m (qc (Fin.cast nCore_zero c)) d ∗ bigSep Finset.univ fun i : Fin 16 => slabsOut m d (Fin.cast nCore_zero c) i)
  go := fun q d c i => match q with
    | 0 => iprop(tabs m (qt (Fin.cast nCore_zero c) (Fin.cast nSub_zero i)) d ∗ slabsAny d (Fin.cast nCore_zero c) (Fin.cast nSub_zero i))
  td := fun q d c i => match q with
    | 0 => iprop(tabs m (qt (Fin.cast nCore_zero c) (Fin.cast nSub_zero i)) d ∗ slabsOut m d (Fin.cast nCore_zero c) (Fin.cast nSub_zero i))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-! ## A worker -/

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

end Cert.Proof.KB

end
-- ==== Proof.TileOpsB.lean ====
/-
  One worker's own storage — five scratch buffers and five transfer semaphores among the subcore's own — and the two
  data-dependent operations on a staging buffer: a scatter of one word `y` (an element some lane names ends at `y`,
  every other element stays) and a gather out of the loaded codes (lane `x` reads the element the index vectors name).
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.Kernel
import proofs.«204306_g82583631167916_cont_9to1c4b_486_26_alg».proof.Proof.Gen.Kernel.Skeleton
import proofs.«204306_g82583631167916_cont_9to1c4b_486_26_alg».proof.Proof.Spec
import proofs.«204306_g82583631167916_cont_9to1c4b_486_26_alg».proof.Proof.SetupB
import proofs.«204306_g82583631167916_cont_9to1c4b_486_26_alg».proof.Proof.LibStoreIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xtW" => (Memref.whole Cert.Kernel.main_v0_scv : Memref Cert.Kernel.sig Kind.scVector Space.hbm Cert.Kernel.S50x4096 EltTy.i32)
local notation "blW" => (Memref.whole Cert.Kernel.main_c_scv : Memref Cert.Kernel.sig Kind.scVector Space.hbm Cert.Kernel.S128 EltTy.i32)
local notation "wzW" => (Memref.whole Cert.Kernel.main_c_0_scv : Memref Cert.Kernel.sig Kind.scVector Space.hbm Cert.Kernel.S16 EltTy.i32)
local notation "outW" => (Memref.whole Cert.Kernel.main_v1_scv : Memref Cert.Kernel.sig Kind.scVector Space.hbm Cert.Kernel.S50x4096x256 EltTy.i32)
local notation "codesW" => (Memref.whole Cert.Kernel.cc0_scratch0 : Memref Cert.Kernel.sig Kind.scVector Space.vmem Cert.Kernel.S50x128 EltTy.i32)
local notation "blV" => (Memref.whole Cert.Kernel.cc0_scratch1 : Memref Cert.Kernel.sig Kind.scVector Space.vmem Cert.Kernel.S128 EltTy.i32)
local notation "wzV" => (Memref.whole Cert.Kernel.cc0_scratch2 : Memref Cert.Kernel.sig Kind.scVector Space.vmem Cert.Kernel.S16 EltTy.i32)
local notation "buf0" => (Memref.whole Cert.Kernel.cc0_scratch3 : Memref Cert.Kernel.sig Kind.scVector Space.vmem Cert.Kernel.S128x256 EltTy.i32)
local notation "buf1" => (Memref.whole Cert.Kernel.cc0_scratch4 : Memref Cert.Kernel.sig Kind.scVector Space.vmem Cert.Kernel.S128x256 EltTy.i32)

variable [FloatOps F]

section Tile

variable (d : Dev nD) (L : grid0.Coords)

abbrev thr (d : Dev nD) (L : grid0.Coords) : Thread nD τ := V d (cV L) (jV L)

abbrev cS5 (d : Dev nD) (L : grid0.Coords) : GSem nD τ sig := (thr d L, .dma cc0_scratch5.sem)
abbrev cS6 (d : Dev nD) (L : grid0.Coords) : GSem nD τ sig := (thr d L, .dma cc0_scratch6.sem)
abbrev cR0 (d : Dev nD) (L : grid0.Coords) : GSem nD τ sig := (thr d L, .dma cc0_scoped0.sem)
abbrev cR1 (d : Dev nD) (L : grid0.Coords) : GSem nD τ sig := (thr d L, .dma cc0_scoped1.sem)
abbrev cR2 (d : Dev nD) (L : grid0.Coords) : GSem nD τ sig := (thr d L, .dma cc0_scoped2.sem)

omit [FloatOps F] in
theorem dma_ne {a b : DmaSem sig} (h : a ≠ b) : ((thr d L, SemLoc.dma a) : GSem nD τ sig) ≠ (thr d L, SemLoc.dma b) :=
  fun e => h (SemLoc.dma.inj (Prod.mk.inj e).2)

omit [FloatOps F] in
theorem mem_own (a : DmaSem sig) : ((thr d L, SemLoc.dma a) : GSem nD τ sig) ∈ ownCells (thr d L) :=
  (mem_ownCells (g := (thr d L, SemLoc.dma a))).mpr ⟨rfl, by show (SemLoc.dma a : SemLoc sig).isScoped .scVector = true; rfl⟩

omit [FloatOps F] in
/-- The worker's five transfer semaphores are among its own cells: they, at zero, and the rest. -/
theorem ownSems0_V :
    (ownSems0 (thr d L) : sProp 𝕄)
      = iprop(semVal (cS5 d L) 0 ∗ semVal (cS6 d L) 0 ∗ semVal (cR0 d L) 0 ∗ semVal (cR1 d L) 0 ∗ semVal (cR2 d L) 0
          ∗ bigSep ((((((ownCells (thr d L)).erase (cS5 d L)).erase (cS6 d L)).erase (cR0 d L)).erase (cR1 d L)).erase (cR2 d L))
              fun g => semVal g 0) := by
  unfold SparseCore.Cfg.ownSems0
  rw [SparseCore.bigSep_erase' (mem_own d L cc0_scratch5.sem),
    SparseCore.bigSep_erase' (Finset.mem_erase.mpr ⟨dma_ne d L (show (cc0_scratch6.sem : DmaSem sig) ≠ cc0_scratch5.sem by decide), mem_own d L cc0_scratch6.sem⟩),
    SparseCore.bigSep_erase' (Finset.mem_erase.mpr ⟨dma_ne d L (show (cc0_scoped0.sem : DmaSem sig) ≠ cc0_scratch6.sem by decide), Finset.mem_erase.mpr ⟨dma_ne d L (show (cc0_scoped0.sem : DmaSem sig) ≠ cc0_scratch5.sem by decide), mem_own d L cc0_scoped0.sem⟩⟩),
    SparseCore.bigSep_erase' (Finset.mem_erase.mpr ⟨dma_ne d L (show (cc0_scoped1.sem : DmaSem sig) ≠ cc0_scoped0.sem by decide), Finset.mem_erase.mpr ⟨dma_ne d L (show (cc0_scoped1.sem : DmaSem sig) ≠ cc0_scratch6.sem by decide), Finset.mem_erase.mpr ⟨dma_ne d L (show (cc0_scoped1.sem : DmaSem sig) ≠ cc0_scratch5.sem by decide), mem_own d L cc0_scoped1.sem⟩⟩⟩),
    SparseCore.bigSep_erase' (Finset.mem_erase.mpr ⟨dma_ne d L (show (cc0_scoped2.sem : DmaSem sig) ≠ cc0_scoped1.sem by decide), Finset.mem_erase.mpr ⟨dma_ne d L (show (cc0_scoped2.sem : DmaSem sig) ≠ cc0_scoped0.sem by decide), Finset.mem_erase.mpr ⟨dma_ne d L (show (cc0_scoped2.sem : DmaSem sig) ≠ cc0_scratch6.sem by decide), Finset.mem_erase.mpr ⟨dma_ne d L (show (cc0_scoped2.sem : DmaSem sig) ≠ cc0_scratch5.sem by decide), mem_own d L cc0_scoped2.sem⟩⟩⟩⟩)]

abbrev pR (d : Dev nD) (L : grid0.Coords) (b : Ref sig .scVector) : DevRef τ sig := (Proc.scVector (cV L) (jV L)).devRef b

omit [FloatOps F] in
theorem ref_ne {a b : Ref sig .scVector} (h : a ≠ b) : pR d L a ≠ pR d L b := fun e => h (Proc.devRef_injective _ e)
omit [FloatOps F] in
theorem mem_ownR (b : Ref sig .scVector) (hb : b.1 = .vmem := by rfl) : pR d L b ∈ ownRefs (τ := τ) (sig := sig) (.scVector (cV L) (jV L)) := by
  obtain ⟨sp, ix, h⟩ := b
  cases hb
  exact SparseCore.Cfg.mem_ownRefs_of_owner (p := Proc.scVector (cV L) (jV L)) (b := pR d L ⟨.vmem, ix, h⟩) rfl

omit [FloatOps F] in
/-- The five scratch buffers are among the worker's own: they, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase (pR d L cc0_scratch0)).erase (pR d L cc0_scratch1)).erase (pR d L cc0_scratch2)).erase
              (pR d L cc0_scratch3)).erase (pR d L cc0_scratch4))
              fun b => iprop(∃ f, ((d, b) : Loc nD τ sig) ↦{fullShare} f)) := by
  unfold SparseCore.Cfg.ownBufs
  refine (SparseCore.bigSep_erase' (mem_ownR d L cc0_scratch0)).trans ?_
  rw [SparseCore.bigSep_erase' (Finset.mem_erase.mpr ⟨ref_ne d L (show (cc0_scratch1 : Ref sig .scVector) ≠ cc0_scratch0 by decide), mem_ownR d L cc0_scratch1⟩),
    SparseCore.bigSep_erase' (Finset.mem_erase.mpr ⟨ref_ne d L (show (cc0_scratch2 : Ref sig .scVector) ≠ cc0_scratch1 by decide), Finset.mem_erase.mpr ⟨ref_ne d L (show (cc0_scratch2 : Ref sig .scVector) ≠ cc0_scratch0 by decide), mem_ownR d L cc0_scratch2⟩⟩),
    SparseCore.bigSep_erase' (Finset.mem_erase.mpr ⟨ref_ne d L (show (cc0_scratch3 : Ref sig .scVector) ≠ cc0_scratch2 by decide), Finset.mem_erase.mpr ⟨ref_ne d L (show (cc0_scratch3 : Ref sig .scVector) ≠ cc0_scratch1 by decide), Finset.mem_erase.mpr ⟨ref_ne d L (show (cc0_scratch3 : Ref sig .scVector) ≠ cc0_scratch0 by decide), mem_ownR d L cc0_scratch3⟩⟩⟩),
    SparseCore.bigSep_erase' (Finset.mem_erase.mpr ⟨ref_ne d L (show (cc0_scratch4 : Ref sig .scVector) ≠ cc0_scratch3 by decide), Finset.mem_erase.mpr ⟨ref_ne d L (show (cc0_scratch4 : Ref sig .scVector) ≠ cc0_scratch2 by decide), Finset.mem_erase.mpr ⟨ref_ne d L (show (cc0_scratch4 : Ref sig .scVector) ≠ cc0_scratch1 by decide), Finset.mem_erase.mpr ⟨ref_ne d L (show (cc0_scratch4 : Ref sig .scVector) ≠ cc0_scratch0 by decide), mem_ownR d L cc0_scratch4⟩⟩⟩⟩)]

omit [FloatOps F] in
theorem pts_bl (q : PosShare TreeShare) (f : Buf (Elt F) (blLoc d)) :
    ((blW).view.loc (thr d L) ↦{q} f : sProp 𝕄) = blLoc d ↦{q} f := by
  simp only [Memref.view_whole, View.set_whole]
omit [FloatOps F] in
theorem pts_wz (q : PosShare TreeShare) (f : Buf (Elt F) (wzLoc d)) :
    ((wzW).view.loc (thr d L) ↦{q} f : sProp 𝕄) = wzLoc d ↦{q} f := by
  simp only [Memref.view_whole, View.set_whole]
omit [FloatOps F] in
theorem pts_xt (q : PosShare TreeShare) (f : Buf (Elt F) (xtLoc d)) :
    ((xtW).view.loc (thr d L) ↦{q} f : sProp 𝕄) = xtLoc d ↦{q} f := by
  simp only [Memref.view_whole, View.set_whole]
omit [FloatOps F] in
theorem pts_codes (f : Buf (Elt F) ((thr d L).loc cc0_scratch0)) :
    ((codesW).view.loc (thr d L) ↦{fullShare} f : sProp 𝕄) = (thr d L).loc cc0_scratch0 ↦{fullShare} f := rfl
omit [FloatOps F] in
theorem pts_blV (f : Buf (Elt F) ((thr d L).loc cc0_scratch1)) :
    ((blV).view.loc (thr d L) ↦{fullShare} f : sProp 𝕄) = (thr d L).loc cc0_scratch1 ↦{fullShare} f := rfl
omit [FloatOps F] in
theorem pts_wzV (f : Buf (Elt F) ((thr d L).loc cc0_scratch2)) :
    ((wzV).view.loc (thr d L) ↦{fullShare} f : sProp 𝕄) = (thr d L).loc cc0_scratch2 ↦{fullShare} f := rfl
omit [FloatOps F] in
theorem pts_buf0 (f : Buf (Elt F) ((thr d L).loc cc0_scratch3)) :
    ((buf0).view.loc (thr d L) ↦{fullShare} f : sProp 𝕄) = (thr d L).loc cc0_scratch3 ↦{fullShare} f := rfl
omit [FloatOps F] in
theorem pts_buf1 (f : Buf (Elt F) ((thr d L).loc cc0_scratch4)) :
    ((buf1).view.loc (thr d L) ↦{fullShare} f : sProp 𝕄) = (thr d L).loc cc0_scratch4 ↦{fullShare} f := rfl

/-- What a scatter of the one word `y` leaves: an element some lane names ends at `y`, the others stay. -/
abbrev hit (idxs : Fin 2 → IVec S16 32) (y : BitVec 32) (f : S128x256.Idx → BitVec 32) : S128x256.Idx → BitVec 32 :=
  fun j => if ∃ x : S16.Idx, ∀ a, (j a).val = (idxs a x).toNat then y else f j

omit [FloatOps F] in
/-- A conditional does not depend on how its condition is decided. -/
private theorem ite_inst {α : Type} {p : Prop} (i1 i2 : Decidable p) (a b : α) : @ite α p i1 a b = @ite α p i2 a b := by
  rw [Subsingleton.elim i1 i2]

/-- The scatter of one word, as the lane-by-lane fold computes it, is `hit`: whichever way the two are decided. -/
private theorem storeIdx_hit (idxs : Fin 2 → IVec S16 32) (y : BitVec 32) (h : ∀ a x, (idxs a x).toNat < S128x256.size a) (f : S128x256.Idx → BitVec 32) :
    storeIdx (F := F) (s := S128x256) (e := .i32) f idxs (broadcast S16 y) (fun _ => 1#1) false h = hit idxs y f :=
  (storeIdx_const (F := F) f idxs y h).trans (funext fun _ => ite_inst _ _ _ _)

/-- A scatter of one word into the first staging buffer. -/
theorem wp_vstore0 {α : Type} {Q : α → sProp 𝕄} {idxs : Fin 2 → IVec S16 32} (y : BitVec 32) {v : Vec F S16 .i32} (hv : v = broadcast S16 y)
    {h : ∀ a x, (idxs a x).toNat < S128x256.size a} {hs : ((buf0).access (Rect.whole S128x256)).Stores Finset.univ}
    {k : PUnit → Prog (TpuEff nD τ sig (Elt F) Λ₀ (thr d L).2) α} {f : Buf (Elt F) ((buf0).view.loc (thr d L))} :
    ((buf0).view.loc (thr d L) ↦{fullShare} f : sProp 𝕄)
      ⊢ iprop((((buf0).view.loc (thr d L) ↦{fullShare} hit idxs y f)
            -∗ wp frame (wpE (defs₀ (F := F)) 𝒱₀ (thr d L) none) Set.univ (k ⟨⟩) Q)
        -∗ wp frame (wpE (defs₀ (F := F)) 𝒱₀ (thr d L) none) Set.univ (SparseCore.vectorStoreIdx (buf0) idxs v (fun _ => 1#1) false h hs >>= k) Q) := by
  subst hv
  have key := SparseCore.wp_vectorStoreIdx (defs := defs₀ (F := F)) 𝒱₀ (thr d L) none Set.univ (Q := Q) (base := buf0) (idxs := idxs)
    (v := broadcast S16 y) (mask := fun _ => 1#1) (add := false) (h := h) (hs := hs) (k := k) (f := f)
  -- the whole-rectangle access goes through every element, reads the buffer as it stands and writes the payload
  have eS := Memref.set_access_whole (sig := sig) (κ := .scVector) cc0_scratch3
  refine (Entails.of_eq ?_).trans (key.trans (Entails.of_eq ?_))
  · exact congrArg (fun S => ((buf0).view.loc (thr d L) ↦[S]{fullShare} f : sProp 𝕄)) eS.symm
  · refine congrArg (fun X : sProp 𝕄 => iprop((X -∗ _) -∗ _)) ?_
    refine (congrArg (fun S => ((buf0).view.loc (thr d L) ↦[S]{fullShare} _ : sProp 𝕄)) eS).trans
      (congrArg (fun g => ((buf0).view.loc (thr d L) ↦{fullShare} g : sProp 𝕄)) ?_)
    refine (Memref.write_access_whole_univ (Elt F) cc0_scratch3 f _).trans ?_
    refine (congrArg (fun g => storeIdx (F := F) (s := S128x256) (e := .i32) g idxs (broadcast S16 y) (fun _ => 1#1) false h)
      (Memref.read_access_whole (Elt F) cc0_scratch3 f)).trans ?_
    exact storeIdx_hit (F := F) idxs y h f

/-- A scatter of one word into the second staging buffer. -/
theorem wp_vstore1 {α : Type} {Q : α → sProp 𝕄} {idxs : Fin 2 → IVec S16 32} (y : BitVec 32) {v : Vec F S16 .i32} (hv : v = broadcast S16 y)
    {h : ∀ a x, (idxs a x).toNat < S128x256.size a} {hs : ((buf1).access (Rect.whole S128x256)).Stores Finset.univ}
    {k : PUnit → Prog (TpuEff nD τ sig (Elt F) Λ₀ (thr d L).2) α} {f : Buf (Elt F) ((buf1).view.loc (thr d L))} :
    ((buf1).view.loc (thr d L) ↦{fullShare} f : sProp 𝕄)
      ⊢ iprop((((buf1).view.loc (thr d L) ↦{fullShare} hit idxs y f)
            -∗ wp frame (wpE (defs₀ (F := F)) 𝒱₀ (thr d L) none) Set.univ (k ⟨⟩) Q)
        -∗ wp frame (wpE (defs₀ (F := F)) 𝒱₀ (thr d L) none) Set.univ (SparseCore.vectorStoreIdx (buf1) idxs v (fun _ => 1#1) false h hs >>= k) Q) := by
  subst hv
  have key := SparseCore.wp_vectorStoreIdx (defs := defs₀ (F := F)) 𝒱₀ (thr d L) none Set.univ (Q := Q) (base := buf1) (idxs := idxs)
    (v := broadcast S16 y) (mask := fun _ => 1#1) (add := false) (h := h) (hs := hs) (k := k) (f := f)
  -- the whole-rectangle access goes through every element, reads the buffer as it stands and writes the payload
  have eS := Memref.set_access_whole (sig := sig) (κ := .scVector) cc0_scratch4
  refine (Entails.of_eq ?_).trans (key.trans (Entails.of_eq ?_))
  · exact congrArg (fun S => ((buf1).view.loc (thr d L) ↦[S]{fullShare} f : sProp 𝕄)) eS.symm
  · refine congrArg (fun X : sProp 𝕄 => iprop((X -∗ _) -∗ _)) ?_
    refine (congrArg (fun S => ((buf1).view.loc (thr d L) ↦[S]{fullShare} _ : sProp 𝕄)) eS).trans
      (congrArg (fun g => ((buf1).view.loc (thr d L) ↦{fullShare} g : sProp 𝕄)) ?_)
    refine (Memref.write_access_whole_univ (Elt F) cc0_scratch4 f _).trans ?_
    refine (congrArg (fun g => storeIdx (F := F) (s := S128x256) (e := .i32) g idxs (broadcast S16 y) (fun _ => 1#1) false h)
      (Memref.read_access_whole (Elt F) cc0_scratch4 f)).trans ?_
    exact storeIdx_hit (F := F) idxs y h f

/-- A gather out of the loaded codes: lane `x` reads the element the two index vectors name for it. -/
theorem wp_vgather {α : Type} {Q : α → sProp 𝕄} {idxs : Fin 2 → IVec S16 32}
    {h : ∀ a x, (idxs a x).toNat < S50x128.size a} {hl : (codesW).view.Loads}
    {k : Vec F S16 .i32 → Prog (TpuEff nD τ sig (Elt F) Λ₀ (thr d L).2) α} {f : Buf (Elt F) ((codesW).view.loc (thr d L))} :
    ((codesW).view.loc (thr d L) ↦{fullShare} f : sProp 𝕄)
      ⊢ iprop((((codesW).view.loc (thr d L) ↦{fullShare} f)
            -∗ wp frame (wpE (defs₀ (F := F)) 𝒱₀ (thr d L) none) Set.univ (k (fun x : S16.Idx => f (idxAt idxs h x))) Q)
        -∗ wp frame (wpE (defs₀ (F := F)) 𝒱₀ (thr d L) none) Set.univ (SparseCore.vectorLoadIdx (codesW) idxs h hl >>= k) Q) := by
  have key := SparseCore.wp_vectorLoadIdx (defs := defs₀ (F := F)) 𝒱₀ (thr d L) none Set.univ (Q := Q) (base := codesW) (idxs := idxs)
    (h := h) (hl := hl) (k := k) (S := Finset.univ) (q := fullShare) (f := f) (Finset.subset_univ _)
  refine key.trans (Entails.of_eq ?_)
  -- the whole-rectangle access reads the buffer as it stands; the gather of it is the element each lane's two words name
  refine congrArg (fun g => iprop((((codesW).view.loc (thr d L) ↦{fullShare} f)
    -∗ wp frame (wpE (defs₀ (F := F)) 𝒱₀ (thr d L) none) Set.univ (k g) Q) -∗ _)) ?_
  exact (congrArg (fun g => loadIdx (F := F) (s := S50x128) (e := .i32) g idxs h) (Memref.read_access_whole (Elt F) cc0_scratch0 f)).trans
    (funext fun _ => rfl)

end Tile

end Cert.Proof.KB

end
-- ==== Proof.ZeroFillB.lean ====
/-
  One trip of the zero-filling loop, as a fact about a list of writes.
  Trip `t` stores sixteen sixteen-lane zero vectors across row `t` of a `[128, 256]` buffer, at
  columns `0, 16, …, 240`. The sixteen rectangles tile row `t` and touch no other row, and every
  payload is zero; so if the rows below `t` held zero before the trip, the rows below `t + 1`
  hold zero after it.
-/
import proofs.«204306_g82583631167916_cont_9to1c4b_486_26_alg».proof.Proof.Gen.Kernel
import proofs.«204306_g82583631167916_cont_9to1c4b_486_26_alg».proof.Proof.Gen.Kernel.Skeleton
import Idealize.ShloMosaic.Lib.Writes

noncomputable section

namespace Cert.ZeroFillB

open Cert.Kernel Cert.Kernel.Gen Idealize.ShloMosaic

/-- The sixteen stores of trip `t`, the last store first: sixteen-lane zero vectors at columns
    `240, 224, …, 16, 0` of row `t`. -/
abbrev zpieces {F : FTy → Type} [FloatOps F] (t : Fin k0_t1_loop.trips) : List (View.Piece (Elt F) S128x256 .i32) :=
  [⟨Rect.unit (s := S128x256) (k0_off17 t) S1x16.size (k0_off17_inb t), shapeCast S1x16 k0_pay1 shapeCasts_S16_S1x16⟩,
   ⟨Rect.unit (s := S128x256) (k0_off16 t) S1x16.size (k0_off16_inb t), shapeCast S1x16 k0_pay1 shapeCasts_S16_S1x16⟩,
   ⟨Rect.unit (s := S128x256) (k0_off15 t) S1x16.size (k0_off15_inb t), shapeCast S1x16 k0_pay1 shapeCasts_S16_S1x16⟩,
   ⟨Rect.unit (s := S128x256) (k0_off14 t) S1x16.size (k0_off14_inb t), shapeCast S1x16 k0_pay1 shapeCasts_S16_S1x16⟩,
   ⟨Rect.unit (s := S128x256) (k0_off13 t) S1x16.size (k0_off13_inb t), shapeCast S1x16 k0_pay1 shapeCasts_S16_S1x16⟩,
   ⟨Rect.unit (s := S128x256) (k0_off12 t) S1x16.size (k0_off12_inb t), shapeCast S1x16 k0_pay1 shapeCasts_S16_S1x16⟩,
   ⟨Rect.unit (s := S128x256) (k0_off11 t) S1x16.size (k0_off11_inb t), shapeCast S1x16 k0_pay1 shapeCasts_S16_S1x16⟩,
   ⟨Rect.unit (s := S128x256) (k0_off10 t) S1x16.size (k0_off10_inb t), shapeCast S1x16 k0_pay1 shapeCasts_S16_S1x16⟩,
   ⟨Rect.unit (s := S128x256) (k0_off9 t) S1x16.size (k0_off9_inb t), shapeCast S1x16 k0_pay1 shapeCasts_S16_S1x16⟩,
   ⟨Rect.unit (s := S128x256) (k0_off8 t) S1x16.size (k0_off8_inb t), shapeCast S1x16 k0_pay1 shapeCasts_S16_S1x16⟩,
   ⟨Rect.unit (s := S128x256) (k0_off7 t) S1x16.size (k0_off7_inb t), shapeCast S1x16 k0_pay1 shapeCasts_S16_S1x16⟩,
   ⟨Rect.unit (s := S128x256) (k0_off6 t) S1x16.size (k0_off6_inb t), shapeCast S1x16 k0_pay1 shapeCasts_S16_S1x16⟩,
   ⟨Rect.unit (s := S128x256) (k0_off5 t) S1x16.size (k0_off5_inb t), shapeCast S1x16 k0_pay1 shapeCasts_S16_S1x16⟩,
   ⟨Rect.unit (s := S128x256) (k0_off4 t) S1x16.size (k0_off4_inb t), shapeCast S1x16 k0_pay1 shapeCasts_S16_S1x16⟩,
   ⟨Rect.unit (s := S128x256) (k0_off3 t) S1x16.size (k0_off3_inb t), shapeCast S1x16 k0_pay1 shapeCasts_S16_S1x16⟩,
   ⟨Rect.unit (s := S128x256) (k0_off2 t) S1x16.size (k0_off2_inb t), shapeCast S1x16 k0_pay1 shapeCasts_S16_S1x16⟩]

variable {F : FTy → Type} [FloatOps F]

/-- Membership in a one-row, sixteen-column rectangle at offset `(r, c)`: the row is `r` and the
    column lies in `[c, c + 16)`. -/
theorem mem_unit_row (off : Fin 2 → Nat) (inb : ∀ a, off a + S1x16.size a ≤ S128x256.size a) (r c : Nat)
    (hoff : off = ![r, c]) (j : S128x256.Idx) :
    j ∈ (Rect.unit (s := S128x256) off S1x16.size inb).set ↔ (j 0).val = r ∧ c ≤ (j 1).val ∧ (j 1).val < c + 16 := by
  subst hoff
  rw [Rect.mem_set_unit, Fin.forall_fin_two]
  show (r ≤ (j 0).val ∧ (j 0).val < r + 1) ∧ (c ≤ (j 1).val ∧ (j 1).val < c + 16) ↔ _
  omega

/-- Every piece's payload is the zero vector. -/
theorem zpieces_pay (t : Fin k0_t1_loop.trips) :
    ∀ p ∈ zpieces (F := F) t, ∀ x : p.1.shape.Idx, p.2 x = (fun _ : S128x256.Idx => (0#32 : Elt F .i32)) (p.1.emb x) := by
  intro p hp
  simp only [List.mem_cons, List.not_mem_nil, or_false] at hp
  rcases hp with rfl | rfl | rfl | rfl | rfl | rfl | rfl | rfl | rfl | rfl | rfl | rfl | rfl | rfl | rfl | rfl
  all_goals exact fun _ => rfl

/-- Every piece lies in row `t`. -/
theorem zpieces_row (t : Fin k0_t1_loop.trips) :
    ∀ p ∈ zpieces (F := F) t, ∀ j : S128x256.Idx, j ∈ p.1.set → (j 0).val = t.val := by
  intro p hp
  simp only [List.mem_cons, List.not_mem_nil, or_false] at hp
  rcases hp with rfl | rfl | rfl | rfl | rfl | rfl | rfl | rfl | rfl | rfl | rfl | rfl | rfl | rfl | rfl | rfl
  · exact fun j h => ((mem_unit_row _ (k0_off17_inb t) _ _ (k0_off17_eq t) j).1 h).1
  · exact fun j h => ((mem_unit_row _ (k0_off16_inb t) _ _ (k0_off16_eq t) j).1 h).1
  · exact fun j h => ((mem_unit_row _ (k0_off15_inb t) _ _ (k0_off15_eq t) j).1 h).1
  · exact fun j h => ((mem_unit_row _ (k0_off14_inb t) _ _ (k0_off14_eq t) j).1 h).1
  · exact fun j h => ((mem_unit_row _ (k0_off13_inb t) _ _ (k0_off13_eq t) j).1 h).1
  · exact fun j h => ((mem_unit_row _ (k0_off12_inb t) _ _ (k0_off12_eq t) j).1 h).1
  · exact fun j h => ((mem_unit_row _ (k0_off11_inb t) _ _ (k0_off11_eq t) j).1 h).1
  · exact fun j h => ((mem_unit_row _ (k0_off10_inb t) _ _ (k0_off10_eq t) j).1 h).1
  · exact fun j h => ((mem_unit_row _ (k0_off9_inb t) _ _ (k0_off9_eq t) j).1 h).1
  · exact fun j h => ((mem_unit_row _ (k0_off8_inb t) _ _ (k0_off8_eq t) j).1 h).1
  · exact fun j h => ((mem_unit_row _ (k0_off7_inb t) _ _ (k0_off7_eq t) j).1 h).1
  · exact fun j h => ((mem_unit_row _ (k0_off6_inb t) _ _ (k0_off6_eq t) j).1 h).1
  · exact fun j h => ((mem_unit_row _ (k0_off5_inb t) _ _ (k0_off5_eq t) j).1 h).1
  · exact fun j h => ((mem_unit_row _ (k0_off4_inb t) _ _ (k0_off4_eq t) j).1 h).1
  · exact fun j h => ((mem_unit_row _ (k0_off3_inb t) _ _ (k0_off3_eq t) j).1 h).1
  · exact fun j h => ((mem_unit_row _ (k0_off2_inb t) _ _ (k0_off2_eq t) j).1 h).1

/-- The sixteen pieces tile row `t`: the element at column `c` lies in the piece at column `16 * (c / 16)`. -/
theorem zpieces_cover (t : Fin k0_t1_loop.trips) (j : S128x256.Idx) (hj : (j 0).val = t.val) :
    ∃ p ∈ zpieces (F := F) t, j ∈ p.1.set := by
  have h1 : (j 1).val < 256 := (j 1).isLt
  have hc : (j 1).val < 16 ∨
      (16 ≤ (j 1).val ∧ (j 1).val < 32) ∨
      (32 ≤ (j 1).val ∧ (j 1).val < 48) ∨
      (48 ≤ (j 1).val ∧ (j 1).val < 64) ∨
      (64 ≤ (j 1).val ∧ (j 1).val < 80) ∨
      (80 ≤ (j 1).val ∧ (j 1).val < 96) ∨
      (96 ≤ (j 1).val ∧ (j 1).val < 112) ∨
      (112 ≤ (j 1).val ∧ (j 1).val < 128) ∨
      (128 ≤ (j 1).val ∧ (j 1).val < 144) ∨
      (144 ≤ (j 1).val ∧ (j 1).val < 160) ∨
      (160 ≤ (j 1).val ∧ (j 1).val < 176) ∨
      (176 ≤ (j 1).val ∧ (j 1).val < 192) ∨
      (192 ≤ (j 1).val ∧ (j 1).val < 208) ∨
      (208 ≤ (j 1).val ∧ (j 1).val < 224) ∨
      (224 ≤ (j 1).val ∧ (j 1).val < 240) ∨
      (240 ≤ (j 1).val ∧ (j 1).val < 256) := by omega
  rcases hc with h | h | h | h | h | h | h | h | h | h | h | h | h | h | h | h
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), (mem_unit_row _ (k0_off2_inb t) _ _ (k0_off2_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), (mem_unit_row _ (k0_off3_inb t) _ _ (k0_off3_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (mem_unit_row _ (k0_off4_inb t) _ _ (k0_off4_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (mem_unit_row _ (k0_off5_inb t) _ _ (k0_off5_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (mem_unit_row _ (k0_off6_inb t) _ _ (k0_off6_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (mem_unit_row _ (k0_off7_inb t) _ _ (k0_off7_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (mem_unit_row _ (k0_off8_inb t) _ _ (k0_off8_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (mem_unit_row _ (k0_off9_inb t) _ _ (k0_off9_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), (mem_unit_row _ (k0_off10_inb t) _ _ (k0_off10_eq t) j).2 ⟨hj, by omega, by omega⟩⟩
  · exact ⟨_, (List.mem_cons_of_mem _ (List.mem_cons_of_mem _ (List.mem_cons_of_mem _ (List.mem_cons_of_mem _ (List.mem_cons_of_mem _ (List.mem_cons_of_mem _ (List.mem_cons_self))))))), (mem_unit_row _ (k0_off11_inb t) _ _ (k0_off11_eq t) j).2 ⟨hj, by omega, by omega⟩⟩
  · exact ⟨_, (List.mem_cons_of_mem _ (List.mem_cons_of_mem _ (List.mem_cons_of_mem _ (List.mem_cons_of_mem _ (List.mem_cons_of_mem _ (List.mem_cons_self)))))), (mem_unit_row _ (k0_off12_inb t) _ _ (k0_off12_eq t) j).2 ⟨hj, by omega, by omega⟩⟩
  · exact ⟨_, (List.mem_cons_of_mem _ (List.mem_cons_of_mem _ (List.mem_cons_of_mem _ (List.mem_cons_of_mem _ (List.mem_cons_self))))), (mem_unit_row _ (k0_off13_inb t) _ _ (k0_off13_eq t) j).2 ⟨hj, by omega, by omega⟩⟩
  · exact ⟨_, (List.mem_cons_of_mem _ (List.mem_cons_of_mem _ (List.mem_cons_of_mem _ (List.mem_cons_self)))), (mem_unit_row _ (k0_off14_inb t) _ _ (k0_off14_eq t) j).2 ⟨hj, by omega, by omega⟩⟩
  · exact ⟨_, (List.mem_cons_of_mem _ (List.mem_cons_of_mem _ (List.mem_cons_self))), (mem_unit_row _ (k0_off15_inb t) _ _ (k0_off15_eq t) j).2 ⟨hj, by omega, by omega⟩⟩
  · exact ⟨_, (List.mem_cons_of_mem _ (List.mem_cons_self)), (mem_unit_row _ (k0_off16_inb t) _ _ (k0_off16_eq t) j).2 ⟨hj, by omega, by omega⟩⟩
  · exact ⟨_, (List.mem_cons_self), (mem_unit_row _ (k0_off17_inb t) _ _ (k0_off17_eq t) j).2 ⟨hj, by omega, by omega⟩⟩

/-- Through any view of the `[128, 256]` shape: if rows below `t` read zero before trip `t`'s stores,
    rows below `t + 1` read zero after them. -/
theorem read_zero_fill {sig : RefSig} {κ : Kind} {sp : Space} (v : View sig κ sp S128x256 .i32)
    (f : v.ty.Contents (Elt F)) (t : Fin k0_t1_loop.trips)
    (hz : ∀ j : S128x256.Idx, (j 0).val < t.val → v.read (Elt F) f j = 0#32) :
    ∀ j : S128x256.Idx, (j 0).val < t.val + 1 → v.read (Elt F) (v.writes (Elt F) f (zpieces t)) j = 0#32 := by
  intro j hj
  by_cases h : (j 0).val = t.val
  · exact View.read_writes_apply_of_pieces v f (fun _ => (0#32 : Elt F .i32)) (zpieces t) (zpieces_pay t) j
      (zpieces_cover t j h)
  · rw [View.read_writes_apply_of_forall_not_mem v f j (zpieces t) (fun p hp hm => h (zpieces_row t p hp j hm))]
    exact hz j (by omega)

/-- The first staging buffer after trip `t` of the zero-filling loop. -/
theorem zero_fill3 (t : Fin k0_t1_loop.trips) (g : (⟨S128x256, .i32⟩ : BufTy).Contents (Elt F))
    (hz : ∀ j : S128x256.Idx, (j 0).val < t.val → g j = 0#32) :
    ∀ j : S128x256.Idx, (j 0).val < t.val + 1 →
      ((Memref.whole cc0_scratch3).view.writes (Elt F) g (zpieces t)) j = 0#32 :=
  read_zero_fill (Memref.whole cc0_scratch3).view g t hz

/-- The second staging buffer after trip `t` of the zero-filling loop. -/
theorem zero_fill4 (t : Fin k0_t1_loop.trips) (g : (⟨S128x256, .i32⟩ : BufTy).Contents (Elt F))
    (hz : ∀ j : S128x256.Idx, (j 0).val < t.val → g j = 0#32) :
    ∀ j : S128x256.Idx, (j 0).val < t.val + 1 →
      ((Memref.whole cc0_scratch4).view.writes (Elt F) g (zpieces t)) j = 0#32 :=
  read_zero_fill (Memref.whole cc0_scratch4).view g t hz

end Cert.ZeroFillB
end
-- ==== Proof.IdxB.lean ====
/-
  Index bookkeeping between a worker's staging buffers and the arrays: worker `(L 0, L 1)` owns the 128 batch rows
  from `256 (L 1) + 128 (L 0)`; its loaded codes are `[50, 128]`, a staging buffer is `[128, 256]`.
-/
import proofs.«204306_g82583631167916_cont_9to1c4b_486_26_alg».proof.Kernel

noncomputable section

namespace Cert.IdxB

open Idealize.ShloMosaic Cert.Kernel

theorem base_lt (L : grid0.Coords) (j : Fin 128) : 256 * (L 1).val + 128 * (L 0).val + j.val < 4096 := by
  have h0 : (L 0).val < 2 := (L 0).isLt
  have h1 : (L 1).val < 16 := (L 1).isLt
  have := j.isLt
  omega

/-- The element of the transposed codes under element `j` of the worker's loaded codes. -/
def col (L : grid0.Coords) (j : S50x128.Idx) : S50x4096.Idx := fun a => match a with
  | ⟨0, _⟩ => ⟨(j 0).val, (j 0).isLt⟩
  | ⟨1, _⟩ => ⟨256 * (L 1).val + 128 * (L 0).val + (j 1).val, base_lt L (j 1)⟩

/-- Row `r`, lane `j0` of the loaded codes. -/
def rc (r : Nat) (hr : r < 50) (j0 : Fin 128) : S50x128.Idx := fun a => match a with
  | ⟨0, _⟩ => ⟨r, hr⟩
  | ⟨1, _⟩ => j0

/-- The element of the table under element `j` of a staging buffer that holds sequence position `r`. -/
def sidx (L : grid0.Coords) (r : Nat) (hr : r < 50) (j : S128x256.Idx) : S50x4096x256.Idx := fun a => match a with
  | ⟨0, _⟩ => ⟨r, hr⟩
  | ⟨1, _⟩ => ⟨256 * (L 1).val + 128 * (L 0).val + (j 0).val, base_lt L (j 0)⟩
  | ⟨2, _⟩ => ⟨(j 1).val, (j 1).isLt⟩

end Cert.IdxB

end
-- ==== Proof.ScatterB.lean ====
/-
  What the worker's scatters leave in a staging buffer, as pure mathematics over index functions.
  A scatter of one word `y` through sixteen lanes turns contents `f` into `y` at every element a lane
  names and `f` elsewhere. Lane `x` of a group names the row read from a row table and the column
  given by a code of row `r` of the loaded codes `[50, 128]`. With the row table `0, 1, …, 127` the
  eight groups write `y` at `(b, code of (r, b))` for all 128 rows `b`; with the first group's table
  replaced by `1, 1, 2, …, 15` row `0` is left out. Ones over zeros give the one-hot rows; zeros
  written back at the same places give all zeros again; and the one-hot rows are the elements of
  the table `Gt` under them.
-/
import proofs.«204306_g82583631167916_cont_9to1c4b_486_26_alg».proof.Proof.IdxB
import proofs.«204306_g82583631167916_cont_9to1c4b_486_26_alg».proof.Proof.Spec
import proofs.«204306_g82583631167916_cont_9to1c4b_486_26_alg».proof.Proof.Gen.Kernel
import proofs.«204306_g82583631167916_cont_9to1c4b_486_26_alg».proof.Proof.LibStoreIdx
import Idealize.ShloMosaic.Lib.Pipeline.Value

noncomputable section

namespace Cert.ScatterB

open Cert.Kernel Cert.Kernel.Gen Cert.IdxB Idealize.ShloMosaic

variable {F : FTy → Type} [FloatOps F]

/-- What a scatter of the one word `y` leaves of contents `f`: `y` at every element some lane names
    (lane `x` names row `idxs 0 x`, column `idxs 1 x`, read unsigned), `f` elsewhere. -/
abbrev HIT (idxs : Fin 2 → IVec S16 32) (y : BitVec 32) (f : S128x256.Idx → BitVec 32) : S128x256.Idx → BitVec 32 :=
  fun j : S128x256.Idx => if ∃ x : S16.Idx, ∀ a, (j a).val = ((idxs : Fin 2 → IVec S16 32) a x).toNat then y else f j

/-- Sixteen consecutive entries of the row table, from entry `o`. -/
abbrev blAt (c1 : (⟨S128, .i32⟩ : BufTy).Contents (Elt F)) (o : Nat) (h : ∀ a, (![o] : Fin 1 → Nat) a + S16.size a ≤ S128.size a) : IVec S16 32 :=
  View.readAt (Elt F) (Memref.whole cc0_scratch1 : Memref sig .scVector .vmem S128 .i32).view (Rect.unit (s := S128) ![o] S16.size h).toLoadRect c1

/-- The sixteen entries of the first-group row table. -/
abbrev wzAt (c2 : (⟨S16, .i32⟩ : BufTy).Contents (Elt F)) (h : ∀ a, (![0] : Fin 1 → Nat) a + S16.size a ≤ S16.size a) : IVec S16 32 :=
  View.readAt (Elt F) (Memref.whole cc0_scratch2 : Memref sig .scVector .vmem S16 .i32).view (Rect.unit (s := S16) ![0] S16.size h).toLoadRect c2

/-- Sixteen consecutive codes of one row of the loaded codes, from `offs`, as a sixteen-lane vector. -/
abbrev cdAt (c0 : (⟨S50x128, .i32⟩ : BufTy).Contents (Elt F)) (offs : Fin 2 → Nat) (h : ∀ a, offs a + S1x16.size a ≤ S50x128.size a) : IVec S16 32 :=
  shapeCast S16 (View.readAt (Elt F) (Memref.whole cc0_scratch0 : Memref sig .scVector .vmem S50x128 .i32).view (Rect.unit (s := S50x128) offs S1x16.size h).toLoadRect c0) shapeCasts_S1x16_S16

/-- Contents `f` with `y` written at `(b, code of (r, b))` for the rows `lo ≤ b < hi`. -/
def part (c0 : (⟨S50x128, .i32⟩ : BufTy).Contents (Elt F)) (lo hi r : Nat) (hr : r < 50) (y : BitVec 32)
    (f : S128x256.Idx → BitVec 32) : S128x256.Idx → BitVec 32 :=
  fun j => if lo ≤ (j 0).val ∧ (j 0).val < hi ∧ (c0 (rc r hr (j 0))).toNat = (j 1).val then y else f j

/-- The one-hot rows of sequence position `r` over the worker's 128 batch rows, row `0` zeroed when `w0` holds. -/
def OHw (c0 : (⟨S50x128, .i32⟩ : BufTy).Contents (Elt F)) (w0 : Prop) [Decidable w0] (r : Nat) (hr : r < 50) :
    S128x256.Idx → BitVec 32 :=
  fun j => if w0 ∧ (j 0).val = 0 then 0#32 else if (c0 (rc r hr (j 0))).toNat = (j 1).val then 1#32 else 0#32

/-- Entry `n` of the row table's shape. -/
abbrev at128 (n : Nat) (hn : n < 128) : S128.Idx := fun a => match a with
  | ⟨0, _⟩ => ⟨n, hn⟩

/-- Entry `n` of the first-group row table's shape. -/
abbrev at16 (n : Nat) (hn : n < 16) : S16.Idx := fun a => match a with
  | ⟨0, _⟩ => ⟨n, hn⟩

/-- Element `(m, n)` of the loaded codes' shape. -/
abbrev at50x128 (m n : Nat) (hm : m < 50) (hn : n < 128) : S50x128.Idx := fun a => match a with
  | ⟨0, _⟩ => ⟨m, hm⟩
  | ⟨1, _⟩ => ⟨n, hn⟩

theorem blAt_bound (o : Nat) (h : ∀ a, (![o] : Fin 1 → Nat) a + S16.size a ≤ S128.size a) (x : S16.Idx) :
    o + (x 0).val < 128 := by
  have h0 : o + 16 ≤ 128 := h 0
  have : (x 0).val < 16 := (x 0).isLt
  omega

theorem cdAt_bound0 (offs : Fin 2 → Nat) (h : ∀ a, offs a + S1x16.size a ≤ S50x128.size a) : offs 0 < 50 := by
  have h0 : offs 0 + 1 ≤ 50 := h 0
  omega

theorem cdAt_bound1 (offs : Fin 2 → Nat) (h : ∀ a, offs a + S1x16.size a ≤ S50x128.size a) (x : S16.Idx) :
    offs 1 + (x 0).val < 128 := by
  have h1 : offs 1 + 16 ≤ 128 := h 1
  have : (x 0).val < 16 := (x 0).isLt
  omega

/-! ### The three loads at a lane -/

/-- Lane `x` of sixteen row-table entries from `o` is entry `o + x`. -/
theorem blAt_apply (c1 : (⟨S128, .i32⟩ : BufTy).Contents (Elt F)) (o : Nat)
    (h : ∀ a, (![o] : Fin 1 → Nat) a + S16.size a ≤ S128.size a) (x : S16.Idx) :
    blAt c1 o h x = c1 (at128 (o + (x 0).val) (blAt_bound o h x)) := by
  show c1 _ = c1 _
  refine congrArg c1 (funext fun a => ?_)
  match a with
  | ⟨0, _⟩ => exact Fin.ext (by show o + 1 * (x 0).val = o + (x 0).val; rw [Nat.one_mul])

/-- Lane `x` of the whole first-group row table is its entry `x`. -/
theorem wzAt_apply (c2 : (⟨S16, .i32⟩ : BufTy).Contents (Elt F))
    (h : ∀ a, (![0] : Fin 1 → Nat) a + S16.size a ≤ S16.size a) (x : S16.Idx) :
    wzAt c2 h x = c2 x := by
  show c2 _ = c2 _
  refine congrArg c2 (funext fun a => ?_)
  match a with
  | ⟨0, _⟩ => exact Fin.ext (by show 0 + 1 * (x 0).val = (x 0).val; omega)

/-- Lane `x` of sixteen codes from `(offs 0, offs 1)` is the code at `(offs 0, offs 1 + x)`. -/
theorem cdAt_apply (c0 : (⟨S50x128, .i32⟩ : BufTy).Contents (Elt F)) (offs : Fin 2 → Nat)
    (h : ∀ a, offs a + S1x16.size a ≤ S50x128.size a) (x : S16.Idx) :
    cdAt c0 offs h x = c0 (at50x128 (offs 0) (offs 1 + (x 0).val) (cdAt_bound0 offs h) (cdAt_bound1 offs h x)) := by
  unfold cdAt
  rw [shapeCast_apply _ shapeCasts_S1x16_S16 x
    (fun a => match a with
      | ⟨0, _⟩ => ⟨0, (by decide : 0 < 1)⟩
      | ⟨1, _⟩ => ⟨(x 0).val, (x 0).isLt⟩)
    (by rw [Shape.rowMajor_val_two, Shape.rowMajor_val_one]; show 0 * _ + (x 0).val = (x 0).val; omega)]
  show c0 _ = c0 _
  refine congrArg c0 (funext fun a => ?_)
  match a with
  | ⟨0, _⟩ => exact Fin.ext (by show offs 0 + 1 * 0 = offs 0; omega)
  | ⟨1, _⟩ => exact Fin.ext (by show offs 1 + 1 * (x 0).val = offs 1 + (x 0).val; omega)

/-! ### Sixteen lanes at a time -/

/-- An index of the loaded codes with row `r` and lane `j0` is `rc r hr j0`. -/
theorem eq_rc (i : S50x128.Idx) (r : Nat) (hr : r < 50) (j0 : Fin 128) (h0 : (i 0).val = r) (h1 : (i 1).val = j0.val) :
    i = rc r hr j0 :=
  funext fun a => match a with
    | ⟨0, _⟩ => Fin.ext h0
    | ⟨1, _⟩ => Fin.ext h1

/-- Two adjacent row ranges written with the same word are one range. -/
theorem part_part (c0 : (⟨S50x128, .i32⟩ : BufTy).Contents (Elt F)) (lo mid hi r : Nat) (hr : r < 50) (y : BitVec 32)
    (f : S128x256.Idx → BitVec 32) (h1 : lo ≤ mid) (h2 : mid ≤ hi) :
    part c0 mid hi r hr y (part c0 lo mid r hr y f) = part c0 lo hi r hr y f := by
  funext j
  show (if mid ≤ (j 0).val ∧ (j 0).val < hi ∧ (c0 (rc r hr (j 0))).toNat = (j 1).val then y
      else if lo ≤ (j 0).val ∧ (j 0).val < mid ∧ (c0 (rc r hr (j 0))).toNat = (j 1).val then y else f j)
    = if lo ≤ (j 0).val ∧ (j 0).val < hi ∧ (c0 (rc r hr (j 0))).toNat = (j 1).val then y else f j
  by_cases hA : mid ≤ (j 0).val ∧ (j 0).val < hi ∧ (c0 (rc r hr (j 0))).toNat = (j 1).val
  · rw [if_pos hA, if_pos ⟨by omega, hA.2.1, hA.2.2⟩]
  · rw [if_neg hA]
    by_cases hB : lo ≤ (j 0).val ∧ (j 0).val < mid ∧ (c0 (rc r hr (j 0))).toNat = (j 1).val
    · rw [if_pos hB, if_pos ⟨hB.1, by omega, hB.2.2⟩]
    · rw [if_neg hB, if_neg]
      rintro ⟨h3, h4, h5⟩
      by_cases hm : mid ≤ (j 0).val
      · exact hA ⟨hm, h4, h5⟩
      · exact hB ⟨h3, by omega, h5⟩

/-- Sixteen lanes whose rows come from the row table at `o` (which holds `0, 1, …, 127`) and whose columns are the
    codes of row `r` at lanes `o, …, o + 15`: the word lands on `(b, code of (r, b))` for `o ≤ b < o + 16`. -/
theorem hit_rows (c0 : (⟨S50x128, .i32⟩ : BufTy).Contents (Elt F)) (c1 : (⟨S128, .i32⟩ : BufTy).Contents (Elt F))
    (hbl : ∀ j : S128.Idx, (c1 j).toNat = (j 0).val) (r : Nat) (hr : r < 50) (o : Nat) (y : BitVec 32)
    (f : S128x256.Idx → BitVec 32) (hb : ∀ a, (![o] : Fin 1 → Nat) a + S16.size a ≤ S128.size a)
    (offs : Fin 2 → Nat) (ho : ∀ a, offs a + S1x16.size a ≤ S50x128.size a) (hoffs : offs = ![r, o]) :
    HIT ![blAt c1 o hb, cdAt c0 offs ho] y f = part c0 o (o + 16) r hr y f := by
  subst hoffs
  funext j
  have ho16 : o + 16 ≤ 128 := hb 0
  refine if_congr ⟨?_, ?_⟩ rfl rfl
  · rintro ⟨x, hx⟩
    have h0 : (j 0).val = (blAt c1 o hb x).toNat := hx 0
    have h1 : (j 1).val = (cdAt c0 ![r, o] ho x).toNat := hx 1
    rw [blAt_apply, hbl] at h0
    have h0' : (j 0).val = o + (x 0).val := h0
    have hx16 : (x 0).val < 16 := (x 0).isLt
    have e : at50x128 ((![r, o] : Fin 2 → Nat) 0) ((![r, o] : Fin 2 → Nat) 1 + (x 0).val)
        (cdAt_bound0 ![r, o] ho) (cdAt_bound1 ![r, o] ho x) = rc r hr (j 0) :=
      eq_rc _ r hr (j 0) rfl (by show o + (x 0).val = (j 0).val; omega)
    rw [cdAt_apply, e] at h1
    exact ⟨by omega, by omega, h1.symm⟩
  · rintro ⟨h1, h2, h3⟩
    refine ⟨at16 ((j 0).val - o) (by omega), fun a => ?_⟩
    match a with
    | ⟨0, _⟩ =>
      show (j 0).val = (blAt c1 o hb (at16 ((j 0).val - o) (by omega))).toNat
      rw [blAt_apply, hbl]
      show (j 0).val = o + ((j 0).val - o)
      omega
    | ⟨1, _⟩ =>
      show (j 1).val = (cdAt c0 ![r, o] ho (at16 ((j 0).val - o) (by omega))).toNat
      have e : at50x128 ((![r, o] : Fin 2 → Nat) 0)
          ((![r, o] : Fin 2 → Nat) 1 + ((at16 ((j 0).val - o) (by omega) : S16.Idx) 0).val)
          (cdAt_bound0 ![r, o] ho) (cdAt_bound1 ![r, o] ho (at16 ((j 0).val - o) (by omega))) = rc r hr (j 0) :=
        eq_rc _ r hr (j 0) rfl (by show o + ((j 0).val - o) = (j 0).val; omega)
      rw [cdAt_apply, e]
      exact h3.symm

/-- The first group: rows `0 ≤ b < 16`. -/
theorem step0 (c0 : (⟨S50x128, .i32⟩ : BufTy).Contents (Elt F)) (c1 : (⟨S128, .i32⟩ : BufTy).Contents (Elt F))
    (hbl : ∀ j : S128.Idx, (c1 j).toNat = (j 0).val) (r : Nat) (hr : r < 50) (y : BitVec 32) (f : S128x256.Idx → BitVec 32)
    (hb : ∀ a, (![0] : Fin 1 → Nat) a + S16.size a ≤ S128.size a)
    (offs : Fin 2 → Nat) (ho : ∀ a, offs a + S1x16.size a ≤ S50x128.size a) (hoffs : offs = ![r, 0]) :
    HIT ![blAt c1 0 hb, cdAt c0 offs ho] y f = part c0 0 16 r hr y f :=
  hit_rows c0 c1 hbl r hr 0 y f hb offs ho hoffs

/-- Group `G` after the groups before it: the written rows grow from `[lo, 16 G)` to `[lo, 16 G + 16)`. -/
theorem step (c0 : (⟨S50x128, .i32⟩ : BufTy).Contents (Elt F)) (c1 : (⟨S128, .i32⟩ : BufTy).Contents (Elt F))
    (hbl : ∀ j : S128.Idx, (c1 j).toNat = (j 0).val) (r : Nat) (hr : r < 50) (G : Nat) (hG : 1 ≤ G ∧ G < 8)
    (lo : Nat) (hlo : lo ≤ 16) (y : BitVec 32) (f : S128x256.Idx → BitVec 32)
    (hb : ∀ a, (![16 * G] : Fin 1 → Nat) a + S16.size a ≤ S128.size a)
    (offs : Fin 2 → Nat) (ho : ∀ a, offs a + S1x16.size a ≤ S50x128.size a) (hoffs : offs = ![r, 16 * G]) :
    HIT ![blAt c1 (16 * G) hb, cdAt c0 offs ho] y (part c0 lo (16 * G) r hr y f) = part c0 lo (16 * G + 16) r hr y f := by
  rw [hit_rows c0 c1 hbl r hr (16 * G) y _ hb offs ho hoffs]
  exact part_part c0 lo (16 * G) (16 * G + 16) r hr y f (by omega) (by omega)

/-- The first group when batch row `0` is to stay zero: the row table `1, 1, 2, …, 15` names rows `1 ≤ b < 16`,
    and each lane's column is the code gathered at the row it names. -/
theorem stepW (c0 : (⟨S50x128, .i32⟩ : BufTy).Contents (Elt F)) (c2 : (⟨S16, .i32⟩ : BufTy).Contents (Elt F))
    (hwz : ∀ j : S16.Idx, (c2 j).toNat = if (j 0).val = 0 then 1 else (j 0).val) (r : Nat) (hr : r < 50)
    (row : BitVec 32) (hrow : row.toNat = r) (y : BitVec 32) (f : S128x256.Idx → BitVec 32)
    (hz : ∀ a, (![0] : Fin 1 → Nat) a + S16.size a ≤ S16.size a)
    (h : ∀ a x, ((![broadcast S16 row, wzAt c2 hz] : Fin 2 → IVec S16 32) a x).toNat < S50x128.size a) :
    HIT ![wzAt c2 hz, fun x : S16.Idx => c0 (idxAt ![broadcast S16 row, wzAt c2 hz] h x)] y f = part c0 1 16 r hr y f := by
  funext j
  refine if_congr ⟨?_, ?_⟩ rfl rfl
  · rintro ⟨x, hx⟩
    have h0 : (j 0).val = (wzAt c2 hz x).toNat := hx 0
    have h1 : (j 1).val = (c0 (idxAt ![broadcast S16 row, wzAt c2 hz] h x)).toNat := hx 1
    have hx16 : (x 0).val < 16 := (x 0).isLt
    have e : idxAt ![broadcast S16 row, wzAt c2 hz] h x = rc r hr (j 0) :=
      eq_rc _ r hr (j 0) hrow h0.symm
    rw [e] at h1
    rw [wzAt_apply, hwz] at h0
    refine ⟨?_, ?_, h1.symm⟩
    · by_cases hx0 : (x 0).val = 0
      · rw [if_pos hx0] at h0; omega
      · rw [if_neg hx0] at h0; omega
    · by_cases hx0 : (x 0).val = 0
      · rw [if_pos hx0] at h0; omega
      · rw [if_neg hx0] at h0; omega
  · rintro ⟨h1, h2, h3⟩
    have hw : (wzAt c2 hz (at16 (j 0).val h2)).toNat = (j 0).val := by
      rw [wzAt_apply, hwz]
      show (if (j 0).val = 0 then 1 else (j 0).val) = (j 0).val
      rw [if_neg (by omega)]
    refine ⟨at16 (j 0).val h2, fun a => ?_⟩
    match a with
    | ⟨0, _⟩ => exact hw.symm
    | ⟨1, _⟩ =>
      show (j 1).val = (c0 (idxAt ![broadcast S16 row, wzAt c2 hz] h (at16 (j 0).val h2))).toNat
      rw [eq_rc (idxAt ![broadcast S16 row, wzAt c2 hz] h (at16 (j 0).val h2)) r hr (j 0) hrow hw]
      exact h3.symm

/-! ### The whole buffer after all eight groups -/

/-- Ones written over zeros on every row: the one-hot rows. -/
theorem ones_full (c0 : (⟨S50x128, .i32⟩ : BufTy).Contents (Elt F)) (r : Nat) (hr : r < 50) :
    part c0 0 128 r hr 1#32 (fun _ => 0#32) = OHw c0 False r hr := by
  funext j
  have hj : (j 0).val < 128 := (j 0).isLt
  show (if 0 ≤ (j 0).val ∧ (j 0).val < 128 ∧ (c0 (rc r hr (j 0))).toNat = (j 1).val then 1#32 else 0#32)
    = if False ∧ (j 0).val = 0 then 0#32 else if (c0 (rc r hr (j 0))).toNat = (j 1).val then 1#32 else 0#32
  rw [if_neg (fun h : False ∧ (j 0).val = 0 => h.1)]
  by_cases hc : (c0 (rc r hr (j 0))).toNat = (j 1).val
  · rw [if_pos ⟨Nat.zero_le _, hj, hc⟩, if_pos hc]
  · rw [if_neg (fun h => hc h.2.2), if_neg hc]

/-- Ones written over zeros on every row but row `0`: the one-hot rows with row `0` zero. -/
theorem ones_w0 (c0 : (⟨S50x128, .i32⟩ : BufTy).Contents (Elt F)) (r : Nat) (hr : r < 50) :
    part c0 1 128 r hr 1#32 (fun _ => 0#32) = OHw c0 True r hr := by
  funext j
  have hj : (j 0).val < 128 := (j 0).isLt
  show (if 1 ≤ (j 0).val ∧ (j 0).val < 128 ∧ (c0 (rc r hr (j 0))).toNat = (j 1).val then 1#32 else 0#32)
    = if True ∧ (j 0).val = 0 then 0#32 else if (c0 (rc r hr (j 0))).toNat = (j 1).val then 1#32 else 0#32
  by_cases h0 : (j 0).val = 0
  · have hL : ¬ (1 ≤ (j 0).val ∧ (j 0).val < 128 ∧ (c0 (rc r hr (j 0))).toNat = (j 1).val) :=
      fun h => by have := h.1; omega
    have hR : True ∧ (j 0).val = 0 := ⟨trivial, h0⟩
    rw [if_neg hL, if_pos hR]
  · rw [if_neg (fun h : True ∧ (j 0).val = 0 => h0 h.2)]
    by_cases hc : (c0 (rc r hr (j 0))).toNat = (j 1).val
    · rw [if_pos ⟨by omega, hj, hc⟩, if_pos hc]
    · rw [if_neg (fun h => hc h.2.2), if_neg hc]

/-- Zeros written back over the one-hot rows at the same places: all zero again. -/
theorem zeros_back (c0 : (⟨S50x128, .i32⟩ : BufTy).Contents (Elt F)) (w0 : Prop) [Decidable w0] (r : Nat) (hr : r < 50) :
    part c0 0 128 r hr 0#32 (OHw c0 w0 r hr) = fun _ => 0#32 := by
  funext j
  have hj : (j 0).val < 128 := (j 0).isLt
  show (if 0 ≤ (j 0).val ∧ (j 0).val < 128 ∧ (c0 (rc r hr (j 0))).toNat = (j 1).val then 0#32
      else if w0 ∧ (j 0).val = 0 then 0#32 else if (c0 (rc r hr (j 0))).toNat = (j 1).val then 1#32 else 0#32) = 0#32
  by_cases hc : (c0 (rc r hr (j 0))).toNat = (j 1).val
  · rw [if_pos ⟨Nat.zero_le _, hj, hc⟩]
  · rw [if_neg (fun h => hc h.2.2)]
    by_cases hw : w0 ∧ (j 0).val = 0
    · rw [if_pos hw]
    · rw [if_neg hw, if_neg hc]

/-- The one-hot rows of worker `L` at sequence position `r` are the table's elements under them; the worker that
    owns batch row `0` is the one with both coordinates `0`. -/
theorem OHw_eq_Gt (L : grid0.Coords) (xt : IVec S50x4096 32) (c0 : (⟨S50x128, .i32⟩ : BufTy).Contents (Elt F))
    (hcd : ∀ j, c0 j = xt (col L j)) (r : Nat) (hr : r < 50) (j : S128x256.Idx) :
    OHw c0 ((L 1).val = 0 ∧ (L 0).val = 0) r hr j = Cert.OneHot.Gt xt (sidx L r hr j) := by
  have e3 : Cert.OneHot.sb (sidx L r hr j) = col L (rc r hr (j 0)) := funext fun a => match a with
    | ⟨0, _⟩ => Fin.ext rfl
    | ⟨1, _⟩ => Fin.ext rfl
  show (if ((L 1).val = 0 ∧ (L 0).val = 0) ∧ (j 0).val = 0 then 0#32
      else if (c0 (rc r hr (j 0))).toNat = (j 1).val then 1#32 else 0#32)
    = if 256 * (L 1).val + 128 * (L 0).val + (j 0).val = 0 then 0#32
      else if (xt (Cert.OneHot.sb (sidx L r hr j))).toNat = (j 1).val then 1#32 else 0#32
  rw [e3, ← hcd]
  exact if_congr (by omega) rfl rfl

end Cert.ScatterB
end
-- ==== Proof.SlabsB.lean ====
/-
  The worker's slabs of the table as the body's memrefs name them, and what the body's copies move.
  At double step `k` the body copies its two staging buffers into the table's slabs at sequence positions
  `2 k` and `2 k + 1`: each slab memref is a unit-stride block `1 × 128 × 256` of the table with its leading
  axis dropped, so its element set is the slab's rectangle and its element `y` sits at
  `(position, first batch row + y 0, y 1)`. The three opening copies load whole buffers: the two row tables
  and the worker's 128 columns of the transposed codes.
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.Kernel
import proofs.«204306_g82583631167916_cont_9to1c4b_486_26_alg».proof.Proof.Gen.Kernel.Skeleton
import proofs.«204306_g82583631167916_cont_9to1c4b_486_26_alg».proof.Proof.Spec
import proofs.«204306_g82583631167916_cont_9to1c4b_486_26_alg».proof.Proof.SetupB
import proofs.«204306_g82583631167916_cont_9to1c4b_486_26_alg».proof.Proof.LibStoreIdx
import proofs.«204306_g82583631167916_cont_9to1c4b_486_26_alg».proof.Proof.TileOpsB
import proofs.«204306_g82583631167916_cont_9to1c4b_486_26_alg».proof.Proof.IdxB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xtW" => (Memref.whole Cert.Kernel.main_v0_scv : Memref Cert.Kernel.sig Kind.scVector Space.hbm Cert.Kernel.S50x4096 EltTy.i32)
local notation "blW" => (Memref.whole Cert.Kernel.main_c_scv : Memref Cert.Kernel.sig Kind.scVector Space.hbm Cert.Kernel.S128 EltTy.i32)
local notation "wzW" => (Memref.whole Cert.Kernel.main_c_0_scv : Memref Cert.Kernel.sig Kind.scVector Space.hbm Cert.Kernel.S16 EltTy.i32)
local notation "outW" => (Memref.whole Cert.Kernel.main_v1_scv : Memref Cert.Kernel.sig Kind.scVector Space.hbm Cert.Kernel.S50x4096x256 EltTy.i32)
local notation "codesW" => (Memref.whole Cert.Kernel.cc0_scratch0 : Memref Cert.Kernel.sig Kind.scVector Space.vmem Cert.Kernel.S50x128 EltTy.i32)
local notation "blV" => (Memref.whole Cert.Kernel.cc0_scratch1 : Memref Cert.Kernel.sig Kind.scVector Space.vmem Cert.Kernel.S128 EltTy.i32)
local notation "wzV" => (Memref.whole Cert.Kernel.cc0_scratch2 : Memref Cert.Kernel.sig Kind.scVector Space.vmem Cert.Kernel.S16 EltTy.i32)
local notation "buf0" => (Memref.whole Cert.Kernel.cc0_scratch3 : Memref Cert.Kernel.sig Kind.scVector Space.vmem Cert.Kernel.S128x256 EltTy.i32)
local notation "buf1" => (Memref.whole Cert.Kernel.cc0_scratch4 : Memref Cert.Kernel.sig Kind.scVector Space.vmem Cert.Kernel.S128x256 EltTy.i32)

variable [FloatOps F]

section Tile

variable (d : Dev nD) (L : grid0.Coords)

open Cert.IdxB

/-! ## The two slab memrefs of a double step -/

omit [FloatOps F] in
/-- Unit-stride rectangles of the same sizes at equal offsets are equal. -/
theorem rect_unit_congr {s : Shape} {off off' size : Fin s.rank → Nat} {inb : ∀ a, off a + size a ≤ s.size a}
    {inb' : ∀ a, off' a + size a ≤ s.size a} (h : off = off') :
    Rect.unit (s := s) off size inb = Rect.unit (s := s) off' size inb' := by
  subst h; rfl

/-- The slab memref the first staging buffer is copied into at double step `k`: sequence position `2 k`. -/
abbrev slabM0 (k : Fin k0_t2_loop.trips) : Memref sig .scVector .hbm S128x256 .i32 :=
  ((outW).slice (Rect.unit (s := S50x4096x256) (k0_off35 L k) S1x128x256.size (k0_off35_inb L k)) (fun _ => rfl)).squeeze S128x256 squeezes_S1x128x256_S128x256
/-- The slab memref the second staging buffer is copied into at double step `k`: sequence position `2 k + 1`. -/
abbrev slabM1 (k : Fin k0_t2_loop.trips) : Memref sig .scVector .hbm S128x256 .i32 :=
  ((outW).slice (Rect.unit (s := S50x4096x256) (k0_off53 L k) S1x128x256.size (k0_off53_inb L k)) (fun _ => rfl)).squeeze S128x256 squeezes_S1x128x256_S128x256

omit [FloatOps F] in
/-- There are 25 double steps: both sequence positions of a double step are below 50. -/
theorem k2_lt (k : Fin k0_t2_loop.trips) : 2 * k.val + 1 < 50 := by
  have h1 := k.isLt
  have h2 := k0_t2_abs.2.1
  omega

omit [FloatOps F] in
theorem slabRect0_eq (k : Fin k0_t2_loop.trips) :
    Rect.unit (s := S50x4096x256) (k0_off35 L k) S1x128x256.size (k0_off35_inb L k)
      = slabRect (cL L) (jL L) ⟨2 * k.val, by have := k2_lt k; omega⟩ :=
  rect_unit_congr (k0_off35_eq L k)
omit [FloatOps F] in
theorem slabRect1_eq (k : Fin k0_t2_loop.trips) :
    Rect.unit (s := S50x4096x256) (k0_off53 L k) S1x128x256.size (k0_off53_inb L k)
      = slabRect (cL L) (jL L) ⟨2 * k.val + 1, k2_lt k⟩ :=
  rect_unit_congr (k0_off53_eq L k)

omit [FloatOps F] in
theorem set_slabM0 (k : Fin k0_t2_loop.trips) :
    (slabM0 L k).view.set = slab (cL L) (jL L) ⟨2 * k.val, by have := k2_lt k; omega⟩ := by
  show (((outW).view.slice (Rect.unit (s := S50x4096x256) (k0_off35 L k) S1x128x256.size (k0_off35_inb L k))).reshape S128x256
      squeezes_S1x128x256_S128x256.numel_eq).set = (slabRect (cL L) (jL L) ⟨2 * k.val, by have := k2_lt k; omega⟩).set
  rw [View.set_reshape]
  refine (View.set_slice_whole main_v1_scv _).trans ?_
  exact slabRect0_eq L k ▸ rfl
omit [FloatOps F] in
theorem set_slabM1 (k : Fin k0_t2_loop.trips) :
    (slabM1 L k).view.set = slab (cL L) (jL L) ⟨2 * k.val + 1, k2_lt k⟩ := by
  show (((outW).view.slice (Rect.unit (s := S50x4096x256) (k0_off53 L k) S1x128x256.size (k0_off53_inb L k))).reshape S128x256
      squeezes_S1x128x256_S128x256.numel_eq).set = (slabRect (cL L) (jL L) ⟨2 * k.val + 1, k2_lt k⟩).set
  rw [View.set_reshape]
  refine (View.set_slice_whole main_v1_scv _).trans ?_
  exact slabRect1_eq L k ▸ rfl

omit [FloatOps F] in
theorem pts_slab0 (k : Fin k0_t2_loop.trips) (f : Buf (Elt F) (outLoc d)) :
    ((outW).view.loc (thr d L) ↦[(slabM0 L k).view.set]{fullShare} f : sProp 𝕄)
      = outLoc d ↦[slab (cL L) (jL L) ⟨2 * k.val, by have := k2_lt k; omega⟩]{fullShare} f := by
  rw [set_slabM0]
omit [FloatOps F] in
theorem pts_slab1 (k : Fin k0_t2_loop.trips) (f : Buf (Elt F) (outLoc d)) :
    ((outW).view.loc (thr d L) ↦[(slabM1 L k).view.set]{fullShare} f : sProp 𝕄)
      = outLoc d ↦[slab (cL L) (jL L) ⟨2 * k.val + 1, k2_lt k⟩]{fullShare} f := by
  rw [set_slabM1]

/-! ## What a copy of a staging buffer delivers -/

omit [FloatOps F] in
/-- Element `y` of the first slab memref of double step `k` is the table's element at sequence position `2 k`,
    the worker's batch row `y 0`, channel `y 1`. -/
theorem emb_slabM0 (k : Fin k0_t2_loop.trips) (y : S128x256.Idx) :
    (slabM0 L k).view.emb y = sidx L (2 * k.val) (by have := k2_lt k; omega) y := by
  show (Rect.unit (s := S50x4096x256) (k0_off35 L k) S1x128x256.size (k0_off35_inb L k)).emb
      (Shape.reshapeEquiv squeezes_S1x128x256_S128x256.numel_eq y) = _
  rw [Shape.reshapeEquiv_cons_one]
  funext a; apply Fin.ext
  rw [Rect.emb_apply]
  show k0_off35 L k a + 1 * ((Fin.cons (⟨0, Nat.one_pos⟩ : Fin 1) y : S1x128x256.Idx) a).val = (sidx L (2 * k.val) _ y a).val
  rw [k0_off35_eq]
  match a with
  | ⟨0, _⟩ => simp [sidx]; rfl
  | ⟨1, _⟩ => simp [sidx]; rfl
  | ⟨2, _⟩ => simp [sidx]; rfl
omit [FloatOps F] in
theorem emb_slabM1 (k : Fin k0_t2_loop.trips) (y : S128x256.Idx) :
    (slabM1 L k).view.emb y = sidx L (2 * k.val + 1) (k2_lt k) y := by
  show (Rect.unit (s := S50x4096x256) (k0_off53 L k) S1x128x256.size (k0_off53_inb L k)).emb
      (Shape.reshapeEquiv squeezes_S1x128x256_S128x256.numel_eq y) = _
  rw [Shape.reshapeEquiv_cons_one]
  funext a; apply Fin.ext
  rw [Rect.emb_apply]
  show k0_off53 L k a + 1 * ((Fin.cons (⟨0, Nat.one_pos⟩ : Fin 1) y : S1x128x256.Idx) a).val = (sidx L (2 * k.val + 1) _ y a).val
  rw [k0_off53_eq]
  match a with
  | ⟨0, _⟩ => simp [sidx]; rfl
  | ⟨1, _⟩ => simp [sidx]; rfl
  | ⟨2, _⟩ => simp [sidx]; rfl

omit [FloatOps F] in
/-- Through the whole of a slab memref's shape an index sits where it sits in the memref. -/
theorem emb_whole_slabM0 (k : Fin k0_t2_loop.trips) (y : S128x256.Idx) :
    ((slabM0 L k).view.slice (Rect.whole S128x256)).emb y = (slabM0 L k).view.emb y := by
  show (slabM0 L k).view.emb ((Rect.whole S128x256).emb y) = _
  rw [Rect.emb_whole_apply]
omit [FloatOps F] in
theorem emb_whole_slabM1 (k : Fin k0_t2_loop.trips) (y : S128x256.Idx) :
    ((slabM1 L k).view.slice (Rect.whole S128x256)).emb y = (slabM1 L k).view.emb y := by
  show (slabM1 L k).view.emb ((Rect.whole S128x256).emb y) = _
  rw [Rect.emb_whole_apply]

omit [FloatOps F] in
/-- The table's location, spelt through the table's memref or through a slab memref of it. -/
theorem slabloc0 (k : Fin k0_t2_loop.trips) (f : Buf (Elt F) (outLoc d)) :
    ((outW).view.loc (thr d L) ↦[(slabM0 L k).view.set]{fullShare} f : sProp 𝕄)
      = ((slabM0 L k).view.loc (thr d L) ↦[(slabM0 L k).view.set]{fullShare} f) := rfl
omit [FloatOps F] in
theorem slabloc1 (k : Fin k0_t2_loop.trips) (f : Buf (Elt F) (outLoc d)) :
    ((outW).view.loc (thr d L) ↦[(slabM1 L k).view.set]{fullShare} f : sProp 𝕄)
      = ((slabM1 L k).view.loc (thr d L) ↦[(slabM1 L k).view.set]{fullShare} f) := rfl

omit [FloatOps F] in
/-- One whole-shape write of `w` through the first slab memref of double step `k`, `w` being the table's slab
    at sequence position `2 k`, leaves that slab at the table. -/
theorem deliver0 (k : Fin k0_t2_loop.trips) (fo : Buf (Elt F) (outLoc d)) (w : S128x256.Idx → BitVec 32)
    (hw : ∀ y : S128x256.Idx, w y = OUT m d (sidx L (2 * k.val) (by have := k2_lt k; omega) y)) :
    ((slabM0 L k).view.loc (thr d L) ↦[(slabM0 L k).view.set]{fullShare}
        (slabM0 L k).view.writes (Elt F) fo [⟨Rect.whole S128x256, w⟩] : sProp 𝕄)
      ⊢ outLoc d ↦[slab (cL L) (jL L) ⟨2 * k.val, by have := k2_lt k; omega⟩]{fullShare} OUT m d := by
  have hc : ∀ i ∈ (slabM0 L k).view.set,
      (slabM0 L k).view.writes (Elt F) fo [⟨Rect.whole S128x256, w⟩] i = OUT m d i := by
    intro i hi
    obtain ⟨y, -, rfl⟩ := Finset.mem_map.mp hi
    have h1 := View.write_emb_of_mem (v := (slabM0 L k).view.slice (Rect.whole S128x256)) (Val := Elt F) fo w
      (M := Finset.univ) (x := y) (Finset.mem_univ _)
    rw [emb_whole_slabM0] at h1
    refine h1.trans ?_
    show w y = OUT m d ((slabM0 L k).view.emb y)
    rw [hw y, emb_slabM0]
  rw [pointsTo_congr hc, set_slabM0]
omit [FloatOps F] in
/-- The same through the second slab memref, at sequence position `2 k + 1`. -/
theorem deliver1 (k : Fin k0_t2_loop.trips) (fo : Buf (Elt F) (outLoc d)) (w : S128x256.Idx → BitVec 32)
    (hw : ∀ y : S128x256.Idx, w y = OUT m d (sidx L (2 * k.val + 1) (k2_lt k) y)) :
    ((slabM1 L k).view.loc (thr d L) ↦[(slabM1 L k).view.set]{fullShare}
        (slabM1 L k).view.writes (Elt F) fo [⟨Rect.whole S128x256, w⟩] : sProp 𝕄)
      ⊢ outLoc d ↦[slab (cL L) (jL L) ⟨2 * k.val + 1, k2_lt k⟩]{fullShare} OUT m d := by
  have hc : ∀ i ∈ (slabM1 L k).view.set,
      (slabM1 L k).view.writes (Elt F) fo [⟨Rect.whole S128x256, w⟩] i = OUT m d i := by
    intro i hi
    obtain ⟨y, -, rfl⟩ := Finset.mem_map.mp hi
    have h1 := View.write_emb_of_mem (v := (slabM1 L k).view.slice (Rect.whole S128x256)) (Val := Elt F) fo w
      (M := Finset.univ) (x := y) (Finset.mem_univ _)
    rw [emb_whole_slabM1] at h1
    refine h1.trans ?_
    show w y = OUT m d ((slabM1 L k).view.emb y)
    rw [hw y, emb_slabM1]
  rw [pointsTo_congr hc, set_slabM1]

/-! ## Whole staging buffers -/

omit [FloatOps F] in
theorem pts_b0set (f : Buf (Elt F) ((buf0).view.loc (thr d L))) :
    ((buf0).view.loc (thr d L) ↦[(buf0).view.set]{fullShare} f : sProp 𝕄) = ((buf0).view.loc (thr d L) ↦{fullShare} f) := by
  simp only [Memref.view_whole, View.set_whole]
omit [FloatOps F] in
theorem pts_b1set (f : Buf (Elt F) ((buf1).view.loc (thr d L))) :
    ((buf1).view.loc (thr d L) ↦[(buf1).view.set]{fullShare} f : sProp 𝕄) = ((buf1).view.loc (thr d L) ↦{fullShare} f) := by
  simp only [Memref.view_whole, View.set_whole]

/-! ## What the three opening copies load -/

omit [FloatOps F] in
theorem lit0_toNat : ∀ n : Fin 128, (lit0 n).toNat = n.val := by decide
omit [FloatOps F] in
theorem lit1_toNat : ∀ n : Fin 16, (lit1 n).toNat = if n.val = 0 then 1 else n.val := by decide

/-- The loaded row table holds `j` at `j`. -/
theorem bl_loaded (f1 : Buf (Elt F) ((blV).view.loc (thr d L))) (j : S128.Idx) :
    (View.write (Elt F) (blV).view f1 (ReadAs.same.apply (View.read (Elt F) (blW).view (BL (F := F) d))) Finset.univ j).toNat = (j 0).val := by
  simp only [Memref.view_whole, View.write_whole_univ, ReadAs.apply_same, View.read_whole]
  have hn : (S128.rowMajor j : Fin 128) = (j 0 : Fin 128) := Fin.ext (Shape.rowMajor_val_one j)
  exact (congrArg (fun n : Fin 128 => (lit0 n).toNat) hn).trans (lit0_toNat (j 0))

/-- The loaded first-group row table holds `1` at `0` and `j` at every other `j`. -/
theorem wz_loaded (f2 : Buf (Elt F) ((wzV).view.loc (thr d L))) (j : S16.Idx) :
    (View.write (Elt F) (wzV).view f2 (ReadAs.same.apply (View.read (Elt F) (wzW).view (WZ (F := F) d))) Finset.univ j).toNat
      = if (j 0).val = 0 then 1 else (j 0).val := by
  simp only [Memref.view_whole, View.write_whole_univ, ReadAs.apply_same, View.read_whole]
  have hn : (S16.rowMajor j : Fin 16) = (j 0 : Fin 16) := Fin.ext (Shape.rowMajor_val_one j)
  exact (congrArg (fun n : Fin 16 => (lit1 n).toNat) hn).trans (lit1_toNat (j 0))

/-- The loaded codes are the worker's 128 columns of the transposed codes. -/
theorem codes_loaded (f0 : Buf (Elt F) ((codesW).view.loc (thr d L))) (j : S50x128.Idx) :
    View.write (Elt F) (codesW).view f0 (ReadAs.same.apply (View.read (Elt F)
      ((xtW).slice (Rect.unit (s := S50x4096) (k0_off1 L) S50x128.size (k0_off1_inb L)) (fun _ => rfl)).view (XT m d))) Finset.univ j
      = XT m d (col L j) := by
  simp only [Memref.view_whole, View.write_whole_univ, ReadAs.apply_same]
  show XT m d ((Rect.unit (s := S50x4096) (k0_off1 L) S50x128.size (k0_off1_inb L)).emb j) = XT m d (col L j)
  congr 1
  funext a; apply Fin.ext
  rw [Rect.emb_apply]
  show k0_off1 L a + 1 * (j a).val = (col L j a).val
  rw [k0_off1_eq]
  match a with
  | ⟨0, _⟩ => simp [col]
  | ⟨1, _⟩ => simp [col]

end Tile

end Cert.Proof.KB

end
-- ==== Proof.BodyB.lean ====
/-
  One trip of the worker's main loop. Before trip `k` the first staging buffer is either zero with its semaphore at
  rest (`k = 0`) or in flight to slab `2 k - 2`, the second likewise to slab `2 k - 1`; the slabs from `2 k` on are
  untouched and those below `2 k - 2` hold the table. The trip waits for the first buffer's copy (its slab now holds
  the table), scatters zeros where position `2 k - 2` had put ones (the buffer is zero again: sixteen rows at a time,
  `part 0 (16 G) … ↦ part 0 (16 G + 16) …`), scatters ones for position `2 k` (on worker `0` the first group goes
  through the row table `1, 1, 2, … 15`, so batch row `0` stays zero), starts its copy to slab `2 k`, and does the
  same with the second buffer for positions `2 k - 1` and `2 k + 1`. Every index the scatters and gathers use is in
  range because the codes are below `256`, the row tables below `128` and the positions below `50`.
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.Kernel
import proofs.«204306_g82583631167916_cont_9to1c4b_486_26_alg».proof.Proof.Gen.Kernel.Skeleton
import proofs.«204306_g82583631167916_cont_9to1c4b_486_26_alg».proof.Proof.Spec
import proofs.«204306_g82583631167916_cont_9to1c4b_486_26_alg».proof.Proof.SetupB
import proofs.«204306_g82583631167916_cont_9to1c4b_486_26_alg».proof.Proof.TileOpsB
import proofs.«204306_g82583631167916_cont_9to1c4b_486_26_alg».proof.Proof.ZeroFillB
import proofs.«204306_g82583631167916_cont_9to1c4b_486_26_alg».proof.Proof.LibFinRange
import proofs.«204306_g82583631167916_cont_9to1c4b_486_26_alg».proof.Proof.ScatterB
import proofs.«204306_g82583631167916_cont_9to1c4b_486_26_alg».proof.Proof.IdxB
import proofs.«204306_g82583631167916_cont_9to1c4b_486_26_alg».proof.Proof.SlabsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xtW" => (Memref.whole Cert.Kernel.main_v0_scv : Memref Cert.Kernel.sig Kind.scVector Space.hbm Cert.Kernel.S50x4096 EltTy.i32)
local notation "blW" => (Memref.whole Cert.Kernel.main_c_scv : Memref Cert.Kernel.sig Kind.scVector Space.hbm Cert.Kernel.S128 EltTy.i32)
local notation "wzW" => (Memref.whole Cert.Kernel.main_c_0_scv : Memref Cert.Kernel.sig Kind.scVector Space.hbm Cert.Kernel.S16 EltTy.i32)
local notation "outW" => (Memref.whole Cert.Kernel.main_v1_scv : Memref Cert.Kernel.sig Kind.scVector Space.hbm Cert.Kernel.S50x4096x256 EltTy.i32)
local notation "codesW" => (Memref.whole Cert.Kernel.cc0_scratch0 : Memref Cert.Kernel.sig Kind.scVector Space.vmem Cert.Kernel.S50x128 EltTy.i32)
local notation "blV" => (Memref.whole Cert.Kernel.cc0_scratch1 : Memref Cert.Kernel.sig Kind.scVector Space.vmem Cert.Kernel.S128 EltTy.i32)
local notation "wzV" => (Memref.whole Cert.Kernel.cc0_scratch2 : Memref Cert.Kernel.sig Kind.scVector Space.vmem Cert.Kernel.S16 EltTy.i32)
local notation "buf0" => (Memref.whole Cert.Kernel.cc0_scratch3 : Memref Cert.Kernel.sig Kind.scVector Space.vmem Cert.Kernel.S128x256 EltTy.i32)
local notation "buf1" => (Memref.whole Cert.Kernel.cc0_scratch4 : Memref Cert.Kernel.sig Kind.scVector Space.vmem Cert.Kernel.S128x256 EltTy.i32)

variable [FloatOps F]

section Tile

variable (d : Dev nD) (L : grid0.Coords)

open Cert.IdxB Cert.ScatterB Cert.FinRange Cert.ZeroFillB

/-! ## The conditions and the recycled rows' offsets, in closed form -/

omit [FloatOps F] in
theorem cond1_iff : ∀ k : Fin k0_t2_loop.trips, (k0_cond1 k = 1#1) ↔ k.val ≠ 0 := by decide +kernel
omit [FloatOps F] in
theorem cond4_iff : ∀ k : Fin k0_t2_loop.trips, (k0_cond4 k = 1#1) ↔ k.val ≠ 0 := by decide +kernel
omit [FloatOps F] in
theorem cond2_iff : ∀ i : grid0.Coords, (k0_cond2 i = 1#1) ↔ ((i 1).val = 0 ∧ (i 0).val = 0) := by decide +kernel
omit [FloatOps F] in
theorem cond3_iff : ∀ i : grid0.Coords, (k0_cond3 i = 1#1) ↔ ¬ ((i 1).val = 0 ∧ (i 0).val = 0) := by decide +kernel
omit [FloatOps F] in
theorem cond5_iff : ∀ i : grid0.Coords, (k0_cond5 i = 1#1) ↔ ((i 1).val = 0 ∧ (i 0).val = 0) := by decide +kernel
omit [FloatOps F] in
theorem cond6_iff : ∀ i : grid0.Coords, (k0_cond6 i = 1#1) ↔ ¬ ((i 1).val = 0 ∧ (i 0).val = 0) := by decide +kernel
omit [FloatOps F] in
theorem off19_eq : ∀ k : Fin k0_t2_loop.trips, k0_cond1 k = 1#1 → k0_off19 k = ![2 * k.val - 2, 0] := by decide +kernel
omit [FloatOps F] in
theorem off37_eq : ∀ k : Fin k0_t2_loop.trips, k0_cond4 k = 1#1 → k0_off37 k = ![2 * k.val - 1, 0] := by decide +kernel
omit [FloatOps F] in
theorem off20_eq : ∀ k : Fin k0_t2_loop.trips, k0_cond1 k = 1#1 → k0_off20 k = ![2 * k.val - 2, 16] := by decide +kernel
omit [FloatOps F] in
theorem off38_eq : ∀ k : Fin k0_t2_loop.trips, k0_cond4 k = 1#1 → k0_off38 k = ![2 * k.val - 1, 16] := by decide +kernel
omit [FloatOps F] in
theorem off21_eq : ∀ k : Fin k0_t2_loop.trips, k0_cond1 k = 1#1 → k0_off21 k = ![2 * k.val - 2, 32] := by decide +kernel
omit [FloatOps F] in
theorem off39_eq : ∀ k : Fin k0_t2_loop.trips, k0_cond4 k = 1#1 → k0_off39 k = ![2 * k.val - 1, 32] := by decide +kernel
omit [FloatOps F] in
theorem off22_eq : ∀ k : Fin k0_t2_loop.trips, k0_cond1 k = 1#1 → k0_off22 k = ![2 * k.val - 2, 48] := by decide +kernel
omit [FloatOps F] in
theorem off40_eq : ∀ k : Fin k0_t2_loop.trips, k0_cond4 k = 1#1 → k0_off40 k = ![2 * k.val - 1, 48] := by decide +kernel
omit [FloatOps F] in
theorem off23_eq : ∀ k : Fin k0_t2_loop.trips, k0_cond1 k = 1#1 → k0_off23 k = ![2 * k.val - 2, 64] := by decide +kernel
omit [FloatOps F] in
theorem off41_eq : ∀ k : Fin k0_t2_loop.trips, k0_cond4 k = 1#1 → k0_off41 k = ![2 * k.val - 1, 64] := by decide +kernel
omit [FloatOps F] in
theorem off24_eq : ∀ k : Fin k0_t2_loop.trips, k0_cond1 k = 1#1 → k0_off24 k = ![2 * k.val - 2, 80] := by decide +kernel
omit [FloatOps F] in
theorem off42_eq : ∀ k : Fin k0_t2_loop.trips, k0_cond4 k = 1#1 → k0_off42 k = ![2 * k.val - 1, 80] := by decide +kernel
omit [FloatOps F] in
theorem off25_eq : ∀ k : Fin k0_t2_loop.trips, k0_cond1 k = 1#1 → k0_off25 k = ![2 * k.val - 2, 96] := by decide +kernel
omit [FloatOps F] in
theorem off43_eq : ∀ k : Fin k0_t2_loop.trips, k0_cond4 k = 1#1 → k0_off43 k = ![2 * k.val - 1, 96] := by decide +kernel
omit [FloatOps F] in
theorem off26_eq : ∀ k : Fin k0_t2_loop.trips, k0_cond1 k = 1#1 → k0_off26 k = ![2 * k.val - 2, 112] := by decide +kernel
omit [FloatOps F] in
theorem off44_eq : ∀ k : Fin k0_t2_loop.trips, k0_cond4 k = 1#1 → k0_off44 k = ![2 * k.val - 1, 112] := by decide +kernel

omit [FloatOps F] in
theorem v18_val : ∀ k : Fin k0_t2_loop.trips, (Scalar.addi (Scalar.muli 2#32 (Scalar.addi 0#32 (Scalar.muli (Scf.iv 0#32 1#32 k) 1#32))) 0#32).toNat = 2 * k.val := by decide +kernel
omit [FloatOps F] in
theorem v54_val : ∀ k : Fin k0_t2_loop.trips, (Scalar.addi (Scalar.muli 2#32 (Scalar.addi 0#32 (Scalar.muli (Scf.iv 0#32 1#32 k) 1#32))) 1#32).toNat = 2 * k.val + 1 := by decide +kernel

omit [FloatOps F] in
theorem two_lt {v w : IVec S16 32} {n0 n1 : Nat} (hv : ∀ x, (v x).toNat < n0) (hw : ∀ x, (w x).toNat < n1) :
    ∀ (a : Fin 2) (x : S16.Idx), ((![v, w] : Fin 2 → IVec S16 32) a x).toNat < (![n0, n1] : Fin 2 → Nat) a := by
  intro a x
  match a with
  | ⟨0, _⟩ => exact hv x
  | ⟨1, _⟩ => exact hw x

/-! ## The staging buffers' contents and the loop's invariant -/

/-- Worker number `0`: the one whose batch row `0` stays zero. -/
abbrev W0 (L : grid0.Coords) : Prop := (L 1).val = 0 ∧ (L 0).val = 0
abbrev rF (n : Nat) : Fin 50 := ⟨n % 50, Nat.mod_lt _ (by decide)⟩
abbrev ZB : S128x256.Idx → BitVec 32 := fun _ => 0#32
/-- A staging buffer holding sequence position `r`. -/
abbrev OHb (c0 : (⟨S50x128, .i32⟩ : BufTy).Contents (Elt F)) (r : Fin 50) : S128x256.Idx → BitVec 32 := OHw c0 (W0 L) r.val r.isLt

theorem OHw_congr (c0 : (⟨S50x128, .i32⟩ : BufTy).Contents (Elt F)) {w0 w0' : Prop} [Decidable w0] [Decidable w0'] (h : w0 ↔ w0') (r : Nat) (hr : r < 50) :
    OHw c0 w0 r hr = OHw c0 w0' r hr := by
  funext j; unfold OHw; simp only [h]
theorem onesW (c0 : (⟨S50x128, .i32⟩ : BufTy).Contents (Elt F)) (hw : W0 L) (r : Nat) (hr : r < 50) :
    part c0 1 128 r hr 1#32 (fun _ => 0#32) = OHw c0 (W0 L) r hr :=
  (ones_w0 c0 r hr).trans (OHw_congr c0 ⟨fun _ => hw, fun _ => trivial⟩ r hr)
theorem onesN (c0 : (⟨S50x128, .i32⟩ : BufTy).Contents (Elt F)) (hw : ¬ W0 L) (r : Nat) (hr : r < 50) :
    part c0 0 128 r hr 1#32 (fun _ => 0#32) = OHw c0 (W0 L) r hr :=
  (ones_full c0 r hr).trans (OHw_congr c0 ⟨fun h => h.elim, fun h => (hw h).elim⟩ r hr)
/-- A staging buffer holding position `r` is the table's slab. -/
theorem OHb_out (c0 : (⟨S50x128, .i32⟩ : BufTy).Contents (Elt F)) (hcd : ∀ j, c0 j = XT m d (col L j)) (r : Nat) (hr : r < 50) (y : S128x256.Idx) :
    OHw c0 (W0 L) r hr y = OUT m d (sidx L r hr y) := OHw_eq_Gt L (XT m d) c0 hcd r hr y

abbrev freshΦ (r : Fin 50) : sProp 𝕄 := iprop(∃ f, outLoc d ↦[slab (cL L) (jL L) r]{fullShare} f)
abbrev doneΦ (r : Fin 50) : sProp 𝕄 := outLoc d ↦[slab (cL L) (jL L) r]{fullShare} OUT m d

/-- The first staging buffer before trip `k`: zero with its semaphore at rest, or in flight to slab `2 k - 2`. -/
def slot0 (c0 : (⟨S50x128, .i32⟩ : BufTy).Contents (Elt F)) (k : Nat) : sProp 𝕄 :=
  if k = 0 then iprop(((buf0).view.loc (thr d L) ↦{fullShare} ZB) ∗ semVal (thr d L, SemLoc.dma cc0_scratch5.sem) 0)
  else Transfers.Flight countersEmb (thr d L) (SemLoc.dma cc0_scratch5.sem) default 1048576
      iprop(doneΦ m d L (rF (2 * k - 2)) ∗ ((buf0).view.loc (thr d L) ↦[(buf0).view.set]{fullShare} OHb L c0 (rF (2 * k - 2))))
/-- The second, to slab `2 k - 1`. -/
def slot1 (c0 : (⟨S50x128, .i32⟩ : BufTy).Contents (Elt F)) (k : Nat) : sProp 𝕄 :=
  if k = 0 then iprop(((buf1).view.loc (thr d L) ↦{fullShare} ZB) ∗ semVal (thr d L, SemLoc.dma cc0_scratch6.sem) 0)
  else Transfers.Flight countersEmb (thr d L) (SemLoc.dma cc0_scratch6.sem) default 1048576
      iprop(doneΦ m d L (rF (2 * k - 1)) ∗ ((buf1).view.loc (thr d L) ↦[(buf1).view.set]{fullShare} OHb L c0 (rF (2 * k - 1))))

/-- Before trip `k`: the loaded tables, the two staging buffers as `slot0` / `slot1` say, the slabs from `2 k` on untouched,
    those below `2 k - 2` at the table. -/
def minv (c0 : (⟨S50x128, .i32⟩ : BufTy).Contents (Elt F)) (c1 : (⟨S128, .i32⟩ : BufTy).Contents (Elt F)) (c2 : (⟨S16, .i32⟩ : BufTy).Contents (Elt F))
    (O : CellTallies nD τ sig (HIx 1)) (W : Waits sig (HIx 1)) (k : Nat) (_ : PUnit) : sProp 𝕄 :=
  iprop(Transfers.MayWaits (thr d L) (none : HIx 1) O
    ∗ ((codesW).view.loc (thr d L) ↦{fullShare} c0) ∗ ((blV).view.loc (thr d L) ↦{fullShare} c1) ∗ ((wzV).view.loc (thr d L) ↦{fullShare} c2)
    ∗ slot0 m d L c0 k ∗ slot1 m d L c0 k
    ∗ bigSep (Finset.univ.filter fun r : Fin 50 => 2 * k ≤ r.val) (freshΦ d L)
    ∗ bigSep (Finset.univ.filter fun r : Fin 50 => r.val + 2 < 2 * k) (doneΦ m d L)
    ∗ ∃ W', ⌜∀ p ∈ W', p ∈ W ∨ p.2 = none⌝ ∗ owes (thr d L) O W')

theorem wp_vstore0' {α : Type} {Q : α → sProp 𝕄} {idxs : Fin 2 → IVec S16 32} (y : BitVec 32) {v : Vec F S16 .i32} (hv : v = broadcast S16 y)
    {h : ∀ a x, (idxs a x).toNat < S128x256.size a} {hs : ((buf0).access (Rect.whole S128x256)).Stores Finset.univ}
    {k : PUnit → Prog (TpuEff nD τ sig (Elt F) Λ₀ (thr d L).2) α} {f : Buf (Elt F) ((buf0).view.loc (thr d L))}
    (g' : S128x256.Idx → BitVec 32) (hg : hit idxs y f = g') :
    ((buf0).view.loc (thr d L) ↦{fullShare} f : sProp 𝕄)
      ⊢ iprop((((buf0).view.loc (thr d L) ↦{fullShare} g')
            -∗ wp frame (wpE (defs₀ (F := F)) 𝒱₀ (thr d L) none) Set.univ (k ⟨⟩) Q)
        -∗ wp frame (wpE (defs₀ (F := F)) 𝒱₀ (thr d L) none) Set.univ (SparseCore.vectorStoreIdx (buf0) idxs v (fun _ => 1#1) false h hs >>= k) Q) :=
  hg ▸ wp_vstore0 (F := F) d L y hv
theorem wp_vstore1' {α : Type} {Q : α → sProp 𝕄} {idxs : Fin 2 → IVec S16 32} (y : BitVec 32) {v : Vec F S16 .i32} (hv : v = broadcast S16 y)
    {h : ∀ a x, (idxs a x).toNat < S128x256.size a} {hs : ((buf1).access (Rect.whole S128x256)).Stores Finset.univ}
    {k : PUnit → Prog (TpuEff nD τ sig (Elt F) Λ₀ (thr d L).2) α} {f : Buf (Elt F) ((buf1).view.loc (thr d L))}
    (g' : S128x256.Idx → BitVec 32) (hg : hit idxs y f = g') :
    ((buf1).view.loc (thr d L) ↦{fullShare} f : sProp 𝕄)
      ⊢ iprop((((buf1).view.loc (thr d L) ↦{fullShare} g')
            -∗ wp frame (wpE (defs₀ (F := F)) 𝒱₀ (thr d L) none) Set.univ (k ⟨⟩) Q)
        -∗ wp frame (wpE (defs₀ (F := F)) 𝒱₀ (thr d L) none) Set.univ (SparseCore.vectorStoreIdx (buf1) idxs v (fun _ => 1#1) false h hs >>= k) Q) :=
  hg ▸ wp_vstore1 (F := F) d L y hv

/-- A transfer of a staging buffer that holds position `r` delivers the slab at the table and the buffer back. -/
theorem fl0 (c0 : (⟨S50x128, .i32⟩ : BufTy).Contents (Elt F)) (hcd : ∀ j, c0 j = XT m d (col L j)) (k : Fin k0_t2_loop.trips) (fo : Buf (Elt F) (outLoc d)) :
    (Transfers.Flight countersEmb (thr d L) (SemLoc.dma cc0_scratch5.sem) default 1048576
        iprop(((slabM0 L k).view.loc (thr d L) ↦[(slabM0 L k).view.set]{fullShare} (slabM0 L k).view.writes (Elt F) fo
            [⟨Rect.whole S128x256, ReadAs.same.apply (View.read (Elt F) (buf0).view (OHw c0 (W0 L) (2 * k.val) (by have := k2_lt k; omega)))⟩])
          ∗ ((buf0).view.loc (thr d L) ↦[(buf0).view.set]{fullShare} OHw c0 (W0 L) (2 * k.val) (by have := k2_lt k; omega))) : sProp 𝕄)
      ⊢ Transfers.Flight countersEmb (thr d L) (SemLoc.dma cc0_scratch5.sem) default 1048576
        iprop(doneΦ m d L ⟨2 * k.val, by have := k2_lt k; omega⟩ ∗ ((buf0).view.loc (thr d L) ↦[(buf0).view.set]{fullShare} OHb L c0 ⟨2 * k.val, by have := k2_lt k; omega⟩)) :=
  Transfers.Flight_mono countersEmb (thr d L) (sep_mono_left (deliver0 (F := F) m d L k fo _ fun y => OHb_out m d L c0 hcd _ _ y))
theorem fl1 (c0 : (⟨S50x128, .i32⟩ : BufTy).Contents (Elt F)) (hcd : ∀ j, c0 j = XT m d (col L j)) (k : Fin k0_t2_loop.trips) (fo : Buf (Elt F) (outLoc d)) :
    (Transfers.Flight countersEmb (thr d L) (SemLoc.dma cc0_scratch6.sem) default 1048576
        iprop(((slabM1 L k).view.loc (thr d L) ↦[(slabM1 L k).view.set]{fullShare} (slabM1 L k).view.writes (Elt F) fo
            [⟨Rect.whole S128x256, ReadAs.same.apply (View.read (Elt F) (buf1).view (OHw c0 (W0 L) (2 * k.val + 1) (k2_lt k)))⟩])
          ∗ ((buf1).view.loc (thr d L) ↦[(buf1).view.set]{fullShare} OHw c0 (W0 L) (2 * k.val + 1) (k2_lt k))) : sProp 𝕄)
      ⊢ Transfers.Flight countersEmb (thr d L) (SemLoc.dma cc0_scratch6.sem) default 1048576
        iprop(doneΦ m d L ⟨2 * k.val + 1, k2_lt k⟩ ∗ ((buf1).view.loc (thr d L) ↦[(buf1).view.set]{fullShare} OHb L c0 ⟨2 * k.val + 1, k2_lt k⟩)) :=
  Transfers.Flight_mono countersEmb (thr d L) (sep_mono_left (deliver1 (F := F) m d L k fo _ fun y => OHb_out m d L c0 hcd _ _ y))

omit [FloatOps F] in
theorem done_k0 (Φ : Fin 50 → sProp 𝕄) (n : Nat) (h : n = 0) :
    bigSep (Finset.univ.filter fun r : Fin 50 => r.val + 2 < 2 * (n + 1)) Φ = bigSep (Finset.univ.filter fun r : Fin 50 => r.val + 2 < 2 * n) Φ := by
  subst h; exact done_zero Φ

omit [FloatOps F] in
/-- A wait at the kernel's own index recorded beyond `W` keeps the record admissible. -/
theorem ins_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

set_option maxHeartbeats 4000000 in
/-- One trip of the main loop. -/
theorem region (c0 : (⟨S50x128, .i32⟩ : BufTy).Contents (Elt F)) (c1 : (⟨S128, .i32⟩ : BufTy).Contents (Elt F)) (c2 : (⟨S16, .i32⟩ : BufTy).Contents (Elt F))
    (hcd : ∀ j, c0 j = XT m d (col L j)) (hbl : ∀ j : S128.Idx, (c1 j).toNat = (j 0).val)
    (hwz : ∀ j : S16.Idx, (c2 j).toNat = if (j 0).val = 0 then 1 else (j 0).val) (hpre : PreOK m)
    (O : CellTallies nD τ sig (HIx 1)) (W : Waits sig (HIx 1)) (k : Fin k0_t2_loop.trips) (u : PUnit) :
    minv m d L c0 c1 c2 O W k.val u
      ⊢ wp frame (wpE (defs₀ (F := F)) 𝒱₀ (thr d L) none) Set.univ
          (k0_t2_body L xtW (Memref.isWhole_whole _) blW (Memref.isWhole_whole _) wzW (Memref.isWhole_whole _) outW (Memref.isWhole_whole _)
            codesW (Memref.isWhole_whole _) blV (Memref.isWhole_whole _) wzV (Memref.isWhole_whole _) buf0 (Memref.isWhole_whole _) buf1 (Memref.isWhole_whole _)
            cc0_scratch5 cc0_scratch6 cc0_scoped0 cc0_scoped1 cc0_scoped2 (Scalar.addi (Scalar.muli (BitVec.ofNat 32 (L 1).val) 2#32) (BitVec.ofNat 32 (L 0).val)) k u)
          (minv m d L c0 c1 c2 O W (k.val + 1)) := by
  have hk2 : 2 * k.val + 1 < 50 := k2_lt k
  have hc0 : ∀ j, (c0 j).toNat < 256 := fun j => by rw [hcd j]; exact hpre d _
  have hc1 : ∀ j : S128.Idx, (c1 j).toNat < 128 := fun j => by rw [hbl j]; exact (j 0).isLt
  have hc2 : ∀ j : S16.Idx, (c2 j).toNat < 128 := fun j => by
    rw [hwz j]; have : (j 0).val < 16 := (j 0).isLt; split <;> omega
  have hv18 : ∀ kk : Fin k0_t2_loop.trips, (Scalar.addi (Scalar.muli 2#32 (Scalar.addi 0#32 (Scalar.muli (Scf.iv 0#32 1#32 kk) 1#32))) 0#32).toNat < 50 := by decide +kernel
  have hv54 : ∀ kk : Fin k0_t2_loop.trips, (Scalar.addi (Scalar.muli 2#32 (Scalar.addi 0#32 (Scalar.muli (Scf.iv 0#32 1#32 kk) 1#32))) 1#32).toNat < 50 := by decide +kernel
  have e0 : rF (2 * (k.val + 1) - 2) = ⟨2 * k.val, by omega⟩ := Fin.ext (by show (2 * (k.val + 1) - 2) % 50 = 2 * k.val; omega)
  have e1 : rF (2 * (k.val + 1) - 1) = ⟨2 * k.val + 1, hk2⟩ := Fin.ext (by show (2 * (k.val + 1) - 1) % 50 = 2 * k.val + 1; omega)
  unfold minv k0_t2_body slot0 slot1
  rw [if_neg (Nat.succ_ne_zero k.val), if_neg (Nat.succ_ne_zero k.val), e0, e1, fresh_step (freshΦ (F := F) d L) k.val hk2]
  by_cases hk0 : k.val = 0
  · have hk : ¬ k0_cond1 k = 1#1 := fun h => (cond1_iff k).mp h hk0
    have hk4 : ¬ k0_cond4 k = 1#1 := fun h => (cond4_iff k).mp h hk0
    rw [if_pos hk0, if_pos hk0, done_k0 (doneΦ (F := F) m d L) k.val hk0]
    by_cases hw : W0 L
    ·
      have hw2 : k0_cond2 L = 1#1 := (cond2_iff L).mpr hw
      have hw3 : ¬ k0_cond3 L = 1#1 := fun h => (cond3_iff L).mp h hw
      have hw5 : k0_cond5 L = 1#1 := (cond5_iff L).mpr hw
      have hw6 : ¬ k0_cond6 L = 1#1 := fun h => (cond6_iff L).mp h hw
      iintro ⟨#Hmw, Hs0, Hs1, Hs2, ⟨Hs3, Hc5⟩, ⟨Hs4, Hc6⟩, ⟨⟨%fa, Ha⟩, ⟨%fb, Hb⟩, Hfresh⟩, Hdone, %W', %hW', HO⟩
      ihave Ha := (Entails.of_eq ((pts_slab0 (F := F) d L k fa).symm.trans (slabloc0 (F := F) d L k fa))) $$ Ha
      ihave Hb := (Entails.of_eq ((pts_slab1 (F := F) d L k fb).symm.trans (slabloc1 (F := F) d L k fb))) $$ Hb
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vgather (F := F) d L) $$ Hs0; iintro Hs0
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (stepW c0 c2 hwz (2 * k.val) (show 2 * k.val < 50 by omega) _ (v18_val k) 1#32 _ _ _)) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 1 (show 1 ≤ 1 ∧ 1 < 8 by decide) 1 (show 1 ≤ 16 by decide) 1#32 _ _ _ _ (k0_off28_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 2 (show 1 ≤ 2 ∧ 2 < 8 by decide) 1 (show 1 ≤ 16 by decide) 1#32 _ _ _ _ (k0_off29_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 3 (show 1 ≤ 3 ∧ 3 < 8 by decide) 1 (show 1 ≤ 16 by decide) 1#32 _ _ _ _ (k0_off30_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 4 (show 1 ≤ 4 ∧ 4 < 8 by decide) 1 (show 1 ≤ 16 by decide) 1#32 _ _ _ _ (k0_off31_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 5 (show 1 ≤ 5 ∧ 5 < 8 by decide) 1 (show 1 ≤ 16 by decide) 1#32 _ _ _ _ (k0_off32_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 6 (show 1 ≤ 6 ∧ 6 < 8 by decide) 1 (show 1 ≤ 16 by decide) 1#32 _ _ _ _ (k0_off33_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 7 (show 1 ≤ 7 ∧ 7 < 8 by decide) 1 (show 1 ≤ 16 by decide) 1#32 _ _ _ _ (k0_off34_eq k))) $$ Hs3; iintro Hs3
      ihave Hs3 := (Entails.of_eq (congrArg (fun g => ((buf0).view.loc (thr d L) ↦{fullShare} g : sProp 𝕄)) (onesW (F := F) L c0 hw (2 * k.val) (show 2 * k.val < 50 by omega)))) $$ Hs3
      ihave Hs3 := (Entails.of_eq (pts_b0set (F := F) d L _).symm) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vgather (F := F) d L) $$ Hs0; iintro Hs0
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (stepW c0 c2 hwz (2 * k.val + 1) (show 2 * k.val + 1 < 50 by omega) _ (v54_val k) 1#32 _ _ _)) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 1 (show 1 ≤ 1 ∧ 1 < 8 by decide) 1 (show 1 ≤ 16 by decide) 1#32 _ _ _ _ (k0_off46_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 2 (show 1 ≤ 2 ∧ 2 < 8 by decide) 1 (show 1 ≤ 16 by decide) 1#32 _ _ _ _ (k0_off47_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 3 (show 1 ≤ 3 ∧ 3 < 8 by decide) 1 (show 1 ≤ 16 by decide) 1#32 _ _ _ _ (k0_off48_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 4 (show 1 ≤ 4 ∧ 4 < 8 by decide) 1 (show 1 ≤ 16 by decide) 1#32 _ _ _ _ (k0_off49_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 5 (show 1 ≤ 5 ∧ 5 < 8 by decide) 1 (show 1 ≤ 16 by decide) 1#32 _ _ _ _ (k0_off50_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 6 (show 1 ≤ 6 ∧ 6 < 8 by decide) 1 (show 1 ≤ 16 by decide) 1#32 _ _ _ _ (k0_off51_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 7 (show 1 ≤ 7 ∧ 7 < 8 by decide) 1 (show 1 ≤ 16 by decide) 1#32 _ _ _ _ (k0_off52_eq k))) $$ Hs4; iintro Hs4
      ihave Hs4 := (Entails.of_eq (congrArg (fun g => ((buf1).view.loc (thr d L) ↦{fullShare} g : sProp 𝕄)) (onesW (F := F) L c0 hw (2 * k.val + 1) (show 2 * k.val + 1 < 50 by omega)))) $$ Hs4
      ihave Hs4 := (Entails.of_eq (pts_b1set (F := F) d L _).symm) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      sl_step
      isplitr; · iexact Hmw
      isplitl [Hs0]; · iexact Hs0
      isplitl [Hs1]; · iexact Hs1
      isplitl [Hs2]; · iexact Hs2
      isplitl [Hc5]
      · iapply (fl0 (F := F) m d L c0 hcd k fa); iexact Hc5
      isplitl [Hc6]
      · iapply (fl1 (F := F) m d L c0 hcd k fb); iexact Hc6
      isplitl [Hfresh]; · iexact Hfresh
      isplitl [Hdone]; · iexact Hdone
      iexists W'; isplitr
      · ipureintro; exact hW'
      · iexact HO

    ·
      have hw2 : ¬ k0_cond2 L = 1#1 := fun h => hw ((cond2_iff L).mp h)
      have hw3 : k0_cond3 L = 1#1 := (cond3_iff L).mpr hw
      have hw5 : ¬ k0_cond5 L = 1#1 := fun h => hw ((cond5_iff L).mp h)
      have hw6 : k0_cond6 L = 1#1 := (cond6_iff L).mpr hw
      iintro ⟨#Hmw, Hs0, Hs1, Hs2, ⟨Hs3, Hc5⟩, ⟨Hs4, Hc6⟩, ⟨⟨%fa, Ha⟩, ⟨%fb, Hb⟩, Hfresh⟩, Hdone, %W', %hW', HO⟩
      ihave Ha := (Entails.of_eq ((pts_slab0 (F := F) d L k fa).symm.trans (slabloc0 (F := F) d L k fa))) $$ Ha
      ihave Hb := (Entails.of_eq ((pts_slab1 (F := F) d L k fb).symm.trans (slabloc1 (F := F) d L k fb))) $$ Hb
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step0 c0 c1 hbl (2 * k.val) (show 2 * k.val < 50 by omega) 1#32 _ _ _ _ (k0_off27_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 1 (show 1 ≤ 1 ∧ 1 < 8 by decide) 0 (show 0 ≤ 16 by decide) 1#32 _ _ _ _ (k0_off28_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 2 (show 1 ≤ 2 ∧ 2 < 8 by decide) 0 (show 0 ≤ 16 by decide) 1#32 _ _ _ _ (k0_off29_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 3 (show 1 ≤ 3 ∧ 3 < 8 by decide) 0 (show 0 ≤ 16 by decide) 1#32 _ _ _ _ (k0_off30_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 4 (show 1 ≤ 4 ∧ 4 < 8 by decide) 0 (show 0 ≤ 16 by decide) 1#32 _ _ _ _ (k0_off31_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 5 (show 1 ≤ 5 ∧ 5 < 8 by decide) 0 (show 0 ≤ 16 by decide) 1#32 _ _ _ _ (k0_off32_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 6 (show 1 ≤ 6 ∧ 6 < 8 by decide) 0 (show 0 ≤ 16 by decide) 1#32 _ _ _ _ (k0_off33_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 7 (show 1 ≤ 7 ∧ 7 < 8 by decide) 0 (show 0 ≤ 16 by decide) 1#32 _ _ _ _ (k0_off34_eq k))) $$ Hs3; iintro Hs3
      ihave Hs3 := (Entails.of_eq (congrArg (fun g => ((buf0).view.loc (thr d L) ↦{fullShare} g : sProp 𝕄)) (onesN (F := F) L c0 hw (2 * k.val) (show 2 * k.val < 50 by omega)))) $$ Hs3
      ihave Hs3 := (Entails.of_eq (pts_b0set (F := F) d L _).symm) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step0 c0 c1 hbl (2 * k.val + 1) (show 2 * k.val + 1 < 50 by omega) 1#32 _ _ _ _ (k0_off45_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 1 (show 1 ≤ 1 ∧ 1 < 8 by decide) 0 (show 0 ≤ 16 by decide) 1#32 _ _ _ _ (k0_off46_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 2 (show 1 ≤ 2 ∧ 2 < 8 by decide) 0 (show 0 ≤ 16 by decide) 1#32 _ _ _ _ (k0_off47_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 3 (show 1 ≤ 3 ∧ 3 < 8 by decide) 0 (show 0 ≤ 16 by decide) 1#32 _ _ _ _ (k0_off48_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 4 (show 1 ≤ 4 ∧ 4 < 8 by decide) 0 (show 0 ≤ 16 by decide) 1#32 _ _ _ _ (k0_off49_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 5 (show 1 ≤ 5 ∧ 5 < 8 by decide) 0 (show 0 ≤ 16 by decide) 1#32 _ _ _ _ (k0_off50_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 6 (show 1 ≤ 6 ∧ 6 < 8 by decide) 0 (show 0 ≤ 16 by decide) 1#32 _ _ _ _ (k0_off51_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 7 (show 1 ≤ 7 ∧ 7 < 8 by decide) 0 (show 0 ≤ 16 by decide) 1#32 _ _ _ _ (k0_off52_eq k))) $$ Hs4; iintro Hs4
      ihave Hs4 := (Entails.of_eq (congrArg (fun g => ((buf1).view.loc (thr d L) ↦{fullShare} g : sProp 𝕄)) (onesN (F := F) L c0 hw (2 * k.val + 1) (show 2 * k.val + 1 < 50 by omega)))) $$ Hs4
      ihave Hs4 := (Entails.of_eq (pts_b1set (F := F) d L _).symm) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      sl_step
      isplitr; · iexact Hmw
      isplitl [Hs0]; · iexact Hs0
      isplitl [Hs1]; · iexact Hs1
      isplitl [Hs2]; · iexact Hs2
      isplitl [Hc5]
      · iapply (fl0 (F := F) m d L c0 hcd k fa); iexact Hc5
      isplitl [Hc6]
      · iapply (fl1 (F := F) m d L c0 hcd k fb); iexact Hc6
      isplitl [Hfresh]; · iexact Hfresh
      isplitl [Hdone]; · iexact Hdone
      iexists W'; isplitr
      · ipureintro; exact hW'
      · iexact HO

  · have hk : k0_cond1 k = 1#1 := (cond1_iff k).mpr hk0
    have hk4 : k0_cond4 k = 1#1 := (cond4_iff k).mpr hk0
    have f0 : rF (2 * k.val - 2) = ⟨2 * k.val - 2, by omega⟩ := Fin.ext (Nat.mod_eq_of_lt (by omega))
    have f1 : rF (2 * k.val - 1) = ⟨2 * k.val - 1, by omega⟩ := Fin.ext (Nat.mod_eq_of_lt (by omega))
    rw [if_neg hk0, if_neg hk0, f0, f1, done_step (doneΦ (F := F) m d L) k.val (Nat.pos_of_ne_zero hk0) (by omega)]
    by_cases hw : W0 L
    ·
      have hw2 : k0_cond2 L = 1#1 := (cond2_iff L).mpr hw
      have hw3 : ¬ k0_cond3 L = 1#1 := fun h => (cond3_iff L).mp h hw
      have hw5 : k0_cond5 L = 1#1 := (cond5_iff L).mpr hw
      have hw6 : ¬ k0_cond6 L = 1#1 := fun h => (cond6_iff L).mp h hw
      iintro ⟨#Hmw, Hs0, Hs1, Hs2, Hc5, Hc6, ⟨⟨%fa, Ha⟩, ⟨%fb, Hb⟩, Hfresh⟩, Hdone, %W', %hW', HO⟩
      ihave Ha := (Entails.of_eq ((pts_slab0 (F := F) d L k fa).symm.trans (slabloc0 (F := F) d L k fa))) $$ Ha
      ihave Hb := (Entails.of_eq ((pts_slab1 (F := F) d L k fb).symm.trans (slabloc1 (F := F) d L k fb))) $$ Hb
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      ihave Hs3 := (Entails.of_eq (pts_b0set (F := F) d L _)) $$ Hc5_src
      iapply (wp_vstore0' (F := F) d L 0#32 rfl _ (step0 c0 c1 hbl (2 * k.val - 2) (show 2 * k.val - 2 < 50 by omega) 0#32 _ _ _ _ (off19_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 1 (show 1 ≤ 1 ∧ 1 < 8 by decide) 0 (show 0 ≤ 16 by decide) 0#32 _ _ _ _ (off20_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 2 (show 1 ≤ 2 ∧ 2 < 8 by decide) 0 (show 0 ≤ 16 by decide) 0#32 _ _ _ _ (off21_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 3 (show 1 ≤ 3 ∧ 3 < 8 by decide) 0 (show 0 ≤ 16 by decide) 0#32 _ _ _ _ (off22_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 4 (show 1 ≤ 4 ∧ 4 < 8 by decide) 0 (show 0 ≤ 16 by decide) 0#32 _ _ _ _ (off23_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 5 (show 1 ≤ 5 ∧ 5 < 8 by decide) 0 (show 0 ≤ 16 by decide) 0#32 _ _ _ _ (off24_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 6 (show 1 ≤ 6 ∧ 6 < 8 by decide) 0 (show 0 ≤ 16 by decide) 0#32 _ _ _ _ (off25_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 7 (show 1 ≤ 7 ∧ 7 < 8 by decide) 0 (show 0 ≤ 16 by decide) 0#32 _ _ _ _ (off26_eq k hk))) $$ Hs3; iintro Hs3
      ihave Hs3 := (Entails.of_eq (congrArg (fun g => ((buf0).view.loc (thr d L) ↦{fullShare} g : sProp 𝕄)) (zeros_back (F := F) c0 (W0 L) (2 * k.val - 2) (show 2 * k.val - 2 < 50 by omega)))) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vgather (F := F) d L) $$ Hs0; iintro Hs0
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (stepW c0 c2 hwz (2 * k.val) (show 2 * k.val < 50 by omega) _ (v18_val k) 1#32 _ _ _)) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 1 (show 1 ≤ 1 ∧ 1 < 8 by decide) 1 (show 1 ≤ 16 by decide) 1#32 _ _ _ _ (k0_off28_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 2 (show 1 ≤ 2 ∧ 2 < 8 by decide) 1 (show 1 ≤ 16 by decide) 1#32 _ _ _ _ (k0_off29_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 3 (show 1 ≤ 3 ∧ 3 < 8 by decide) 1 (show 1 ≤ 16 by decide) 1#32 _ _ _ _ (k0_off30_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 4 (show 1 ≤ 4 ∧ 4 < 8 by decide) 1 (show 1 ≤ 16 by decide) 1#32 _ _ _ _ (k0_off31_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 5 (show 1 ≤ 5 ∧ 5 < 8 by decide) 1 (show 1 ≤ 16 by decide) 1#32 _ _ _ _ (k0_off32_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 6 (show 1 ≤ 6 ∧ 6 < 8 by decide) 1 (show 1 ≤ 16 by decide) 1#32 _ _ _ _ (k0_off33_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 7 (show 1 ≤ 7 ∧ 7 < 8 by decide) 1 (show 1 ≤ 16 by decide) 1#32 _ _ _ _ (k0_off34_eq k))) $$ Hs3; iintro Hs3
      ihave Hs3 := (Entails.of_eq (congrArg (fun g => ((buf0).view.loc (thr d L) ↦{fullShare} g : sProp 𝕄)) (onesW (F := F) L c0 hw (2 * k.val) (show 2 * k.val < 50 by omega)))) $$ Hs3
      ihave Hs3 := (Entails.of_eq (pts_b0set (F := F) d L _).symm) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      ihave Hs4 := (Entails.of_eq (pts_b1set (F := F) d L _)) $$ Hc6_src
      iapply (wp_vstore1' (F := F) d L 0#32 rfl _ (step0 c0 c1 hbl (2 * k.val - 1) (show 2 * k.val - 1 < 50 by omega) 0#32 _ _ _ _ (off37_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 1 (show 1 ≤ 1 ∧ 1 < 8 by decide) 0 (show 0 ≤ 16 by decide) 0#32 _ _ _ _ (off38_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 2 (show 1 ≤ 2 ∧ 2 < 8 by decide) 0 (show 0 ≤ 16 by decide) 0#32 _ _ _ _ (off39_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 3 (show 1 ≤ 3 ∧ 3 < 8 by decide) 0 (show 0 ≤ 16 by decide) 0#32 _ _ _ _ (off40_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 4 (show 1 ≤ 4 ∧ 4 < 8 by decide) 0 (show 0 ≤ 16 by decide) 0#32 _ _ _ _ (off41_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 5 (show 1 ≤ 5 ∧ 5 < 8 by decide) 0 (show 0 ≤ 16 by decide) 0#32 _ _ _ _ (off42_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 6 (show 1 ≤ 6 ∧ 6 < 8 by decide) 0 (show 0 ≤ 16 by decide) 0#32 _ _ _ _ (off43_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 7 (show 1 ≤ 7 ∧ 7 < 8 by decide) 0 (show 0 ≤ 16 by decide) 0#32 _ _ _ _ (off44_eq k hk4))) $$ Hs4; iintro Hs4
      ihave Hs4 := (Entails.of_eq (congrArg (fun g => ((buf1).view.loc (thr d L) ↦{fullShare} g : sProp 𝕄)) (zeros_back (F := F) c0 (W0 L) (2 * k.val - 1) (show 2 * k.val - 1 < 50 by omega)))) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vgather (F := F) d L) $$ Hs0; iintro Hs0
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (stepW c0 c2 hwz (2 * k.val + 1) (show 2 * k.val + 1 < 50 by omega) _ (v54_val k) 1#32 _ _ _)) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 1 (show 1 ≤ 1 ∧ 1 < 8 by decide) 1 (show 1 ≤ 16 by decide) 1#32 _ _ _ _ (k0_off46_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 2 (show 1 ≤ 2 ∧ 2 < 8 by decide) 1 (show 1 ≤ 16 by decide) 1#32 _ _ _ _ (k0_off47_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 3 (show 1 ≤ 3 ∧ 3 < 8 by decide) 1 (show 1 ≤ 16 by decide) 1#32 _ _ _ _ (k0_off48_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 4 (show 1 ≤ 4 ∧ 4 < 8 by decide) 1 (show 1 ≤ 16 by decide) 1#32 _ _ _ _ (k0_off49_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 5 (show 1 ≤ 5 ∧ 5 < 8 by decide) 1 (show 1 ≤ 16 by decide) 1#32 _ _ _ _ (k0_off50_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 6 (show 1 ≤ 6 ∧ 6 < 8 by decide) 1 (show 1 ≤ 16 by decide) 1#32 _ _ _ _ (k0_off51_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 7 (show 1 ≤ 7 ∧ 7 < 8 by decide) 1 (show 1 ≤ 16 by decide) 1#32 _ _ _ _ (k0_off52_eq k))) $$ Hs4; iintro Hs4
      ihave Hs4 := (Entails.of_eq (congrArg (fun g => ((buf1).view.loc (thr d L) ↦{fullShare} g : sProp 𝕄)) (onesW (F := F) L c0 hw (2 * k.val + 1) (show 2 * k.val + 1 < 50 by omega)))) $$ Hs4
      ihave Hs4 := (Entails.of_eq (pts_b1set (F := F) d L _).symm) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      sl_step
      isplitr; · iexact Hmw
      isplitl [Hs0]; · iexact Hs0
      isplitl [Hs1]; · iexact Hs1
      isplitl [Hs2]; · iexact Hs2
      isplitl [Hc5]
      · iapply (fl0 (F := F) m d L c0 hcd k fa); iexact Hc5
      isplitl [Hc6]
      · iapply (fl1 (F := F) m d L c0 hcd k fb); iexact Hc6
      isplitl [Hfresh]; · iexact Hfresh
      isplitl [Hc5_dst Hc6_dst Hdone]
      · isplitl [Hc5_dst]; · iexact Hc5_dst
        isplitl [Hc6_dst]; · iexact Hc6_dst
        iexact Hdone
      iexists _; isplitr
      swap
      · iexact HO
      · ipureintro; exact ins_ok _ (ins_ok _ hW')

    ·
      have hw2 : ¬ k0_cond2 L = 1#1 := fun h => hw ((cond2_iff L).mp h)
      have hw3 : k0_cond3 L = 1#1 := (cond3_iff L).mpr hw
      have hw5 : ¬ k0_cond5 L = 1#1 := fun h => hw ((cond5_iff L).mp h)
      have hw6 : k0_cond6 L = 1#1 := (cond6_iff L).mpr hw
      iintro ⟨#Hmw, Hs0, Hs1, Hs2, Hc5, Hc6, ⟨⟨%fa, Ha⟩, ⟨%fb, Hb⟩, Hfresh⟩, Hdone, %W', %hW', HO⟩
      ihave Ha := (Entails.of_eq ((pts_slab0 (F := F) d L k fa).symm.trans (slabloc0 (F := F) d L k fa))) $$ Ha
      ihave Hb := (Entails.of_eq ((pts_slab1 (F := F) d L k fb).symm.trans (slabloc1 (F := F) d L k fb))) $$ Hb
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      ihave Hs3 := (Entails.of_eq (pts_b0set (F := F) d L _)) $$ Hc5_src
      iapply (wp_vstore0' (F := F) d L 0#32 rfl _ (step0 c0 c1 hbl (2 * k.val - 2) (show 2 * k.val - 2 < 50 by omega) 0#32 _ _ _ _ (off19_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 1 (show 1 ≤ 1 ∧ 1 < 8 by decide) 0 (show 0 ≤ 16 by decide) 0#32 _ _ _ _ (off20_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 2 (show 1 ≤ 2 ∧ 2 < 8 by decide) 0 (show 0 ≤ 16 by decide) 0#32 _ _ _ _ (off21_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 3 (show 1 ≤ 3 ∧ 3 < 8 by decide) 0 (show 0 ≤ 16 by decide) 0#32 _ _ _ _ (off22_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 4 (show 1 ≤ 4 ∧ 4 < 8 by decide) 0 (show 0 ≤ 16 by decide) 0#32 _ _ _ _ (off23_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 5 (show 1 ≤ 5 ∧ 5 < 8 by decide) 0 (show 0 ≤ 16 by decide) 0#32 _ _ _ _ (off24_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 6 (show 1 ≤ 6 ∧ 6 < 8 by decide) 0 (show 0 ≤ 16 by decide) 0#32 _ _ _ _ (off25_eq k hk))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 0#32 rfl _ (step c0 c1 hbl (2 * k.val - 2) (show 2 * k.val - 2 < 50 by omega) 7 (show 1 ≤ 7 ∧ 7 < 8 by decide) 0 (show 0 ≤ 16 by decide) 0#32 _ _ _ _ (off26_eq k hk))) $$ Hs3; iintro Hs3
      ihave Hs3 := (Entails.of_eq (congrArg (fun g => ((buf0).view.loc (thr d L) ↦{fullShare} g : sProp 𝕄)) (zeros_back (F := F) c0 (W0 L) (2 * k.val - 2) (show 2 * k.val - 2 < 50 by omega)))) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step0 c0 c1 hbl (2 * k.val) (show 2 * k.val < 50 by omega) 1#32 _ _ _ _ (k0_off27_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 1 (show 1 ≤ 1 ∧ 1 < 8 by decide) 0 (show 0 ≤ 16 by decide) 1#32 _ _ _ _ (k0_off28_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 2 (show 1 ≤ 2 ∧ 2 < 8 by decide) 0 (show 0 ≤ 16 by decide) 1#32 _ _ _ _ (k0_off29_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 3 (show 1 ≤ 3 ∧ 3 < 8 by decide) 0 (show 0 ≤ 16 by decide) 1#32 _ _ _ _ (k0_off30_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 4 (show 1 ≤ 4 ∧ 4 < 8 by decide) 0 (show 0 ≤ 16 by decide) 1#32 _ _ _ _ (k0_off31_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 5 (show 1 ≤ 5 ∧ 5 < 8 by decide) 0 (show 0 ≤ 16 by decide) 1#32 _ _ _ _ (k0_off32_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 6 (show 1 ≤ 6 ∧ 6 < 8 by decide) 0 (show 0 ≤ 16 by decide) 1#32 _ _ _ _ (k0_off33_eq k))) $$ Hs3; iintro Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore0' (F := F) d L 1#32 rfl _ (step c0 c1 hbl (2 * k.val) (show 2 * k.val < 50 by omega) 7 (show 1 ≤ 7 ∧ 7 < 8 by decide) 0 (show 0 ≤ 16 by decide) 1#32 _ _ _ _ (k0_off34_eq k))) $$ Hs3; iintro Hs3
      ihave Hs3 := (Entails.of_eq (congrArg (fun g => ((buf0).view.loc (thr d L) ↦{fullShare} g : sProp 𝕄)) (onesN (F := F) L c0 hw (2 * k.val) (show 2 * k.val < 50 by omega)))) $$ Hs3
      ihave Hs3 := (Entails.of_eq (pts_b0set (F := F) d L _).symm) $$ Hs3
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      ihave Hs4 := (Entails.of_eq (pts_b1set (F := F) d L _)) $$ Hc6_src
      iapply (wp_vstore1' (F := F) d L 0#32 rfl _ (step0 c0 c1 hbl (2 * k.val - 1) (show 2 * k.val - 1 < 50 by omega) 0#32 _ _ _ _ (off37_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 1 (show 1 ≤ 1 ∧ 1 < 8 by decide) 0 (show 0 ≤ 16 by decide) 0#32 _ _ _ _ (off38_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 2 (show 1 ≤ 2 ∧ 2 < 8 by decide) 0 (show 0 ≤ 16 by decide) 0#32 _ _ _ _ (off39_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 3 (show 1 ≤ 3 ∧ 3 < 8 by decide) 0 (show 0 ≤ 16 by decide) 0#32 _ _ _ _ (off40_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 4 (show 1 ≤ 4 ∧ 4 < 8 by decide) 0 (show 0 ≤ 16 by decide) 0#32 _ _ _ _ (off41_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 5 (show 1 ≤ 5 ∧ 5 < 8 by decide) 0 (show 0 ≤ 16 by decide) 0#32 _ _ _ _ (off42_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 6 (show 1 ≤ 6 ∧ 6 < 8 by decide) 0 (show 0 ≤ 16 by decide) 0#32 _ _ _ _ (off43_eq k hk4))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 0#32 rfl _ (step c0 c1 hbl (2 * k.val - 1) (show 2 * k.val - 1 < 50 by omega) 7 (show 1 ≤ 7 ∧ 7 < 8 by decide) 0 (show 0 ≤ 16 by decide) 0#32 _ _ _ _ (off44_eq k hk4))) $$ Hs4; iintro Hs4
      ihave Hs4 := (Entails.of_eq (congrArg (fun g => ((buf1).view.loc (thr d L) ↦{fullShare} g : sProp 𝕄)) (zeros_back (F := F) c0 (W0 L) (2 * k.val - 1) (show 2 * k.val - 1 < 50 by omega)))) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step0 c0 c1 hbl (2 * k.val + 1) (show 2 * k.val + 1 < 50 by omega) 1#32 _ _ _ _ (k0_off45_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 1 (show 1 ≤ 1 ∧ 1 < 8 by decide) 0 (show 0 ≤ 16 by decide) 1#32 _ _ _ _ (k0_off46_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 2 (show 1 ≤ 2 ∧ 2 < 8 by decide) 0 (show 0 ≤ 16 by decide) 1#32 _ _ _ _ (k0_off47_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 3 (show 1 ≤ 3 ∧ 3 < 8 by decide) 0 (show 0 ≤ 16 by decide) 1#32 _ _ _ _ (k0_off48_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 4 (show 1 ≤ 4 ∧ 4 < 8 by decide) 0 (show 0 ≤ 16 by decide) 1#32 _ _ _ _ (k0_off49_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 5 (show 1 ≤ 5 ∧ 5 < 8 by decide) 0 (show 0 ≤ 16 by decide) 1#32 _ _ _ _ (k0_off50_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 6 (show 1 ≤ 6 ∧ 6 < 8 by decide) 0 (show 0 ≤ 16 by decide) 1#32 _ _ _ _ (k0_off51_eq k))) $$ Hs4; iintro Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      iapply (wp_vstore1' (F := F) d L 1#32 rfl _ (step c0 c1 hbl (2 * k.val + 1) (show 2 * k.val + 1 < 50 by omega) 7 (show 1 ≤ 7 ∧ 7 < 8 by decide) 0 (show 0 ≤ 16 by decide) 1#32 _ _ _ _ (k0_off52_eq k))) $$ Hs4; iintro Hs4
      ihave Hs4 := (Entails.of_eq (congrArg (fun g => ((buf1).view.loc (thr d L) ↦{fullShare} g : sProp 𝕄)) (onesN (F := F) L c0 hw (2 * k.val + 1) (show 2 * k.val + 1 < 50 by omega)))) $$ Hs4
      ihave Hs4 := (Entails.of_eq (pts_b1set (F := F) d L _).symm) $$ Hs4
      sl_exec (disch := first
        | exact fun _ => two_lt (fun _ => hv18 k) (fun x => hc2 _)
        | exact fun _ => two_lt (fun _ => hv54 k) (fun x => hc2 _)
        | exact fun _ => two_lt (fun x => hc2 _) (fun x => hc0 _)
        | exact two_lt (fun x => hc1 _) (fun x => hc0 _)
        | exact fun _ => two_lt (fun x => hc1 _) (fun x => hc0 _))
      sl_step
      isplitr; · iexact Hmw
      isplitl [Hs0]; · iexact Hs0
      isplitl [Hs1]; · iexact Hs1
      isplitl [Hs2]; · iexact Hs2
      isplitl [Hc5]
      · iapply (fl0 (F := F) m d L c0 hcd k fa); iexact Hc5
      isplitl [Hc6]
      · iapply (fl1 (F := F) m d L c0 hcd k fb); iexact Hc6
      isplitl [Hfresh]; · iexact Hfresh
      isplitl [Hc5_dst Hc6_dst Hdone]
      · isplitl [Hc5_dst]; · iexact Hc5_dst
        isplitl [Hc6_dst]; · iexact Hc6_dst
        iexact Hdone
      iexists _; isplitr
      swap
      · iexact HO
      · ipureintro; exact ins_ok _ (ins_ok _ hW')

end Tile

end Cert.Proof.KB

end
-- ==== Proof.TileB.lean ====
/-
  One worker, start to end: three opening copies (the two row tables and its 128 columns of the transposed codes),
  the zero fill of both staging buffers (row `t` at trip `t`), twenty-five trips of the main loop (`Body.lean`), and
  the two closing waits, after which all fifty slabs hold the table and every scratch buffer and semaphore is back.
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.Kernel
import proofs.«204306_g82583631167916_cont_9to1c4b_486_26_alg».proof.Proof.Gen.Kernel.Skeleton
import proofs.«204306_g82583631167916_cont_9to1c4b_486_26_alg».proof.Proof.Spec
import proofs.«204306_g82583631167916_cont_9to1c4b_486_26_alg».proof.Proof.SetupB
import proofs.«204306_g82583631167916_cont_9to1c4b_486_26_alg».proof.Proof.BodyB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xtW" => (Memref.whole Cert.Kernel.main_v0_scv : Memref Cert.Kernel.sig Kind.scVector Space.hbm Cert.Kernel.S50x4096 EltTy.i32)
local notation "blW" => (Memref.whole Cert.Kernel.main_c_scv : Memref Cert.Kernel.sig Kind.scVector Space.hbm Cert.Kernel.S128 EltTy.i32)
local notation "wzW" => (Memref.whole Cert.Kernel.main_c_0_scv : Memref Cert.Kernel.sig Kind.scVector Space.hbm Cert.Kernel.S16 EltTy.i32)
local notation "outW" => (Memref.whole Cert.Kernel.main_v1_scv : Memref Cert.Kernel.sig Kind.scVector Space.hbm Cert.Kernel.S50x4096x256 EltTy.i32)
local notation "codesW" => (Memref.whole Cert.Kernel.cc0_scratch0 : Memref Cert.Kernel.sig Kind.scVector Space.vmem Cert.Kernel.S50x128 EltTy.i32)
local notation "blV" => (Memref.whole Cert.Kernel.cc0_scratch1 : Memref Cert.Kernel.sig Kind.scVector Space.vmem Cert.Kernel.S128 EltTy.i32)
local notation "wzV" => (Memref.whole Cert.Kernel.cc0_scratch2 : Memref Cert.Kernel.sig Kind.scVector Space.vmem Cert.Kernel.S16 EltTy.i32)
local notation "buf0" => (Memref.whole Cert.Kernel.cc0_scratch3 : Memref Cert.Kernel.sig Kind.scVector Space.vmem Cert.Kernel.S128x256 EltTy.i32)
local notation "buf1" => (Memref.whole Cert.Kernel.cc0_scratch4 : Memref Cert.Kernel.sig Kind.scVector Space.vmem Cert.Kernel.S128x256 EltTy.i32)

variable [FloatOps F]

section Tile

variable (d : Dev nD) (L : grid0.Coords)

open Cert.IdxB Cert.ScatterB Cert.FinRange Cert.ZeroFillB

/-- What the three opening copies leave in the scratches. -/
abbrev C0 (f0 : Buf (Elt F) ((codesW).view.loc (thr d L))) : Buf (Elt F) ((codesW).view.loc (thr d L)) :=
  View.write (Elt F) (codesW).view f0 (ReadAs.same.apply (View.read (Elt F) ((xtW).slice (Rect.unit (s := S50x4096) (k0_off1 L) S50x128.size (k0_off1_inb L)) (fun _ => rfl)).view (XT m d))) Finset.univ
abbrev C1 (f1 : Buf (Elt F) ((blV).view.loc (thr d L))) : Buf (Elt F) ((blV).view.loc (thr d L)) :=
  View.write (Elt F) (blV).view f1 (ReadAs.same.apply (View.read (Elt F) (blW).view (BL (F := F) d))) Finset.univ
abbrev C2 (f2 : Buf (Elt F) ((wzV).view.loc (thr d L))) : Buf (Elt F) ((wzV).view.loc (thr d L)) :=
  View.write (Elt F) (wzV).view f2 (ReadAs.same.apply (View.read (Elt F) (wzW).view (WZ (F := F) d))) Finset.univ

/-- Before trip `t` of the zero fill: both staging buffers' rows below `t` are zero. -/
def zinv (t : Nat) (_ : PUnit) : sProp 𝕄 :=
  iprop(∃ (g3 : Buf (Elt F) ((thr d L).loc cc0_scratch3)) (g4 : Buf (Elt F) ((thr d L).loc cc0_scratch4)),
    ⌜∀ j : S128x256.Idx, (j 0).val < t → g3 j = 0#32 ∧ g4 j = 0#32⌝
    ∗ ((buf0).view.loc (thr d L) ↦{fullShare} g3) ∗ ((buf1).view.loc (thr d L) ↦{fullShare} g4))

omit [FloatOps F] in
theorem slabsOut_eq : (slabsOut m d (cL L) (jL L) : sProp 𝕄) = bigSep Finset.univ (doneΦ m d L) := rfl
omit [FloatOps F] in
theorem slabsAny_eq : (slabsAny d (cL L) (jL L) : sProp 𝕄) = bigSep Finset.univ (freshΦ (F := F) d L) := rfl

set_option maxHeartbeats 4000000 in
/-- The worker on vector subcore `(L 0, L 1)` of device `d`: from read shares of the three tables and its fifty slabs,
    it leaves every slab at the one-hot table. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tabs m (qt (cL L) (jL L)) d ∗ slabsAny d (cL L) (jL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xtW (Memref.isWhole_whole _) blW (Memref.isWhole_whole _) wzW (Memref.isWhole_whole _) outW (Memref.isWhole_whole _)
            codesW (Memref.isWhole_whole _) blV (Memref.isWhole_whole _) wzV (Memref.isWhole_whole _) buf0 (Memref.isWhole_whole _) buf1 (Memref.isWhole_whole _)
            cc0_scratch5 cc0_scratch6 cc0_scoped0 cc0_scoped1 cc0_scoped2)
          fun _ => iprop((tabs m (qt (cL L) (jL L)) d ∗ slabsOut m d (cL L) (jL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V,
    slabsOut_eq, slabsAny_eq]
  iintro ⟨#Hlv, -, ⟨⟨Hbl, Hwz, Hxt⟩, Hslabs⟩, ⟨⟨%f0, Hs0⟩, ⟨%f1, Hs1⟩, ⟨%f2, Hs2⟩, ⟨%f3, Hs3⟩, ⟨%f4, Hs4⟩, Hbufs⟩, ⟨Hc5, Hc6, Hr0, Hr1, Hr2, Hsems⟩, HO⟩
  ihave Hmw := ((K (F := F)).mayWaits_none (thr := thr d L) hO) $$ Hlv
  ihave Hbl := (Entails.of_eq (pts_bl (F := F) d L _ _).symm) $$ Hbl
  ihave Hwz := (Entails.of_eq (pts_wz (F := F) d L _ _).symm) $$ Hwz
  ihave Hxt := (Entails.of_eq (pts_xt (F := F) d L _ _).symm) $$ Hxt
  ihave Hs0 := (Entails.of_eq (pts_codes (F := F) d L _).symm) $$ Hs0
  ihave Hs1 := (Entails.of_eq (pts_blV (F := F) d L _).symm) $$ Hs1
  ihave Hs2 := (Entails.of_eq (pts_wzV (F := F) d L _).symm) $$ Hs2
  ihave Hs3 := (Entails.of_eq (pts_buf0 (F := F) d L _).symm) $$ Hs3
  ihave Hs4 := (Entails.of_eq (pts_buf1 (F := F) d L _).symm) $$ Hs4
  -- the three opening copies
  sl_exec
  -- the zero fill
  sl_for (zinv (F := F) d L) $$ [Hs3 Hs4]
  case region =>
    intro t _
    unfold zinv
    iintro ⟨%g3, %g4, %hz, Hs3, Hs4⟩
    sl_exec
    sl_step
    iexists _, _
    isplitr
    · ipureintro
      intro j hj
      exact ⟨zero_fill3 (F := F) t g3 (fun j h => (hz j h).1) j hj, zero_fill4 (F := F) t g4 (fun j h => (hz j h).2) j hj⟩
    isplitl [Hs3]; · iexact Hs3
    iexact Hs4
  · unfold zinv
    iexists f3, f4
    isplitr
    · ipureintro; intro j hj; exact absurd hj (Nat.not_lt_zero _)
    isplitl [Hs3]; · iexact Hs3
    iexact Hs4
  iintro %_ HI
  unfold zinv
  icases HI with ⟨%g3, %g4, %hz, Hs3, Hs4⟩
  have h128 : Scf.trips k0_t1_loop.lb k0_t1_loop.ub k0_t1_loop.st = 128 := by decide
  have hg3 : g3 = ZB := funext fun j => (hz j (h128 ▸ (j 0).isLt)).1
  have hg4 : g4 = ZB := funext fun j => (hz j (h128 ▸ (j 0).isLt)).2
  subst hg3 hg4
  -- the main loop
  sl_for (minv (F := F) m d L (C0 (F := F) m d L f0) (C1 (F := F) d L f1) (C2 (F := F) d L f2) O W) $$ [Hmw Hs0 Hs1 Hs2 Hs3 Hs4 Hc5 Hc6 Hslabs HO]
  case region =>
    intro k u
    exact region (F := F) m d L _ _ _ (codes_loaded (F := F) m d L f0) (bl_loaded (F := F) d L f1) (wz_loaded (F := F) d L f2) hpre O W k u
  · unfold minv slot0 slot1
    rw [if_pos rfl, if_pos rfl, fresh_init (freshΦ (F := F) d L), done_init (doneΦ (F := F) m d L)]
    isplitr; · iexact Hmw
    isplitl [Hs0]; · iexact Hs0
    isplitl [Hs1]; · iexact Hs1
    isplitl [Hs2]; · iexact Hs2
    isplitl [Hs3 Hc5]; · isplitl [Hs3]; · iexact Hs3
                         iexact Hc5
    isplitl [Hs4 Hc6]; · isplitl [Hs4]; · iexact Hs4
                         iexact Hc6
    isplitl [Hslabs]; · iexact Hslabs
    isplitr; · iempintro
    iexists _; isplitr
    swap
    · iexact HO
    · ipureintro; exact ins_ok _ (ins_ok _ (ins_ok _ (fun p hp => .inl hp)))
  have h25 : Scf.trips k0_t2_loop.lb k0_t2_loop.ub k0_t2_loop.st = 25 := by decide
  rw [h25]
  iintro %_ HI
  unfold minv slot0 slot1
  rw [if_neg (by decide : ¬ (25 = 0)), if_neg (by decide : ¬ (25 = 0)), fresh_last (freshΦ (F := F) d L)]
  icases HI with ⟨-, Hs0, Hs1, Hs2, Hc5, Hc6, -, Hdone, %W', %hW', HO⟩
  sl_exec
  sl_step
  rw [done_last (doneΦ (F := F) m d L)]
  isplitl [Hbl Hwz Hxt Hc5_dst Hc6_dst Hdone]
  · isplitl [Hbl Hwz Hxt]
    · isplitl [Hbl]; · iapply (Entails.of_eq (pts_bl (F := F) d L _ _)); iexact Hbl
      isplitl [Hwz]; · iapply (Entails.of_eq (pts_wz (F := F) d L _ _)); iexact Hwz
      iapply (Entails.of_eq (pts_xt (F := F) d L _ _)); iexact Hxt
    · isplitl [Hc5_dst]; · iexact Hc5_dst
      isplitl [Hc6_dst]; · iexact Hc6_dst
      iexact Hdone
  isplitl [Hs0 Hs1 Hs2 Hc5_src Hc6_src Hbufs]
  · isplitl [Hs0]; · iexists _; iexact Hs0
    isplitl [Hs1]; · iexists _; iexact Hs1
    isplitl [Hs2]; · iexists _; iexact Hs2
    isplitl [Hc5_src]; · iexists _; iapply (Entails.of_eq (pts_b0set (F := F) d L _)); iexact Hc5_src
    isplitl [Hc6_src]; · iexists _; iapply (Entails.of_eq (pts_b1set (F := F) d L _)); iexact Hc6_src
    iexact Hbufs
  isplitl [Hc5 Hc6 Hr0 Hr1 Hr2 Hsems]
  · isplitl [Hc5]; · iexact Hc5
    isplitl [Hc6]; · iexact Hc6
    isplitl [Hr0]; · iexact Hr0
    isplitl [Hr1]; · iexact Hr1
    isplitl [Hr2]; · iexact Hr2
    iexact Hsems
  iexists _; isplitr
  swap
  · iexact HO
  · ipureintro; exact ins_ok _ (ins_ok _ hW')

end Tile

end Cert.Proof.KB

end
-- ==== Proof.LaunchB.lean ====
/-
  All threads: each worker's task from its share of the call's operands (`tile_body`), a SparseCore's operands split
  among its sixteen workers (read shares of the three tables, the workers' own slabs) and gathered back, and @main on
  the TensorCore — two literal tables and a transpose before the call, the table's 2 × 16 × 50 slabs handed over and
  joined again at the one-hot table, a transpose after it — from which the program's run and its result follow.
-/
import proofs.«204306_g82583631167916_cont_9to1c4b_486_26_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204306_g82583631167916_cont_9to1c4b_486_26_alg».proof.Proof.Gen.Kernel
import proofs.«204306_g82583631167916_cont_9to1c4b_486_26_alg».proof.Proof.Gen.Kernel.Skeleton
import proofs.«204306_g82583631167916_cont_9to1c4b_486_26_alg».proof.Proof.Spec
import proofs.«204306_g82583631167916_cont_9to1c4b_486_26_alg».proof.Proof.SetupB
import proofs.«204306_g82583631167916_cont_9to1c4b_486_26_alg».proof.Proof.TileB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xtW" => (Memref.whole Cert.Kernel.main_v0_scv : Memref Cert.Kernel.sig Kind.scVector Space.hbm Cert.Kernel.S50x4096 EltTy.i32)
local notation "blW" => (Memref.whole Cert.Kernel.main_c_scv : Memref Cert.Kernel.sig Kind.scVector Space.hbm Cert.Kernel.S128 EltTy.i32)
local notation "wzW" => (Memref.whole Cert.Kernel.main_c_0_scv : Memref Cert.Kernel.sig Kind.scVector Space.hbm Cert.Kernel.S16 EltTy.i32)
local notation "outW" => (Memref.whole Cert.Kernel.main_v1_scv : Memref Cert.Kernel.sig Kind.scVector Space.hbm Cert.Kernel.S50x4096x256 EltTy.i32)
local notation "codesW" => (Memref.whole Cert.Kernel.cc0_scratch0 : Memref Cert.Kernel.sig Kind.scVector Space.vmem Cert.Kernel.S50x128 EltTy.i32)
local notation "blV" => (Memref.whole Cert.Kernel.cc0_scratch1 : Memref Cert.Kernel.sig Kind.scVector Space.vmem Cert.Kernel.S128 EltTy.i32)
local notation "wzV" => (Memref.whole Cert.Kernel.cc0_scratch2 : Memref Cert.Kernel.sig Kind.scVector Space.vmem Cert.Kernel.S16 EltTy.i32)
local notation "buf0" => (Memref.whole Cert.Kernel.cc0_scratch3 : Memref Cert.Kernel.sig Kind.scVector Space.vmem Cert.Kernel.S128x256 EltTy.i32)
local notation "buf1" => (Memref.whole Cert.Kernel.cc0_scratch4 : Memref Cert.Kernel.sig Kind.scVector Space.vmem Cert.Kernel.S128x256 EltTy.i32)

variable [FloatOps F]

/-! ## The worker's obligation, from its body -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xtW (Memref.isWhole_whole _) blW (Memref.isWhole_whole _) wzW (Memref.isWhole_whole _) outW (Memref.isWhole_whole _)
          codesW (Memref.isWhole_whole _) blV (Memref.isWhole_whole _) wzV (Memref.isWhole_whole _) buf0 (Memref.isWhole_whole _) buf1 (Memref.isWhole_whole _)
          cc0_scratch5 cc0_scratch6 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the worker owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-! ## Read shares of the three tables, split and joined together -/

/-- The three tables at share `q` are the remainder after `n` read tokens and the `n` tokens. -/
theorem tabs_toks (q : PosShare TreeShare) (n : ℕ) (d : Dev nD) :
    tabs m q d ⊣⊢ iprop(tabs m (Transfers.shareDrop q n) d ∗ bigSep Finset.univ fun i : Fin n => tabs m (Transfers.shareTok q n i) d) := by
  rw [bigSep_sep' Finset.univ (fun i : Fin n => (blLoc d ↦{Transfers.shareTok q n i} BL (F := F) d : sProp 𝕄)),
    bigSep_sep' Finset.univ (fun i : Fin n => (wzLoc d ↦{Transfers.shareTok q n i} WZ (F := F) d : sProp 𝕄))]
  constructor
  · iintro ⟨Hb, Hw, Hx⟩
    ihave Hb' := (Transfers.pointsTo_toks_split q n) $$ Hb
    ihave Hw' := (Transfers.pointsTo_toks_split q n) $$ Hw
    ihave Hx' := (Transfers.pointsTo_toks_split q n) $$ Hx
    icases Hb' with ⟨Hb0, Hb⟩
    icases Hw' with ⟨Hw0, Hw⟩
    icases Hx' with ⟨Hx0, Hx⟩
    isplitl [Hb0 Hw0 Hx0]
    · isplitl [Hb0]; · iexact Hb0
      isplitl [Hw0]; · iexact Hw0
      iexact Hx0
    isplitl [Hb]; · iexact Hb
    isplitl [Hw]; · iexact Hw
    iexact Hx
  · iintro ⟨⟨Hb0, Hw0, Hx0⟩, Hb, Hw, Hx⟩
    isplitl [Hb0 Hb]
    · iapply (Transfers.pointsTo_toks_join q n)
      isplitl [Hb0]; · iexact Hb0
      iexact Hb
    isplitl [Hw0 Hw]
    · iapply (Transfers.pointsTo_toks_join q n)
      isplitl [Hw0]; · iexact Hw0
      iexact Hw
    iapply (Transfers.pointsTo_toks_join q n)
    isplitl [Hx0]; · iexact Hx0
    iexact Hx

/-! ## A SparseCore's operands among its sixteen workers -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(tabs m (qc (Fin.cast nCore_zero c)) d ∗ bigSep Finset.univ fun i : Fin 16 => slabsAny d (Fin.cast nCore_zero c) i) ⊢ |={Set.univ}=> iprop(
      (bigSep Finset.univ fun i : Fin ((K (F := F)).nSub 0) =>
        iprop(tabs m (qt (Fin.cast nCore_zero c) (Fin.cast nSub_zero i)) d ∗ slabsAny d (Fin.cast nCore_zero c) (Fin.cast nSub_zero i)))
      ∗ ((bigSep Finset.univ fun i : Fin ((K (F := F)).nSub 0) =>
          iprop(tabs m (qt (Fin.cast nCore_zero c) (Fin.cast nSub_zero i)) d ∗ slabsOut m d (Fin.cast nCore_zero c) (Fin.cast nSub_zero i)))
          -∗ iprop(tabs m (qc (Fin.cast nCore_zero c)) d ∗ bigSep Finset.univ fun i : Fin 16 => slabsOut m d (Fin.cast nCore_zero c) i)))
  generalize Fin.cast nCore_zero c = c'
  rw [bigSep_tasks (F := F) (fun i => iprop(tabs m (qt c' i) d ∗ slabsAny d c' i)),
    bigSep_tasks (F := F) (fun i => iprop(tabs m (qt c' i) d ∗ slabsOut m d c' i)),
    bigSep_sep' Finset.univ (fun i : Fin 16 => tabs m (qt c' i) d) (fun i => slabsAny d c' i),
    bigSep_sep' Finset.univ (fun i : Fin 16 => tabs m (qt c' i) d) (fun i => slabsOut m d c' i)]
  iintro ⟨Ht, Hs⟩
  ihave Ht' := (tabs_toks m (qc c') 16 d).1 $$ Ht
  icases Ht' with ⟨Hrem, Htoks⟩
  imodintro
  isplitl [Htoks Hs]
  · isplitl [Htoks]; · iexact Htoks
    iexact Hs
  iintro ⟨Htoks, Hs⟩
  isplitl [Hrem Htoks]
  · iapply (tabs_toks m (qc c') 16 d).2
    isplitl [Hrem]; · iexact Hrem
    iexact Htoks
  iexact Hs

/-! ## The launch element: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The table is its workers' slabs

Slab `(c, i, r)` is sequence position `r`, batch rows `[128 (2 i + c), 128 (2 i + c) + 128)`, every class: two slabs at
different positions are apart on axis `0`, two of different workers on axis `1`; an index `(s, b, k)` lies in the slab of
position `s` of worker `b / 128`. -/

abbrev slabOf (t : Fin 2 × Fin 16 × Fin 50) : Finset S50x4096x256.Idx := slab t.1 t.2.1 t.2.2

theorem slabs_disjoint : ∀ t ∈ (Finset.univ : Finset (Fin 2 × Fin 16 × Fin 50)), ∀ t' ∈ (Finset.univ : Finset (Fin 2 × Fin 16 × Fin 50)),
    t ≠ t' → Disjoint (slabOf t) (slabOf t') := by
  rintro ⟨c, i, r⟩ - ⟨c', i', r'⟩ - h
  have hc := c.isLt; have hc' := c'.isLt
  by_cases hr : r = r'
  · subst hr
    have hn : 256 * i.val + 128 * c.val ≠ 256 * i'.val + 128 * c'.val := by
      intro e
      have hi : i = i' := Fin.ext (by omega)
      have hcc : c = c' := Fin.ext (by omega)
      exact h (by rw [hi, hcc])
    refine Rect.unit_disjoint 1 ?_
    show 256 * i.val + 128 * c.val + 128 ≤ 256 * i'.val + 128 * c'.val ∨ 256 * i'.val + 128 * c'.val + 128 ≤ 256 * i.val + 128 * c.val
    omega
  · refine Rect.unit_disjoint 0 ?_
    show r.val + 1 ≤ r'.val ∨ r'.val + 1 ≤ r.val
    have := Fin.val_ne_of_ne hr
    omega

theorem slabs_cover : (Finset.univ : Finset (Fin 2 × Fin 16 × Fin 50)).biUnion slabOf = Finset.univ := by
  ext x
  simp only [Finset.mem_biUnion, Finset.mem_univ, true_and, iff_true]
  have h0 : (x 0).val < 50 := (x 0).isLt
  have h1 : (x 1).val < 4096 := (x 1).isLt
  have h2 : (x 2).val < 256 := (x 2).isLt
  refine ⟨(⟨(x 1).val / 128 % 2, by omega⟩, ⟨(x 1).val / 256, by omega⟩, ⟨(x 0).val, h0⟩), Rect.mem_set_unit.mpr fun a => ?_⟩
  fin_cases a
  · show (x 0).val ≤ (x 0).val ∧ (x 0).val < (x 0).val + 1
    omega
  · show 256 * ((x 1).val / 256) + 128 * ((x 1).val / 128 % 2) ≤ (x 1).val
      ∧ (x 1).val < 256 * ((x 1).val / 256) + 128 * ((x 1).val / 128 % 2) + 128
    omega
  · show 0 ≤ (x 2).val ∧ (x 2).val < 0 + 256
    omega

theorem bigSep_nest (Φ : Fin 2 → Fin 16 → Fin 50 → sProp 𝕄) :
    (bigSep Finset.univ fun t : Fin 2 × Fin 16 × Fin 50 => Φ t.1 t.2.1 t.2.2)
      = bigSep Finset.univ fun c => bigSep Finset.univ fun i => bigSep Finset.univ fun r => Φ c i r :=
  (bigSep_univ_prod _).trans (bigSep_congr fun _ _ => bigSep_univ_prod _)

/-- The table whole, at any contents, is every worker's fifty slabs at those contents. -/
theorem out_slabs (d : Dev nD) (f : Buf (Elt F) (outLoc d)) :
    (outLoc d ↦{fullShare} f : sProp 𝕄)
      = bigSep Finset.univ fun c : Fin 2 => bigSep Finset.univ fun i : Fin 16 => bigSep Finset.univ fun r : Fin 50 => outLoc d ↦[slab c i r]{fullShare} f := by
  rw [← bigSep_nest (fun c i r => (outLoc d ↦[slab c i r]{fullShare} f : sProp 𝕄)),
    ← pointsTo_biUnion Finset.univ (ℓ := outLoc d) slabOf slabs_disjoint, slabs_cover]; try rfl

/-! ## What @main leaves: the argument as launched, the result the transposed one-hot table -/

/-- The result: `res (b, s, k) = OUT (s, b, k)`. -/
def RES (d : Dev nD) : Buf (Elt F) (resLoc d) :=
  transpose S4096x50x256 [1, 0, 2] (OUT m d : (⟨S50x4096x256, .i32⟩ : BufTy).Contents (Elt F)) transposes_S50x4096x256_S4096x50x256_1_0_2

abbrev FIN (d : Dev nD) : sProp 𝕄 := iprop((argLoc d ↦{fullShare} m (argLoc d)) ∗ (resLoc d ↦{fullShare} RES m d))

/-! ## @main on the TensorCore: its six arrays, held whole -/

abbrev a' : DevRef τ sig := Proc.devRef .tc (main_arg0 : Ref sig .tc)
abbrev c' : DevRef τ sig := Proc.devRef .tc (main_c : Ref sig .tc)
abbrev z' : DevRef τ sig := Proc.devRef .tc (main_c_0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The TensorCore's arrays, all unscoped. -/
abbrev S6 : Finset (DevRef τ sig) := {a', c', z', x', o', r'}

theorem held_S6 (d : Dev nD) (W : Valuation τ sig (Elt F)) :
    (held (T d) S6 W : sProp 𝕄) = iprop((argLoc d ↦{fullShare} W a') ∗ (blLoc d ↦{fullShare} W c') ∗ (wzLoc d ↦{fullShare} W z')
      ∗ (xtLoc d ↦{fullShare} W x') ∗ (outLoc d ↦{fullShare} W o') ∗ (resLoc d ↦{fullShare} W r')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((argLoc d ↦{fullShare} W main_arg0) ∗ (blLoc d ↦{fullShare} W main_c) ∗ (wzLoc d ↦{fullShare} W main_c_0)
      ∗ (xtLoc d ↦{fullShare} W main_v0) ∗ (outLoc d ↦{fullShare} W main_v1) ∗ (resLoc d ↦{fullShare} W main_v2)) := by
  unfold unscopedBufs
  rw [show (Finset.univ.filter fun b : Ref sig .tc => ¬ b.isScoped) = {main_arg0, main_c, main_c_0, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S6 (V0 m d) := by
  rw [unscopedBufs_eq, held_S6]; rfl

/-- The host operations, as @main writes them. -/
abbrev opC : HloOp τ sig (Elt F) := StableHlo.nullary main_c (fun i => lit0 (S128.rowMajor i))
abbrev opZ : HloOp τ sig (Elt F) := StableHlo.nullary main_c_0 (fun i => lit1 (S16.rowMajor i))
abbrev opX : HloOp τ sig (Elt F) :=
  StableHlo.unary main_arg0 main_v0 ((transpose S50x4096 [1, 0] · transposes_S4096x50_S50x4096_1_0) :
    (⟨S4096x50, .i32⟩ : BufTy).Contents (Elt F) → (⟨S50x4096, .i32⟩ : BufTy).Contents (Elt F))
abbrev opR : HloOp τ sig (Elt F) :=
  StableHlo.unary main_v1 main_v2 ((transpose S4096x50x256 [1, 0, 2] · transposes_S50x4096x256_S4096x50x256_1_0_2) :
    (⟨S50x4096x256, .i32⟩ : BufTy).Contents (Elt F) → (⟨S4096x50x256, .i32⟩ : BufTy).Contents (Elt F))

theorem hC : (opC (F := F)).bufs ⊆ S6 := show ({c'} : Finset (DevRef τ sig)) ⊆ S6 by decide
theorem hZ : (opZ (F := F)).bufs ⊆ S6 := show ({z'} : Finset (DevRef τ sig)) ⊆ S6 by decide
theorem hX : (opX (F := F)).bufs ⊆ S6 := show ({a', x'} : Finset (DevRef τ sig)) ⊆ S6 by decide
theorem hR : (opR (F := F)).bufs ⊆ S6 := show ({o', r'} : Finset (DevRef τ sig)) ⊆ S6 by decide

/-- The valuation at the call: the two constants and the transposed codes written. -/
def V3 (d : Dev nD) : Valuation τ sig (Elt F) := (opX (F := F)).result ((opZ (F := F)).result ((opC (F := F)).result (V0 m d)))
/-- After the call: the table at the one-hot table. -/
def V4 (d : Dev nD) : Valuation τ sig (Elt F) := Function.update (V3 m d) o' (OUT m d)

theorem V3_a (d : Dev nD) : V3 m d a' = m (argLoc d) := by
  unfold V3
  rw [StableHlo.unary_result_ne (h := by decide), StableHlo.nullary_result_ne (h := by decide), StableHlo.nullary_result_ne (h := by decide)]; rfl
theorem V3_c (d : Dev nD) : V3 m d c' = BL (F := F) d := by
  unfold V3
  rw [StableHlo.unary_result_ne (h := by decide), StableHlo.nullary_result_ne (h := by decide), StableHlo.nullary_result]; rfl
theorem V3_z (d : Dev nD) : V3 m d z' = WZ (F := F) d := by
  unfold V3
  rw [StableHlo.unary_result_ne (h := by decide), StableHlo.nullary_result]; rfl
theorem V3_x (d : Dev nD) : V3 m d x' = XT m d := by
  unfold V3
  rw [StableHlo.unary_result, StableHlo.nullary_result_ne (h := by decide), StableHlo.nullary_result_ne (h := by decide)]; rfl
theorem V3_o (d : Dev nD) : V3 m d o' = m (outLoc d) := by
  unfold V3
  rw [StableHlo.unary_result_ne (h := by decide), StableHlo.nullary_result_ne (h := by decide), StableHlo.nullary_result_ne (h := by decide)]; rfl
theorem V3_r (d : Dev nD) : V3 m d r' = m (resLoc d) := by
  unfold V3
  rw [StableHlo.unary_result_ne (h := by decide), StableHlo.nullary_result_ne (h := by decide), StableHlo.nullary_result_ne (h := by decide)]; rfl

theorem V4_a (d : Dev nD) : V4 m d a' = m (argLoc d) := (Function.update_of_ne (show a' ≠ o' by decide) _ _).trans (V3_a m d)
theorem V4_c (d : Dev nD) : V4 m d c' = BL (F := F) d := (Function.update_of_ne (show c' ≠ o' by decide) _ _).trans (V3_c m d)
theorem V4_z (d : Dev nD) : V4 m d z' = WZ (F := F) d := (Function.update_of_ne (show z' ≠ o' by decide) _ _).trans (V3_z m d)
theorem V4_x (d : Dev nD) : V4 m d x' = XT m d := (Function.update_of_ne (show x' ≠ o' by decide) _ _).trans (V3_x m d)
theorem V4_o (d : Dev nD) : V4 m d o' = OUT m d := Function.update_self _ _ _
theorem V4_r (d : Dev nD) : V4 m d r' = m (resLoc d) := (Function.update_of_ne (show r' ≠ o' by decide) _ _).trans (V3_r m d)

theorem V5_a (d : Dev nD) : (opR (F := F)).result (V4 m d) a' = m (argLoc d) := by
  rw [StableHlo.unary_result_ne (h := by decide)]; exact V4_a m d
theorem V5_r (d : Dev nD) : (opR (F := F)).result (V4 m d) r' = RES m d := by
  rw [StableHlo.unary_result, V4_o]; rfl

/-- At the call the arrays hold: the argument, the two constants, the transposed codes, and what was launched. -/
theorem held_V3 (d : Dev nD) :
    (held (T d) S6 ((opX (F := F)).result ((opZ (F := F)).result ((opC (F := F)).result (V0 m d)))) : sProp 𝕄)
      = iprop((argLoc d ↦{fullShare} m (argLoc d)) ∗ (blLoc d ↦{fullShare} BL (F := F) d) ∗ (wzLoc d ↦{fullShare} WZ (F := F) d)
        ∗ (xtLoc d ↦{fullShare} XT m d) ∗ (outLoc d ↦{fullShare} m (outLoc d)) ∗ (resLoc d ↦{fullShare} m (resLoc d))) := by
  show (held (T d) S6 (V3 m d) : sProp 𝕄) = _
  rw [held_S6, V3_a, V3_c, V3_z, V3_x, V3_o, V3_r]

/-- After the last transpose: the argument as launched and the result. -/
theorem held_V5 (d : Dev nD) : (held (T d) S6 ((opR (F := F)).result (V4 m d)) : sProp 𝕄) ⊢ FIN m d := by
  rw [held_S6, V5_a, V5_r]
  iintro ⟨Ha, -, -, -, -, Hr⟩
  isplitl [Ha]; · iexact Ha
  iexact Hr

/-! ## What the call takes for the two SparseCores, and what it hands back -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c)
      = iprop((bigSep Finset.univ fun c : Fin 2 => tabs m (qc c) d)
          ∗ bigSep Finset.univ fun c : Fin 2 => bigSep Finset.univ fun i : Fin 16 => slabsAny d c i) := by
  show (bigSep Finset.univ fun c : Fin ((K (F := F)).nCore 0) =>
      iprop(tabs m (qc (Fin.cast nCore_zero c)) d ∗ bigSep Finset.univ fun i : Fin 16 => slabsAny d (Fin.cast nCore_zero c) i)) = _
  rw [bigSep_cores (F := F) (fun c' => iprop(tabs m (qc c') d ∗ bigSep Finset.univ fun i : Fin 16 => slabsAny d c' i)),
    bigSep_sep' Finset.univ (fun c' : Fin 2 => tabs m (qc c') d) (fun c' => bigSep Finset.univ fun i : Fin 16 => slabsAny d c' i)]

theorem dn0_eq (d : Dev nD) :
    (bigSep Finset.univ fun c : Fin ((K (F := F)).nCore 0) => (P m).dn 0 d c)
      = iprop((bigSep Finset.univ fun c : Fin 2 => tabs m (qc c) d)
          ∗ bigSep Finset.univ fun c : Fin 2 => bigSep Finset.univ fun i : Fin 16 => slabsOut m d c i) := by
  show (bigSep Finset.univ fun c : Fin ((K (F := F)).nCore 0) =>
      iprop(tabs m (qc (Fin.cast nCore_zero c)) d ∗ bigSep Finset.univ fun i : Fin 16 => slabsOut m d (Fin.cast nCore_zero c) i)) = _
  rw [bigSep_cores (F := F) (fun c' => iprop(tabs m (qc c') d ∗ bigSep Finset.univ fun i : Fin 16 => slabsOut m d c' i)),
    bigSep_sep' Finset.univ (fun c' : Fin 2 => tabs m (qc c') d) (fun c' => bigSep Finset.univ fun i : Fin 16 => slabsOut m d c' i)]

/-- The table whole, at whatever it holds, is every worker's slabs at some contents. -/
theorem out_any (d : Dev nD) (f : Buf (Elt F) (outLoc d)) :
    (outLoc d ↦{fullShare} f : sProp 𝕄) ⊢ bigSep Finset.univ fun c : Fin 2 => bigSep Finset.univ fun i : Fin 16 => slabsAny d c i := by
  have key : ∀ (c : Fin 2) (i : Fin 16) (r : Fin 50),
      (outLoc d ↦[slab c i r]{fullShare} f : sProp 𝕄) ⊢ iprop(∃ g, outLoc d ↦[slab c i r]{fullShare} g) := by
    intro c i r; iintro H; iexists f; iexact H
  rw [out_slabs d f]
  exact bigSep_mono fun c _ => bigSep_mono fun i _ => bigSep_mono fun r _ => key c i r

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two constants and the transposed codes
  iapply (wp_hlo_within 𝒱 (SparseCore.T d) none Set.univ (op := opC) (S := S6) hC (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opZ) (S := S6) hZ (V := (opC (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := opX) (S := S6) hX
      (V := (opZ (F := F)).result ((opC (F := F)).result (V0 m d)))) $$ [Hb Hheld]
  · isplitl [Hb]; · iexact Hb
    iexact Hheld
  iintro ⟨Hb, Hheld⟩
  rw [wp_ret]; imodintro
  ihave Hh := (Entails.of_eq (held_V3 m d)) $$ Hheld
  icases Hh with ⟨Ha, Hc, Hz, Hx, Ho, Hr⟩
  -- the call: each SparseCore takes a read share of the three tables and its sixteen workers' slabs
  ihave Ht := (tabs_toks m fullShare 2 d).1 $$ [Hc Hz Hx]
  · isplitl [Hc]; · iexact Hc
    isplitl [Hz]; · iexact Hz
    iexact Hx
  icases Ht with ⟨Hrem, Htoks⟩
  ihave Hsl := (out_any d (m (outLoc d))) $$ Ho
  iapply ((K (F := F)).wp_run (D (F := F)) 𝒱 (EH := EH) (P := P m) κ d 0) $$ [Hst Htoks Hsl Hb Ha Hr Hrem]
  isplitr; · iexact Hctx
  isplitl [Hst]; · iexact Hst
  isplitl [Htoks Hsl]
  · rw [st0_eq]
    isplitl [Htoks]; · iexact Htoks
    iexact Hsl
  iintro ⟨Hst, Hdn⟩
  ihave Hdn' := (Entails.of_eq (dn0_eq m d)) $$ Hdn
  icases Hdn' with ⟨Htoks, Hsl⟩
  -- the shares join to the tables whole, the slabs to the table at the one-hot table
  ihave Ht := (tabs_toks m fullShare 2 d).2 $$ [Hrem Htoks]
  · isplitl [Hrem]; · iexact Hrem
    iexact Htoks
  icases Ht with ⟨Hc, Hz, Hx⟩
  ihave Ho := (Entails.of_eq (out_slabs d (OUT m d)).symm) $$ Hsl
  -- the result's transpose
  iapply (wp_hlo_within 𝒱 (SparseCore.T d) none Set.univ (op := opR) (S := S6) hR (V := V4 m d)) $$ [Hb Ha Hc Hz Hx Ho Hr]
  · isplitl [Hb]; · iexact Hb
    rw [held_S6, V4_a, V4_c, V4_z, V4_x, V4_o, V4_r]
    isplitl [Ha]; · iexact Ha
    isplitl [Hc]; · iexact Hc
    isplitl [Hz]; · iexact Hz
    isplitl [Hx]; · iexact Hx
    isplitl [Ho]; · iexact Ho
    iexact Hr
  iintro ⟨Hb, Hheld⟩
  ihave Hfin := (held_V5 m d) $$ Hheld
  rw [wp_ret]; imodintro; imodintro
  isplitl [Hst]; · iexact Hst
  iexact Hfin

def fq (d : Dev nD) (s' : Phys nD τ sig (Elt F)) : Prop := s'.mem.mem (resLoc d) = RES m d ∧ s'.mem.mem (argLoc d) = m (argLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (SI_pointsTo_agree (st := s') (ℓ := resLoc d) (I := Finset.univ) (q := fullShare) (f := RES m d)) $$ [HSI Hr]
  · isplitl [HSI] <;> iassumption
  icases H with %h2
  ipureintro; exact ⟨funext fun i => h2 i (Finset.mem_univ i), funext fun i => h1 i (Finset.mem_univ i)⟩

/-! ## The program's run -/

def QC (r : PUnit × MemSt nD τ sig (Elt F)) : Prop := ∀ c : Dev nD, r.2.mem (resLoc c) = RES m c ∧ r.2.mem (argLoc c) = m (argLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.RefValue.lean ====
/-
  The value the kernel leaves and the value the reference leaves are the same array.
  Both, at the index `(b, s, ch)` of the `[4096, 50, 256]` result, are `0` when `b = 0` and
  otherwise the indicator of `x (b, s) = ch` with the code read unsigned. The kernel's side is
  two transposes around the one-hot table `Gt`; the reference's side is a comparison against an
  iota, widened, followed by a scatter of an all-zero `[50, 256]` update at the single index `0`
  along axis `0`. Pure mathematics over index functions.
-/
import proofs.«204306_g82583631167916_cont_9to1c4b_486_26_alg».proof.Proof.Spec
import proofs.«204306_g82583631167916_cont_9to1c4b_486_26_alg».proof.Proof.Gen.ReferenceIdeal.Read
import Idealize.ShloMosaic.Lib.Pipeline.Value

noncomputable section

namespace Cert.OneHot

open Idealize.ShloMosaic

/-! ### A scatter whose updates all hold one value

`Host.scatter` folds one step per update index. When the body returns the update and every
update element is the same value `c`, the result at an index `i` is `c` if some update lands
on `i`, and the operand's element otherwise: no order or uniqueness question arises. -/

section ScatterConst
variable {s si u : Shape} {w : Nat} {α : Type}

/-- One step of the fold, read at `i`. -/
private theorem scatter_step_apply (d : ScatterDims s si u) (idx : IVec si w) (upd : u.Idx → α) (c : α)
    (hc : ∀ j, upd j = c) (r : s.Idx → α) (n : Fin u.numel) (i : s.Idx) :
    (match d.resultIdx? (u.rowMajor.symm n) idx with
      | some k => fun i' => if i' = k then (fun _ b => b) (r k) (upd (u.rowMajor.symm n)) else r i'
      | none => r) i
      = if d.resultIdx? (u.rowMajor.symm n) idx = some i then c else r i := by
  cases h : d.resultIdx? (u.rowMajor.symm n) idx with
  | none => simp
  | some k =>
    show (if i = k then upd (u.rowMajor.symm n) else r i) = _
    by_cases hik : i = k
    · rw [if_pos hik, if_pos (by rw [hik]), hc]
    · rw [if_neg hik, if_neg (fun e => hik (Option.some.inj e).symm)]

open Classical in
/-- The fold over any list of update positions, read at `i`. -/
private theorem scatter_foldl_apply (d : ScatterDims s si u) (idx : IVec si w) (upd : u.Idx → α) (c : α)
    (hc : ∀ j, upd j = c) (i : s.Idx) (l : List (Fin u.numel)) (r : s.Idx → α) :
    (l.foldl (fun r n =>
      match d.resultIdx? (u.rowMajor.symm n) idx with
      | some k => fun i' => if i' = k then (fun _ b => b) (r k) (upd (u.rowMajor.symm n)) else r i'
      | none => r) r) i
      = if ∃ n ∈ l, d.resultIdx? (u.rowMajor.symm n) idx = some i then c else r i := by
  induction l generalizing r with
  | nil => simp
  | cons n l ih =>
    rw [List.foldl_cons, ih, scatter_step_apply d idx upd c hc r n i]
    by_cases h1 : ∃ m ∈ l, d.resultIdx? (u.rowMajor.symm m) idx = some i
    · rw [if_pos h1, if_pos]
      obtain ⟨m, hm, e⟩ := h1
      exact ⟨m, List.mem_cons_of_mem _ hm, e⟩
    · rw [if_neg h1]
      by_cases h2 : d.resultIdx? (u.rowMajor.symm n) idx = some i
      · rw [if_pos h2, if_pos ⟨n, List.mem_cons_self, h2⟩]
      · rw [if_neg h2, if_neg]
        rintro ⟨m, hm, e⟩
        rcases List.mem_cons.1 hm with rfl | hm'
        · exact h2 e
        · exact h1 ⟨m, hm', e⟩

/-- Some update lands on `i`: the scatter holds the common update value there. -/
theorem scatter_const_of_hit (d : ScatterDims s si u) (x : s.Idx → α) (idx : IVec si w) (upd : u.Idx → α) (c : α)
    (hc : ∀ j, upd j = c) (i : s.Idx) (j : u.Idx) (hj : d.resultIdx? j idx = some i) :
    Host.scatter d (fun _ b => b) x idx upd i = c := by
  refine (scatter_foldl_apply d idx upd c hc i (List.finRange u.numel) x).trans (if_pos ?_)
  exact ⟨u.rowMajor j, List.mem_finRange _, by rw [Equiv.symm_apply_apply]; exact hj⟩

/-- No update lands on `i`: the scatter holds the operand's element there. -/
theorem scatter_const_of_miss (d : ScatterDims s si u) (x : s.Idx → α) (idx : IVec si w) (upd : u.Idx → α) (c : α)
    (hc : ∀ j, upd j = c) (i : s.Idx) (hj : ∀ j, d.resultIdx? j idx ≠ some i) :
    Host.scatter d (fun _ b => b) x idx upd i = x i := by
  refine (scatter_foldl_apply d idx upd c hc i (List.finRange u.numel) x).trans (if_neg ?_)
  rintro ⟨n, _, e⟩
  exact hj _ e

end ScatterConst

/-! ### Where the reference's scatter lands

Its dimension numbers send the single scatter index to operand axis `0` and lay the update's two
axes on operand axes `1` and `2`. With the index `0`, update element `(s, ch)` lands on `(0, s, ch)`. -/

section Lands
open Cert.ReferenceIdeal

/-- The operand index `(0, s, ch)` over the update index `(s, ch)`. -/
abbrev row0 (j : S50x256.Idx) : S4096x50x256.Idx := fun a => match a with
  | ⟨0, _⟩ => ⟨0, (by decide : 0 < 4096)⟩
  | ⟨1, _⟩ => ⟨(j 0).val, (j 0).isLt⟩
  | ⟨2, _⟩ => ⟨(j 1).val, (j 1).isLt⟩

private theorem start_add_window (idx : IVec S1 32) (hidx : ∀ k, idx k = 0#32) (j : S50x256.Idx) (a : Fin 3) :
    scatter_S4096x50x256_S1_S50x256_01_0_0_0.start j idx a + scatter_S4096x50x256_S1_S50x256_01_0_0_0.window j a
      = ((row0 j a).val : Int) := by
  match a with
  | ⟨0, _⟩ =>
    have h1 : scatter_S4096x50x256_S1_S50x256_01_0_0_0.start j idx (0 : Fin 3) = 0 := by
      unfold ScatterDims.start
      rw [dif_pos (by decide), hidx]
      rfl
    have h2 : scatter_S4096x50x256_S1_S50x256_01_0_0_0.window j (0 : Fin 3) = 0 := by
      unfold ScatterDims.window
      rw [dif_neg (by decide)]
    show scatter_S4096x50x256_S1_S50x256_01_0_0_0.start j idx (0 : Fin 3)
      + scatter_S4096x50x256_S1_S50x256_01_0_0_0.window j (0 : Fin 3) = ((0 : Nat) : Int)
    rw [h1, h2]; rfl
  | ⟨1, _⟩ =>
    have h1 : scatter_S4096x50x256_S1_S50x256_01_0_0_0.start j idx (1 : Fin 3) = 0 := by
      unfold ScatterDims.start
      rw [dif_neg (by decide)]
    have h2 : scatter_S4096x50x256_S1_S50x256_01_0_0_0.window j (1 : Fin 3) = (j 0).val := by
      unfold ScatterDims.window
      rw [dif_pos (by decide)]
      rfl
    show scatter_S4096x50x256_S1_S50x256_01_0_0_0.start j idx (1 : Fin 3)
      + scatter_S4096x50x256_S1_S50x256_01_0_0_0.window j (1 : Fin 3) = (((j 0).val : Nat) : Int)
    rw [h1, h2]; omega
  | ⟨2, _⟩ =>
    have h1 : scatter_S4096x50x256_S1_S50x256_01_0_0_0.start j idx (2 : Fin 3) = 0 := by
      unfold ScatterDims.start
      rw [dif_neg (by decide)]
    have h2 : scatter_S4096x50x256_S1_S50x256_01_0_0_0.window j (2 : Fin 3) = (j 1).val := by
      unfold ScatterDims.window
      rw [dif_pos (by decide)]
      rfl
    show scatter_S4096x50x256_S1_S50x256_01_0_0_0.start j idx (2 : Fin 3)
      + scatter_S4096x50x256_S1_S50x256_01_0_0_0.window j (2 : Fin 3) = (((j 1).val : Nat) : Int)
    rw [h1, h2]; omega

/-- With the scatter index `0`, update element `j` lands on `row0 j`: inside the operand, so never dropped. -/
theorem resultIdx?_eq (idx : IVec S1 32) (hidx : ∀ k, idx k = 0#32) (j : S50x256.Idx) :
    scatter_S4096x50x256_S1_S50x256_01_0_0_0.resultIdx? j idx = some (row0 j) := by
  have hs := start_add_window idx hidx j
  unfold ScatterDims.resultIdx?
  rw [dif_pos (fun a => by
    rw [hs a]
    exact ⟨Int.natCast_nonneg _, Int.ofNat_lt.2 (row0 j a).isLt⟩)]
  refine congrArg some (funext fun a => Fin.ext ?_)
  show (scatter_S4096x50x256_S1_S50x256_01_0_0_0.start j idx a
    + scatter_S4096x50x256_S1_S50x256_01_0_0_0.window j a).toNat = (row0 j a).val
  rw [hs a, Int.toNat_natCast]

end Lands

/-! ### The reference's one-hot stage at an index -/

section OneHot
variable {F : FTy → Type} [FloatOps F]
open Cert.ReferenceIdeal Cert.ReferenceIdeal.Read

/-- The index `(b, s)` of the codes under the index `(b, s, ch)` of the result. -/
abbrev bs (i : S4096x50x256.Idx) : S4096x50.Idx := fun a => match a with
  | ⟨0, _⟩ => ⟨(i 0).val, (i 0).isLt⟩
  | ⟨1, _⟩ => ⟨(i 1).val, (i 1).isLt⟩

/-- Comparing a 32-bit word for equality with the literal `n < 2 ^ 32` and widening the bit: the
    indicator of the word's unsigned value being `n` — for every word, whatever its sign bit. -/
theorem cmpi_eq_ofNat_setWidth (v : BitVec 32) (n : Nat) (hn : n < 2 ^ 32) :
    (IntOp.cmpi .eq v (BitVec.ofNat 32 n)).setWidth 32 = if v.toNat = n then 1#32 else 0#32 := by
  have hmod : (BitVec.ofNat 32 n).toNat = n := by
    rw [BitVec.toNat_ofNat]; exact Nat.mod_eq_of_lt hn
  show (BitVec.ofBool (v == BitVec.ofNat 32 n)).setWidth 32 = _
  by_cases h : v.toNat = n
  · have hv : v = BitVec.ofNat 32 n := BitVec.eq_of_toNat_eq (by rw [hmod]; exact h)
    rw [if_pos h, hv, beq_self_eq_true]
    rfl
  · have hv : (v == BitVec.ofNat 32 n) = false := by
      rw [beq_eq_false_iff_ne]
      intro e
      exact h (by rw [e]; exact hmod)
    rw [if_neg h, hv]
    rfl

/-- The reference's one-hot at `(b, s, ch)`: the indicator of `x (b, s) = ch`, the code read unsigned. -/
theorem ref_onehot_apply (x : (⟨S4096x50, .i32⟩ : BufTy).Contents (Elt F)) (i : S4096x50x256.Idx) :
    val_main_v0 (F := F) x i = if (x (bs i)).toNat = (i 2).val then 1#32 else 0#32 := by
  have hk : idx_main_call0_v0 (idx_main_call0_v2 i) = bs i := funext fun a => match a with
    | ⟨0, _⟩ => rfl
    | ⟨1, _⟩ => rfl
  have hlt : (i 2).val < 2 ^ 32 := lt_trans (show (i 2).val < 256 from (i 2).isLt) (by decide)
  rw [val_main_v0_apply, val_main_call0_v4_apply, val_main_call0_v2_apply, val_main_call0_v0_apply,
    val_main_call0_v3_apply, val_main_call0_v1_apply, hk]
  exact cmpi_eq_ofNat_setWidth _ _ hlt

/-- The update of the reference's scatter is all zeros. -/
theorem ref_update_apply (j : S50x256.Idx) : val_main_v2 (F := F) j = 0#32 := by
  rw [val_main_v2_apply, val_main_c_0_apply]

/-- The reference's single scatter index is zero. -/
theorem ref_index_apply (k : S1.Idx) : val_main_v1 (F := F) k = 0#32 := by
  rw [val_main_v1_apply, val_main_c_apply]

end OneHot

/-! ### The kernel's side at an index, and the two sides together -/

section Main
variable {F : FTy → Type} [FloatOps F]

/-- The index `(s, b, ch)` of the table under the index `(b, s, ch)` of the transposed result. -/
abbrev swap01 (i : Cert.KernelIdeal.S4096x50x256.Idx) : Cert.KernelIdeal.S50x4096x256.Idx := fun a => match a with
  | ⟨0, _⟩ => ⟨(i 1).val, (i 1).isLt⟩
  | ⟨1, _⟩ => ⟨(i 0).val, (i 0).isLt⟩
  | ⟨2, _⟩ => ⟨(i 2).val, (i 2).isLt⟩

/-- The kernel's result at `(b, s, ch)`: zero on batch row `0`, else the indicator of `x (b, s) = ch`. -/
theorem kernel_apply [Cert.KernelIdeal.Facts]
    (x : (⟨Cert.KernelIdeal.S4096x50, .i32⟩ : BufTy).Contents (Elt F)) (i : Cert.KernelIdeal.S4096x50x256.Idx) :
    (transpose Cert.KernelIdeal.S4096x50x256 [1, 0, 2]
        (Gt (transpose Cert.KernelIdeal.S50x4096 [1, 0] x Cert.KernelIdeal.Facts₀.transposes_S4096x50_S50x4096_1_0))
        Cert.KernelIdeal.Facts₀.transposes_S50x4096x256_S4096x50x256_1_0_2
      : (⟨Cert.KernelIdeal.S4096x50x256, .i32⟩ : BufTy).Contents (Elt F)) i
      = if (i 0).val = 0 then 0#32 else if (x (bs i)).toNat = (i 2).val then 1#32 else 0#32 := by
  rw [transpose_apply [1, 0, 2] _ Cert.KernelIdeal.Facts₀.transposes_S50x4096x256_S4096x50x256_1_0_2 i (swap01 i)
    (fun b => match b with
      | ⟨0, _⟩ => rfl
      | ⟨1, _⟩ => rfl
      | ⟨2, _⟩ => rfl)]
  unfold Gt
  rw [transpose_apply [1, 0] x Cert.KernelIdeal.Facts₀.transposes_S4096x50_S50x4096_1_0 (sb (swap01 i)) (bs i)
    (fun b => match b with
      | ⟨0, _⟩ => rfl
      | ⟨1, _⟩ => rfl)]

/-- The reference's result at `(b, s, ch)`: the scatter zeroes batch row `0` and leaves the one-hot elsewhere. -/
theorem ref_apply (x : (⟨Cert.ReferenceIdeal.S4096x50, .i32⟩ : BufTy).Contents (Elt F))
    (i : Cert.ReferenceIdeal.S4096x50x256.Idx) :
    Cert.ReferenceIdeal.Read.val_main_v3 (F := F) x i
      = if (i 0).val = 0 then 0#32 else if (x (bs i)).toNat = (i 2).val then 1#32 else 0#32 := by
  unfold Cert.ReferenceIdeal.Read.val_main_v3
  by_cases h0 : (i 0).val = 0
  · rw [if_pos h0]
    refine scatter_const_of_hit _ _ _ _ 0#32 ref_update_apply i
      (fun a => match a with
        | ⟨0, _⟩ => ⟨(i 1).val, (i 1).isLt⟩
        | ⟨1, _⟩ => ⟨(i 2).val, (i 2).isLt⟩) ?_
    rw [resultIdx?_eq _ ref_index_apply]
    refine congrArg some (funext fun a => Fin.ext ?_)
    match a with
    | ⟨0, _⟩ => exact h0.symm
    | ⟨1, _⟩ => rfl
    | ⟨2, _⟩ => rfl
  · rw [if_neg h0, scatter_const_of_miss _ _ _ _ 0#32 ref_update_apply i, ref_onehot_apply]
    intro j e
    rw [resultIdx?_eq _ ref_index_apply] at e
    exact h0 (by rw [← Option.some.inj e])

/-- The kernel's host transposes around the one-hot table compute what the reference computes. -/
theorem kernel_eq_ref [Cert.KernelIdeal.Facts] [Cert.ReferenceIdeal.Facts]
    (x : (⟨Cert.KernelIdeal.S4096x50, .i32⟩ : BufTy).Contents (Elt F)) :
    (transpose Cert.KernelIdeal.S4096x50x256 [1, 0, 2]
        (Cert.OneHot.Gt (transpose Cert.KernelIdeal.S50x4096 [1, 0] x Cert.KernelIdeal.Facts₀.transposes_S4096x50_S50x4096_1_0))
        Cert.KernelIdeal.Facts₀.transposes_S50x4096x256_S4096x50x256_1_0_2
      : (⟨Cert.KernelIdeal.S4096x50x256, .i32⟩ : BufTy).Contents (Elt F))
    = Cert.ReferenceIdeal.Read.val_main_v3 (F := F) x := by
  funext i
  rw [kernel_apply x i]
  exact (ref_apply x i).symm

end Main

end Cert.OneHot
end
-- ==== Proof.PreRange.lean ====
/-
  What the input-domain precondition says of each code.
  The precondition is `all ((x ≥ 0) ∧ (x ≤ 255))` over the `4096 × 50` array of 32-bit codes, the
  comparisons signed: an `and`-reduction over both axes of the elementwise conjunction, started at 1.
  If it comes out 1 then every element passed both comparisons, and a 32-bit word that is at least 0
  and at most 255 read as a signed integer is below 256 read as a natural number.
-/
import proofs.«204306_g82583631167916_cont_9to1c4b_486_26_alg».proof.Pre_input_domain
import proofs.«204306_g82583631167916_cont_9to1c4b_486_26_alg».proof.Proof.Gen.Pre_input_domain
import Idealize.ShloMosaic.Lib.ReduceAll

namespace Cert.PreRange

open Idealize.ShloMosaic Cert.Pre_input_domain

/-- The rank-zero shape has one index. -/
instance subsingleton_S_ : Subsingleton S_.Idx := ⟨fun _ _ => funext fun d => d.elim0⟩

/-- A 32-bit word between 0 and 255 as a signed integer is below 256 as a natural number: a word
    whose top bit is set reads negative, so the lower bound rules that case out, and otherwise the
    signed and the unsigned readings agree. -/
theorem toNat_lt_256_of_signed (w : BitVec 32) (h0 : (0#32).toInt ≤ w.toInt)
    (h1 : w.toInt ≤ (255#32).toInt) : w.toNat < 256 := by
  have e0 : (0#32).toInt = 0 := by decide
  have e255 : (255#32).toInt = 255 := by decide
  rw [e0] at h0
  rw [e255] at h1
  have hlt : w.toNat < 2 ^ 32 := w.isLt
  rw [BitVec.toInt_eq_toNat_cond] at h0 h1
  split at h0 <;> omega

/-- Under the input-domain precondition every code is below 256. The all-reduction being 1 gives
    the conjunction at each index; its two halves are the two signed comparisons against the
    constants 0 and 255. -/
theorem lt_256 {F : FTy → Type} [FloatOps F] [Cert.Pre_input_domain.Facts]
    (x : IVec Cert.Pre_input_domain.S4096x50 32)
    (h : Cert.Pre_input_domain.fn (F := F) x = (fun _ => 1#1)) :
    ∀ i : Cert.Pre_input_domain.S4096x50.Idx, (x i).toNat < 256 := by
  intro i
  have h0 := congrFun h (fun a => a.elim0)
  dsimp only [fn] at h0
  have hi := Host.reduce_andi_all _ _ _ _ _ h0 i
  have hi' : IntOp.andi (IntOp.cmpi .sge (x i) 0#32) (IntOp.cmpi .sle (x i) 255#32) = 1#1 := hi
  obtain ⟨h1, h2⟩ := IntOp.andi_eq_one.1 hi'
  exact toNat_lt_256_of_signed _ (IntOp.cmpi_sge.1 h1) (IntOp.cmpi_sle.1 h2)

end Cert.PreRange
-- ==== Proof.Claims.lean ====
/-
  The five claims of the certificate, from the runs of the three programs.
  The kernel's run, at either instance, ends with the argument as launched and the result at `RES m c`: the one-hot
  table of the transposed codes, batch row `0` zeroed, transposed back. The reference's run ends with its result at
  the term its operations compose. A frame drops the values. `algebraic` states both results as the ONE array
  `RES m c`: the reference's term is its last stage, and that stage is the kernel's array once the two memories
  agree on the argument (`Cert.OneHot.kernel_eq_ref`).
-/
import proofs.«204306_g82583631167916_cont_9to1c4b_486_26_alg».proof.Proof.Launch
import proofs.«204306_g82583631167916_cont_9to1c4b_486_26_alg».proof.Proof.LaunchB
import proofs.«204306_g82583631167916_cont_9to1c4b_486_26_alg».proof.Proof.RefValue
import proofs.«204306_g82583631167916_cont_9to1c4b_486_26_alg».proof.Proof.PreRange
import proofs.«204306_g82583631167916_cont_9to1c4b_486_26_alg».proof.Proof.Gen.ReferenceIdeal.Run
import proofs.«204306_g82583631167916_cont_9to1c4b_486_26_alg».proof.Proof.Gen.ReferenceIdeal.Read
import proofs.«204306_g82583631167916_cont_9to1c4b_486_26_alg».proof.Proof.Gen.Pre_input_domain

noncomputable section

namespace Cert.Proof.Claims

open Idealize.ShloMosaic Idealize.SL.Sem

/-- Under the input-domain precondition every code is below `256`: at the ideal instance, -/
theorem ok_KI (m : (ℓ : Loc Cert.KernelIdeal.nD Cert.KernelIdeal.τ Cert.KernelIdeal.sig) → Buf (Elt Ideal) ℓ) (h : Cert.Pre_KernelIdeal m) :
    Cert.Proof.KI.PreOK (F := Ideal) m :=
  fun d i => Cert.PreRange.lt_256 (F := Ideal) _ (h d) i

/-- and at the bit-exact one. -/
theorem ok_KB (m : (ℓ : Loc Cert.Kernel.nD Cert.Kernel.τ Cert.Kernel.sig) → Buf (Elt Bits) ℓ) (h : Cert.Pre_Kernel m) :
    Cert.Proof.KB.PreOK (F := Bits) m :=
  fun d i => Cert.PreRange.lt_256 (F := Bits) _ (h d) i

/-- The kernel as printed runs and leaves its argument as launched. -/
theorem frame_p : Cert.frame_Kernel := fun m ρ hpre =>
  (θ_run Cert.Kernel.defs _ _).mono (fun _ h c => (h c).2) (Cert.Proof.KB.run_main (F := Bits) m ρ (ok_KB m hpre))

/-- The same of its reading at the ideal instance, -/
theorem frame_pi : Cert.frame_KernelIdeal := fun m ρ hpre =>
  (θ_run Cert.KernelIdeal.defs _ _).mono (fun _ h c => (h c).2) (Cert.Proof.KI.run_main (F := Ideal) m ρ (ok_KI m hpre))

/-- and of the reference. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading is the program's own text: there is no rewritten operation to account for. -/
theorem preserves : Cert.preserves_Kernel_KernelIdeal := trivial

/-- Kernel and reference, from memories that agree on the argument, both end with the result `RES m c`. -/
theorem algebraic : Cert.algebraic_KernelIdeal_ReferenceIdeal := fun m ρ m' ρ' hpre hagree =>
  ⟨fun c => Cert.Proof.KI.RES m c,
    (θ_run Cert.KernelIdeal.defs _ _).mono (fun _ h c => h c) (Cert.Proof.KI.run_main (F := Ideal) m ρ (ok_KI m hpre)),
    (θ_run Cert.ReferenceIdeal.defs _ _).mono
      (fun _ h c => ⟨(h c).1.trans ((Cert.ReferenceIdeal.Read.val_main_v3_eq (F := Ideal) _).trans
          ((congrArg (Cert.ReferenceIdeal.Read.val_main_v3 (F := Ideal)) (hagree c)).trans
            (Cert.OneHot.kernel_eq_ref (F := Ideal) (m ((c.tc : Thread Cert.KernelIdeal.nD Cert.KernelIdeal.τ).loc Cert.KernelIdeal.main_arg0))).symm)),
        (h c).2⟩)
      (Cert.ReferenceIdeal.Value.run (F := Ideal) m' ρ')⟩

end Cert.Proof.Claims

end
-- ==== Proof.lean ====
/-
  The proof of `Cert.Claim`: a SparseCore one-hot kernel against `jax.nn.one_hot` with batch row 0 zeroed.

  The kernel transposes the codes `x : [4096, 50]` (each in `0 … 255`) on the host, runs thirty-two workers (two
  SparseCores of sixteen vector subcores), and transposes their table back. Worker `w` owns batch rows
  `[128 w, 128 w + 128)`: it loads its 128 columns of the transposed codes, zero-fills two `[128, 256]` staging
  buffers, and for each sequence position `s` scatters ones at `(b, x (b, s))` into a staging buffer (skipping
  batch row `0` on worker `0`), copies the buffer to slab `s` of the table, and — two positions later, after
  waiting for that copy — scatters zeros at the same elements to reuse the buffer. The two buffers alternate, one
  copy in flight on each. Hence slab `s` ends at the indicator of `x (b, s) = ch`, zero at `b = 0`, which is the
  reference's `one_hot (x)` with its row `0` overwritten by zeros (`Cert.OneHot.kernel_eq_ref`).

  Modules: `Spec`, `Idx` (the table, the index bookkeeping); `RefValue` (the reference is the table, transposed);
  `LibStoreIdx`, `Scatter`, `ZeroFill` (what the scatters and the zero fill leave); `Setup`, `TileOps`, `Slabs`,
  `Body`, `Tile` (one worker, in the program logic); `Launch` (all threads and the host operations); `Claims`.
  The modules with a name ending in `B` are the same text over the program as printed at the bit-exact instance.
-/
import proofs.«204306_g82583631167916_cont_9to1c4b_486_26_alg».proof.Defs
import proofs.«204306_g82583631167916_cont_9to1c4b_486_26_alg».proof.Proof.Gen.Kernel
import proofs.«204306_g82583631167916_cont_9to1c4b_486_26_alg».proof.Proof.Gen.Kernel.Skeleton
import proofs.«204306_g82583631167916_cont_9to1c4b_486_26_alg».proof.Proof.Gen.KernelIdeal
import proofs.«204306_g82583631167916_cont_9to1c4b_486_26_alg».proof.Proof.Gen.KernelIdeal.Skeleton
import proofs.«204306_g82583631167916_cont_9to1c4b_486_26_alg».proof.Proof.Gen.ReferenceIdeal
import proofs.«204306_g82583631167916_cont_9to1c4b_486_26_alg».proof.Proof.Gen.Pre_input_domain
import proofs.«204306_g82583631167916_cont_9to1c4b_486_26_alg».proof.Proof.Gen.ReferenceIdeal.Run
import proofs.«204306_g82583631167916_cont_9to1c4b_486_26_alg».proof.Proof.Gen.ReferenceIdeal.Read
import proofs.«204306_g82583631167916_cont_9to1c4b_486_26_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_input_domain.Gen.facts,
    Cert.Proof.Claims.frame_p, Cert.Proof.Claims.frame_pi, Cert.Proof.Claims.frame_ri, Cert.Proof.Claims.preserves,
    Cert.Proof.Claims.algebraic⟩

end Cert.Proof

end
